-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384 : Shape := ⟨2, ![1, 16384]⟩
abbrev S1x524288 : Shape := ⟨2, ![1, 524288]⟩
abbrev S8192x8192 : Shape := ⟨2, ![8192, 8192]⟩
abbrev S198x128 : Shape := ⟨2, ![198, 128]⟩
abbrev S128 : Shape := ⟨1, ![128]⟩
abbrev S198x64 : Shape := ⟨2, ![198, 64]⟩
abbrev S64 : Shape := ⟨1, ![64]⟩
abbrev S8192 : Shape := ⟨1, ![8192]⟩
abbrev S_ : Shape := ⟨0, ![]⟩

class Facts : Prop where
  bcast_S_S1x16384 : S_.BroadcastsInDim S1x16384 (![] : Fin 0 → Fin S1x16384.rank)
  reducesTo_S1x16384_S_d0_1 : S1x16384.ReducesTo [0, 1] S_
  h_S_ : 0 < S_.numel
  bcast_S_S1x524288 : S_.BroadcastsInDim S1x524288 (![] : Fin 0 → Fin S1x524288.rank)
  reducesTo_S1x524288_S_d0_1 : S1x524288.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S198x128 : S_.BroadcastsInDim S198x128 (![] : Fin 0 → Fin S198x128.rank)
  reducesTo_S198x128_S_d0_1 : S198x128.ReducesTo [0, 1] S_
  bcast_S_S128 : S_.BroadcastsInDim S128 (![] : Fin 0 → Fin S128.rank)
  reducesTo_S128_S_d0 : S128.ReducesTo [0] S_
  bcast_S_S198x64 : S_.BroadcastsInDim S198x64 (![] : Fin 0 → Fin S198x64.rank)
  reducesTo_S198x64_S_d0_1 : S198x64.ReducesTo [0, 1] S_
  bcast_S_S64 : S_.BroadcastsInDim S64 (![] : Fin 0 → Fin S64.rank)
  reducesTo_S64_S_d0 : S64.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part2 {F : FTy → Type} [FloatOps F] (main_arg2 : FVec F S8192x8192 .f32) (main_v33 : IVec S_ 1) : IVec S_ 1 :=
  let main_v34 : IVec S8192x8192 32 := iotaInDim S8192x8192 32 0
  let main_v35 : IVec S8192x8192 32 := iotaInDim S8192x8192 32 1
  let main_c_12 : IVec S_ 32 := constantI S_ 32 0#32
  let main_v36 : IVec S8192x8192 32 := broadcastInDim S8192x8192 ![] bcast_S_S8192x8192 main_c_12
  let main_v37 : IVec S8192x8192 32 := addi main_v34 main_v36
  let main_v38 : IVec S8192x8192 1 := cmpi .eq main_v37 main_v35
  let main_v39 : FVec F S8192x8192 .f32 := uitofp .f32 main_v38
  let main_v40 : FVec F S8192x8192 .f32 := addf main_arg2 main_v39
  let main_cst_13 : FVec F S_ .f32 := constant S_ .f32 0x00000000#32
  let main_v41 : FVec F S8192 .f32 := (fun x v => Host.reduceAdd x v reducesTo_S8192x8192_S8192_d1 h_S_) main_v40 main_cst_13
  let main_cst_14 : FVec F S_ .f32 := constant S_ .f32 0x00000000#32
  let main_v42 : FVec F S8192 .f32 := broadcastInDim S8192 ![] bcast_S_S8192 main_cst_14
  let main_v43 : IVec S8192 1 := cmpf .une main_v41 main_v42
  let main_c_15 : IVec S_ 1 := constantI S_ 1 1#1
  let main_v44 : IVec S_ 1 := (fun x v => Host.reduce IntOp.andi x v reducesTo_S8192_S_d0 h_S_) main_v43 main_c_15
  let main_v45 : IVec S_ 1 := andi main_v33 main_v44
  main_v45

def fn_part1 {F : FTy → Type} [FloatOps F] (main_arg2 : FVec F S8192x8192 .f32) (main_arg4 : FVec F S128 .f32) (main_arg5 : FVec F S198x64 .f32) (main_arg6 : FVec F S64 .f32) (main_v13 : IVec S_ 1) (main_v16 : IVec S198x128 1) : IVec S_ 1 :=
  let main_c_5 : IVec S_ 1 := constantI S_ 1 1#1
  let main_v17 : IVec S_ 1 := (fun x v => Host.reduce IntOp.andi x v reducesTo_S198x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S198x64 .f32 := Host.absf main_arg5
  let main_cst_8 : FVec F S_ .f32 := constant S_ .f32 0x7F800000#32
  let main_v25 : FVec F S198x64 .f32 := broadcastInDim S198x64 ![] bcast_S_S198x64 main_cst_8
  let main_v26 : IVec S198x64 1 := cmpf .olt main_v24 main_v25
  let main_c_9 : IVec S_ 1 := constantI S_ 1 1#1
  let main_v27 : IVec S_ 1 := (fun x v => Host.reduce IntOp.andi x v reducesTo_S198x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_v33

def fn {F : FTy → Type} [FloatOps F] (main_arg0 : FVec F S1x16384 .f32) (main_arg1 : FVec F S1x524288 .f32) (main_arg2 : FVec F S8192x8192 .f32) (main_arg3 : FVec F S198x128 .f32) (main_arg4 : FVec F S128 .f32) (main_arg5 : FVec F S198x64 .f32) (main_arg6 : FVec F S64 .f32) (main_arg7 : IVec S8192 32) : IVec S_ 1 :=
  let main_v0 : FVec F S1x16384 .f32 := Host.absf main_arg0
  let main_cst : FVec F S_ .f32 := constant S_ .f32 0x7F800000#32
  let main_v1 : FVec F S1x16384 .f32 := broadcastInDim S1x16384 ![] bcast_S_S1x16384 main_cst
  let main_v2 : IVec S1x16384 1 := cmpf .olt main_v0 main_v1
  let main_c : IVec S_ 1 := constantI S_ 1 1#1
  let main_v3 : IVec S_ 1 := (fun x v => Host.reduce IntOp.andi x v reducesTo_S1x16384_S_d0_1 h_S_) main_v2 main_c
  let main_v4 : FVec F S1x524288 .f32 := Host.absf main_arg1
  let main_cst_0 : FVec F S_ .f32 := constant S_ .f32 0x7F800000#32
  let main_v5 : FVec F S1x524288 .f32 := broadcastInDim S1x524288 ![] bcast_S_S1x524288 main_cst_0
  let main_v6 : IVec S1x524288 1 := cmpf .olt main_v4 main_v5
  let main_c_1 : IVec S_ 1 := constantI S_ 1 1#1
  let main_v7 : IVec S_ 1 := (fun x v => Host.reduce IntOp.andi x v reducesTo_S1x524288_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S198x128 .f32 := Host.absf main_arg3
  let main_cst_4 : FVec F S_ .f32 := constant S_ .f32 0x7F800000#32
  let main_v15 : FVec F S198x128 .f32 := broadcastInDim S198x128 ![] bcast_S_S198x128 main_cst_4
  let main_v16 : IVec S198x128 1 := cmpf .olt main_v14 main_v15
  fn_part1 (F := F) main_arg2 main_arg4 main_arg5 main_arg6 main_v13 main_v16
-- ==== Kernel.lean ====
abbrev S1x16384 : Shape := ⟨2, ![1, 16384]⟩
abbrev S1x524288 : Shape := ⟨2, ![1, 524288]⟩
abbrev S8192x8192 : Shape := ⟨2, ![8192, 8192]⟩
abbrev S198x128 : Shape := ⟨2, ![198, 128]⟩
abbrev S128 : Shape := ⟨1, ![128]⟩
abbrev S198x64 : Shape := ⟨2, ![198, 64]⟩
abbrev S64 : Shape := ⟨1, ![64]⟩
abbrev S8192 : Shape := ⟨1, ![8192]⟩
abbrev S8192x2 : Shape := ⟨2, ![8192, 2]⟩
abbrev S8192x64 : Shape := ⟨2, ![8192, 64]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S8192x66 : Shape := ⟨2, ![8192, 66]⟩
abbrev S256x8192 : Shape := ⟨2, ![256, 8192]⟩
abbrev S256x66 : Shape := ⟨2, ![256, 66]⟩
abbrev S_ : Shape := ⟨0, ![]⟩
abbrev S8192x66x1 : Shape := ⟨3, ![8192, 66, 1]⟩
abbrev S8192x66x3 : Shape := ⟨3, ![8192, 66, 3]⟩
abbrev S8192x198 : Shape := ⟨2, ![8192, 198]⟩
abbrev S8192x128 : Shape := ⟨2, ![8192, 128]⟩
abbrev S1x128 : Shape := ⟨2, ![1, 128]⟩
abbrev S1x64 : Shape := ⟨2, ![1, 64]⟩

abbrev nBuf : Space → Nat
  | .hbm => 70
  | .vmem => 24
  | .smem => 0
  | _ => 0

abbrev bufTy : (tb : Table) → Fin (tcTables nBuf tb) → BufTy
  | .hbm, ⟨0, _⟩ => ⟨S1x16384, .f32⟩
  | .hbm, ⟨1, _⟩ => ⟨S1x524288, .f32⟩
  | .hbm, ⟨2, _⟩ => ⟨S8192x8192, .f32⟩
  | .hbm, ⟨3, _⟩ => ⟨S198x128, .f32⟩
  | .hbm, ⟨4, _⟩ => ⟨S128, .f32⟩
  | .hbm, ⟨5, _⟩ => ⟨S198x64, .f32⟩
  | .hbm, ⟨6, _⟩ => ⟨S64, .f32⟩
  | .hbm, ⟨7, _⟩ => ⟨S8192, .i32⟩
  | .hbm, ⟨8, _⟩ => ⟨S8192x2, .f32⟩
  | .hbm, ⟨9, _⟩ => ⟨S8192x64, .f32⟩
  | .hbm, ⟨10, _⟩ => ⟨S8192x1, .f32⟩
  | .hbm, ⟨11, _⟩ => ⟨S8192x66, .f32⟩
  | .hbm, ⟨12, _⟩ => ⟨S8192x66, .f32⟩
  | .hbm, ⟨13, _⟩ => ⟨S8192x66, .f32⟩
  | .hbm, ⟨14, _⟩ => ⟨S8192x66, .f32⟩
  | .hbm, ⟨15, _⟩ => ⟨S8192x66, .f32⟩
  | .hbm, ⟨16, _⟩ => ⟨S8192x66, .f32⟩
  | .hbm, ⟨17, _⟩ => ⟨S8192x66, .f32⟩
  | .hbm, ⟨18, _⟩ => ⟨S_, .f32⟩
  | .hbm, ⟨19, _⟩ => ⟨S8192x66, .f32⟩
  | .hbm, ⟨20, _⟩ => ⟨S8192x66, .f32⟩
  | .hbm, ⟨21, _⟩ => ⟨S8192x66, .f32⟩
  | .hbm, ⟨22, _⟩ => ⟨S8192x66x1, .f32⟩
  | .hbm, ⟨23, _⟩ => ⟨S8192x66x1, .f32⟩
  | .hbm, ⟨24, _⟩ => ⟨S8192x66x1, .f32⟩
  | .hbm, ⟨25, _⟩ => ⟨S8192x66x3, .f32⟩
  | .hbm, ⟨26, _⟩ => ⟨S8192x198, .f32⟩
  | .hbm, ⟨27, _⟩ => ⟨S8192x128, .f32⟩
  | .hbm, ⟨28, _⟩ => ⟨S1x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S8192x128, .f32⟩
  | .hbm, ⟨35, _⟩ => ⟨S8192x128, .f32⟩
  | .hbm, ⟨36, _⟩ => ⟨S_, .f32⟩
  | .hbm, ⟨37, _⟩ => ⟨S8192x128, .f32⟩
  | .hbm, ⟨38, _⟩ => ⟨S8192x128, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S8192x66, .f32⟩
  | .hbm, ⟨43, _⟩ => ⟨S8192x66, .f32⟩
  | .hbm, ⟨44, _⟩ => ⟨S8192x66, .f32⟩
  | .hbm, ⟨45, _⟩ => ⟨S8192x66, .f32⟩
  | .hbm, ⟨46, _⟩ => ⟨S8192x66, .f32⟩
  | .hbm, ⟨47, _⟩ => ⟨S8192x66, .f32⟩
  | .hbm, ⟨48, _⟩ => ⟨S8192x66, .f32⟩
  | .hbm, ⟨49, _⟩ => ⟨S_, .f32⟩
  | .hbm, ⟨50, _⟩ => ⟨S8192x66, .f32⟩
  | .hbm, ⟨51, _⟩ => ⟨S8192x66, .f32⟩
  | .hbm, ⟨52, _⟩ => ⟨S8192x66, .f32⟩
  | .hbm, ⟨53, _⟩ => ⟨S8192x66x1, .f32⟩
  | .hbm, ⟨54, _⟩ => ⟨S8192x66x1, .f32⟩
  | .hbm, ⟨55, _⟩ => ⟨S8192x66x1, .f32⟩
  | .hbm, ⟨56, _⟩ => ⟨S8192x66x3, .f32⟩
  | .hbm, ⟨57, _⟩ => ⟨S8192x198, .f32⟩
  | .hbm, ⟨58, _⟩ => ⟨S8192x64, .f32⟩
  | .hbm, ⟨59, _⟩ => ⟨S1x64, .f32⟩
  | .hbm, ⟨60, _⟩ => ⟨S8192x64, .f32⟩
  | .hbm, ⟨61, _⟩ => ⟨S8192x64, .f32⟩
  | .hbm, ⟨62, _⟩ => ⟨S8192x64, .f32⟩
  | .hbm, ⟨63, _⟩ => ⟨S8192x64, .f32⟩
  | .hbm, ⟨64, _⟩ => ⟨S_, .f32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S8192x64, .f32⟩
  | .hbm, ⟨69, _⟩ => ⟨S1x524288, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S256x8192, .f32⟩
  | .local _ .vmem, ⟨5, _⟩ => ⟨S256x8192, .f32⟩
  | .local _ .vmem, ⟨6, _⟩ => ⟨S8192x66, .f32⟩
  | .local _ .vmem, ⟨7, _⟩ => ⟨S8192x66, .f32⟩
  | .local _ .vmem, ⟨8, _⟩ => ⟨S8192x66, .f32⟩
  | .local _ .vmem, ⟨9, _⟩ => ⟨S256x8192, .f32⟩
  | .local _ .vmem, ⟨10, _⟩ => ⟨S256x8192, .f32⟩
  | .local _ .vmem, ⟨11, _⟩ => ⟨S8192x66, .f32⟩
  | .local _ .vmem, ⟨12, _⟩ => ⟨S8192x66, .f32⟩
  | .local _ .vmem, ⟨13, _⟩ => ⟨S8192x66, .f32⟩
  | .local _ .vmem, ⟨14, _⟩ => ⟨S256x8192, .f32⟩
  | .local _ .vmem, ⟨15, _⟩ => ⟨S256x8192, .f32⟩
  | .local _ .vmem, ⟨16, _⟩ => ⟨S8192x66, .f32⟩
  | .local _ .vmem, ⟨17, _⟩ => ⟨S8192x66, .f32⟩
  | .local _ .vmem, ⟨18, _⟩ => ⟨S8192x66, .f32⟩
  | .local _ .vmem, ⟨19, _⟩ => ⟨S256x8192, .f32⟩
  | .local _ .vmem, ⟨20, _⟩ => ⟨S256x8192, .f32⟩
  | .local _ .vmem, ⟨21, _⟩ => ⟨S8192x66, .f32⟩
  | .local _ .vmem, ⟨22, _⟩ => ⟨S8192x66, .f32⟩
  | .local _ .vmem, ⟨23, _⟩ => ⟨S8192x66, .f32⟩
  | _, _ => ⟨S1x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_3 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_scratch0 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_scratch0 : Ref sig .tc := ⟨.vmem, 18, rfl⟩
abbrev cc4_stg0_0 : Ref sig .tc := ⟨.vmem, 19, rfl⟩
abbrev cc4_stg0_1 : Ref sig .tc := ⟨.vmem, 20, rfl⟩
abbrev cc4_stg1_0 : Ref sig .tc := ⟨.vmem, 21, rfl⟩
abbrev cc4_stg2_0 : Ref sig .tc := ⟨.vmem, 22, rfl⟩
abbrev cc4_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc3_sem0_0 : DmaSem sig := 12
abbrev cc3_sem0_1 : DmaSem sig := 13
abbrev cc3_sem1_0 : DmaSem sig := 14
abbrev cc3_sem2_0 : DmaSem sig := 15
abbrev cc4_sem0_0 : DmaSem sig := 16
abbrev cc4_sem0_1 : DmaSem sig := 17
abbrev cc4_sem1_0 : DmaSem sig := 18
abbrev cc4_sem2_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c256_i32 : BitVec 32 := 256#32
  let v3 : BitVec 32 := Scalar.muli arg0 c256_i32
  v3
def k1_off1 (i : grid1.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v7 : Index := Scalar.indexCast v4
  let c0_2 : Index := 0#32
  ![v7.toNat, 0]
def k1_cond2 (i : grid1.Coords) : BitVec 1 :=
  let arg0 : BitVec 32 := BitVec.ofNat 32 (i 0).val
  let c31_i32 : BitVec 32 := 31#32
  let v17 : BitVec 1 := Scalar.cmpi .eq arg0 c31_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x66 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x66 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![32], ![false]⟩

def k2_mult1 (i : grid2.Coords) : BitVec 32 :=
  let arg0 : BitVec 32 := BitVec.ofNat 32 (i 0).val
  let c256_i32 : BitVec 32 := 256#32
  let v3 : BitVec 32 := Scalar.muli arg0 c256_i32
  v3
def k2_off1 (i : grid2.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v7 : Index := Scalar.indexCast v4
  let c0_2 : Index := 0#32
  ![v7.toNat, 0]
def k2_cond2 (i : grid2.Coords) : BitVec 1 :=
  let arg0 : BitVec 32 := BitVec.ofNat 32 (i 0).val
  let c31_i32 : BitVec 32 := 31#32
  let v17 : BitVec 1 := Scalar.cmpi .eq arg0 c31_i32
  let v18 : BitVec 32 := Scalar.extui v17
  let c0_i32_7 : BitVec 32 := 0#32
  let v19 : BitVec 1 := Scalar.cmpi .ne v18 c0_i32_7
  v19

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x66 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8192x66 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![32], ![false]⟩

def k3_mult1 (i : grid3.Coords) : BitVec 32 :=
  let arg0 : BitVec 32 := BitVec.ofNat 32 (i 0).val
  let c256_i32 : BitVec 32 := 256#32
  let v3 : BitVec 32 := Scalar.muli arg0 c256_i32
  v3
def k3_off1 (i : grid3.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v7 : Index := Scalar.indexCast v4
  let c0_2 : Index := 0#32
  ![v7.toNat, 0]
def k3_cond2 (i : grid3.Coords) : BitVec 1 :=
  let arg0 : BitVec 32 := BitVec.ofNat 32 (i 0).val
  let c31_i32 : BitVec 32 := 31#32
  let v17 : BitVec 1 := Scalar.cmpi .eq arg0 c31_i32
  let v18 : BitVec 32 := Scalar.extui v17
  let c0_i32_7 : BitVec 32 := 0#32
  let v19 : BitVec 1 := Scalar.cmpi .ne v18 c0_i32_7
  v19

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x66 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8192x66 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![32], ![false]⟩

def k4_mult1 (i : grid4.Coords) : BitVec 32 :=
  let arg0 : BitVec 32 := BitVec.ofNat 32 (i 0).val
  let c256_i32 : BitVec 32 := 256#32
  let v3 : BitVec 32 := Scalar.muli arg0 c256_i32
  v3
def k4_off1 (i : grid4.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v7 : Index := Scalar.indexCast v4
  let c0_2 : Index := 0#32
  ![v7.toNat, 0]
def k4_cond2 (i : grid4.Coords) : BitVec 1 :=
  let arg0 : BitVec 32 := BitVec.ofNat 32 (i 0).val
  let c31_i32 : BitVec 32 := 31#32
  let v17 : BitVec 1 := Scalar.cmpi .eq arg0 c31_i32
  let v18 : BitVec 32 := Scalar.extui v17
  let c0_i32_7 : BitVec 32 := 0#32
  let v19 : BitVec 1 := Scalar.cmpi .ne v18 c0_i32_7
  v19

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x8192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x66 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8192x66 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  shapeCasts_S1x16384_S8192x2 : S1x16384.ShapeCasts S8192x2
  shapeCasts_S1x524288_S8192x64 : S1x524288.ShapeCasts S8192x64
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  concatenates_S8192x2_S8192x64_S8192x66_d1 : Shape.Concatenates [S8192x2, S8192x64] S8192x66 1
  bcast_S8192x1_S8192x66_0_1 : S8192x1.BroadcastsInDim S8192x66 (![0, 1] : Fin 2 → Fin S8192x66.rank)
  inb_S8192x66_S8192x66_0_0 : ∀ a, (![0, 0] : Fin 2 → Nat) a + S8192x66.size a ≤ S8192x66.size a
  h_S8192x66 : 0 < S8192x66.numel
  shapeCasts_S8192x66_S8192x66 : S8192x66.ShapeCasts S8192x66
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  h_S256x66 : 0 < S256x66.numel
  shapeCasts_S256x66_S256x66 : S256x66.ShapeCasts S256x66
  bcast_S_S8192x66 : S_.BroadcastsInDim S8192x66 (![] : Fin 0 → Fin S8192x66.rank)
  bcast_S8192x66_S8192x66x1_0_1 : S8192x66.BroadcastsInDim S8192x66x1 (![0, 1] : Fin 2 → Fin S8192x66x1.rank)
  concatenates_S8192x66x1_S8192x66x1_S8192x66x1_S8192x66x3_d2 : Shape.Concatenates [S8192x66x1, S8192x66x1, S8192x66x1] S8192x66x3 2
  shapeCasts_S8192x66x3_S8192x198 : S8192x66x3.ShapeCasts S8192x198
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  slices_S8192x128_S8192x64_0_0 : S8192x128.Slices ![0, 0] S8192x64
  slices_S8192x128_S8192x64_0_64 : S8192x128.Slices ![0, 64] S8192x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  shapeCasts_S8192x64_S1x524288 : S8192x64.ShapeCasts S1x524288
  dot_S256x8192_S256x66_S8192x66_0_0_1_1_n_n_wf : DotDims.WF S256x8192 S256x66 S8192x66 [0] [0] [1] [1] [] []
  dot_S8192x198_S198x128_S8192x128_1_0_0_1_n_n_wf : DotDims.WF S8192x198 S198x128 S8192x128 [1] [0] [0] [1] [] []
  dot_S8192x198_S198x64_S8192x64_1_0_0_1_n_n_wf : DotDims.WF S8192x198 S198x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x66.size a ≤ S8192x66.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x66.size a ≤ S8192x66.size a
  hwx1_1 : ∀ i : grid1.Coords, EltTy.bits .f32 = 32 ∨ (Rect.block (s := S8192x66) S8192x66.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x66.size a ≤ S8192x66.size a
  hwx1_2 : ∀ i : grid1.Coords, EltTy.bits .f32 = 32 ∨ (Rect.block (s := S8192x66) S8192x66.size (cc1_transform_2 i) (hinb1_2 i)).WholeWords (EltTy.packing .f32)
  hrank2 : 0 < grid2.rank
  k2_mult1_dvd : ∀ i : grid2.Coords, 256 ∣ (k2_mult1 i).toNat
  k2_off1_inb : ∀ i : grid2.Coords, ∀ a, (k2_off1 i) a + S256x66.size a ≤ S8192x66.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .f32 = 32 ∨ (Rect.block (s := S8192x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x66.size a ≤ S8192x66.size a
  hwx2_1 : ∀ i : grid2.Coords, EltTy.bits .f32 = 32 ∨ (Rect.block (s := S8192x66) S8192x66.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x66.size a ≤ S8192x66.size a
  hwx2_2 : ∀ i : grid2.Coords, EltTy.bits .f32 = 32 ∨ (Rect.block (s := S8192x66) S8192x66.size (cc2_transform_2 i) (hinb2_2 i)).WholeWords (EltTy.packing .f32)
  hrank3 : 0 < grid3.rank
  k3_mult1_dvd : ∀ i : grid3.Coords, 256 ∣ (k3_mult1 i).toNat
  k3_off1_inb : ∀ i : grid3.Coords, ∀ a, (k3_off1 i) a + S256x66.size a ≤ S8192x66.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x8192.size a ≤ S8192x8192.size a
  hwx3_0 : ∀ i : grid3.Coords, EltTy.bits .f32 = 32 ∨ (Rect.block (s := S8192x8192) S256x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x66.size a ≤ S8192x66.size a
  hwx3_1 : ∀ i : grid3.Coords, EltTy.bits .f32 = 32 ∨ (Rect.block (s := S8192x66) S8192x66.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8192x66.size a ≤ S8192x66.size a
  hwx3_2 : ∀ i : grid3.Coords, EltTy.bits .f32 = 32 ∨ (Rect.block (s := S8192x66) S8192x66.size (cc3_transform_2 i) (hinb3_2 i)).WholeWords (EltTy.packing .f32)
  hrank4 : 0 < grid4.rank
  k4_mult1_dvd : ∀ i : grid4.Coords, 256 ∣ (k4_mult1 i).toNat
  k4_off1_inb : ∀ i : grid4.Coords, ∀ a, (k4_off1 i) a + S256x66.size a ≤ S8192x66.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x8192.size a ≤ S8192x8192.size a
  hwx4_0 : ∀ i : grid4.Coords, EltTy.bits .f32 = 32 ∨ (Rect.block (s := S8192x8192) S256x8192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x66.size a ≤ S8192x66.size a
  hwx4_1 : ∀ i : grid4.Coords, EltTy.bits .f32 = 32 ∨ (Rect.block (s := S8192x66) S8192x66.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S8192x66.size a ≤ S8192x66.size a
  hwx4_2 : ∀ i : grid4.Coords, EltTy.bits .f32 = 32 ∨ (Rect.block (s := S8192x66) S8192x66.size (cc4_transform_2 i) (hinb4_2 i)).WholeWords (EltTy.packing .f32)

variable [Facts₀]

def dot_S256x8192_S256x66_S8192x66_0_0_1_1_n_n : DotDims S256x8192 S256x66 S8192x66 where
  lhsContracting := [0]
  rhsContracting := [0]
  lhsNonContracting := [1]
  rhsNonContracting := [1]
  lhsBatch := []
  rhsBatch := []
  wf := dot_S256x8192_S256x66_S8192x66_0_0_1_1_n_n_wf
def dot_S8192x198_S198x128_S8192x128_1_0_0_1_n_n : DotDims S8192x198 S198x128 S8192x128 where
  lhsContracting := [1]
  rhsContracting := [0]
  lhsNonContracting := [0]
  rhsNonContracting := [1]
  lhsBatch := []
  rhsBatch := []
  wf := dot_S8192x198_S198x128_S8192x128_1_0_0_1_n_n_wf
def dot_S8192x198_S198x64_S8192x64_1_0_0_1_n_n : DotDims S8192x198 S198x64 S8192x64 where
  lhsContracting := [1]
  rhsContracting := [0]
  lhsNonContracting := [0]
  rhsNonContracting := [1]
  lhsBatch := []
  rhsBatch := []
  wf := dot_S8192x198_S198x64_S8192x64_1_0_0_1_n_n_wf

abbrev win0_0 : Pipeline.Window sig grid0 :=
  Pipeline.Window.ofSpec (Memref.whole main_arg2) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg2) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8192x66.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S8192x66.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg2) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S8192x66.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S8192x66.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg2) S256x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S8192x66.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S8192x66.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_arg2) S256x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S8192x66.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v37) S8192x66.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S1x16384 : Shape := ⟨2, ![1, 16384]⟩
abbrev S1x524288 : Shape := ⟨2, ![1, 524288]⟩
abbrev S8192x8192 : Shape := ⟨2, ![8192, 8192]⟩
abbrev S198x128 : Shape := ⟨2, ![198, 128]⟩
abbrev S128 : Shape := ⟨1, ![128]⟩
abbrev S198x64 : Shape := ⟨2, ![198, 64]⟩
abbrev S64 : Shape := ⟨1, ![64]⟩
abbrev S8192 : Shape := ⟨1, ![8192]⟩
abbrev S_ : Shape := ⟨0, ![]⟩
abbrev S8192x1 : Shape := ⟨2, ![8192, 1]⟩
abbrev S1x8192x2 : Shape := ⟨3, ![1, 8192, 2]⟩
abbrev S1x8192x64 : Shape := ⟨3, ![1, 8192, 64]⟩
abbrev S1x8192x66 : Shape := ⟨3, ![1, 8192, 66]⟩
abbrev S8192x66x1 : Shape := ⟨3, ![8192, 66, 1]⟩
abbrev S8192x66 : Shape := ⟨2, ![8192, 66]⟩
abbrev S3x8192x66 : Shape := ⟨3, ![3, 8192, 66]⟩
abbrev S3x8192x66x1 : Shape := ⟨4, ![3, 8192, 66, 1]⟩
abbrev S1x8192x66x3 : Shape := ⟨4, ![1, 8192, 66, 3]⟩
abbrev S8192x198 : Shape := ⟨2, ![8192, 198]⟩
abbrev S8192x128 : Shape := ⟨2, ![8192, 128]⟩
abbrev S1x128 : Shape := ⟨2, ![1, 128]⟩
abbrev S1x1048576 : Shape := ⟨2, ![1, 1048576]⟩
abbrev S1x8192x128 : Shape := ⟨3, ![1, 8192, 128]⟩
abbrev S8192x64 : Shape := ⟨2, ![8192, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S1x16384, .f32⟩
  | .hbm, ⟨1, _⟩ => ⟨S1x524288, .f32⟩
  | .hbm, ⟨2, _⟩ => ⟨S8192x8192, .f32⟩
  | .hbm, ⟨3, _⟩ => ⟨S198x128, .f32⟩
  | .hbm, ⟨4, _⟩ => ⟨S128, .f32⟩
  | .hbm, ⟨5, _⟩ => ⟨S198x64, .f32⟩
  | .hbm, ⟨6, _⟩ => ⟨S64, .f32⟩
  | .hbm, ⟨7, _⟩ => ⟨S8192, .i32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S1x8192x2, .f32⟩
  | .hbm, ⟨26, _⟩ => ⟨S1x8192x64, .f32⟩
  | .hbm, ⟨27, _⟩ => ⟨S1x8192x66, .f32⟩
  | .hbm, ⟨28, _⟩ => ⟨S8192x66x1, .f32⟩
  | .hbm, ⟨29, _⟩ => ⟨S8192x66, .f32⟩
  | .hbm, ⟨30, _⟩ => ⟨S8192x66, .f32⟩
  | .hbm, ⟨31, _⟩ => ⟨S8192x66, .f32⟩
  | .hbm, ⟨32, _⟩ => ⟨S_, .f32⟩
  | .hbm, ⟨33, _⟩ => ⟨S8192x66, .f32⟩
  | .hbm, ⟨34, _⟩ => ⟨S8192x66, .f32⟩
  | .hbm, ⟨35, _⟩ => ⟨S8192x66, .f32⟩
  | .hbm, ⟨36, _⟩ => ⟨S1x8192x66, .f32⟩
  | .hbm, ⟨37, _⟩ => ⟨S1x8192x66, .f32⟩
  | .hbm, ⟨38, _⟩ => ⟨S1x8192x66, .f32⟩
  | .hbm, ⟨39, _⟩ => ⟨S3x8192x66, .f32⟩
  | .hbm, ⟨40, _⟩ => ⟨S3x8192x66x1, .f32⟩
  | .hbm, ⟨41, _⟩ => ⟨S1x8192x66x3, .f32⟩
  | .hbm, ⟨42, _⟩ => ⟨S8192x198, .f32⟩
  | .hbm, ⟨43, _⟩ => ⟨S8192x128, .f32⟩
  | .hbm, ⟨44, _⟩ => ⟨S1x128, .f32⟩
  | .hbm, ⟨45, _⟩ => ⟨S8192x128, .f32⟩
  | .hbm, ⟨46, _⟩ => ⟨S8192x128, .f32⟩
  | .hbm, ⟨47, _⟩ => ⟨S1x1048576, .f32⟩
  | .hbm, ⟨48, _⟩ => ⟨S1x1048576, .f32⟩
  | .hbm, ⟨49, _⟩ => ⟨S1x1048576, .f32⟩
  | .hbm, ⟨50, _⟩ => ⟨S_, .f32⟩
  | .hbm, ⟨51, _⟩ => ⟨S1x1048576, .f32⟩
  | .hbm, ⟨52, _⟩ => ⟨S1x1048576, .f32⟩
  | .hbm, ⟨53, _⟩ => ⟨S_, .f32⟩
  | .hbm, ⟨54, _⟩ => ⟨S1x1048576, .f32⟩
  | .hbm, ⟨55, _⟩ => ⟨S1x1048576, .f32⟩
  | .hbm, ⟨56, _⟩ => ⟨S1x8192x128, .f32⟩
  | .hbm, ⟨57, _⟩ => ⟨S1x8192x64, .f32⟩
  | .hbm, ⟨58, _⟩ => ⟨S1x524288, .f32⟩
  | .hbm, ⟨59, _⟩ => ⟨S1x8192x64, .f32⟩
  | .hbm, ⟨60, _⟩ => ⟨S1x524288, .f32⟩
  | .hbm, ⟨61, _⟩ => ⟨S1x524288, .f32⟩
  | .hbm, ⟨62, _⟩ => ⟨S1x8192x64, .f32⟩
  | .hbm, ⟨63, _⟩ => ⟨S1x8192x66, .f32⟩
  | .hbm, ⟨64, _⟩ => ⟨S8192x66x1, .f32⟩
  | .hbm, ⟨65, _⟩ => ⟨S8192x66, .f32⟩
  | .hbm, ⟨66, _⟩ => ⟨S8192x66, .f32⟩
  | .hbm, ⟨67, _⟩ => ⟨S8192x66, .f32⟩
  | .hbm, ⟨68, _⟩ => ⟨S_, .f32⟩
  | .hbm, ⟨69, _⟩ => ⟨S8192x66, .f32⟩
  | .hbm, ⟨70, _⟩ => ⟨S8192x66, .f32⟩
  | .hbm, ⟨71, _⟩ => ⟨S8192x66, .f32⟩
  | .hbm, ⟨72, _⟩ => ⟨S1x8192x66, .f32⟩
  | .hbm, ⟨73, _⟩ => ⟨S1x8192x66, .f32⟩
  | .hbm, ⟨74, _⟩ => ⟨S1x8192x66, .f32⟩
  | .hbm, ⟨75, _⟩ => ⟨S3x8192x66, .f32⟩
  | .hbm, ⟨76, _⟩ => ⟨S3x8192x66x1, .f32⟩
  | .hbm, ⟨77, _⟩ => ⟨S1x8192x66x3, .f32⟩
  | .hbm, ⟨78, _⟩ => ⟨S8192x198, .f32⟩
  | .hbm, ⟨79, _⟩ => ⟨S8192x64, .f32⟩
  | .hbm, ⟨80, _⟩ => ⟨S1x64, .f32⟩
  | .hbm, ⟨81, _⟩ => ⟨S8192x64, .f32⟩
  | .hbm, ⟨82, _⟩ => ⟨S8192x64, .f32⟩
  | .hbm, ⟨83, _⟩ => ⟨S1x524288, .f32⟩
  | .hbm, ⟨84, _⟩ => ⟨S1x524288, .f32⟩
  | .hbm, ⟨85, _⟩ => ⟨S1x524288, .f32⟩
  | .hbm, ⟨86, _⟩ => ⟨S_, .f32⟩
  | .hbm, ⟨87, _⟩ => ⟨S1x524288, .f32⟩
  | .hbm, ⟨88, _⟩ => ⟨S1x524288, .f32⟩
  | .hbm, ⟨89, _⟩ => ⟨S1x524288, .f32⟩
  | .hbm, ⟨90, _⟩ => ⟨S1x524288, .f32⟩
  | _, _ => ⟨S1x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_4 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_5 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  transposes_S8192x8192_S8192x8192_1_0 : S8192x8192.Transposes [1, 0] S8192x8192
  shapeCasts_S1x16384_S1x8192x2 : S1x16384.ShapeCasts S1x8192x2
  shapeCasts_S1x524288_S1x8192x64 : S1x524288.ShapeCasts S1x8192x64
  concatenates_S1x8192x2_S1x8192x64_S1x8192x66_d2 : Shape.Concatenates [S1x8192x2, S1x8192x64] S1x8192x66 2
  transposes_S1x8192x66_S8192x66x1_1_2_0 : S1x8192x66.Transposes [1, 2, 0] S8192x66x1
  shapeCasts_S8192x66x1_S8192x66 : S8192x66x1.ShapeCasts S8192x66
  bcast_S_S8192x66 : S_.BroadcastsInDim S8192x66 (![] : Fin 0 → Fin S8192x66.rank)
  bcast_S8192x66_S1x8192x66_1_2 : S8192x66.BroadcastsInDim S1x8192x66 (![1, 2] : Fin 2 → Fin S1x8192x66.rank)
  concatenates_S1x8192x66_S1x8192x66_S1x8192x66_S3x8192x66_d0 : Shape.Concatenates [S1x8192x66, S1x8192x66, S1x8192x66] S3x8192x66 0
  shapeCasts_S3x8192x66_S3x8192x66x1 : S3x8192x66.ShapeCasts S3x8192x66x1
  transposes_S3x8192x66x1_S1x8192x66x3_3_1_2_0 : S3x8192x66x1.Transposes [3, 1, 2, 0] S1x8192x66x3
  shapeCasts_S1x8192x66x3_S8192x198 : S1x8192x66x3.ShapeCasts S8192x198
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  shapeCasts_S8192x128_S1x1048576 : S8192x128.ShapeCasts S1x1048576
  bcast_S_S1x1048576 : S_.BroadcastsInDim S1x1048576 (![] : Fin 0 → Fin S1x1048576.rank)
  shapeCasts_S1x1048576_S1x8192x128 : S1x1048576.ShapeCasts S1x8192x128
  slices_S1x8192x128_S1x8192x64_0_0_0 : S1x8192x128.Slices ![0, 0, 0] S1x8192x64
  shapeCasts_S1x8192x64_S1x524288 : S1x8192x64.ShapeCasts S1x524288
  slices_S1x8192x128_S1x8192x64_0_0_64 : S1x8192x128.Slices ![0, 0, 64] S1x8192x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  shapeCasts_S8192x64_S1x524288 : S8192x64.ShapeCasts S1x524288
  bcast_S_S1x524288 : S_.BroadcastsInDim S1x524288 (![] : Fin 0 → Fin S1x524288.rank)
  dot_S8192x8192_S8192x66_S8192x66_1_0_0_1_n_n_wf : DotDims.WF S8192x8192 S8192x66 S8192x66 [1] [0] [0] [1] [] []
  dot_S8192x198_S198x128_S8192x128_1_0_0_1_n_n_wf : DotDims.WF S8192x198 S198x128 S8192x128 [1] [0] [0] [1] [] []
  dot_S8192x198_S198x64_S8192x64_1_0_0_1_n_n_wf : DotDims.WF S8192x198 S198x64 S8192x64 [1] [0] [0] [1] [] []

variable [Facts₀]

def dot_S8192x8192_S8192x66_S8192x66_1_0_0_1_n_n : DotDims S8192x8192 S8192x66 S8192x66 where
  lhsContracting := [1]
  rhsContracting := [0]
  lhsNonContracting := [0]
  rhsNonContracting := [1]
  lhsBatch := []
  rhsBatch := []
  wf := dot_S8192x8192_S8192x66_S8192x66_1_0_0_1_n_n_wf
def dot_S8192x198_S198x128_S8192x128_1_0_0_1_n_n : DotDims S8192x198 S198x128 S8192x128 where
  lhsContracting := [1]
  rhsContracting := [0]
  lhsNonContracting := [0]
  rhsNonContracting := [1]
  lhsBatch := []
  rhsBatch := []
  wf := dot_S8192x198_S198x128_S8192x128_1_0_0_1_n_n_wf
def dot_S8192x198_S198x64_S8192x64_1_0_0_1_n_n : DotDims S8192x198 S198x64 S8192x64 where
  lhsContracting := [1]
  rhsContracting := [0]
  lhsNonContracting := [0]
  rhsNonContracting := [1]
  lhsBatch := []
  rhsBatch := []
  wf := dot_S8192x198_S198x64_S8192x64_1_0_0_1_n_n_wf

class Facts : Prop extends Facts₀ where

variable [Facts]
-- ==== Proof.KK.Reg0.lean ====
import proofs.«164042_j22436909154350_2_alg».proof.Proof.Gen.Kernel.Launch
import proofs.«164042_j22436909154350_2_alg».proof.Proof.Gen.Kernel.Skeleton
import proofs.«164042_j22436909154350_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the row-sum kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input block, the one rectangle the body loads. -/
abbrev r0_0 : Rect S512x8192 := Rect.unit (s := S512x8192) ![0, 0] S512x8192.size inb_S512x8192_S512x8192_0_0
/-- The whole output block, the one rectangle the body loads (unused) and then stores. -/
abbrev r0_1 : Rect S512x1 := Rect.unit (s := S512x1) ![0, 0] S512x1.size inb_S512x1_S512x1_0_0

/-! ## What the body leaves in the output window's buffer -/

/-- The output window's staging buffer after the body, from the input block: its one store as a piece. -/
def out0_1 (x0 : Vec F S512x8192 .f32) : Vec F S512x1 .f32 :=
  View.canon [⟨r0_1, k0_pay1 (View.ld x0 r0_0)⟩]

/-- The one store is the whole buffer, so it covers it. -/
theorem cover0_1 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body's triple -/

set_option maxHeartbeats 1000000 in
/-- The kernel body on whole staging memrefs, the input's at read contents `x0` and the output's at anything, runs to
    the continuation holding the input's as it was and the output's at `out0_1 x0`. The grid coordinate is unused. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__rowsum_kernel i arg1 harg1 arg2 harg2) K := by
  simp only [cc0__rowsum_kernel_eq_skeleton]; unfold cc0__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` the input's buffer at its block and the output's at `out0_1` of the input block; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.KK.Reg1Runs.lean ====
import proofs.«164042_j22436909154350_2_alg».proof.Proof.Gen.Kernel.Launch
import proofs.«164042_j22436909154350_2_alg».proof.Proof.Gen.Kernel.Skeleton
import proofs.«164042_j22436909154350_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, `cc1__adjT_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there (the first point) or not (every
    later point: the block index has not moved, and the body leaves the block in place). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the grid coordinate is 0), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-- The condition of the body's second `scf.if` (the grid coordinate is 31), from the grid coordinates. -/
abbrev cond1_1 (i : grid1.Coords) : Prop := k1_cond2 i = 1#1
/-- It holds at the last point only — decided over the grid. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

/-- Windows 0 and 1 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first point output 2 is idle: the case stores nothing into it. -/
theorem idleAt1_2_A : ∀ t : Fin cfg1.N, cond1_0 (grid1.coords t) → ¬cond1_1 (grid1.coords t) → cfg1.idle 2 (grid1.coords t) = true := by decide +kernel
/-- At the first point the pipeline does not write output 2's block back. -/
theorem noFlush1_2_A : ∀ t : Fin cfg1.N, cond1_0 (grid1.coords t) → ¬cond1_1 (grid1.coords t) → (cfg1.win 2).flush t = false := by decide +kernel
/-- At the middle points output 2 is idle: the case stores nothing into it. -/
theorem idleAt1_2_B : ∀ t : Fin cfg1.N, ¬cond1_0 (grid1.coords t) → ¬cond1_1 (grid1.coords t) → cfg1.idle 2 (grid1.coords t) = true := by decide +kernel
/-- At the middle points the pipeline does not write output 2's block back. -/
theorem noFlush1_2_B : ∀ t : Fin cfg1.N, ¬cond1_0 (grid1.coords t) → ¬cond1_1 (grid1.coords t) → (cfg1.win 2).flush t = false := by decide +kernel
/-- At the last point output 2 is live: the case stores into it. -/
theorem liveAt1_2_C : ∀ t : Fin cfg1.N, ¬cond1_0 (grid1.coords t) → cond1_1 (grid1.coords t) → cfg1.idle 2 (grid1.coords t) = false := by decide +kernel

/-! ## The kernel body on any staging memrefs -/

/-- The staging buffer of output window 2, through which its contents are stated. -/
abbrev VO1_2 : View sig .tc .vmem S8192x66 .f32 := (Memref.whole cc1_stg2_0 : Memref sig .tc .vmem S8192x66 .f32).view
/-- Each window's current staging memref at point `t`, spelled as the pipeline passes it (`bodyAt1`), and its wholeness. -/
abbrev ms1_0 (t : Fin cfg1.N) : Memref sig .tc .vmem S256x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x66 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x66 .f32 := win1_2.stage (cfg1.slots t 2)
abbrev hs1_2 (t : Fin cfg1.N) : (ms1_2 t).IsWhole := hstage1_2 ((cfg1.slots t 2).cast nbuf1_2)
/-- The scratch operand: a whole scoped buffer of the kernel's own, passed beside the windows. -/
abbrev scM1_0 : Memref sig .tc .vmem S8192x66 .f32 := Memref.whole cc1_scratch0
/-- The scratch the kernel carries between points (the accumulator), as a view: what it holds is stated through it. -/
abbrev VS1_0 : View sig .tc .vmem S8192x66 .f32 := scM1_0.view

/-- Two assertions entailing each other are equal. -/
theorem sProp_eq_of1 {P Q : sProp 𝕄} (h₁ : P ⊢ Q) (h₂ : Q ⊢ P) : P = Q := BI.equiv_iff.mp ⟨h₁, h₂⟩

/-- A scoped buffer at some contents. -/
abbrev someAt (c : Dev nD) (b : Ref sig .tc) : sProp 𝕄 :=
  iprop(∃ f : Buf (Elt F) ((c : Thread nD τ).loc b), ((c : Thread nD τ).loc b) ↦{fullShare} f)

/-- What the region's invariant holds beside the accumulator and the body never touches: the other scoped buffers
    that are no staging buffer of this pipeline (the other regions' staging buffers and accumulators), each at some
    contents, and the generator register at some state. -/
def G1 (c : Dev nD) : sProp 𝕄 :=
  iprop(iprop(someAt (F := F) c cc0_stg0_0 ∗ someAt (F := F) c cc0_stg0_1 ∗ someAt (F := F) c cc0_stg1_0 ∗ someAt (F := F) c cc0_stg1_1 ∗ someAt (F := F) c cc2_stg0_0 ∗ someAt (F := F) c cc2_stg0_1 ∗ someAt (F := F) c cc2_stg1_0 ∗ someAt (F := F) c cc2_stg2_0 ∗ someAt (F := F) c cc2_scratch0 ∗ someAt (F := F) c cc3_stg0_0 ∗ someAt (F := F) c cc3_stg0_1 ∗ someAt (F := F) c cc3_stg1_0 ∗ someAt (F := F) c cc3_stg2_0 ∗ someAt (F := F) c cc3_scratch0 ∗ someAt (F := F) c cc4_stg0_0 ∗ someAt (F := F) c cc4_stg0_1 ∗ someAt (F := F) c cc4_stg1_0 ∗ someAt (F := F) c cc4_stg2_0 ∗ someAt (F := F) c cc4_scratch0) ∗ (∃ r, prngReg c r))

/-- The region's invariant with the accumulator as a memref owned at some contents, beside the rest: what the body
    obligation hands the run and takes back. -/
theorem PhiA1_eq (c : Dev nD) :
    (Pipeline.ΦA spec1 c : sProp 𝕄)
      = iprop(iprop((∃ d, owns (c : Thread nD τ) scM1_0 fullShare d)) ∗ G1 (F := F) c) := by
  unfold Pipeline.ΦA G1; rw [scopedRest1_eq]; simp only [scM1_0, owns_whole]
  refine sProp_eq_of1 ?_ ?_
  · iintro ⟨⟨A0, A1, A2, A3, HS, B0, B1, B2, B3, B4, B5, B6, B7, B8, B9, B10, B11, B12, B13, B14⟩, Hg⟩
    isplitl [HS]; · iexact HS
    isplitr [Hg]
    swap; · iexact Hg
    isplitl [A0]; · iexact A0
    isplitl [A1]; · iexact A1
    isplitl [A2]; · iexact A2
    isplitl [A3]; · iexact A3
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  · iintro ⟨HS, ⟨A0, A1, A2, A3, B0, B1, B2, B3, B4, B5, B6, B7, B8, B9, B10, B11, B12, B13, B14⟩, Hg⟩
    isplitr [Hg]
    swap; · iexact Hg
    isplitl [A0]; · iexact A0
    isplitl [A1]; · iexact A1
    isplitl [A2]; · iexact A2
    isplitl [A3]; · iexact A3
    isplitl [HS]; · iexact HS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14

end Cert.Kernel.H

end
-- ==== Proof.KK.Reg1RunA.lean ====
import proofs.«164042_j22436909154350_2_alg».proof.Proof.KK.Reg1Runs

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    FIRST POINT (the first `scf.if` taken, the second not), WITH the proof that on whole staging memrefs — the inputs'
    at their contents `x0`, `x1`, the output's (no store: the window is idle and not written back there) at contents
    `xi2` handed back untouched, the accumulator at anything — the body runs to the continuation holding the inputs' as
    they were and the accumulator with its pieces written (the zero fill, then the sum): the printed function is its
    skeleton, which `sl_exec` runs, each `scf.if` decided by the case's hypotheses; the pieces are the witness the
    run finds. -/
noncomputable def kernelRun1_A (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond1_0 i) (hc1 : ¬cond1_1 i)
    (x0 : Vec F S256x8192 .f32) (x1 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__adjT_kernel i arg1 harg1 arg2 harg2 arg3 harg3 arg4 harg4) K } := by
  refine ⟨[], ?_, fun xi2 E K => ?run⟩
  case run =>
    simp only [cc1__adjT_kernel_eq_skeleton]; unfold cc1__adjT_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.H

end
-- ==== Proof.KK.Reg1RunB.lean ====
import proofs.«164042_j22436909154350_2_alg».proof.Proof.KK.Reg1RunA

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT A
    MIDDLE POINT (neither `scf.if` taken), WITH the proof that on whole staging memrefs — the inputs' at their contents
    `x0`, `x1`, the output's (no store: the window is idle and not written back there) at contents `xi2` handed back
    untouched, the accumulator at what the point before left (`xs0`) — the body runs to the continuation holding the
    inputs' as they were and the accumulator with its piece written (the sum): the printed function is its skeleton,
    which `sl_exec` runs, each `scf.if` decided by the case's hypotheses; the pieces are the witness the run finds. -/
noncomputable def kernelRun1_B (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : ¬cond1_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__adjT_kernel i arg1 harg1 arg2 harg2 arg3 harg3 arg4 harg4) K } := by
  refine ⟨[], ?_, fun xi2 E K => ?run⟩
  case run =>
    simp only [cc1__adjT_kernel_eq_skeleton]; unfold cc1__adjT_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.H

end
-- ==== Proof.KK.Reg1RunC.lean ====
import proofs.«164042_j22436909154350_2_alg».proof.Proof.KK.Reg1RunB

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    LAST POINT (the first `scf.if` not taken, the second taken), WITH the proof that on whole staging memrefs — the
    inputs' at their contents `x0`, `x1`, the output's at anything, the accumulator at what the point before left
    (`xs0`) — the body runs to the continuation holding the inputs' as they were, the accumulator with its piece written
    (the sum) and the output's buffer with its piece written (the sum plus the second input): the printed function is
    its skeleton, which `sl_exec` runs, each `scf.if` decided by the case's hypotheses; the pieces are the witness the
    run finds. -/
noncomputable def kernelRun1_C (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : cond1_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__adjT_kernel i arg1 harg1 arg2 harg2 arg3 harg3 arg4 harg4) K } := by
  refine ⟨?_, ?_, fun E K => ?run⟩
  case run =>
    simp only [cc1__adjT_kernel_eq_skeleton]; unfold cc1__adjT_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.H

end
-- ==== Proof.KK.Reg1.lean ====
import proofs.«164042_j22436909154350_2_alg».proof.Proof.KK.Reg1RunC

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- The first point stores nothing into output 2 (the window is idle there and not written back): no pieces — a
    placeholder (junk read back) that nothing consults, since at that point the window is neither written back nor
    read at the next point. -/
def out1_A_2 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond1_0 i) (hc1 : ¬cond1_1 i)
    (x0 : Vec F S256x8192 .f32) (x1 : Vec F S8192x66 .f32) : Vec F S8192x66 .f32 :=
  VO1_2.read (Elt F) (VO1_2.writes (Elt F) VO1_2.junk (kernelRun1_A c i arg1 harg1 arg2 harg2 arg3 harg3 arg4 harg4 hc0 hc1 x0 x1).1)

/-- The first point's pieces for the accumulator cover it: two whole-buffer pieces (the zero fill, the sum). -/
theorem scover1_A_0 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond1_0 i) (hc1 : ¬cond1_1 i)
    (x0 : Vec F S256x8192 .f32) (x1 : Vec F S8192x66 .f32) (y : S8192x66.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S8192x66.size (by sl_kernel_rfl) y

/-- What the first point leaves in the accumulator: its pieces read back over junk. -/
def sout1_A_0 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond1_0 i) (hc1 : ¬cond1_1 i)
    (x0 : Vec F S256x8192 .f32) (x1 : Vec F S8192x66 .f32) : Vec F S8192x66 .f32 :=
  VS1_0.read (Elt F) (VS1_0.writes (Elt F) VS1_0.junk (kernelRun1_A c i arg1 harg1 arg2 harg2 arg3 harg3 arg4 harg4 hc0 hc1 x0 x1).2.1)

/-- A middle point stores nothing into output 2 (the window is idle there and not written back): no pieces — a
    placeholder (junk read back) that nothing consults. -/
def out1_B_2 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : ¬cond1_1 i)
    (x0 : Vec F S256x8192 .f32) (x1 : Vec F S8192x66 .f32) (xs0 : Vec F S8192x66 .f32) : Vec F S8192x66 .f32 :=
  VO1_2.read (Elt F) (VO1_2.writes (Elt F) VO1_2.junk (kernelRun1_B c i arg1 harg1 arg2 harg2 arg3 harg3 arg4 harg4 hc0 hc1 x0 x1 xs0).1)

/-- A middle point's piece for the accumulator covers it: one whole-buffer piece (the sum). -/
theorem scover1_B_0 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : ¬cond1_1 i)
    (x0 : Vec F S256x8192 .f32) (x1 : Vec F S8192x66 .f32) (xs0 : Vec F S8192x66 .f32) (y : S8192x66.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S8192x66.size (by sl_kernel_rfl) y

/-- What a middle point leaves in the accumulator: its piece read back over junk. -/
def sout1_B_0 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : ¬cond1_1 i)
    (x0 : Vec F S256x8192 .f32) (x1 : Vec F S8192x66 .f32) (xs0 : Vec F S8192x66 .f32) : Vec F S8192x66 .f32 :=
  VS1_0.read (Elt F) (VS1_0.writes (Elt F) VS1_0.junk (kernelRun1_B c i arg1 harg1 arg2 harg2 arg3 harg3 arg4 harg4 hc0 hc1 x0 x1 xs0).2.1)

/-- The last point's piece for output 2 tiles its block (one whole-buffer store), so it covers it. -/
theorem cover1_C_2 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : cond1_1 i)
    (x0 : Vec F S256x8192 .f32) (x1 : Vec F S8192x66 .f32) (xs0 : Vec F S8192x66 .f32) (y : S8192x66.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S8192x66.size (by sl_kernel_rfl) y

/-- What the last point leaves in output 2's staging buffer: its piece read back over junk. -/
def out1_C_2 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : cond1_1 i)
    (x0 : Vec F S256x8192 .f32) (x1 : Vec F S8192x66 .f32) (xs0 : Vec F S8192x66 .f32) : Vec F S8192x66 .f32 :=
  VO1_2.read (Elt F) (VO1_2.writes (Elt F) VO1_2.junk (kernelRun1_C c i arg1 harg1 arg2 harg2 arg3 harg3 arg4 harg4 hc0 hc1 x0 x1 xs0).1)

/-- The last point's piece for the accumulator covers it: one whole-buffer piece (the sum). -/
theorem scover1_C_0 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : cond1_1 i)
    (x0 : Vec F S256x8192 .f32) (x1 : Vec F S8192x66 .f32) (xs0 : Vec F S8192x66 .f32) (y : S8192x66.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S8192x66.size (by sl_kernel_rfl) y

/-- What the last point leaves in the accumulator: its piece read back over junk. -/
def sout1_C_0 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : cond1_1 i)
    (x0 : Vec F S256x8192 .f32) (x1 : Vec F S8192x66 .f32) (xs0 : Vec F S8192x66 .f32) : Vec F S8192x66 .f32 :=
  VS1_0.read (Elt F) (VS1_0.writes (Elt F) VS1_0.junk (kernelRun1_C c i arg1 harg1 arg2 harg2 arg3 harg3 arg4 harg4 hc0 hc1 x0 x1 xs0).2.1)

/-! ## What the output and the accumulator hold after each point -/

/-- THE ACCUMULATION. What output 2's staging buffer and the accumulator hold after the body at position `n` (a pair:
    the output, then the accumulator): the case the closed forms select at `n`, run at the point's memrefs and input
    blocks, the accumulator entering at what this leaves at `n - 1`. An assignment of the conditions no point meets is
    no case (`False.elim`). -/
def outsAt1 (c : Dev nD) : (n : ℕ) → n < cfg1.N → Vec F S8192x66 .f32 × Vec F S8192x66 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 32 = 0 then
      if h1 : (n + 1) % 32 = 31 then
        False.elim (by have hN : n + 1 < 32 := lt_of_lt_of_eq hn (show cfg1.N = 32 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 32 = 31 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at the first point: that case's contents. -/
theorem outsAt1_A (c : Dev nD) (t : Fin cfg1.N) (h0 : t.val % 32 = 0) (h1 : ¬t.val % 32 = 31) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle point: that case's contents, over what the point before left. -/
theorem outsAt1_B (c : Dev nD) (t : Fin cfg1.N) (h0 : ¬t.val % 32 = 0) (h1 : ¬t.val % 32 = 31) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: that case's contents, over what the point before left. -/
theorem outsAt1_C (c : Dev nD) (t : Fin cfg1.N) (h0 : ¬t.val % 32 = 0) (h1 : t.val % 32 = 31) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the accumulator at what the point before left in it (`outsAt1`'s second
    component), beside the rest. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ G1 (F := F) c)

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2)) ∗ G1 (F := F) c) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2)) ∗ G1 (F := F) c) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks (`before1_0`, `before1_1`); the closed forms say
    which case the point is in; so the run applies; the invariant hands the body the accumulator at what the point
    before left (at anything at the first point) and takes it back at this point's contents; the rest of the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 32 = 0
  · by_cases h1 : t.val % 32 = 31
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨HS0, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 32 = 31
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      have hz : t.val ≠ 0 := by omega
      rw [PhiS1_castSucc V c t, PhiS1_pos V c _ _ hz]
      iintro ⟨⟨HS0, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨HS0, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.H

end
-- ==== Proof.KK.Reg2Runs.lean ====
import proofs.«164042_j22436909154350_2_alg».proof.Proof.Gen.Kernel.Launch
import proofs.«164042_j22436909154350_2_alg».proof.Proof.Gen.Kernel.Skeleton
import proofs.«164042_j22436909154350_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2 of @main: custom_call 2, `cc2__adjT_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there (the first point) or not (every
    later point: the block index has not moved, and the body leaves the block in place). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the grid coordinate is 0), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 32 = 0 :=
  (by decide +kernel : ∀ t : Fin grid2.N, cond2_0 (grid2.coords t) ↔ t.val % 32 = 0)

/-- The condition of the body's second `scf.if` (the grid coordinate is 31), from the grid coordinates. -/
abbrev cond2_1 (i : grid2.Coords) : Prop := k2_cond2 i = 1#1
/-- It holds at the last point only — decided over the grid. -/
theorem hcond2_1 : ∀ t : Fin cfg2.N, cond2_1 (grid2.coords t) ↔ t.val % 32 = 31 :=
  (by decide +kernel : ∀ t : Fin grid2.N, cond2_1 (grid2.coords t) ↔ t.val % 32 = 31)

/-! ## Where the windows are idle -/

/-- Windows 0 and 1 are never idle (inputs). -/
theorem liveAt2_0 : ∀ t : Fin cfg2.N, cfg2.idle 0 (grid2.coords t) = false := by decide +kernel
theorem liveAt2_1 : ∀ t : Fin cfg2.N, cfg2.idle 1 (grid2.coords t) = false := by decide +kernel
/-- At the first point output 2 is idle: the case stores nothing into it. -/
theorem idleAt2_2_A : ∀ t : Fin cfg2.N, cond2_0 (grid2.coords t) → ¬cond2_1 (grid2.coords t) → cfg2.idle 2 (grid2.coords t) = true := by decide +kernel
/-- At the first point the pipeline does not write output 2's block back. -/
theorem noFlush2_2_A : ∀ t : Fin cfg2.N, cond2_0 (grid2.coords t) → ¬cond2_1 (grid2.coords t) → (cfg2.win 2).flush t = false := by decide +kernel
/-- At the middle points output 2 is idle: the case stores nothing into it. -/
theorem idleAt2_2_B : ∀ t : Fin cfg2.N, ¬cond2_0 (grid2.coords t) → ¬cond2_1 (grid2.coords t) → cfg2.idle 2 (grid2.coords t) = true := by decide +kernel
/-- At the middle points the pipeline does not write output 2's block back. -/
theorem noFlush2_2_B : ∀ t : Fin cfg2.N, ¬cond2_0 (grid2.coords t) → ¬cond2_1 (grid2.coords t) → (cfg2.win 2).flush t = false := by decide +kernel
/-- At the last point output 2 is live: the case stores into it. -/
theorem liveAt2_2_C : ∀ t : Fin cfg2.N, ¬cond2_0 (grid2.coords t) → cond2_1 (grid2.coords t) → cfg2.idle 2 (grid2.coords t) = false := by decide +kernel

/-! ## The kernel body on any staging memrefs -/

/-- The staging buffer of output window 2, through which its contents are stated. -/
abbrev VO2_2 : View sig .tc .vmem S8192x66 .f32 := (Memref.whole cc2_stg2_0 : Memref sig .tc .vmem S8192x66 .f32).view
/-- Each window's current staging memref at point `t`, spelled as the pipeline passes it (`bodyAt2`), and its wholeness. -/
abbrev ms2_0 (t : Fin cfg2.N) : Memref sig .tc .vmem S256x8192 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x66 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x66 .f32 := win2_2.stage (cfg2.slots t 2)
abbrev hs2_2 (t : Fin cfg2.N) : (ms2_2 t).IsWhole := hstage2_2 ((cfg2.slots t 2).cast nbuf2_2)
/-- The scratch operand: a whole scoped buffer of the kernel's own, passed beside the windows. -/
abbrev scM2_0 : Memref sig .tc .vmem S8192x66 .f32 := Memref.whole cc2_scratch0
/-- The scratch the kernel carries between points (the accumulator), as a view: what it holds is stated through it. -/
abbrev VS2_0 : View sig .tc .vmem S8192x66 .f32 := scM2_0.view

/-- Two assertions entailing each other are equal. -/
theorem sProp_eq_of2 {P Q : sProp 𝕄} (h₁ : P ⊢ Q) (h₂ : Q ⊢ P) : P = Q := BI.equiv_iff.mp ⟨h₁, h₂⟩

/-- A scoped buffer at some contents. -/
abbrev someAt2 (c : Dev nD) (b : Ref sig .tc) : sProp 𝕄 :=
  iprop(∃ f : Buf (Elt F) ((c : Thread nD τ).loc b), ((c : Thread nD τ).loc b) ↦{fullShare} f)

/-- What the region's invariant holds beside the accumulator and the body never touches: the other scoped buffers
    that are no staging buffer of this pipeline (the other regions' staging buffers and accumulators), each at some
    contents, and the generator register at some state. -/
def G2 (c : Dev nD) : sProp 𝕄 :=
  iprop(iprop(someAt2 (F := F) c cc0_stg0_0 ∗ someAt2 (F := F) c cc0_stg0_1 ∗ someAt2 (F := F) c cc0_stg1_0 ∗ someAt2 (F := F) c cc0_stg1_1 ∗ someAt2 (F := F) c cc1_stg0_0 ∗ someAt2 (F := F) c cc1_stg0_1 ∗ someAt2 (F := F) c cc1_stg1_0 ∗ someAt2 (F := F) c cc1_stg2_0 ∗ someAt2 (F := F) c cc1_scratch0 ∗ someAt2 (F := F) c cc3_stg0_0 ∗ someAt2 (F := F) c cc3_stg0_1 ∗ someAt2 (F := F) c cc3_stg1_0 ∗ someAt2 (F := F) c cc3_stg2_0 ∗ someAt2 (F := F) c cc3_scratch0 ∗ someAt2 (F := F) c cc4_stg0_0 ∗ someAt2 (F := F) c cc4_stg0_1 ∗ someAt2 (F := F) c cc4_stg1_0 ∗ someAt2 (F := F) c cc4_stg2_0 ∗ someAt2 (F := F) c cc4_scratch0) ∗ (∃ r, prngReg c r))

/-- The region's invariant with the accumulator as a memref owned at some contents, beside the rest: what the body
    obligation hands the run and takes back. -/
theorem PhiA2_eq (c : Dev nD) :
    (Pipeline.ΦA spec2 c : sProp 𝕄)
      = iprop(iprop((∃ d, owns (c : Thread nD τ) scM2_0 fullShare d)) ∗ G2 (F := F) c) := by
  unfold Pipeline.ΦA G2; rw [scopedRest2_eq]; simp only [scM2_0, owns_whole]
  refine sProp_eq_of2 ?_ ?_
  · iintro ⟨⟨A0, A1, A2, A3, A4, A5, A6, A7, A8, HS, B0, B1, B2, B3, B4, B5, B6, B7, B8, B9⟩, Hg⟩
    isplitl [HS]; · iexact HS
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  · iintro ⟨HS, ⟨A0, A1, A2, A3, A4, A5, A6, A7, A8, B0, B1, B2, B3, B4, B5, B6, B7, B8, B9⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [HS]; · iexact HS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9

end Cert.Kernel.H

end
-- ==== Proof.KK.Reg2RunA.lean ====
import proofs.«164042_j22436909154350_2_alg».proof.Proof.KK.Reg2Runs

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    FIRST POINT (the first `scf.if` taken, the second not), WITH the proof that on whole staging memrefs — the inputs'
    at their contents `x0`, `x1`, the output's (no store: the window is idle and not written back there) at contents
    `xi2` handed back untouched, the accumulator at anything — the body runs to the continuation holding the inputs' as
    they were and the accumulator with its pieces written (the zero fill, then the sum): the printed function is its
    skeleton, which `sl_exec` runs, each `scf.if` decided by the case's hypotheses; the pieces are the witness the
    run finds. -/
noncomputable def kernelRun2_A (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond2_0 i) (hc1 : ¬cond2_1 i)
    (x0 : Vec F S256x8192 .f32) (x1 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__adjT_kernel i arg1 harg1 arg2 harg2 arg3 harg3 arg4 harg4) K } := by
  refine ⟨[], ?_, fun xi2 E K => ?run⟩
  case run =>
    simp only [cc2__adjT_kernel_eq_skeleton]; unfold cc2__adjT_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.H

end
-- ==== Proof.KK.Reg2RunB.lean ====
import proofs.«164042_j22436909154350_2_alg».proof.Proof.KK.Reg2RunA

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT A
    MIDDLE POINT (neither `scf.if` taken), WITH the proof that on whole staging memrefs — the inputs' at their contents
    `x0`, `x1`, the output's (no store: the window is idle and not written back there) at contents `xi2` handed back
    untouched, the accumulator at what the point before left (`xs0`) — the body runs to the continuation holding the
    inputs' as they were and the accumulator with its piece written (the sum): the printed function is its skeleton,
    which `sl_exec` runs, each `scf.if` decided by the case's hypotheses; the pieces are the witness the run finds. -/
noncomputable def kernelRun2_B (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : ¬cond2_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__adjT_kernel i arg1 harg1 arg2 harg2 arg3 harg3 arg4 harg4) K } := by
  refine ⟨[], ?_, fun xi2 E K => ?run⟩
  case run =>
    simp only [cc2__adjT_kernel_eq_skeleton]; unfold cc2__adjT_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.H

end
-- ==== Proof.KK.Reg2RunC.lean ====
import proofs.«164042_j22436909154350_2_alg».proof.Proof.KK.Reg2RunB

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    LAST POINT (the first `scf.if` not taken, the second taken), WITH the proof that on whole staging memrefs — the
    inputs' at their contents `x0`, `x1`, the output's at anything, the accumulator at what the point before left
    (`xs0`) — the body runs to the continuation holding the inputs' as they were, the accumulator with its piece written
    (the sum) and the output's buffer with its piece written (the sum plus the second input): the printed function is
    its skeleton, which `sl_exec` runs, each `scf.if` decided by the case's hypotheses; the pieces are the witness the
    run finds. -/
noncomputable def kernelRun2_C (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : cond2_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__adjT_kernel i arg1 harg1 arg2 harg2 arg3 harg3 arg4 harg4) K } := by
  refine ⟨?_, ?_, fun E K => ?run⟩
  case run =>
    simp only [cc2__adjT_kernel_eq_skeleton]; unfold cc2__adjT_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.H

end
-- ==== Proof.KK.Reg2.lean ====
import proofs.«164042_j22436909154350_2_alg».proof.Proof.KK.Reg2RunC

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- The first point stores nothing into output 2 (the window is idle there and not written back): no pieces — a
    placeholder (junk read back) that nothing consults, since at that point the window is neither written back nor
    read at the next point. -/
def out2_A_2 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond2_0 i) (hc1 : ¬cond2_1 i)
    (x0 : Vec F S256x8192 .f32) (x1 : Vec F S8192x66 .f32) : Vec F S8192x66 .f32 :=
  VO2_2.read (Elt F) (VO2_2.writes (Elt F) VO2_2.junk (kernelRun2_A c i arg1 harg1 arg2 harg2 arg3 harg3 arg4 harg4 hc0 hc1 x0 x1).1)

/-- The first point's pieces for the accumulator cover it: two whole-buffer pieces (the zero fill, the sum). -/
theorem scover2_A_0 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond2_0 i) (hc1 : ¬cond2_1 i)
    (x0 : Vec F S256x8192 .f32) (x1 : Vec F S8192x66 .f32) (y : S8192x66.Idx) :
    ∃ pc ∈ (kernelRun2_A c i arg1 harg1 arg2 harg2 arg3 harg3 arg4 harg4 hc0 hc1 x0 x1).2.1, y ∈ pc.1.set :=
  View.cover_of_tiledL (kernelRun2_A c i arg1 harg1 arg2 harg2 arg3 harg3 arg4 harg4 hc0 hc1 x0 x1).2.1 S8192x66.size (by sl_kernel_rfl) y

/-- What the first point leaves in the accumulator: its pieces read back over junk. -/
def sout2_A_0 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond2_0 i) (hc1 : ¬cond2_1 i)
    (x0 : Vec F S256x8192 .f32) (x1 : Vec F S8192x66 .f32) : Vec F S8192x66 .f32 :=
  VS2_0.read (Elt F) (VS2_0.writes (Elt F) VS2_0.junk (kernelRun2_A c i arg1 harg1 arg2 harg2 arg3 harg3 arg4 harg4 hc0 hc1 x0 x1).2.1)

/-- A middle point stores nothing into output 2 (the window is idle there and not written back): no pieces — a
    placeholder (junk read back) that nothing consults. -/
def out2_B_2 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : ¬cond2_1 i)
    (x0 : Vec F S256x8192 .f32) (x1 : Vec F S8192x66 .f32) (xs0 : Vec F S8192x66 .f32) : Vec F S8192x66 .f32 :=
  VO2_2.read (Elt F) (VO2_2.writes (Elt F) VO2_2.junk (kernelRun2_B c i arg1 harg1 arg2 harg2 arg3 harg3 arg4 harg4 hc0 hc1 x0 x1 xs0).1)

/-- A middle point's piece for the accumulator covers it: one whole-buffer piece (the sum). -/
theorem scover2_B_0 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : ¬cond2_1 i)
    (x0 : Vec F S256x8192 .f32) (x1 : Vec F S8192x66 .f32) (xs0 : Vec F S8192x66 .f32) (y : S8192x66.Idx) :
    ∃ pc ∈ (kernelRun2_B c i arg1 harg1 arg2 harg2 arg3 harg3 arg4 harg4 hc0 hc1 x0 x1 xs0).2.1, y ∈ pc.1.set :=
  View.cover_of_tiledL (kernelRun2_B c i arg1 harg1 arg2 harg2 arg3 harg3 arg4 harg4 hc0 hc1 x0 x1 xs0).2.1 S8192x66.size (by sl_kernel_rfl) y

/-- What a middle point leaves in the accumulator: its piece read back over junk. -/
def sout2_B_0 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : ¬cond2_1 i)
    (x0 : Vec F S256x8192 .f32) (x1 : Vec F S8192x66 .f32) (xs0 : Vec F S8192x66 .f32) : Vec F S8192x66 .f32 :=
  VS2_0.read (Elt F) (VS2_0.writes (Elt F) VS2_0.junk (kernelRun2_B c i arg1 harg1 arg2 harg2 arg3 harg3 arg4 harg4 hc0 hc1 x0 x1 xs0).2.1)

/-- The last point's piece for output 2 tiles its block (one whole-buffer store), so it covers it. -/
theorem cover2_C_2 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : cond2_1 i)
    (x0 : Vec F S256x8192 .f32) (x1 : Vec F S8192x66 .f32) (xs0 : Vec F S8192x66 .f32) (y : S8192x66.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S8192x66.size (by sl_kernel_rfl) y

/-- What the last point leaves in output 2's staging buffer: its piece read back over junk. -/
def out2_C_2 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : cond2_1 i)
    (x0 : Vec F S256x8192 .f32) (x1 : Vec F S8192x66 .f32) (xs0 : Vec F S8192x66 .f32) : Vec F S8192x66 .f32 :=
  VO2_2.read (Elt F) (VO2_2.writes (Elt F) VO2_2.junk (kernelRun2_C c i arg1 harg1 arg2 harg2 arg3 harg3 arg4 harg4 hc0 hc1 x0 x1 xs0).1)

/-- The last point's piece for the accumulator covers it: one whole-buffer piece (the sum). -/
theorem scover2_C_0 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : cond2_1 i)
    (x0 : Vec F S256x8192 .f32) (x1 : Vec F S8192x66 .f32) (xs0 : Vec F S8192x66 .f32) (y : S8192x66.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S8192x66.size (by sl_kernel_rfl) y

/-- What the last point leaves in the accumulator: its piece read back over junk. -/
def sout2_C_0 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : cond2_1 i)
    (x0 : Vec F S256x8192 .f32) (x1 : Vec F S8192x66 .f32) (xs0 : Vec F S8192x66 .f32) : Vec F S8192x66 .f32 :=
  VS2_0.read (Elt F) (VS2_0.writes (Elt F) VS2_0.junk (kernelRun2_C c i arg1 harg1 arg2 harg2 arg3 harg3 arg4 harg4 hc0 hc1 x0 x1 xs0).2.1)

/-! ## What the output and the accumulator hold after each point -/

/-- THE ACCUMULATION. What output 2's staging buffer and the accumulator hold after the body at position `n` (a pair:
    the output, then the accumulator): the case the closed forms select at `n`, run at the point's memrefs and input
    blocks, the accumulator entering at what this leaves at `n - 1`. An assignment of the conditions no point meets is
    no case (`False.elim`). -/
def outsAt2 (c : Dev nD) : (n : ℕ) → n < cfg2.N → Vec F S8192x66 .f32 × Vec F S8192x66 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 32 = 0 then
      if h1 : (n + 1) % 32 = 31 then
        False.elim (by have hN : n + 1 < 32 := lt_of_lt_of_eq hn (show cfg2.N = 32 from N_2); omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 32 = 31 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at the first point: that case's contents. -/
theorem outsAt2_A (c : Dev nD) (t : Fin cfg2.N) (h0 : t.val % 32 = 0) (h1 : ¬t.val % 32 = 31) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a middle point: that case's contents, over what the point before left. -/
theorem outsAt2_B (c : Dev nD) (t : Fin cfg2.N) (h0 : ¬t.val % 32 = 0) (h1 : ¬t.val % 32 = 31) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point: that case's contents, over what the point before left. -/
theorem outsAt2_C (c : Dev nD) (t : Fin cfg2.N) (h0 : ¬t.val % 32 = 0) (h1 : t.val % 32 = 31) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the accumulator at what the point before left in it (`outsAt2`'s second
    component), beside the rest. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)) ∗ G2 (F := F) c)

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(owns (c : Thread nD τ) scM2_0 fullShare ((outsAt2 V c n hn).2)) ∗ G2 (F := F) c) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2)) ∗ G2 (F := F) c) := by
  cases n with
  | zero => exact absurd rfl hz
  | succ n => rfl

/-! ## The pipeline's proof data -/

/-- The proof data of pipeline 2 on core `c`: the arrays as the region finds them (`V`); after the body at point `t`
    each input's buffer at its block and the output's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks (`before2_0`, `before2_1`); the closed forms say
    which case the point is in; so the run applies; the invariant hands the body the accumulator at what the point
    before left (at anything at the first point) and takes it back at this point's contents; the rest of the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 32 = 0
  · by_cases h1 : t.val % 32 = 31
    · exfalso; omega
    · rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨HS0, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 32 = 31
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      have hz : t.val ≠ 0 := by omega
      rw [PhiS2_castSucc V c t, PhiS2_pos V c _ _ hz]
      iintro ⟨⟨HS0, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover2_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      have hz : t.val ≠ 0 := by omega
      rw [PhiS2_castSucc V c t, PhiS2_pos V c _ _ hz]
      iintro ⟨⟨HS0, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover2_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS0, Hg⟩
  isplitl [HS0]
  · iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.Kernel.H

end
-- ==== Proof.KK.Reg3Runs.lean ====
import proofs.«164042_j22436909154350_2_alg».proof.Proof.Gen.Kernel.Launch
import proofs.«164042_j22436909154350_2_alg».proof.Proof.Gen.Kernel.Skeleton
import proofs.«164042_j22436909154350_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 3 of @main: custom_call 3, `cc3__adjT_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s (`hA`) and whose body leaves the block in place (`hafter`): the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there (the first point) or not (every
    later point: the block index has not moved, and the body leaves the block in place). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first `scf.if` (the grid coordinate is 0), from the grid coordinates. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val % 32 = 0 :=
  (by decide +kernel : ∀ t : Fin grid3.N, cond3_0 (grid3.coords t) ↔ t.val % 32 = 0)

/-- The condition of the body's second `scf.if` (the grid coordinate is 31), from the grid coordinates. -/
abbrev cond3_1 (i : grid3.Coords) : Prop := k3_cond2 i = 1#1
/-- It holds at the last point only — decided over the grid. -/
theorem hcond3_1 : ∀ t : Fin cfg3.N, cond3_1 (grid3.coords t) ↔ t.val % 32 = 31 :=
  (by decide +kernel : ∀ t : Fin grid3.N, cond3_1 (grid3.coords t) ↔ t.val % 32 = 31)

/-! ## Where the windows are idle -/

/-- Windows 0 and 1 are never idle (inputs). -/
theorem liveAt3_0 : ∀ t : Fin cfg3.N, cfg3.idle 0 (grid3.coords t) = false := by decide +kernel
theorem liveAt3_1 : ∀ t : Fin cfg3.N, cfg3.idle 1 (grid3.coords t) = false := by decide +kernel
/-- At the first point output 2 is idle: the case stores nothing into it. -/
theorem idleAt3_2_A : ∀ t : Fin cfg3.N, cond3_0 (grid3.coords t) → ¬cond3_1 (grid3.coords t) → cfg3.idle 2 (grid3.coords t) = true := by decide +kernel
/-- At the first point the pipeline does not write output 2's block back. -/
theorem noFlush3_2_A : ∀ t : Fin cfg3.N, cond3_0 (grid3.coords t) → ¬cond3_1 (grid3.coords t) → (cfg3.win 2).flush t = false := by decide +kernel
/-- At the middle points output 2 is idle: the case stores nothing into it. -/
theorem idleAt3_2_B : ∀ t : Fin cfg3.N, ¬cond3_0 (grid3.coords t) → ¬cond3_1 (grid3.coords t) → cfg3.idle 2 (grid3.coords t) = true := by decide +kernel
/-- At the middle points the pipeline does not write output 2's block back. -/
theorem noFlush3_2_B : ∀ t : Fin cfg3.N, ¬cond3_0 (grid3.coords t) → ¬cond3_1 (grid3.coords t) → (cfg3.win 2).flush t = false := by decide +kernel
/-- At the last point output 2 is live: the case stores into it. -/
theorem liveAt3_2_C : ∀ t : Fin cfg3.N, ¬cond3_0 (grid3.coords t) → cond3_1 (grid3.coords t) → cfg3.idle 2 (grid3.coords t) = false := by decide +kernel

/-! ## The kernel body on any staging memrefs -/

/-- The staging buffer of output window 2, through which its contents are stated. -/
abbrev VO3_2 : View sig .tc .vmem S8192x66 .f32 := (Memref.whole cc3_stg2_0 : Memref sig .tc .vmem S8192x66 .f32).view
/-- Each window's current staging memref at point `t`, spelled as the pipeline passes it (`bodyAt3`), and its wholeness. -/
abbrev ms3_0 (t : Fin cfg3.N) : Memref sig .tc .vmem S256x8192 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8192x66 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8192x66 .f32 := win3_2.stage (cfg3.slots t 2)
abbrev hs3_2 (t : Fin cfg3.N) : (ms3_2 t).IsWhole := hstage3_2 ((cfg3.slots t 2).cast nbuf3_2)
/-- The scratch operand: a whole scoped buffer of the kernel's own, passed beside the windows. -/
abbrev scM3_0 : Memref sig .tc .vmem S8192x66 .f32 := Memref.whole cc3_scratch0
/-- The scratch the kernel carries between points (the accumulator), as a view: what it holds is stated through it. -/
abbrev VS3_0 : View sig .tc .vmem S8192x66 .f32 := scM3_0.view

/-- Two assertions entailing each other are equal. -/
theorem sProp_eq_of3 {P Q : sProp 𝕄} (h₁ : P ⊢ Q) (h₂ : Q ⊢ P) : P = Q := BI.equiv_iff.mp ⟨h₁, h₂⟩

/-- A scoped buffer at some contents. -/
abbrev someAt3 (c : Dev nD) (b : Ref sig .tc) : sProp 𝕄 :=
  iprop(∃ f : Buf (Elt F) ((c : Thread nD τ).loc b), ((c : Thread nD τ).loc b) ↦{fullShare} f)

/-- What the region's invariant holds beside the accumulator and the body never touches: the other scoped buffers
    that are no staging buffer of this pipeline (the other regions' staging buffers and accumulators), each at some
    contents, and the generator register at some state. -/
def G3 (c : Dev nD) : sProp 𝕄 :=
  iprop(iprop(someAt3 (F := F) c cc0_stg0_0 ∗ someAt3 (F := F) c cc0_stg0_1 ∗ someAt3 (F := F) c cc0_stg1_0 ∗ someAt3 (F := F) c cc0_stg1_1 ∗ someAt3 (F := F) c cc1_stg0_0 ∗ someAt3 (F := F) c cc1_stg0_1 ∗ someAt3 (F := F) c cc1_stg1_0 ∗ someAt3 (F := F) c cc1_stg2_0 ∗ someAt3 (F := F) c cc1_scratch0 ∗ someAt3 (F := F) c cc2_stg0_0 ∗ someAt3 (F := F) c cc2_stg0_1 ∗ someAt3 (F := F) c cc2_stg1_0 ∗ someAt3 (F := F) c cc2_stg2_0 ∗ someAt3 (F := F) c cc2_scratch0 ∗ someAt3 (F := F) c cc4_stg0_0 ∗ someAt3 (F := F) c cc4_stg0_1 ∗ someAt3 (F := F) c cc4_stg1_0 ∗ someAt3 (F := F) c cc4_stg2_0 ∗ someAt3 (F := F) c cc4_scratch0) ∗ (∃ r, prngReg c r))

/-- The region's invariant with the accumulator as a memref owned at some contents, beside the rest: what the body
    obligation hands the run and takes back. -/
theorem PhiA3_eq (c : Dev nD) :
    (Pipeline.ΦA spec3 c : sProp 𝕄)
      = iprop(iprop((∃ d, owns (c : Thread nD τ) scM3_0 fullShare d)) ∗ G3 (F := F) c) := by
  unfold Pipeline.ΦA G3; rw [scopedRest3_eq]; simp only [scM3_0, owns_whole]
  refine sProp_eq_of3 ?_ ?_
  · iintro ⟨⟨A0, A1, A2, A3, A4, A5, A6, A7, A8, A9, A10, A11, A12, A13, HS, B0, B1, B2, B3, B4⟩, Hg⟩
    isplitl [HS]; · iexact HS
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [B0]; · iexact B0
    isplitl [B1]; · iexact B1
    isplitl [B2]; · iexact B2
    isplitl [B3]; · iexact B3
    iexact B4
  · iintro ⟨HS, ⟨A0, A1, A2, A3, A4, A5, A6, A7, A8, A9, A10, A11, A12, A13, B0, B1, B2, B3, B4⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [HS]; · iexact HS
    isplitl [B0]; · iexact B0
    isplitl [B1]; · iexact B1
    isplitl [B2]; · iexact B2
    isplitl [B3]; · iexact B3
    iexact B4

end Cert.Kernel.H

end
-- ==== Proof.KK.Reg3RunA.lean ====
import proofs.«164042_j22436909154350_2_alg».proof.Proof.KK.Reg3Runs

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    FIRST POINT (the first `scf.if` taken, the second not), WITH the proof that on whole staging memrefs — the inputs'
    at their contents `x0`, `x1`, the output's (no store: the window is idle and not written back there) at contents
    `xi2` handed back untouched, the accumulator at anything — the body runs to the continuation holding the inputs' as
    they were and the accumulator with its pieces written (the zero fill, then the sum): the printed function is its
    skeleton, which `sl_exec` runs, each `scf.if` decided by the case's hypotheses; the pieces are the witness the
    run finds. -/
noncomputable def kernelRun3_A (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond3_0 i) (hc1 : ¬cond3_1 i)
    (x0 : Vec F S256x8192 .f32) (x1 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__adjT_kernel i arg1 harg1 arg2 harg2 arg3 harg3 arg4 harg4) K } := by
  refine ⟨[], ?_, fun xi2 E K => ?run⟩
  case run =>
    simp only [cc3__adjT_kernel_eq_skeleton]; unfold cc3__adjT_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.H

end
-- ==== Proof.KK.Reg3RunB.lean ====
import proofs.«164042_j22436909154350_2_alg».proof.Proof.KK.Reg3RunA

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT A
    MIDDLE POINT (neither `scf.if` taken), WITH the proof that on whole staging memrefs — the inputs' at their contents
    `x0`, `x1`, the output's (no store: the window is idle and not written back there) at contents `xi2` handed back
    untouched, the accumulator at what the point before left (`xs0`) — the body runs to the continuation holding the
    inputs' as they were and the accumulator with its piece written (the sum): the printed function is its skeleton,
    which `sl_exec` runs, each `scf.if` decided by the case's hypotheses; the pieces are the witness the run finds. -/
noncomputable def kernelRun3_B (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : ¬cond3_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__adjT_kernel i arg1 harg1 arg2 harg2 arg3 harg3 arg4 harg4) K } := by
  refine ⟨[], ?_, fun xi2 E K => ?run⟩
  case run =>
    simp only [cc3__adjT_kernel_eq_skeleton]; unfold cc3__adjT_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.H

end
-- ==== Proof.KK.Reg3RunC.lean ====
import proofs.«164042_j22436909154350_2_alg».proof.Proof.KK.Reg3RunB

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    LAST POINT (the first `scf.if` not taken, the second taken), WITH the proof that on whole staging memrefs — the
    inputs' at their contents `x0`, `x1`, the output's at anything, the accumulator at what the point before left
    (`xs0`) — the body runs to the continuation holding the inputs' as they were, the accumulator with its piece written
    (the sum) and the output's buffer with its piece written (the sum plus the second input): the printed function is
    its skeleton, which `sl_exec` runs, each `scf.if` decided by the case's hypotheses; the pieces are the witness the
    run finds. -/
noncomputable def kernelRun3_C (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : cond3_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc3__adjT_kernel i arg1 harg1 arg2 harg2 arg3 harg3 arg4 harg4) K } := by
  refine ⟨?_, ?_, fun E K => ?run⟩
  case run =>
    simp only [cc3__adjT_kernel_eq_skeleton]; unfold cc3__adjT_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.H

end
-- ==== Proof.KK.Reg3.lean ====
import proofs.«164042_j22436909154350_2_alg».proof.Proof.KK.Reg3RunC

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- The first point stores nothing into output 2 (the window is idle there and not written back): no pieces — a
    placeholder (junk read back) that nothing consults, since at that point the window is neither written back nor
    read at the next point. -/
def out3_A_2 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond3_0 i) (hc1 : ¬cond3_1 i)
    (x0 : Vec F S256x8192 .f32) (x1 : Vec F S8192x66 .f32) : Vec F S8192x66 .f32 :=
  VO3_2.read (Elt F) (VO3_2.writes (Elt F) VO3_2.junk (kernelRun3_A c i arg1 harg1 arg2 harg2 arg3 harg3 arg4 harg4 hc0 hc1 x0 x1).1)

/-- The first point's pieces for the accumulator cover it: two whole-buffer pieces (the zero fill, the sum). -/
theorem scover3_A_0 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond3_0 i) (hc1 : ¬cond3_1 i)
    (x0 : Vec F S256x8192 .f32) (x1 : Vec F S8192x66 .f32) (y : S8192x66.Idx) :
    ∃ pc ∈ (kernelRun3_A c i arg1 harg1 arg2 harg2 arg3 harg3 arg4 harg4 hc0 hc1 x0 x1).2.1, y ∈ pc.1.set :=
  View.cover_of_tiledL (kernelRun3_A c i arg1 harg1 arg2 harg2 arg3 harg3 arg4 harg4 hc0 hc1 x0 x1).2.1 S8192x66.size (by sl_kernel_rfl) y

/-- What the first point leaves in the accumulator: its pieces read back over junk. -/
def sout3_A_0 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond3_0 i) (hc1 : ¬cond3_1 i)
    (x0 : Vec F S256x8192 .f32) (x1 : Vec F S8192x66 .f32) : Vec F S8192x66 .f32 :=
  VS3_0.read (Elt F) (VS3_0.writes (Elt F) VS3_0.junk (kernelRun3_A c i arg1 harg1 arg2 harg2 arg3 harg3 arg4 harg4 hc0 hc1 x0 x1).2.1)

/-- A middle point stores nothing into output 2 (the window is idle there and not written back): no pieces — a
    placeholder (junk read back) that nothing consults. -/
def out3_B_2 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : ¬cond3_1 i)
    (x0 : Vec F S256x8192 .f32) (x1 : Vec F S8192x66 .f32) (xs0 : Vec F S8192x66 .f32) : Vec F S8192x66 .f32 :=
  VO3_2.read (Elt F) (VO3_2.writes (Elt F) VO3_2.junk (kernelRun3_B c i arg1 harg1 arg2 harg2 arg3 harg3 arg4 harg4 hc0 hc1 x0 x1 xs0).1)

/-- A middle point's piece for the accumulator covers it: one whole-buffer piece (the sum). -/
theorem scover3_B_0 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : ¬cond3_1 i)
    (x0 : Vec F S256x8192 .f32) (x1 : Vec F S8192x66 .f32) (xs0 : Vec F S8192x66 .f32) (y : S8192x66.Idx) :
    ∃ pc ∈ (kernelRun3_B c i arg1 harg1 arg2 harg2 arg3 harg3 arg4 harg4 hc0 hc1 x0 x1 xs0).2.1, y ∈ pc.1.set :=
  View.cover_of_tiledL (kernelRun3_B c i arg1 harg1 arg2 harg2 arg3 harg3 arg4 harg4 hc0 hc1 x0 x1 xs0).2.1 S8192x66.size (by sl_kernel_rfl) y

/-- What a middle point leaves in the accumulator: its piece read back over junk. -/
def sout3_B_0 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : ¬cond3_1 i)
    (x0 : Vec F S256x8192 .f32) (x1 : Vec F S8192x66 .f32) (xs0 : Vec F S8192x66 .f32) : Vec F S8192x66 .f32 :=
  VS3_0.read (Elt F) (VS3_0.writes (Elt F) VS3_0.junk (kernelRun3_B c i arg1 harg1 arg2 harg2 arg3 harg3 arg4 harg4 hc0 hc1 x0 x1 xs0).2.1)

/-- The last point's piece for output 2 tiles its block (one whole-buffer store), so it covers it. -/
theorem cover3_C_2 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : cond3_1 i)
    (x0 : Vec F S256x8192 .f32) (x1 : Vec F S8192x66 .f32) (xs0 : Vec F S8192x66 .f32) (y : S8192x66.Idx) :
    ∃ pc ∈ (kernelRun3_C c i arg1 harg1 arg2 harg2 arg3 harg3 arg4 harg4 hc0 hc1 x0 x1 xs0).1, y ∈ pc.1.set :=
  View.cover_of_tiledL (kernelRun3_C c i arg1 harg1 arg2 harg2 arg3 harg3 arg4 harg4 hc0 hc1 x0 x1 xs0).1 S8192x66.size (by sl_kernel_rfl) y

/-- What the last point leaves in output 2's staging buffer: its piece read back over junk. -/
def out3_C_2 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : cond3_1 i)
    (x0 : Vec F S256x8192 .f32) (x1 : Vec F S8192x66 .f32) (xs0 : Vec F S8192x66 .f32) : Vec F S8192x66 .f32 :=
  VO3_2.read (Elt F) (VO3_2.writes (Elt F) VO3_2.junk (kernelRun3_C c i arg1 harg1 arg2 harg2 arg3 harg3 arg4 harg4 hc0 hc1 x0 x1 xs0).1)

/-- The last point's piece for the accumulator covers it: one whole-buffer piece (the sum). -/
theorem scover3_C_0 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : cond3_1 i)
    (x0 : Vec F S256x8192 .f32) (x1 : Vec F S8192x66 .f32) (xs0 : Vec F S8192x66 .f32) (y : S8192x66.Idx) :
    ∃ pc ∈ (kernelRun3_C c i arg1 harg1 arg2 harg2 arg3 harg3 arg4 harg4 hc0 hc1 x0 x1 xs0).2.1, y ∈ pc.1.set :=
  View.cover_of_tiledL (kernelRun3_C c i arg1 harg1 arg2 harg2 arg3 harg3 arg4 harg4 hc0 hc1 x0 x1 xs0).2.1 S8192x66.size (by sl_kernel_rfl) y

/-- What the last point leaves in the accumulator: its piece read back over junk. -/
def sout3_C_0 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : cond3_1 i)
    (x0 : Vec F S256x8192 .f32) (x1 : Vec F S8192x66 .f32) (xs0 : Vec F S8192x66 .f32) : Vec F S8192x66 .f32 :=
  VS3_0.read (Elt F) (VS3_0.writes (Elt F) VS3_0.junk (kernelRun3_C c i arg1 harg1 arg2 harg2 arg3 harg3 arg4 harg4 hc0 hc1 x0 x1 xs0).2.1)

/-! ## What the output and the accumulator hold after each point -/

/-- THE ACCUMULATION. What output 2's staging buffer and the accumulator hold after the body at position `n` (a pair:
    the output, then the accumulator): the case the closed forms select at `n`, run at the point's memrefs and input
    blocks, the accumulator entering at what this leaves at `n - 1`. An assignment of the conditions no point meets is
    no case (`False.elim`). -/
def outsAt3 (c : Dev nD) : (n : ℕ) → n < cfg3.N → Vec F S8192x66 .f32 × Vec F S8192x66 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 32 = 0 then
      if h1 : (n + 1) % 32 = 31 then
        False.elim (by have hN : n + 1 < 32 := lt_of_lt_of_eq hn (show cfg3.N = 32 from N_3); omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 32 = 31 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- `outsAt3` at the first point: that case's contents. -/
theorem outsAt3_A (c : Dev nD) (t : Fin cfg3.N) (h0 : t.val % 32 = 0) (h1 : ¬t.val % 32 = 31) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- `outsAt3` at a middle point: that case's contents, over what the point before left. -/
theorem outsAt3_B (c : Dev nD) (t : Fin cfg3.N) (h0 : ¬t.val % 32 = 0) (h1 : ¬t.val % 32 = 31) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at the last point: that case's contents, over what the point before left. -/
theorem outsAt3_C (c : Dev nD) (t : Fin cfg3.N) (h0 : ¬t.val % 32 = 0) (h1 : t.val % 32 = 31) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the accumulator at what the point before left in it (`outsAt3`'s second
    component), beside the rest. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2)) ∗ G3 (F := F) c)

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(owns (c : Thread nD τ) scM3_0 fullShare ((outsAt3 V c n hn).2)) ∗ G3 (F := F) c) := rfl

/-- Before a point that is not the first: the accumulator at what the point before left. -/
theorem PhiS3_pos (c : Dev nD) (n : ℕ) (h : n ≤ cfg3.N) (hz : n ≠ 0) :
    PhiS3 V c n h = iprop(iprop(owns (c : Thread nD τ) scM3_0 fullShare ((outsAt3 V c (n - 1) (by omega)).2)) ∗ G3 (F := F) c) := by
  cases n with
  | zero => exact absurd rfl hz
  | succ n => rfl

/-! ## The pipeline's proof data -/

/-- The proof data of pipeline 3 on core `c`: the arrays as the region finds them (`V`); after the body at point `t`
    each input's buffer at its block and the output's at `outsAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents (the proof data's definition projected). -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks (`before3_0`, `before3_1`); the closed forms say
    which case the point is in; so the run applies; the invariant hands the body the accumulator at what the point
    before left (at anything at the first point) and takes it back at this point's contents; the rest of the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val % 32 = 0
  · by_cases h1 : t.val % 32 = 31
    · exfalso; omega
    · rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨HS0, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover3_A_0 c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 32 = 31
    · rw [show (dat3 V c).leavesExact 2 t = owns (c : Thread nD τ) (ms3_2 t) fullShare ((dat3 V c).after 2 t) from by
        unfold Dat.leavesExact; rw [liveAt3_2_C t (fun h => h0 ((hcond3_0 t).mp h)) ((hcond3_1 t).mpr h1)], after3_2]
      rw [outsAt3_C V c t h0 h1]
      unfold out3_C_2 sout3_C_0; (try dsimp only)
      have hz : t.val ≠ 0 := by omega
      rw [PhiS3_castSucc V c t, PhiS3_pos V c _ _ hz]
      iintro ⟨⟨HS0, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover3_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
      rw [outsAt3_B V c t h0 h1]
      unfold sout3_B_0; (try dsimp only)
      have hz : t.val ≠ 0 := by omega
      rw [PhiS3_castSucc V c t, PhiS3_pos V c _ _ hz]
      iintro ⟨⟨HS0, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover3_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS0, Hg⟩
  isplitl [HS0]
  · iexists _; iexact HS0
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

end Cert.Kernel.H

end
-- ==== Proof.KK.Reg4Runs.lean ====
import proofs.«164042_j22436909154350_2_alg».proof.Proof.Gen.Kernel.Launch
import proofs.«164042_j22436909154350_2_alg».proof.Proof.Gen.Kernel.Skeleton
import proofs.«164042_j22436909154350_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 4 of @main: custom_call 4, `cc4__adjT_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s (`hA`) and whose body leaves the block in place (`hafter`): the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there (the first point) or not (every
    later point: the block index has not moved, and the body leaves the block in place). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first `scf.if` (the grid coordinate is 0), from the grid coordinates. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val % 32 = 0 :=
  (by decide +kernel : ∀ t : Fin grid4.N, cond4_0 (grid4.coords t) ↔ t.val % 32 = 0)

/-- The condition of the body's second `scf.if` (the grid coordinate is 31), from the grid coordinates. -/
abbrev cond4_1 (i : grid4.Coords) : Prop := k4_cond2 i = 1#1
/-- It holds at the last point only — decided over the grid. -/
theorem hcond4_1 : ∀ t : Fin cfg4.N, cond4_1 (grid4.coords t) ↔ t.val % 32 = 31 :=
  (by decide +kernel : ∀ t : Fin grid4.N, cond4_1 (grid4.coords t) ↔ t.val % 32 = 31)

/-! ## Where the windows are idle -/

/-- Windows 0 and 1 are never idle (inputs). -/
theorem liveAt4_0 : ∀ t : Fin cfg4.N, cfg4.idle 0 (grid4.coords t) = false := by decide +kernel
theorem liveAt4_1 : ∀ t : Fin cfg4.N, cfg4.idle 1 (grid4.coords t) = false := by decide +kernel
/-- At the first point output 2 is idle: the case stores nothing into it. -/
theorem idleAt4_2_A : ∀ t : Fin cfg4.N, cond4_0 (grid4.coords t) → ¬cond4_1 (grid4.coords t) → cfg4.idle 2 (grid4.coords t) = true := by decide +kernel
/-- At the first point the pipeline does not write output 2's block back. -/
theorem noFlush4_2_A : ∀ t : Fin cfg4.N, cond4_0 (grid4.coords t) → ¬cond4_1 (grid4.coords t) → (cfg4.win 2).flush t = false := by decide +kernel
/-- At the middle points output 2 is idle: the case stores nothing into it. -/
theorem idleAt4_2_B : ∀ t : Fin cfg4.N, ¬cond4_0 (grid4.coords t) → ¬cond4_1 (grid4.coords t) → cfg4.idle 2 (grid4.coords t) = true := by decide +kernel
/-- At the middle points the pipeline does not write output 2's block back. -/
theorem noFlush4_2_B : ∀ t : Fin cfg4.N, ¬cond4_0 (grid4.coords t) → ¬cond4_1 (grid4.coords t) → (cfg4.win 2).flush t = false := by decide +kernel
/-- At the last point output 2 is live: the case stores into it. -/
theorem liveAt4_2_C : ∀ t : Fin cfg4.N, ¬cond4_0 (grid4.coords t) → cond4_1 (grid4.coords t) → cfg4.idle 2 (grid4.coords t) = false := by decide +kernel

/-! ## The kernel body on any staging memrefs -/

/-- The staging buffer of output window 2, through which its contents are stated. -/
abbrev VO4_2 : View sig .tc .vmem S8192x66 .f32 := (Memref.whole cc4_stg2_0 : Memref sig .tc .vmem S8192x66 .f32).view
/-- Each window's current staging memref at point `t`, spelled as the pipeline passes it (`bodyAt4`), and its wholeness. -/
abbrev ms4_0 (t : Fin cfg4.N) : Memref sig .tc .vmem S256x8192 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x66 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S8192x66 .f32 := win4_2.stage (cfg4.slots t 2)
abbrev hs4_2 (t : Fin cfg4.N) : (ms4_2 t).IsWhole := hstage4_2 ((cfg4.slots t 2).cast nbuf4_2)
/-- The scratch operand: a whole scoped buffer of the kernel's own, passed beside the windows. -/
abbrev scM4_0 : Memref sig .tc .vmem S8192x66 .f32 := Memref.whole cc4_scratch0
/-- The scratch the kernel carries between points (the accumulator), as a view: what it holds is stated through it. -/
abbrev VS4_0 : View sig .tc .vmem S8192x66 .f32 := scM4_0.view

/-- Two assertions entailing each other are equal. -/
theorem sProp_eq_of4 {P Q : sProp 𝕄} (h₁ : P ⊢ Q) (h₂ : Q ⊢ P) : P = Q := BI.equiv_iff.mp ⟨h₁, h₂⟩

/-- A scoped buffer at some contents. -/
abbrev someAt4 (c : Dev nD) (b : Ref sig .tc) : sProp 𝕄 :=
  iprop(∃ f : Buf (Elt F) ((c : Thread nD τ).loc b), ((c : Thread nD τ).loc b) ↦{fullShare} f)

/-- What the region's invariant holds beside the accumulator and the body never touches: the other scoped buffers
    that are no staging buffer of this pipeline (the other regions' staging buffers and accumulators), each at some
    contents, and the generator register at some state. -/
def G4 (c : Dev nD) : sProp 𝕄 :=
  iprop(iprop(someAt4 (F := F) c cc0_stg0_0 ∗ someAt4 (F := F) c cc0_stg0_1 ∗ someAt4 (F := F) c cc0_stg1_0 ∗ someAt4 (F := F) c cc0_stg1_1 ∗ someAt4 (F := F) c cc1_stg0_0 ∗ someAt4 (F := F) c cc1_stg0_1 ∗ someAt4 (F := F) c cc1_stg1_0 ∗ someAt4 (F := F) c cc1_stg2_0 ∗ someAt4 (F := F) c cc1_scratch0 ∗ someAt4 (F := F) c cc2_stg0_0 ∗ someAt4 (F := F) c cc2_stg0_1 ∗ someAt4 (F := F) c cc2_stg1_0 ∗ someAt4 (F := F) c cc2_stg2_0 ∗ someAt4 (F := F) c cc2_scratch0 ∗ someAt4 (F := F) c cc3_stg0_0 ∗ someAt4 (F := F) c cc3_stg0_1 ∗ someAt4 (F := F) c cc3_stg1_0 ∗ someAt4 (F := F) c cc3_stg2_0 ∗ someAt4 (F := F) c cc3_scratch0) ∗ (∃ r, prngReg c r))

/-- The region's invariant with the accumulator as a memref owned at some contents, beside the rest: what the body
    obligation hands the run and takes back. -/
theorem PhiA4_eq (c : Dev nD) :
    (Pipeline.ΦA spec4 c : sProp 𝕄)
      = iprop(iprop((∃ d, owns (c : Thread nD τ) scM4_0 fullShare d)) ∗ G4 (F := F) c) := by
  unfold Pipeline.ΦA G4; rw [scopedRest4_eq]; simp only [scM4_0, owns_whole]
  refine sProp_eq_of4 ?_ ?_
  · iintro ⟨⟨A0, A1, A2, A3, A4, A5, A6, A7, A8, A9, A10, A11, A12, A13, A14, A15, A16, A17, A18, HS⟩, Hg⟩
    isplitl [HS]; · iexact HS
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    iexact A18
  · iintro ⟨HS, ⟨A0, A1, A2, A3, A4, A5, A6, A7, A8, A9, A10, A11, A12, A13, A14, A15, A16, A17, A18⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    iexact HS

end Cert.Kernel.H

end
-- ==== Proof.KK.Reg4RunA.lean ====
import proofs.«164042_j22436909154350_2_alg».proof.Proof.KK.Reg4Runs

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    FIRST POINT (the first `scf.if` taken, the second not), WITH the proof that on whole staging memrefs — the inputs'
    at their contents `x0`, `x1`, the output's (no store: the window is idle and not written back there) at contents
    `xi2` handed back untouched, the accumulator at anything — the body runs to the continuation holding the inputs' as
    they were and the accumulator with its pieces written (the zero fill, then the sum): the printed function is its
    skeleton, which `sl_exec` runs, each `scf.if` decided by the case's hypotheses; the pieces are the witness the
    run finds. -/
noncomputable def kernelRun4_A (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond4_0 i) (hc1 : ¬cond4_1 i)
    (x0 : Vec F S256x8192 .f32) (x1 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__adjT_kernel i arg1 harg1 arg2 harg2 arg3 harg3 arg4 harg4) K } := by
  refine ⟨[], ?_, fun xi2 E K => ?run⟩
  case run =>
    simp only [cc4__adjT_kernel_eq_skeleton]; unfold cc4__adjT_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.H

end
-- ==== Proof.KK.Reg4RunB.lean ====
import proofs.«164042_j22436909154350_2_alg».proof.Proof.KK.Reg4RunA

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT A
    MIDDLE POINT (neither `scf.if` taken), WITH the proof that on whole staging memrefs — the inputs' at their contents
    `x0`, `x1`, the output's (no store: the window is idle and not written back there) at contents `xi2` handed back
    untouched, the accumulator at what the point before left (`xs0`) — the body runs to the continuation holding the
    inputs' as they were and the accumulator with its piece written (the sum): the printed function is its skeleton,
    which `sl_exec` runs, each `scf.if` decided by the case's hypotheses; the pieces are the witness the run finds. -/
noncomputable def kernelRun4_B (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : ¬cond4_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__adjT_kernel i arg1 harg1 arg2 harg2 arg3 harg3 arg4 harg4) K } := by
  refine ⟨[], ?_, fun xi2 E K => ?run⟩
  case run =>
    simp only [cc4__adjT_kernel_eq_skeleton]; unfold cc4__adjT_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.H

end
-- ==== Proof.KK.Reg4RunC.lean ====
import proofs.«164042_j22436909154350_2_alg».proof.Proof.KK.Reg4RunB

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    LAST POINT (the first `scf.if` not taken, the second taken), WITH the proof that on whole staging memrefs — the
    inputs' at their contents `x0`, `x1`, the output's at anything, the accumulator at what the point before left
    (`xs0`) — the body runs to the continuation holding the inputs' as they were, the accumulator with its piece written
    (the sum) and the output's buffer with its piece written (the sum plus the second input): the printed function is
    its skeleton, which `sl_exec` runs, each `scf.if` decided by the case's hypotheses; the pieces are the witness the
    run finds. -/
noncomputable def kernelRun4_C (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : cond4_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc4__adjT_kernel i arg1 harg1 arg2 harg2 arg3 harg3 arg4 harg4) K } := by
  refine ⟨?_, ?_, fun E K => ?run⟩
  case run =>
    simp only [cc4__adjT_kernel_eq_skeleton]; unfold cc4__adjT_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.H

end
-- ==== Proof.KK.Reg4.lean ====
import proofs.«164042_j22436909154350_2_alg».proof.Proof.KK.Reg4RunC

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- The first point stores nothing into output 2 (the window is idle there and not written back): no pieces — a
    placeholder (junk read back) that nothing consults, since at that point the window is neither written back nor
    read at the next point. -/
def out4_A_2 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond4_0 i) (hc1 : ¬cond4_1 i)
    (x0 : Vec F S256x8192 .f32) (x1 : Vec F S8192x66 .f32) : Vec F S8192x66 .f32 :=
  VO4_2.read (Elt F) (VO4_2.writes (Elt F) VO4_2.junk (kernelRun4_A c i arg1 harg1 arg2 harg2 arg3 harg3 arg4 harg4 hc0 hc1 x0 x1).1)

/-- The first point's pieces for the accumulator cover it: two whole-buffer pieces (the zero fill, the sum). -/
theorem scover4_A_0 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond4_0 i) (hc1 : ¬cond4_1 i)
    (x0 : Vec F S256x8192 .f32) (x1 : Vec F S8192x66 .f32) (y : S8192x66.Idx) :
    ∃ pc ∈ (kernelRun4_A c i arg1 harg1 arg2 harg2 arg3 harg3 arg4 harg4 hc0 hc1 x0 x1).2.1, y ∈ pc.1.set :=
  View.cover_of_tiledL (kernelRun4_A c i arg1 harg1 arg2 harg2 arg3 harg3 arg4 harg4 hc0 hc1 x0 x1).2.1 S8192x66.size (by sl_kernel_rfl) y

/-- What the first point leaves in the accumulator: its pieces read back over junk. -/
def sout4_A_0 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond4_0 i) (hc1 : ¬cond4_1 i)
    (x0 : Vec F S256x8192 .f32) (x1 : Vec F S8192x66 .f32) : Vec F S8192x66 .f32 :=
  VS4_0.read (Elt F) (VS4_0.writes (Elt F) VS4_0.junk (kernelRun4_A c i arg1 harg1 arg2 harg2 arg3 harg3 arg4 harg4 hc0 hc1 x0 x1).2.1)

/-- A middle point stores nothing into output 2 (the window is idle there and not written back): no pieces — a
    placeholder (junk read back) that nothing consults. -/
def out4_B_2 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : ¬cond4_1 i)
    (x0 : Vec F S256x8192 .f32) (x1 : Vec F S8192x66 .f32) (xs0 : Vec F S8192x66 .f32) : Vec F S8192x66 .f32 :=
  VO4_2.read (Elt F) (VO4_2.writes (Elt F) VO4_2.junk (kernelRun4_B c i arg1 harg1 arg2 harg2 arg3 harg3 arg4 harg4 hc0 hc1 x0 x1 xs0).1)

/-- A middle point's piece for the accumulator covers it: one whole-buffer piece (the sum). -/
theorem scover4_B_0 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : ¬cond4_1 i)
    (x0 : Vec F S256x8192 .f32) (x1 : Vec F S8192x66 .f32) (xs0 : Vec F S8192x66 .f32) (y : S8192x66.Idx) :
    ∃ pc ∈ (kernelRun4_B c i arg1 harg1 arg2 harg2 arg3 harg3 arg4 harg4 hc0 hc1 x0 x1 xs0).2.1, y ∈ pc.1.set :=
  View.cover_of_tiledL (kernelRun4_B c i arg1 harg1 arg2 harg2 arg3 harg3 arg4 harg4 hc0 hc1 x0 x1 xs0).2.1 S8192x66.size (by sl_kernel_rfl) y

/-- What a middle point leaves in the accumulator: its piece read back over junk. -/
def sout4_B_0 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : ¬cond4_1 i)
    (x0 : Vec F S256x8192 .f32) (x1 : Vec F S8192x66 .f32) (xs0 : Vec F S8192x66 .f32) : Vec F S8192x66 .f32 :=
  VS4_0.read (Elt F) (VS4_0.writes (Elt F) VS4_0.junk (kernelRun4_B c i arg1 harg1 arg2 harg2 arg3 harg3 arg4 harg4 hc0 hc1 x0 x1 xs0).2.1)

/-- The last point's piece for output 2 tiles its block (one whole-buffer store), so it covers it. -/
theorem cover4_C_2 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : cond4_1 i)
    (x0 : Vec F S256x8192 .f32) (x1 : Vec F S8192x66 .f32) (xs0 : Vec F S8192x66 .f32) (y : S8192x66.Idx) :
    ∃ pc ∈ (kernelRun4_C c i arg1 harg1 arg2 harg2 arg3 harg3 arg4 harg4 hc0 hc1 x0 x1 xs0).1, y ∈ pc.1.set :=
  View.cover_of_tiledL (kernelRun4_C c i arg1 harg1 arg2 harg2 arg3 harg3 arg4 harg4 hc0 hc1 x0 x1 xs0).1 S8192x66.size (by sl_kernel_rfl) y

/-- What the last point leaves in output 2's staging buffer: its piece read back over junk. -/
def out4_C_2 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : cond4_1 i)
    (x0 : Vec F S256x8192 .f32) (x1 : Vec F S8192x66 .f32) (xs0 : Vec F S8192x66 .f32) : Vec F S8192x66 .f32 :=
  VO4_2.read (Elt F) (VO4_2.writes (Elt F) VO4_2.junk (kernelRun4_C c i arg1 harg1 arg2 harg2 arg3 harg3 arg4 harg4 hc0 hc1 x0 x1 xs0).1)

/-- The last point's piece for the accumulator covers it: one whole-buffer piece (the sum). -/
theorem scover4_C_0 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : cond4_1 i)
    (x0 : Vec F S256x8192 .f32) (x1 : Vec F S8192x66 .f32) (xs0 : Vec F S8192x66 .f32) (y : S8192x66.Idx) :
    ∃ pc ∈ (kernelRun4_C c i arg1 harg1 arg2 harg2 arg3 harg3 arg4 harg4 hc0 hc1 x0 x1 xs0).2.1, y ∈ pc.1.set :=
  View.cover_of_tiledL (kernelRun4_C c i arg1 harg1 arg2 harg2 arg3 harg3 arg4 harg4 hc0 hc1 x0 x1 xs0).2.1 S8192x66.size (by sl_kernel_rfl) y

/-- What the last point leaves in the accumulator: its piece read back over junk. -/
def sout4_C_0 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : cond4_1 i)
    (x0 : Vec F S256x8192 .f32) (x1 : Vec F S8192x66 .f32) (xs0 : Vec F S8192x66 .f32) : Vec F S8192x66 .f32 :=
  VS4_0.read (Elt F) (VS4_0.writes (Elt F) VS4_0.junk (kernelRun4_C c i arg1 harg1 arg2 harg2 arg3 harg3 arg4 harg4 hc0 hc1 x0 x1 xs0).2.1)

/-! ## What the output and the accumulator hold after each point -/

/-- THE ACCUMULATION. What output 2's staging buffer and the accumulator hold after the body at position `n` (a pair:
    the output, then the accumulator): the case the closed forms select at `n`, run at the point's memrefs and input
    blocks, the accumulator entering at what this leaves at `n - 1`. An assignment of the conditions no point meets is
    no case (`False.elim`). -/
def outsAt4 (c : Dev nD) : (n : ℕ) → n < cfg4.N → Vec F S8192x66 .f32 × Vec F S8192x66 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 32 = 0 then
      if h1 : (n + 1) % 32 = 31 then
        False.elim (by have hN : n + 1 < 32 := lt_of_lt_of_eq hn (show cfg4.N = 32 from N_4); omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 32 = 31 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at the first point: that case's contents. -/
theorem outsAt4_A (c : Dev nD) (t : Fin cfg4.N) (h0 : t.val % 32 = 0) (h1 : ¬t.val % 32 = 31) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a middle point: that case's contents, over what the point before left. -/
theorem outsAt4_B (c : Dev nD) (t : Fin cfg4.N) (h0 : ¬t.val % 32 = 0) (h1 : ¬t.val % 32 = 31) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at the last point: that case's contents, over what the point before left. -/
theorem outsAt4_C (c : Dev nD) (t : Fin cfg4.N) (h0 : ¬t.val % 32 = 0) (h1 : t.val % 32 = 31) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the accumulator at what the point before left in it (`outsAt4`'s second
    component), beside the rest. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)) ∗ G4 (F := F) c)

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(owns (c : Thread nD τ) scM4_0 fullShare ((outsAt4 V c n hn).2)) ∗ G4 (F := F) c) := rfl

/-- Before a point that is not the first: the accumulator at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2)) ∗ G4 (F := F) c) := by
  cases n with
  | zero => exact absurd rfl hz
  | succ n => rfl

/-! ## The pipeline's proof data -/

/-- The proof data of pipeline 4 on core `c`: the arrays as the region finds them (`V`); after the body at point `t`
    each input's buffer at its block and the output's at `outsAt4`'s first component; the invariant `PhiS4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents (the proof data's definition projected). -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks (`before4_0`, `before4_1`); the closed forms say
    which case the point is in; so the run applies; the invariant hands the body the accumulator at what the point
    before left (at anything at the first point) and takes it back at this point's contents; the rest of the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 32 = 0
  · by_cases h1 : t.val % 32 = 31
    · exfalso; omega
    · rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨HS0, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover4_A_0 c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 32 = 31
    · rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      have hz : t.val ≠ 0 := by omega
      rw [PhiS4_castSucc V c t, PhiS4_pos V c _ _ hz]
      iintro ⟨⟨HS0, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover4_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      have hz : t.val ≠ 0 := by omega
      rw [PhiS4_castSucc V c t, PhiS4_pos V c _ _ hz]
      iintro ⟨⟨HS0, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover4_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨HS0, Hg⟩
  isplitl [HS0]
  · iexists _; iexact HS0
  iexact Hg

/-- The same after the last point. -/
theorem hout4 (c : Dev nD) : (dat4 V c).Φ (Fin.last cfg4.N) ⊢ Pipeline.ΦA spec4 c :=
  Phi_out4 V c _ (by rw [Fin.val_last]; have : cfg4.N = 32 := N_4; omega)

end Cert.Kernel.H

end
-- ==== Proof.KK.Run.lean ====
/-
  The run of the whole program at any float instance: its eleven items in order — six stretches of host operations
  and five kernel regions — from the launch memory to the return.

  Between two items every unscoped buffer of the TensorCore holds a known array: `W0` is the launch memory; a host
  stretch replaces the contents by the fold of its operations over them; a region replaces the arrays of its windows by
  what its write-backs leave (the inputs as entered, the output at the fold of the blocks flushed) and keeps every other
  buffer. `W11` is the contents at the return: the program's result and its argument arrays are read off it.
-/
import proofs.«164042_j22436909154350_2_alg».proof.Proof.KK.Reg0
import proofs.«164042_j22436909154350_2_alg».proof.Proof.KK.Reg1
import proofs.«164042_j22436909154350_2_alg».proof.Proof.KK.Reg2
import proofs.«164042_j22436909154350_2_alg».proof.Proof.KK.Reg3
import proofs.«164042_j22436909154350_2_alg».proof.Proof.KK.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The buffers at launch. -/
abbrev W0 : Dev nD → Valuation τ sig (Elt F) := fun c b => (s₀ m ρ).mem ((c : Dev nD), b)

/-- After host stretch 0: region 0's entry. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After host stretch 1: region 1's entry. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After host stretch 2: region 2's entry. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its windows' arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After host stretch 3: region 3's entry. -/
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
/-- At region 3's exit: its windows' arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-- After host stretch 4: region 4's entry. -/
abbrev W9 : Dev nD → Valuation τ sig (Elt F) := fun c => StableHlo.after hostOps4 (W8 m ρ c)
abbrev U9 : (c : Dev nD) → (b : Ref sig .tc) → Buf (Elt F) ((c : Thread nD τ).loc b) := fun c b => W9 m ρ c b
/-- At region 4's exit: its windows' arrays at what the pipeline leaves, every other buffer as entered. -/
def W10 (c : Dev nD) : Valuation τ sig (Elt F) :=
  Pipeline.withArrays spec4 c (W9 m ρ c) fun w => (dat4 (U9 m ρ) c).arrAt w cfg4.N
theorem W10_arr (c : Dev nD) (w : Fin cfg4.W) :
    W10 m ρ c (Proc.devRef .tc (Pipeline.arrRef spec4 w)) = (dat4 (U9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev U10 : (c : Dev nD) → (b : Ref sig .tc) → Buf (Elt F) ((c : Thread nD τ).loc b) := fun c b => W10 m ρ c b
theorem hF4 (c : Dev nD) (w : Fin cfg4.W) : (dat4 (U9 m ρ) c).arrAt w cfg4.N = U10 m ρ c (Pipeline.arrRef spec4 w) :=
  (W10_arr m ρ c w).symm
theorem hrest4 (c : Dev nD) : ∀ b, b ∉ Finset.univ.image (Pipeline.arrRef spec4) → U10 m ρ c b = U9 m ρ c b :=
  fun b hb => W10_of_ne m ρ c b fun w e => hb (Finset.mem_image.mpr ⟨w, Finset.mem_univ _, e⟩)

/-- After the last host stretch: the contents at the return. -/
abbrev W11 : Dev nD → Valuation τ sig (Elt F) := fun c => StableHlo.after hostOps5 (W10 m ρ c)

/-! ## The proof data family and the thread state -/

/-- No pipeline has a prefetched table. -/
abbrev admH : (p : Fin 5) → (pcfgs (F := F) p).Adm := fun p => (cfgs p).toPCfg_adm
/-- Every pipeline's proof data, each at its region's entry contents. -/
def pd : (p : Fin 5) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
/-- No core owes another anything: no level is assigned. -/
abbrev Lz : GSem nD τ sig → Finset Unit := fun _ => ∅
abbrev lvz : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps4_fresh' : (hostOps4 : List (HloOp τ sig (Elt F))).Forall fun op => op.fresh = ∅ := by
  simp only [List.Forall]; repeat' constructor
theorem hostOps5_fresh' : (hostOps5 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the return's contents, the generator register. -/
abbrev Tn (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0: entered from every unscoped buffer at `W1`, left at `W2`. Its arrays are split out of the unscoped
    buffers and put back at the exit contents; the generator register goes into the invariant and comes out; nothing is owed. -/
def reg0 : Pipeline.RegionSeg (pcfgs (F := F)) admH (pd m ρ) () defs₀ Variants.none Lz lvz 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lz lvz 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pd m ρ) launch0.win launch0.arr_whole c
      ((pd m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pd m ρ) ((pd m ρ 0 c).share_full fun _ => rfl)
      (U1 m ρ c) (U2 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the unscoped
    buffers and put back at the exit contents; the generator register goes into the invariant and comes out; nothing is owed. -/
def reg1 : Pipeline.RegionSeg (pcfgs (F := F)) admH (pd m ρ) () defs₀ Variants.none Lz lvz 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lz lvz 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admH (pd m ρ) launch1.win launch1.arr_whole c
      ((pd m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pd m ρ 1 c).Φ 0 := hin1 (U3 m ρ) c
    unfold Pipeline.ΦA at h
    iintro ⟨Hp, -, Hr⟩
    iapply h
    isplitl [Hr]; · iexact Hr
    iexact Hp
  hout c := by
    rw [Pipeline.ownSems0_none]
    have h : (pd m ρ 1 c).Φ (Fin.last _) ⊢ Pipeline.ΦA spec1 c := hout1 (U3 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pd m ρ) ((pd m ρ 1 c).share_full fun _ => rfl)
      (U3 m ρ c) (U4 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. Its arrays are split out of the unscoped
    buffers and put back at the exit contents; the generator register goes into the invariant and comes out; nothing is owed. -/
def reg2 : Pipeline.RegionSeg (pcfgs (F := F)) admH (pd m ρ) () defs₀ Variants.none Lz lvz 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lz lvz 2 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) admH (pd m ρ) launch2.win launch2.arr_whole c
      ((pd m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pd m ρ 2 c).Φ 0 := hin2 (U5 m ρ) c
    unfold Pipeline.ΦA at h
    iintro ⟨Hp, -, Hr⟩
    iapply h
    isplitl [Hr]; · iexact Hr
    iexact Hp
  hout c := by
    rw [Pipeline.ownSems0_none]
    have h : (pd m ρ 2 c).Φ (Fin.last _) ⊢ Pipeline.ΦA spec2 c := hout2 (U5 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pd m ρ) ((pd m ρ 2 c).share_full fun _ => rfl)
      (U5 m ρ c) (U6 m ρ c) ((pd m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. Its arrays are split out of the unscoped
    buffers and put back at the exit contents; the generator register goes into the invariant and comes out; nothing is owed. -/
def reg3 : Pipeline.RegionSeg (pcfgs (F := F)) admH (pd m ρ) () defs₀ Variants.none Lz lvz 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ Lz lvz 3 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) admH (pd m ρ) launch3.win launch3.arr_whole c
      ((pd m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec3 c ⊢ (pd m ρ 3 c).Φ 0 := hin3 (U7 m ρ) c
    unfold Pipeline.ΦA at h
    iintro ⟨Hp, -, Hr⟩
    iapply h
    isplitl [Hr]; · iexact Hr
    iexact Hp
  hout c := by
    rw [Pipeline.ownSems0_none]
    have h : (pd m ρ 3 c).Φ (Fin.last _) ⊢ Pipeline.ΦA spec3 c := hout3 (U7 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pd m ρ) ((pd m ρ 3 c).share_full fun _ => rfl)
      (U7 m ρ c) (U8 m ρ c) ((pd m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W9`, left at `W10`. Its arrays are split out of the unscoped
    buffers and put back at the exit contents; the generator register goes into the invariant and comes out; nothing is owed. -/
def reg4 : Pipeline.RegionSeg (pcfgs (F := F)) admH (pd m ρ) () defs₀ Variants.none Lz lvz 4 where
  win := launch4.win.to₀
  block_pos := launch4.block_pos
  stage_whole := launch4.stage_whole
  K := PEmpty
  osem k := k.elim
  ho := Pipeline.OwnSemFacts.none _
  hbody c := (body_obligation4 (U9 m ρ) c).loose
  hwaits := Pipeline.hwaits_of_owed_zero _ _ _ _ Lz lvz 4 fun _ _ => rfl
  pre c := iprop(StableHlo.held (c : Thread nD τ) (Pipeline.ucRefs τ sig) (W9 m ρ c) ∗ Rr c)
  post c := iprop(StableHlo.held (c : Thread nD τ) (Pipeline.ucRefs τ sig) (W10 m ρ c) ∗ Rr c)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) admH (pd m ρ) launch4.win launch4.arr_whole c
      ((pd m ρ 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec4 c ⊢ (pd m ρ 4 c).Φ 0 := hin4 (U9 m ρ) c
    unfold Pipeline.ΦA at h
    iintro ⟨Hp, -, Hr⟩
    iapply h
    isplitl [Hr]; · iexact Hr
    iexact Hp
  hout c := by
    rw [Pipeline.ownSems0_none]
    have h : (pd m ρ 4 c).Φ (Fin.last _) ⊢ Pipeline.ΦA spec4 c := hout4 (U9 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pd m ρ) ((pd m ρ 4 c).share_full fun _ => rfl)
      (U9 m ρ c) (U10 m ρ c) ((pd m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The eleven items in order. -/
abbrev sgs : List (Pipeline.Seg (pcfgs (F := F)) admH (pd m ρ) () defs₀ Variants.none Lz lvz) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ),
    .host (hseg hostOps3 hostOps3_sub hostOps3_fresh' (W6 m ρ)),
    .region (reg3 m ρ),
    .host (hseg hostOps4 hostOps4_sub hostOps4_fresh' (W8 m ρ)),
    .region (reg4 m ρ),
    .host (hseg hostOps5 hostOps5_sub hostOps5_fresh' (W10 m ρ)) ]
/-- The program IS the run of the segments. -/
theorem main_run (c : Dev nD) : main (F := F) c = Pipeline.Seg.run (sgs m ρ) := (main_chain c).trans (by chain_rfl)

set_option backward.isDefEq.respectTransparency.types false in
/-- From any memory with zero counters every weakly fair execution of the program terminates, nothing faulting, and in
    every final state each unscoped buffer of each TensorCore holds the return's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) admH (pd m ρ) () cellOf_inj emb₁ defs₀ Variants.none Lz lvz m ρ main (sgs m ρ)
    (fun c Q => by rw [main_run m ρ c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tn m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ Rr c) ⊢ _
        iintro ⟨Hh, Hp, HO⟩
        isplitl [Hh Hp]
        · isplitl [Hh]; · iexact Hh
          iexact Hp
        iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.Kernel.H

end
-- ==== Proof.KK.Args.lean ====
/-
  The argument arrays at the return are the launch contents, and the frame of the program at any float instance.

  No host operation writes an argument array, and a region either does not touch it or stages it through an input
  window, whose array the pipeline leaves as entered; so the contents at the return, read at an argument, walk back
  item by item to the launch memory.
-/
import proofs.«164042_j22436909154350_2_alg».proof.Proof.KK.Run
import proofs.«164042_j22436909154350_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H          -- the hand-written part lives in its own namespace (the generated modules own Cert.Kernel.Gen)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` at the return is its launch contents. -/
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := StableHlo.after_of_writes_sub hostOps5 _ hostOps5_writes (by decide : main_arg0 ∉ hostOps5_W)
    _ = W9 m ρ c (Proc.devRef .tc main_arg0) := W10_of_ne m ρ c main_arg0 (by decide)
    _ = W8 m ρ c (Proc.devRef .tc main_arg0) := StableHlo.after_of_writes_sub hostOps4 _ hostOps4_writes (by decide : main_arg0 ∉ hostOps4_W)
    _ = W7 m ρ c (Proc.devRef .tc main_arg0) := W8_of_ne m ρ c main_arg0 (by decide)
    _ = W6 m ρ c (Proc.devRef .tc main_arg0) := StableHlo.after_of_writes_sub hostOps3 _ hostOps3_writes (by decide : main_arg0 ∉ hostOps3_W)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

/-- `main_arg1` at the return is its launch contents. -/
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := StableHlo.after_of_writes_sub hostOps5 _ hostOps5_writes (by decide : main_arg1 ∉ hostOps5_W)
    _ = W9 m ρ c (Proc.devRef .tc main_arg1) := W10_of_ne m ρ c main_arg1 (by decide)
    _ = W8 m ρ c (Proc.devRef .tc main_arg1) := StableHlo.after_of_writes_sub hostOps4 _ hostOps4_writes (by decide : main_arg1 ∉ hostOps4_W)
    _ = W7 m ρ c (Proc.devRef .tc main_arg1) := W8_of_ne m ρ c main_arg1 (by decide)
    _ = W6 m ρ c (Proc.devRef .tc main_arg1) := StableHlo.after_of_writes_sub hostOps3 _ hostOps3_writes (by decide : main_arg1 ∉ hostOps3_W)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-- `main_arg2` at the return is its launch contents. -/
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := StableHlo.after_of_writes_sub hostOps5 _ hostOps5_writes (by decide : main_arg2 ∉ hostOps5_W)
    _ = W9 m ρ c (Proc.devRef .tc main_arg2) := (W10_arr m ρ c 0).trans (((dat4 (U9 m ρ) c).arrAt_in 0 rfl _).trans (A_eq4 (U9 m ρ) c 0))
    _ = W8 m ρ c (Proc.devRef .tc main_arg2) := StableHlo.after_of_writes_sub hostOps4 _ hostOps4_writes (by decide : main_arg2 ∉ hostOps4_W)
    _ = W7 m ρ c (Proc.devRef .tc main_arg2) := (W8_arr m ρ c 0).trans (((dat3 (U7 m ρ) c).arrAt_in 0 rfl _).trans (A_eq3 (U7 m ρ) c 0))
    _ = W6 m ρ c (Proc.devRef .tc main_arg2) := StableHlo.after_of_writes_sub hostOps3 _ hostOps3_writes (by decide : main_arg2 ∉ hostOps3_W)
    _ = W5 m ρ c (Proc.devRef .tc main_arg2) := (W6_arr m ρ c 0).trans (((dat2 (U5 m ρ) c).arrAt_in 0 rfl _).trans (A_eq2 (U5 m ρ) c 0))
    _ = W4 m ρ c (Proc.devRef .tc main_arg2) := StableHlo.after_of_writes_sub hostOps2 _ hostOps2_writes (by decide : main_arg2 ∉ hostOps2_W)
    _ = W3 m ρ c (Proc.devRef .tc main_arg2) := (W4_arr m ρ c 0).trans (((dat1 (U3 m ρ) c).arrAt_in 0 rfl _).trans (A_eq1 (U3 m ρ) c 0))
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 0).trans (((dat0 (U1 m ρ) c).arrAt_in 0 rfl _).trans (A_eq0 (U1 m ρ) c 0))
    _ = W0 m ρ c (Proc.devRef .tc main_arg2) := StableHlo.after_of_writes_sub hostOps0 _ hostOps0_writes (by decide : main_arg2 ∉ hostOps0_W)
    _ = m ((c : Thread nD τ).loc main_arg2) := rfl

/-- `main_arg3` at the return is its launch contents. -/
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_writes_sub hostOps5 _ hostOps5_writes (by decide : main_arg3 ∉ hostOps5_W)
    _ = W9 m ρ c (Proc.devRef .tc main_arg3) := W10_of_ne m ρ c main_arg3 (by decide)
    _ = W8 m ρ c (Proc.devRef .tc main_arg3) := StableHlo.after_of_writes_sub hostOps4 _ hostOps4_writes (by decide : main_arg3 ∉ hostOps4_W)
    _ = W7 m ρ c (Proc.devRef .tc main_arg3) := W8_of_ne m ρ c main_arg3 (by decide)
    _ = W6 m ρ c (Proc.devRef .tc main_arg3) := StableHlo.after_of_writes_sub hostOps3 _ hostOps3_writes (by decide : main_arg3 ∉ hostOps3_W)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

/-- `main_arg4` at the return is its launch contents. -/
theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := StableHlo.after_of_writes_sub hostOps5 _ hostOps5_writes (by decide : main_arg4 ∉ hostOps5_W)
    _ = W9 m ρ c (Proc.devRef .tc main_arg4) := W10_of_ne m ρ c main_arg4 (by decide)
    _ = W8 m ρ c (Proc.devRef .tc main_arg4) := StableHlo.after_of_writes_sub hostOps4 _ hostOps4_writes (by decide : main_arg4 ∉ hostOps4_W)
    _ = W7 m ρ c (Proc.devRef .tc main_arg4) := W8_of_ne m ρ c main_arg4 (by decide)
    _ = W6 m ρ c (Proc.devRef .tc main_arg4) := StableHlo.after_of_writes_sub hostOps3 _ hostOps3_writes (by decide : main_arg4 ∉ hostOps3_W)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

/-- `main_arg5` at the return is its launch contents. -/
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := StableHlo.after_of_writes_sub hostOps5 _ hostOps5_writes (by decide : main_arg5 ∉ hostOps5_W)
    _ = W9 m ρ c (Proc.devRef .tc main_arg5) := W10_of_ne m ρ c main_arg5 (by decide)
    _ = W8 m ρ c (Proc.devRef .tc main_arg5) := StableHlo.after_of_writes_sub hostOps4 _ hostOps4_writes (by decide : main_arg5 ∉ hostOps4_W)
    _ = W7 m ρ c (Proc.devRef .tc main_arg5) := W8_of_ne m ρ c main_arg5 (by decide)
    _ = W6 m ρ c (Proc.devRef .tc main_arg5) := StableHlo.after_of_writes_sub hostOps3 _ hostOps3_writes (by decide : main_arg5 ∉ hostOps3_W)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-- `main_arg6` at the return is its launch contents. -/
theorem W11_main_arg6 (c : Dev nD) : W11 m ρ c (Proc.devRef .tc main_arg6) = m ((c : Thread nD τ).loc main_arg6) :=
  calc W11 m ρ c (Proc.devRef .tc main_arg6)
    _ = W10 m ρ c (Proc.devRef .tc main_arg6) := StableHlo.after_of_writes_sub hostOps5 _ hostOps5_writes (by decide : main_arg6 ∉ hostOps5_W)
    _ = W9 m ρ c (Proc.devRef .tc main_arg6) := W10_of_ne m ρ c main_arg6 (by decide)
    _ = W8 m ρ c (Proc.devRef .tc main_arg6) := StableHlo.after_of_writes_sub hostOps4 _ hostOps4_writes (by decide : main_arg6 ∉ hostOps4_W)
    _ = W7 m ρ c (Proc.devRef .tc main_arg6) := W8_of_ne m ρ c main_arg6 (by decide)
    _ = W6 m ρ c (Proc.devRef .tc main_arg6) := StableHlo.after_of_writes_sub hostOps3 _ hostOps3_writes (by decide : main_arg6 ∉ hostOps3_W)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-- `main_arg7` at the return is its launch contents. -/
theorem W11_main_arg7 (c : Dev nD) : W11 m ρ c (Proc.devRef .tc main_arg7) = m ((c : Thread nD τ).loc main_arg7) :=
  calc W11 m ρ c (Proc.devRef .tc main_arg7)
    _ = W10 m ρ c (Proc.devRef .tc main_arg7) := StableHlo.after_of_writes_sub hostOps5 _ hostOps5_writes (by decide : main_arg7 ∉ hostOps5_W)
    _ = W9 m ρ c (Proc.devRef .tc main_arg7) := W10_of_ne m ρ c main_arg7 (by decide)
    _ = W8 m ρ c (Proc.devRef .tc main_arg7) := StableHlo.after_of_writes_sub hostOps4 _ hostOps4_writes (by decide : main_arg7 ∉ hostOps4_W)
    _ = W7 m ρ c (Proc.devRef .tc main_arg7) := W8_of_ne m ρ c main_arg7 (by decide)
    _ = W6 m ρ c (Proc.devRef .tc main_arg7) := StableHlo.after_of_writes_sub hostOps3 _ hostOps3_writes (by decide : main_arg7 ∉ hostOps3_W)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-- THE FRAME at any float instance: from any memory with zero counters every weakly fair execution of the program
    terminates, nothing faulting, and every final state has the eight argument arrays as launched. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c)⟩) (run_all m ρ)

/-- The same run with the program's result named: it ends holding the return's contents at `main_v56`. -/
theorem run_value : θ_run defs (onTc (τ := τ) (main (F := F))) ⟨m, fun _ => 0, ρ⟩ (fun r => ∀ c : Dev nD,
      r.2.mem ((c.tc : Thread nD τ).loc main_v56) = W11 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v56 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c)⟩) (run_all m ρ)

end Cert.Kernel.H

end
-- ==== Proof.KI.Reg0.lean ====
import proofs.«164042_j22436909154350_2_alg».proof.Proof.Gen.KernelIdeal.Launch
import proofs.«164042_j22436909154350_2_alg».proof.Proof.Gen.KernelIdeal.Skeleton
import proofs.«164042_j22436909154350_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the row-sum kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input block, the one rectangle the body loads. -/
abbrev r0_0 : Rect S512x8192 := Rect.unit (s := S512x8192) ![0, 0] S512x8192.size inb_S512x8192_S512x8192_0_0
/-- The whole output block, the one rectangle the body loads (unused) and then stores. -/
abbrev r0_1 : Rect S512x1 := Rect.unit (s := S512x1) ![0, 0] S512x1.size inb_S512x1_S512x1_0_0

/-! ## What the body leaves in the output window's buffer -/

/-- The output window's staging buffer after the body, from the input block: its one store as a piece. -/
def out0_1 (x0 : Vec F S512x8192 .f32) : Vec F S512x1 .f32 :=
  View.canon [⟨r0_1, k0_pay1 (View.ld x0 r0_0)⟩]

/-- The one store is the whole buffer, so it covers it. -/
theorem cover0_1 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body's triple -/

set_option maxHeartbeats 1000000 in
/-- The kernel body on whole staging memrefs, the input's at read contents `x0` and the output's at anything, runs to
    the continuation holding the input's as it was and the output's at `out0_1 x0`. The grid coordinate is unused. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__rowsum_kernel i arg1 harg1 arg2 harg2) K := by
  simp only [cc0__rowsum_kernel_eq_skeleton]; unfold cc0__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` the input's buffer at its block and the output's at `out0_1` of the input block; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.KI.Reg1Runs.lean ====
import proofs.«164042_j22436909154350_2_alg».proof.Proof.Gen.KernelIdeal.Launch
import proofs.«164042_j22436909154350_2_alg».proof.Proof.Gen.KernelIdeal.Skeleton
import proofs.«164042_j22436909154350_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, `cc1__adjT_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there (the first point) or not (every
    later point: the block index has not moved, and the body leaves the block in place). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the grid coordinate is 0), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-- The condition of the body's second `scf.if` (the grid coordinate is 31), from the grid coordinates. -/
abbrev cond1_1 (i : grid1.Coords) : Prop := k1_cond2 i = 1#1
/-- It holds at the last point only — decided over the grid. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

/-- Windows 0 and 1 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first point output 2 is idle: the case stores nothing into it. -/
theorem idleAt1_2_A : ∀ t : Fin cfg1.N, cond1_0 (grid1.coords t) → ¬cond1_1 (grid1.coords t) → cfg1.idle 2 (grid1.coords t) = true := by decide +kernel
/-- At the first point the pipeline does not write output 2's block back. -/
theorem noFlush1_2_A : ∀ t : Fin cfg1.N, cond1_0 (grid1.coords t) → ¬cond1_1 (grid1.coords t) → (cfg1.win 2).flush t = false := by decide +kernel
/-- At the middle points output 2 is idle: the case stores nothing into it. -/
theorem idleAt1_2_B : ∀ t : Fin cfg1.N, ¬cond1_0 (grid1.coords t) → ¬cond1_1 (grid1.coords t) → cfg1.idle 2 (grid1.coords t) = true := by decide +kernel
/-- At the middle points the pipeline does not write output 2's block back. -/
theorem noFlush1_2_B : ∀ t : Fin cfg1.N, ¬cond1_0 (grid1.coords t) → ¬cond1_1 (grid1.coords t) → (cfg1.win 2).flush t = false := by decide +kernel
/-- At the last point output 2 is live: the case stores into it. -/
theorem liveAt1_2_C : ∀ t : Fin cfg1.N, ¬cond1_0 (grid1.coords t) → cond1_1 (grid1.coords t) → cfg1.idle 2 (grid1.coords t) = false := by decide +kernel

/-! ## The kernel body on any staging memrefs -/

/-- The staging buffer of output window 2, through which its contents are stated. -/
abbrev VO1_2 : View sig .tc .vmem S8192x66 .f32 := (Memref.whole cc1_stg2_0 : Memref sig .tc .vmem S8192x66 .f32).view
/-- Each window's current staging memref at point `t`, spelled as the pipeline passes it (`bodyAt1`), and its wholeness. -/
abbrev ms1_0 (t : Fin cfg1.N) : Memref sig .tc .vmem S256x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x66 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x66 .f32 := win1_2.stage (cfg1.slots t 2)
abbrev hs1_2 (t : Fin cfg1.N) : (ms1_2 t).IsWhole := hstage1_2 ((cfg1.slots t 2).cast nbuf1_2)
/-- The scratch operand: a whole scoped buffer of the kernel's own, passed beside the windows. -/
abbrev scM1_0 : Memref sig .tc .vmem S8192x66 .f32 := Memref.whole cc1_scratch0
/-- The scratch the kernel carries between points (the accumulator), as a view: what it holds is stated through it. -/
abbrev VS1_0 : View sig .tc .vmem S8192x66 .f32 := scM1_0.view

/-- Two assertions entailing each other are equal. -/
theorem sProp_eq_of1 {P Q : sProp 𝕄} (h₁ : P ⊢ Q) (h₂ : Q ⊢ P) : P = Q := BI.equiv_iff.mp ⟨h₁, h₂⟩

/-- A scoped buffer at some contents. -/
abbrev someAt (c : Dev nD) (b : Ref sig .tc) : sProp 𝕄 :=
  iprop(∃ f : Buf (Elt F) ((c : Thread nD τ).loc b), ((c : Thread nD τ).loc b) ↦{fullShare} f)

/-- What the region's invariant holds beside the accumulator and the body never touches: the other scoped buffers
    that are no staging buffer of this pipeline (the other regions' staging buffers and accumulators), each at some
    contents, and the generator register at some state. -/
def G1 (c : Dev nD) : sProp 𝕄 :=
  iprop(iprop(someAt (F := F) c cc0_stg0_0 ∗ someAt (F := F) c cc0_stg0_1 ∗ someAt (F := F) c cc0_stg1_0 ∗ someAt (F := F) c cc0_stg1_1 ∗ someAt (F := F) c cc2_stg0_0 ∗ someAt (F := F) c cc2_stg0_1 ∗ someAt (F := F) c cc2_stg1_0 ∗ someAt (F := F) c cc2_stg2_0 ∗ someAt (F := F) c cc2_scratch0 ∗ someAt (F := F) c cc3_stg0_0 ∗ someAt (F := F) c cc3_stg0_1 ∗ someAt (F := F) c cc3_stg1_0 ∗ someAt (F := F) c cc3_stg2_0 ∗ someAt (F := F) c cc3_scratch0 ∗ someAt (F := F) c cc4_stg0_0 ∗ someAt (F := F) c cc4_stg0_1 ∗ someAt (F := F) c cc4_stg1_0 ∗ someAt (F := F) c cc4_stg2_0 ∗ someAt (F := F) c cc4_scratch0) ∗ (∃ r, prngReg c r))

/-- The region's invariant with the accumulator as a memref owned at some contents, beside the rest: what the body
    obligation hands the run and takes back. -/
theorem PhiA1_eq (c : Dev nD) :
    (Pipeline.ΦA spec1 c : sProp 𝕄)
      = iprop(iprop((∃ d, owns (c : Thread nD τ) scM1_0 fullShare d)) ∗ G1 (F := F) c) := by
  unfold Pipeline.ΦA G1; rw [scopedRest1_eq]; simp only [scM1_0, owns_whole]
  refine sProp_eq_of1 ?_ ?_
  · iintro ⟨⟨A0, A1, A2, A3, HS, B0, B1, B2, B3, B4, B5, B6, B7, B8, B9, B10, B11, B12, B13, B14⟩, Hg⟩
    isplitl [HS]; · iexact HS
    isplitr [Hg]
    swap; · iexact Hg
    isplitl [A0]; · iexact A0
    isplitl [A1]; · iexact A1
    isplitl [A2]; · iexact A2
    isplitl [A3]; · iexact A3
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  · iintro ⟨HS, ⟨A0, A1, A2, A3, B0, B1, B2, B3, B4, B5, B6, B7, B8, B9, B10, B11, B12, B13, B14⟩, Hg⟩
    isplitr [Hg]
    swap; · iexact Hg
    isplitl [A0]; · iexact A0
    isplitl [A1]; · iexact A1
    isplitl [A2]; · iexact A2
    isplitl [A3]; · iexact A3
    isplitl [HS]; · iexact HS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14

end Cert.KernelIdeal.H

end
-- ==== Proof.KI.Reg1RunA.lean ====
import proofs.«164042_j22436909154350_2_alg».proof.Proof.KI.Reg1Runs

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    FIRST POINT (the first `scf.if` taken, the second not), WITH the proof that on whole staging memrefs — the inputs'
    at their contents `x0`, `x1`, the output's (no store: the window is idle and not written back there) at contents
    `xi2` handed back untouched, the accumulator at anything — the body runs to the continuation holding the inputs' as
    they were and the accumulator with its pieces written (the zero fill, then the sum): the printed function is its
    skeleton, which `sl_exec` runs, each `scf.if` decided by the case's hypotheses; the pieces are the witness the
    run finds. -/
noncomputable def kernelRun1_A (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond1_0 i) (hc1 : ¬cond1_1 i)
    (x0 : Vec F S256x8192 .f32) (x1 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__adjT_kernel i arg1 harg1 arg2 harg2 arg3 harg3 arg4 harg4) K } := by
  refine ⟨[], ?_, fun xi2 E K => ?run⟩
  case run =>
    simp only [cc1__adjT_kernel_eq_skeleton]; unfold cc1__adjT_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.H

end
-- ==== Proof.KI.Reg1RunB.lean ====
import proofs.«164042_j22436909154350_2_alg».proof.Proof.KI.Reg1RunA

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT A
    MIDDLE POINT (neither `scf.if` taken), WITH the proof that on whole staging memrefs — the inputs' at their contents
    `x0`, `x1`, the output's (no store: the window is idle and not written back there) at contents `xi2` handed back
    untouched, the accumulator at what the point before left (`xs0`) — the body runs to the continuation holding the
    inputs' as they were and the accumulator with its piece written (the sum): the printed function is its skeleton,
    which `sl_exec` runs, each `scf.if` decided by the case's hypotheses; the pieces are the witness the run finds. -/
noncomputable def kernelRun1_B (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : ¬cond1_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__adjT_kernel i arg1 harg1 arg2 harg2 arg3 harg3 arg4 harg4) K } := by
  refine ⟨[], ?_, fun xi2 E K => ?run⟩
  case run =>
    simp only [cc1__adjT_kernel_eq_skeleton]; unfold cc1__adjT_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.H

end
-- ==== Proof.KI.Reg1RunC.lean ====
import proofs.«164042_j22436909154350_2_alg».proof.Proof.KI.Reg1RunB

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    LAST POINT (the first `scf.if` not taken, the second taken), WITH the proof that on whole staging memrefs — the
    inputs' at their contents `x0`, `x1`, the output's at anything, the accumulator at what the point before left
    (`xs0`) — the body runs to the continuation holding the inputs' as they were, the accumulator with its piece written
    (the sum) and the output's buffer with its piece written (the sum plus the second input): the printed function is
    its skeleton, which `sl_exec` runs, each `scf.if` decided by the case's hypotheses; the pieces are the witness the
    run finds. -/
noncomputable def kernelRun1_C (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : cond1_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__adjT_kernel i arg1 harg1 arg2 harg2 arg3 harg3 arg4 harg4) K } := by
  refine ⟨?_, ?_, fun E K => ?run⟩
  case run =>
    simp only [cc1__adjT_kernel_eq_skeleton]; unfold cc1__adjT_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.H

end
-- ==== Proof.KI.Reg1.lean ====
import proofs.«164042_j22436909154350_2_alg».proof.Proof.KI.Reg1RunC

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- The first point stores nothing into output 2 (the window is idle there and not written back): no pieces — a
    placeholder (junk read back) that nothing consults, since at that point the window is neither written back nor
    read at the next point. -/
def out1_A_2 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond1_0 i) (hc1 : ¬cond1_1 i)
    (x0 : Vec F S256x8192 .f32) (x1 : Vec F S8192x66 .f32) : Vec F S8192x66 .f32 :=
  VO1_2.read (Elt F) (VO1_2.writes (Elt F) VO1_2.junk (kernelRun1_A c i arg1 harg1 arg2 harg2 arg3 harg3 arg4 harg4 hc0 hc1 x0 x1).1)

/-- The first point's pieces for the accumulator cover it: two whole-buffer pieces (the zero fill, the sum). -/
theorem scover1_A_0 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond1_0 i) (hc1 : ¬cond1_1 i)
    (x0 : Vec F S256x8192 .f32) (x1 : Vec F S8192x66 .f32) (y : S8192x66.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S8192x66.size (by sl_kernel_rfl) y

/-- What the first point leaves in the accumulator: its pieces read back over junk. -/
def sout1_A_0 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond1_0 i) (hc1 : ¬cond1_1 i)
    (x0 : Vec F S256x8192 .f32) (x1 : Vec F S8192x66 .f32) : Vec F S8192x66 .f32 :=
  VS1_0.read (Elt F) (VS1_0.writes (Elt F) VS1_0.junk (kernelRun1_A c i arg1 harg1 arg2 harg2 arg3 harg3 arg4 harg4 hc0 hc1 x0 x1).2.1)

/-- A middle point stores nothing into output 2 (the window is idle there and not written back): no pieces — a
    placeholder (junk read back) that nothing consults. -/
def out1_B_2 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : ¬cond1_1 i)
    (x0 : Vec F S256x8192 .f32) (x1 : Vec F S8192x66 .f32) (xs0 : Vec F S8192x66 .f32) : Vec F S8192x66 .f32 :=
  VO1_2.read (Elt F) (VO1_2.writes (Elt F) VO1_2.junk (kernelRun1_B c i arg1 harg1 arg2 harg2 arg3 harg3 arg4 harg4 hc0 hc1 x0 x1 xs0).1)

/-- A middle point's piece for the accumulator covers it: one whole-buffer piece (the sum). -/
theorem scover1_B_0 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : ¬cond1_1 i)
    (x0 : Vec F S256x8192 .f32) (x1 : Vec F S8192x66 .f32) (xs0 : Vec F S8192x66 .f32) (y : S8192x66.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S8192x66.size (by sl_kernel_rfl) y

/-- What a middle point leaves in the accumulator: its piece read back over junk. -/
def sout1_B_0 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : ¬cond1_1 i)
    (x0 : Vec F S256x8192 .f32) (x1 : Vec F S8192x66 .f32) (xs0 : Vec F S8192x66 .f32) : Vec F S8192x66 .f32 :=
  VS1_0.read (Elt F) (VS1_0.writes (Elt F) VS1_0.junk (kernelRun1_B c i arg1 harg1 arg2 harg2 arg3 harg3 arg4 harg4 hc0 hc1 x0 x1 xs0).2.1)

/-- The last point's piece for output 2 tiles its block (one whole-buffer store), so it covers it. -/
theorem cover1_C_2 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : cond1_1 i)
    (x0 : Vec F S256x8192 .f32) (x1 : Vec F S8192x66 .f32) (xs0 : Vec F S8192x66 .f32) (y : S8192x66.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S8192x66.size (by sl_kernel_rfl) y

/-- What the last point leaves in output 2's staging buffer: its piece read back over junk. -/
def out1_C_2 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : cond1_1 i)
    (x0 : Vec F S256x8192 .f32) (x1 : Vec F S8192x66 .f32) (xs0 : Vec F S8192x66 .f32) : Vec F S8192x66 .f32 :=
  VO1_2.read (Elt F) (VO1_2.writes (Elt F) VO1_2.junk (kernelRun1_C c i arg1 harg1 arg2 harg2 arg3 harg3 arg4 harg4 hc0 hc1 x0 x1 xs0).1)

/-- The last point's piece for the accumulator covers it: one whole-buffer piece (the sum). -/
theorem scover1_C_0 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : cond1_1 i)
    (x0 : Vec F S256x8192 .f32) (x1 : Vec F S8192x66 .f32) (xs0 : Vec F S8192x66 .f32) (y : S8192x66.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S8192x66.size (by sl_kernel_rfl) y

/-- What the last point leaves in the accumulator: its piece read back over junk. -/
def sout1_C_0 (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : cond1_1 i)
    (x0 : Vec F S256x8192 .f32) (x1 : Vec F S8192x66 .f32) (xs0 : Vec F S8192x66 .f32) : Vec F S8192x66 .f32 :=
  VS1_0.read (Elt F) (VS1_0.writes (Elt F) VS1_0.junk (kernelRun1_C c i arg1 harg1 arg2 harg2 arg3 harg3 arg4 harg4 hc0 hc1 x0 x1 xs0).2.1)

/-! ## What the output and the accumulator hold after each point -/

/-- THE ACCUMULATION. What output 2's staging buffer and the accumulator hold after the body at position `n` (a pair:
    the output, then the accumulator): the case the closed forms select at `n`, run at the point's memrefs and input
    blocks, the accumulator entering at what this leaves at `n - 1`. An assignment of the conditions no point meets is
    no case (`False.elim`). -/
def outsAt1 (c : Dev nD) : (n : ℕ) → n < cfg1.N → Vec F S8192x66 .f32 × Vec F S8192x66 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 32 = 0 then
      if h1 : (n + 1) % 32 = 31 then
        False.elim (by have hN : n + 1 < 32 := lt_of_lt_of_eq hn (show cfg1.N = 32 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 32 = 31 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at the first point: that case's contents. -/
theorem outsAt1_A (c : Dev nD) (t : Fin cfg1.N) (h0 : t.val % 32 = 0) (h1 : ¬t.val % 32 = 31) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle point: that case's contents, over what the point before left. -/
theorem outsAt1_B (c : Dev nD) (t : Fin cfg1.N) (h0 : ¬t.val % 32 = 0) (h1 : ¬t.val % 32 = 31) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: that case's contents, over what the point before left. -/
theorem outsAt1_C (c : Dev nD) (t : Fin cfg1.N) (h0 : ¬t.val % 32 = 0) (h1 : t.val % 32 = 31) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the accumulator at what the point before left in it (`outsAt1`'s second
    component), beside the rest. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ G1 (F := F) c)

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2)) ∗ G1 (F := F) c) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2)) ∗ G1 (F := F) c) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks (`before1_0`, `before1_1`); the closed forms say
    which case the point is in; so the run applies; the invariant hands the body the accumulator at what the point
    before left (at anything at the first point) and takes it back at this point's contents; the rest of the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 32 = 0
  · by_cases h1 : t.val % 32 = 31
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨HS0, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 32 = 31
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      have hz : t.val ≠ 0 := by omega
      rw [PhiS1_castSucc V c t, PhiS1_pos V c _ _ hz]
      iintro ⟨⟨HS0, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨HS0, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.H

end
-- ==== Proof.KI.Reg2Runs.lean ====
import proofs.«164042_j22436909154350_2_alg».proof.Proof.Gen.KernelIdeal.Launch
import proofs.«164042_j22436909154350_2_alg».proof.Proof.Gen.KernelIdeal.Skeleton
import proofs.«164042_j22436909154350_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2 of @main: custom_call 2, `cc2__adjT_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there (the first point) or not (every
    later point: the block index has not moved, and the body leaves the block in place). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the grid coordinate is 0), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 32 = 0 :=
  (by decide +kernel : ∀ t : Fin grid2.N, cond2_0 (grid2.coords t) ↔ t.val % 32 = 0)

/-- The condition of the body's second `scf.if` (the grid coordinate is 31), from the grid coordinates. -/
abbrev cond2_1 (i : grid2.Coords) : Prop := k2_cond2 i = 1#1
/-- It holds at the last point only — decided over the grid. -/
theorem hcond2_1 : ∀ t : Fin cfg2.N, cond2_1 (grid2.coords t) ↔ t.val % 32 = 31 :=
  (by decide +kernel : ∀ t : Fin grid2.N, cond2_1 (grid2.coords t) ↔ t.val % 32 = 31)

/-! ## Where the windows are idle -/

/-- Windows 0 and 1 are never idle (inputs). -/
theorem liveAt2_0 : ∀ t : Fin cfg2.N, cfg2.idle 0 (grid2.coords t) = false := by decide +kernel
theorem liveAt2_1 : ∀ t : Fin cfg2.N, cfg2.idle 1 (grid2.coords t) = false := by decide +kernel
/-- At the first point output 2 is idle: the case stores nothing into it. -/
theorem idleAt2_2_A : ∀ t : Fin cfg2.N, cond2_0 (grid2.coords t) → ¬cond2_1 (grid2.coords t) → cfg2.idle 2 (grid2.coords t) = true := by decide +kernel
/-- At the first point the pipeline does not write output 2's block back. -/
theorem noFlush2_2_A : ∀ t : Fin cfg2.N, cond2_0 (grid2.coords t) → ¬cond2_1 (grid2.coords t) → (cfg2.win 2).flush t = false := by decide +kernel
/-- At the middle points output 2 is idle: the case stores nothing into it. -/
theorem idleAt2_2_B : ∀ t : Fin cfg2.N, ¬cond2_0 (grid2.coords t) → ¬cond2_1 (grid2.coords t) → cfg2.idle 2 (grid2.coords t) = true := by decide +kernel
/-- At the middle points the pipeline does not write output 2's block back. -/
theorem noFlush2_2_B : ∀ t : Fin cfg2.N, ¬cond2_0 (grid2.coords t) → ¬cond2_1 (grid2.coords t) → (cfg2.win 2).flush t = false := by decide +kernel
/-- At the last point output 2 is live: the case stores into it. -/
theorem liveAt2_2_C : ∀ t : Fin cfg2.N, ¬cond2_0 (grid2.coords t) → cond2_1 (grid2.coords t) → cfg2.idle 2 (grid2.coords t) = false := by decide +kernel

/-! ## The kernel body on any staging memrefs -/

/-- The staging buffer of output window 2, through which its contents are stated. -/
abbrev VO2_2 : View sig .tc .vmem S8192x66 .f32 := (Memref.whole cc2_stg2_0 : Memref sig .tc .vmem S8192x66 .f32).view
/-- Each window's current staging memref at point `t`, spelled as the pipeline passes it (`bodyAt2`), and its wholeness. -/
abbrev ms2_0 (t : Fin cfg2.N) : Memref sig .tc .vmem S256x8192 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x66 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x66 .f32 := win2_2.stage (cfg2.slots t 2)
abbrev hs2_2 (t : Fin cfg2.N) : (ms2_2 t).IsWhole := hstage2_2 ((cfg2.slots t 2).cast nbuf2_2)
/-- The scratch operand: a whole scoped buffer of the kernel's own, passed beside the windows. -/
abbrev scM2_0 : Memref sig .tc .vmem S8192x66 .f32 := Memref.whole cc2_scratch0
/-- The scratch the kernel carries between points (the accumulator), as a view: what it holds is stated through it. -/
abbrev VS2_0 : View sig .tc .vmem S8192x66 .f32 := scM2_0.view

/-- Two assertions entailing each other are equal. -/
theorem sProp_eq_of2 {P Q : sProp 𝕄} (h₁ : P ⊢ Q) (h₂ : Q ⊢ P) : P = Q := BI.equiv_iff.mp ⟨h₁, h₂⟩

/-- A scoped buffer at some contents. -/
abbrev someAt2 (c : Dev nD) (b : Ref sig .tc) : sProp 𝕄 :=
  iprop(∃ f : Buf (Elt F) ((c : Thread nD τ).loc b), ((c : Thread nD τ).loc b) ↦{fullShare} f)

/-- What the region's invariant holds beside the accumulator and the body never touches: the other scoped buffers
    that are no staging buffer of this pipeline (the other regions' staging buffers and accumulators), each at some
    contents, and the generator register at some state. -/
def G2 (c : Dev nD) : sProp 𝕄 :=
  iprop(iprop(someAt2 (F := F) c cc0_stg0_0 ∗ someAt2 (F := F) c cc0_stg0_1 ∗ someAt2 (F := F) c cc0_stg1_0 ∗ someAt2 (F := F) c cc0_stg1_1 ∗ someAt2 (F := F) c cc1_stg0_0 ∗ someAt2 (F := F) c cc1_stg0_1 ∗ someAt2 (F := F) c cc1_stg1_0 ∗ someAt2 (F := F) c cc1_stg2_0 ∗ someAt2 (F := F) c cc1_scratch0 ∗ someAt2 (F := F) c cc3_stg0_0 ∗ someAt2 (F := F) c cc3_stg0_1 ∗ someAt2 (F := F) c cc3_stg1_0 ∗ someAt2 (F := F) c cc3_stg2_0 ∗ someAt2 (F := F) c cc3_scratch0 ∗ someAt2 (F := F) c cc4_stg0_0 ∗ someAt2 (F := F) c cc4_stg0_1 ∗ someAt2 (F := F) c cc4_stg1_0 ∗ someAt2 (F := F) c cc4_stg2_0 ∗ someAt2 (F := F) c cc4_scratch0) ∗ (∃ r, prngReg c r))

/-- The region's invariant with the accumulator as a memref owned at some contents, beside the rest: what the body
    obligation hands the run and takes back. -/
theorem PhiA2_eq (c : Dev nD) :
    (Pipeline.ΦA spec2 c : sProp 𝕄)
      = iprop(iprop((∃ d, owns (c : Thread nD τ) scM2_0 fullShare d)) ∗ G2 (F := F) c) := by
  unfold Pipeline.ΦA G2; rw [scopedRest2_eq]; simp only [scM2_0, owns_whole]
  refine sProp_eq_of2 ?_ ?_
  · iintro ⟨⟨A0, A1, A2, A3, A4, A5, A6, A7, A8, HS, B0, B1, B2, B3, B4, B5, B6, B7, B8, B9⟩, Hg⟩
    isplitl [HS]; · iexact HS
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  · iintro ⟨HS, ⟨A0, A1, A2, A3, A4, A5, A6, A7, A8, B0, B1, B2, B3, B4, B5, B6, B7, B8, B9⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [HS]; · iexact HS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9

end Cert.KernelIdeal.H

end
-- ==== Proof.KI.Reg2RunA.lean ====
import proofs.«164042_j22436909154350_2_alg».proof.Proof.KI.Reg2Runs

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    FIRST POINT (the first `scf.if` taken, the second not), WITH the proof that on whole staging memrefs — the inputs'
    at their contents `x0`, `x1`, the output's (no store: the window is idle and not written back there) at contents
    `xi2` handed back untouched, the accumulator at anything — the body runs to the continuation holding the inputs' as
    they were and the accumulator with its pieces written (the zero fill, then the sum): the printed function is its
    skeleton, which `sl_exec` runs, each `scf.if` decided by the case's hypotheses; the pieces are the witness the
    run finds. -/
noncomputable def kernelRun2_A (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond2_0 i) (hc1 : ¬cond2_1 i)
    (x0 : Vec F S256x8192 .f32) (x1 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__adjT_kernel i arg1 harg1 arg2 harg2 arg3 harg3 arg4 harg4) K } := by
  refine ⟨[], ?_, fun xi2 E K => ?run⟩
  case run =>
    simp only [cc2__adjT_kernel_eq_skeleton]; unfold cc2__adjT_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.H

end
-- ==== Proof.KI.Reg2RunB.lean ====
import proofs.«164042_j22436909154350_2_alg».proof.Proof.KI.Reg2RunA

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT A
    MIDDLE POINT (neither `scf.if` taken), WITH the proof that on whole staging memrefs — the inputs' at their contents
    `x0`, `x1`, the output's (no store: the window is idle and not written back there) at contents `xi2` handed back
    untouched, the accumulator at what the point before left (`xs0`) — the body runs to the continuation holding the
    inputs' as they were and the accumulator with its piece written (the sum): the printed function is its skeleton,
    which `sl_exec` runs, each `scf.if` decided by the case's hypotheses; the pieces are the witness the run finds. -/
noncomputable def kernelRun2_B (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : ¬cond2_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__adjT_kernel i arg1 harg1 arg2 harg2 arg3 harg3 arg4 harg4) K } := by
  refine ⟨[], ?_, fun xi2 E K => ?run⟩
  case run =>
    simp only [cc2__adjT_kernel_eq_skeleton]; unfold cc2__adjT_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.H

end
-- ==== Proof.KI.Reg2RunC.lean ====
import proofs.«164042_j22436909154350_2_alg».proof.Proof.KI.Reg2RunB

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    LAST POINT (the first `scf.if` not taken, the second taken), WITH the proof that on whole staging memrefs — the
    inputs' at their contents `x0`, `x1`, the output's at anything, the accumulator at what the point before left
    (`xs0`) — the body runs to the continuation holding the inputs' as they were, the accumulator with its piece written
    (the sum) and the output's buffer with its piece written (the sum plus the second input): the printed function is
    its skeleton, which `sl_exec` runs, each `scf.if` decided by the case's hypotheses; the pieces are the witness the
    run finds. -/
noncomputable def kernelRun2_C (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : cond2_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__adjT_kernel i arg1 harg1 arg2 harg2 arg3 harg3 arg4 harg4) K } := by
  refine ⟨?_, ?_, fun E K => ?run⟩
  case run =>
    simp only [cc2__adjT_kernel_eq_skeleton]; unfold cc2__adjT_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.H

end
-- ==== Proof.KI.Reg2.lean ====
import proofs.«164042_j22436909154350_2_alg».proof.Proof.KI.Reg2RunC

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- The first point stores nothing into output 2 (the window is idle there and not written back): no pieces — a
    placeholder (junk read back) that nothing consults, since at that point the window is neither written back nor
    read at the next point. -/
def out2_A_2 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond2_0 i) (hc1 : ¬cond2_1 i)
    (x0 : Vec F S256x8192 .f32) (x1 : Vec F S8192x66 .f32) : Vec F S8192x66 .f32 :=
  VO2_2.read (Elt F) (VO2_2.writes (Elt F) VO2_2.junk (kernelRun2_A c i arg1 harg1 arg2 harg2 arg3 harg3 arg4 harg4 hc0 hc1 x0 x1).1)

/-- The first point's pieces for the accumulator cover it: two whole-buffer pieces (the zero fill, the sum). -/
theorem scover2_A_0 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond2_0 i) (hc1 : ¬cond2_1 i)
    (x0 : Vec F S256x8192 .f32) (x1 : Vec F S8192x66 .f32) (y : S8192x66.Idx) :
    ∃ pc ∈ (kernelRun2_A c i arg1 harg1 arg2 harg2 arg3 harg3 arg4 harg4 hc0 hc1 x0 x1).2.1, y ∈ pc.1.set :=
  View.cover_of_tiledL (kernelRun2_A c i arg1 harg1 arg2 harg2 arg3 harg3 arg4 harg4 hc0 hc1 x0 x1).2.1 S8192x66.size (by sl_kernel_rfl) y

/-- What the first point leaves in the accumulator: its pieces read back over junk. -/
def sout2_A_0 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond2_0 i) (hc1 : ¬cond2_1 i)
    (x0 : Vec F S256x8192 .f32) (x1 : Vec F S8192x66 .f32) : Vec F S8192x66 .f32 :=
  VS2_0.read (Elt F) (VS2_0.writes (Elt F) VS2_0.junk (kernelRun2_A c i arg1 harg1 arg2 harg2 arg3 harg3 arg4 harg4 hc0 hc1 x0 x1).2.1)

/-- A middle point stores nothing into output 2 (the window is idle there and not written back): no pieces — a
    placeholder (junk read back) that nothing consults. -/
def out2_B_2 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : ¬cond2_1 i)
    (x0 : Vec F S256x8192 .f32) (x1 : Vec F S8192x66 .f32) (xs0 : Vec F S8192x66 .f32) : Vec F S8192x66 .f32 :=
  VO2_2.read (Elt F) (VO2_2.writes (Elt F) VO2_2.junk (kernelRun2_B c i arg1 harg1 arg2 harg2 arg3 harg3 arg4 harg4 hc0 hc1 x0 x1 xs0).1)

/-- A middle point's piece for the accumulator covers it: one whole-buffer piece (the sum). -/
theorem scover2_B_0 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : ¬cond2_1 i)
    (x0 : Vec F S256x8192 .f32) (x1 : Vec F S8192x66 .f32) (xs0 : Vec F S8192x66 .f32) (y : S8192x66.Idx) :
    ∃ pc ∈ (kernelRun2_B c i arg1 harg1 arg2 harg2 arg3 harg3 arg4 harg4 hc0 hc1 x0 x1 xs0).2.1, y ∈ pc.1.set :=
  View.cover_of_tiledL (kernelRun2_B c i arg1 harg1 arg2 harg2 arg3 harg3 arg4 harg4 hc0 hc1 x0 x1 xs0).2.1 S8192x66.size (by sl_kernel_rfl) y

/-- What a middle point leaves in the accumulator: its piece read back over junk. -/
def sout2_B_0 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : ¬cond2_1 i)
    (x0 : Vec F S256x8192 .f32) (x1 : Vec F S8192x66 .f32) (xs0 : Vec F S8192x66 .f32) : Vec F S8192x66 .f32 :=
  VS2_0.read (Elt F) (VS2_0.writes (Elt F) VS2_0.junk (kernelRun2_B c i arg1 harg1 arg2 harg2 arg3 harg3 arg4 harg4 hc0 hc1 x0 x1 xs0).2.1)

/-- The last point's piece for output 2 tiles its block (one whole-buffer store), so it covers it. -/
theorem cover2_C_2 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : cond2_1 i)
    (x0 : Vec F S256x8192 .f32) (x1 : Vec F S8192x66 .f32) (xs0 : Vec F S8192x66 .f32) (y : S8192x66.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S8192x66.size (by sl_kernel_rfl) y

/-- What the last point leaves in output 2's staging buffer: its piece read back over junk. -/
def out2_C_2 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : cond2_1 i)
    (x0 : Vec F S256x8192 .f32) (x1 : Vec F S8192x66 .f32) (xs0 : Vec F S8192x66 .f32) : Vec F S8192x66 .f32 :=
  VO2_2.read (Elt F) (VO2_2.writes (Elt F) VO2_2.junk (kernelRun2_C c i arg1 harg1 arg2 harg2 arg3 harg3 arg4 harg4 hc0 hc1 x0 x1 xs0).1)

/-- The last point's piece for the accumulator covers it: one whole-buffer piece (the sum). -/
theorem scover2_C_0 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : cond2_1 i)
    (x0 : Vec F S256x8192 .f32) (x1 : Vec F S8192x66 .f32) (xs0 : Vec F S8192x66 .f32) (y : S8192x66.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S8192x66.size (by sl_kernel_rfl) y

/-- What the last point leaves in the accumulator: its piece read back over junk. -/
def sout2_C_0 (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : cond2_1 i)
    (x0 : Vec F S256x8192 .f32) (x1 : Vec F S8192x66 .f32) (xs0 : Vec F S8192x66 .f32) : Vec F S8192x66 .f32 :=
  VS2_0.read (Elt F) (VS2_0.writes (Elt F) VS2_0.junk (kernelRun2_C c i arg1 harg1 arg2 harg2 arg3 harg3 arg4 harg4 hc0 hc1 x0 x1 xs0).2.1)

/-! ## What the output and the accumulator hold after each point -/

/-- THE ACCUMULATION. What output 2's staging buffer and the accumulator hold after the body at position `n` (a pair:
    the output, then the accumulator): the case the closed forms select at `n`, run at the point's memrefs and input
    blocks, the accumulator entering at what this leaves at `n - 1`. An assignment of the conditions no point meets is
    no case (`False.elim`). -/
def outsAt2 (c : Dev nD) : (n : ℕ) → n < cfg2.N → Vec F S8192x66 .f32 × Vec F S8192x66 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 32 = 0 then
      if h1 : (n + 1) % 32 = 31 then
        False.elim (by have hN : n + 1 < 32 := lt_of_lt_of_eq hn (show cfg2.N = 32 from N_2); omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 32 = 31 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at the first point: that case's contents. -/
theorem outsAt2_A (c : Dev nD) (t : Fin cfg2.N) (h0 : t.val % 32 = 0) (h1 : ¬t.val % 32 = 31) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a middle point: that case's contents, over what the point before left. -/
theorem outsAt2_B (c : Dev nD) (t : Fin cfg2.N) (h0 : ¬t.val % 32 = 0) (h1 : ¬t.val % 32 = 31) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point: that case's contents, over what the point before left. -/
theorem outsAt2_C (c : Dev nD) (t : Fin cfg2.N) (h0 : ¬t.val % 32 = 0) (h1 : t.val % 32 = 31) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the accumulator at what the point before left in it (`outsAt2`'s second
    component), beside the rest. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)) ∗ G2 (F := F) c)

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(owns (c : Thread nD τ) scM2_0 fullShare ((outsAt2 V c n hn).2)) ∗ G2 (F := F) c) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2)) ∗ G2 (F := F) c) := by
  cases n with
  | zero => exact absurd rfl hz
  | succ n => rfl

/-! ## The pipeline's proof data -/

/-- The proof data of pipeline 2 on core `c`: the arrays as the region finds them (`V`); after the body at point `t`
    each input's buffer at its block and the output's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks (`before2_0`, `before2_1`); the closed forms say
    which case the point is in; so the run applies; the invariant hands the body the accumulator at what the point
    before left (at anything at the first point) and takes it back at this point's contents; the rest of the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 32 = 0
  · by_cases h1 : t.val % 32 = 31
    · exfalso; omega
    · rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨HS0, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 32 = 31
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      have hz : t.val ≠ 0 := by omega
      rw [PhiS2_castSucc V c t, PhiS2_pos V c _ _ hz]
      iintro ⟨⟨HS0, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover2_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      have hz : t.val ≠ 0 := by omega
      rw [PhiS2_castSucc V c t, PhiS2_pos V c _ _ hz]
      iintro ⟨⟨HS0, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover2_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS0, Hg⟩
  isplitl [HS0]
  · iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.KernelIdeal.H

end
-- ==== Proof.KI.Reg3Runs.lean ====
import proofs.«164042_j22436909154350_2_alg».proof.Proof.Gen.KernelIdeal.Launch
import proofs.«164042_j22436909154350_2_alg».proof.Proof.Gen.KernelIdeal.Skeleton
import proofs.«164042_j22436909154350_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 3 of @main: custom_call 3, `cc3__adjT_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s (`hA`) and whose body leaves the block in place (`hafter`): the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there (the first point) or not (every
    later point: the block index has not moved, and the body leaves the block in place). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first `scf.if` (the grid coordinate is 0), from the grid coordinates. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val % 32 = 0 :=
  (by decide +kernel : ∀ t : Fin grid3.N, cond3_0 (grid3.coords t) ↔ t.val % 32 = 0)

/-- The condition of the body's second `scf.if` (the grid coordinate is 31), from the grid coordinates. -/
abbrev cond3_1 (i : grid3.Coords) : Prop := k3_cond2 i = 1#1
/-- It holds at the last point only — decided over the grid. -/
theorem hcond3_1 : ∀ t : Fin cfg3.N, cond3_1 (grid3.coords t) ↔ t.val % 32 = 31 :=
  (by decide +kernel : ∀ t : Fin grid3.N, cond3_1 (grid3.coords t) ↔ t.val % 32 = 31)

/-! ## Where the windows are idle -/

/-- Windows 0 and 1 are never idle (inputs). -/
theorem liveAt3_0 : ∀ t : Fin cfg3.N, cfg3.idle 0 (grid3.coords t) = false := by decide +kernel
theorem liveAt3_1 : ∀ t : Fin cfg3.N, cfg3.idle 1 (grid3.coords t) = false := by decide +kernel
/-- At the first point output 2 is idle: the case stores nothing into it. -/
theorem idleAt3_2_A : ∀ t : Fin cfg3.N, cond3_0 (grid3.coords t) → ¬cond3_1 (grid3.coords t) → cfg3.idle 2 (grid3.coords t) = true := by decide +kernel
/-- At the first point the pipeline does not write output 2's block back. -/
theorem noFlush3_2_A : ∀ t : Fin cfg3.N, cond3_0 (grid3.coords t) → ¬cond3_1 (grid3.coords t) → (cfg3.win 2).flush t = false := by decide +kernel
/-- At the middle points output 2 is idle: the case stores nothing into it. -/
theorem idleAt3_2_B : ∀ t : Fin cfg3.N, ¬cond3_0 (grid3.coords t) → ¬cond3_1 (grid3.coords t) → cfg3.idle 2 (grid3.coords t) = true := by decide +kernel
/-- At the middle points the pipeline does not write output 2's block back. -/
theorem noFlush3_2_B : ∀ t : Fin cfg3.N, ¬cond3_0 (grid3.coords t) → ¬cond3_1 (grid3.coords t) → (cfg3.win 2).flush t = false := by decide +kernel
/-- At the last point output 2 is live: the case stores into it. -/
theorem liveAt3_2_C : ∀ t : Fin cfg3.N, ¬cond3_0 (grid3.coords t) → cond3_1 (grid3.coords t) → cfg3.idle 2 (grid3.coords t) = false := by decide +kernel

/-! ## The kernel body on any staging memrefs -/

/-- The staging buffer of output window 2, through which its contents are stated. -/
abbrev VO3_2 : View sig .tc .vmem S8192x66 .f32 := (Memref.whole cc3_stg2_0 : Memref sig .tc .vmem S8192x66 .f32).view
/-- Each window's current staging memref at point `t`, spelled as the pipeline passes it (`bodyAt3`), and its wholeness. -/
abbrev ms3_0 (t : Fin cfg3.N) : Memref sig .tc .vmem S256x8192 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8192x66 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8192x66 .f32 := win3_2.stage (cfg3.slots t 2)
abbrev hs3_2 (t : Fin cfg3.N) : (ms3_2 t).IsWhole := hstage3_2 ((cfg3.slots t 2).cast nbuf3_2)
/-- The scratch operand: a whole scoped buffer of the kernel's own, passed beside the windows. -/
abbrev scM3_0 : Memref sig .tc .vmem S8192x66 .f32 := Memref.whole cc3_scratch0
/-- The scratch the kernel carries between points (the accumulator), as a view: what it holds is stated through it. -/
abbrev VS3_0 : View sig .tc .vmem S8192x66 .f32 := scM3_0.view

/-- Two assertions entailing each other are equal. -/
theorem sProp_eq_of3 {P Q : sProp 𝕄} (h₁ : P ⊢ Q) (h₂ : Q ⊢ P) : P = Q := BI.equiv_iff.mp ⟨h₁, h₂⟩

/-- A scoped buffer at some contents. -/
abbrev someAt3 (c : Dev nD) (b : Ref sig .tc) : sProp 𝕄 :=
  iprop(∃ f : Buf (Elt F) ((c : Thread nD τ).loc b), ((c : Thread nD τ).loc b) ↦{fullShare} f)

/-- What the region's invariant holds beside the accumulator and the body never touches: the other scoped buffers
    that are no staging buffer of this pipeline (the other regions' staging buffers and accumulators), each at some
    contents, and the generator register at some state. -/
def G3 (c : Dev nD) : sProp 𝕄 :=
  iprop(iprop(someAt3 (F := F) c cc0_stg0_0 ∗ someAt3 (F := F) c cc0_stg0_1 ∗ someAt3 (F := F) c cc0_stg1_0 ∗ someAt3 (F := F) c cc0_stg1_1 ∗ someAt3 (F := F) c cc1_stg0_0 ∗ someAt3 (F := F) c cc1_stg0_1 ∗ someAt3 (F := F) c cc1_stg1_0 ∗ someAt3 (F := F) c cc1_stg2_0 ∗ someAt3 (F := F) c cc1_scratch0 ∗ someAt3 (F := F) c cc2_stg0_0 ∗ someAt3 (F := F) c cc2_stg0_1 ∗ someAt3 (F := F) c cc2_stg1_0 ∗ someAt3 (F := F) c cc2_stg2_0 ∗ someAt3 (F := F) c cc2_scratch0 ∗ someAt3 (F := F) c cc4_stg0_0 ∗ someAt3 (F := F) c cc4_stg0_1 ∗ someAt3 (F := F) c cc4_stg1_0 ∗ someAt3 (F := F) c cc4_stg2_0 ∗ someAt3 (F := F) c cc4_scratch0) ∗ (∃ r, prngReg c r))

/-- The region's invariant with the accumulator as a memref owned at some contents, beside the rest: what the body
    obligation hands the run and takes back. -/
theorem PhiA3_eq (c : Dev nD) :
    (Pipeline.ΦA spec3 c : sProp 𝕄)
      = iprop(iprop((∃ d, owns (c : Thread nD τ) scM3_0 fullShare d)) ∗ G3 (F := F) c) := by
  unfold Pipeline.ΦA G3; rw [scopedRest3_eq]; simp only [scM3_0, owns_whole]
  refine sProp_eq_of3 ?_ ?_
  · iintro ⟨⟨A0, A1, A2, A3, A4, A5, A6, A7, A8, A9, A10, A11, A12, A13, HS, B0, B1, B2, B3, B4⟩, Hg⟩
    isplitl [HS]; · iexact HS
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [B0]; · iexact B0
    isplitl [B1]; · iexact B1
    isplitl [B2]; · iexact B2
    isplitl [B3]; · iexact B3
    iexact B4
  · iintro ⟨HS, ⟨A0, A1, A2, A3, A4, A5, A6, A7, A8, A9, A10, A11, A12, A13, B0, B1, B2, B3, B4⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [HS]; · iexact HS
    isplitl [B0]; · iexact B0
    isplitl [B1]; · iexact B1
    isplitl [B2]; · iexact B2
    isplitl [B3]; · iexact B3
    iexact B4

end Cert.KernelIdeal.H

end
-- ==== Proof.KI.Reg3RunA.lean ====
import proofs.«164042_j22436909154350_2_alg».proof.Proof.KI.Reg3Runs

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    FIRST POINT (the first `scf.if` taken, the second not), WITH the proof that on whole staging memrefs — the inputs'
    at their contents `x0`, `x1`, the output's (no store: the window is idle and not written back there) at contents
    `xi2` handed back untouched, the accumulator at anything — the body runs to the continuation holding the inputs' as
    they were and the accumulator with its pieces written (the zero fill, then the sum): the printed function is its
    skeleton, which `sl_exec` runs, each `scf.if` decided by the case's hypotheses; the pieces are the witness the
    run finds. -/
noncomputable def kernelRun3_A (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond3_0 i) (hc1 : ¬cond3_1 i)
    (x0 : Vec F S256x8192 .f32) (x1 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__adjT_kernel i arg1 harg1 arg2 harg2 arg3 harg3 arg4 harg4) K } := by
  refine ⟨[], ?_, fun xi2 E K => ?run⟩
  case run =>
    simp only [cc3__adjT_kernel_eq_skeleton]; unfold cc3__adjT_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.H

end
-- ==== Proof.KI.Reg3RunB.lean ====
import proofs.«164042_j22436909154350_2_alg».proof.Proof.KI.Reg3RunA

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT A
    MIDDLE POINT (neither `scf.if` taken), WITH the proof that on whole staging memrefs — the inputs' at their contents
    `x0`, `x1`, the output's (no store: the window is idle and not written back there) at contents `xi2` handed back
    untouched, the accumulator at what the point before left (`xs0`) — the body runs to the continuation holding the
    inputs' as they were and the accumulator with its piece written (the sum): the printed function is its skeleton,
    which `sl_exec` runs, each `scf.if` decided by the case's hypotheses; the pieces are the witness the run finds. -/
noncomputable def kernelRun3_B (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : ¬cond3_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__adjT_kernel i arg1 harg1 arg2 harg2 arg3 harg3 arg4 harg4) K } := by
  refine ⟨[], ?_, fun xi2 E K => ?run⟩
  case run =>
    simp only [cc3__adjT_kernel_eq_skeleton]; unfold cc3__adjT_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.H

end
-- ==== Proof.KI.Reg3RunC.lean ====
import proofs.«164042_j22436909154350_2_alg».proof.Proof.KI.Reg3RunB

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    LAST POINT (the first `scf.if` not taken, the second taken), WITH the proof that on whole staging memrefs — the
    inputs' at their contents `x0`, `x1`, the output's at anything, the accumulator at what the point before left
    (`xs0`) — the body runs to the continuation holding the inputs' as they were, the accumulator with its piece written
    (the sum) and the output's buffer with its piece written (the sum plus the second input): the printed function is
    its skeleton, which `sl_exec` runs, each `scf.if` decided by the case's hypotheses; the pieces are the witness the
    run finds. -/
noncomputable def kernelRun3_C (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : cond3_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc3__adjT_kernel i arg1 harg1 arg2 harg2 arg3 harg3 arg4 harg4) K } := by
  refine ⟨?_, ?_, fun E K => ?run⟩
  case run =>
    simp only [cc3__adjT_kernel_eq_skeleton]; unfold cc3__adjT_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.H

end
-- ==== Proof.KI.Reg3.lean ====
import proofs.«164042_j22436909154350_2_alg».proof.Proof.KI.Reg3RunC

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- The first point stores nothing into output 2 (the window is idle there and not written back): no pieces — a
    placeholder (junk read back) that nothing consults, since at that point the window is neither written back nor
    read at the next point. -/
def out3_A_2 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond3_0 i) (hc1 : ¬cond3_1 i)
    (x0 : Vec F S256x8192 .f32) (x1 : Vec F S8192x66 .f32) : Vec F S8192x66 .f32 :=
  VO3_2.read (Elt F) (VO3_2.writes (Elt F) VO3_2.junk (kernelRun3_A c i arg1 harg1 arg2 harg2 arg3 harg3 arg4 harg4 hc0 hc1 x0 x1).1)

/-- The first point's pieces for the accumulator cover it: two whole-buffer pieces (the zero fill, the sum). -/
theorem scover3_A_0 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond3_0 i) (hc1 : ¬cond3_1 i)
    (x0 : Vec F S256x8192 .f32) (x1 : Vec F S8192x66 .f32) (y : S8192x66.Idx) :
    ∃ pc ∈ (kernelRun3_A c i arg1 harg1 arg2 harg2 arg3 harg3 arg4 harg4 hc0 hc1 x0 x1).2.1, y ∈ pc.1.set :=
  View.cover_of_tiledL (kernelRun3_A c i arg1 harg1 arg2 harg2 arg3 harg3 arg4 harg4 hc0 hc1 x0 x1).2.1 S8192x66.size (by sl_kernel_rfl) y

/-- What the first point leaves in the accumulator: its pieces read back over junk. -/
def sout3_A_0 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond3_0 i) (hc1 : ¬cond3_1 i)
    (x0 : Vec F S256x8192 .f32) (x1 : Vec F S8192x66 .f32) : Vec F S8192x66 .f32 :=
  VS3_0.read (Elt F) (VS3_0.writes (Elt F) VS3_0.junk (kernelRun3_A c i arg1 harg1 arg2 harg2 arg3 harg3 arg4 harg4 hc0 hc1 x0 x1).2.1)

/-- A middle point stores nothing into output 2 (the window is idle there and not written back): no pieces — a
    placeholder (junk read back) that nothing consults. -/
def out3_B_2 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : ¬cond3_1 i)
    (x0 : Vec F S256x8192 .f32) (x1 : Vec F S8192x66 .f32) (xs0 : Vec F S8192x66 .f32) : Vec F S8192x66 .f32 :=
  VO3_2.read (Elt F) (VO3_2.writes (Elt F) VO3_2.junk (kernelRun3_B c i arg1 harg1 arg2 harg2 arg3 harg3 arg4 harg4 hc0 hc1 x0 x1 xs0).1)

/-- A middle point's piece for the accumulator covers it: one whole-buffer piece (the sum). -/
theorem scover3_B_0 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : ¬cond3_1 i)
    (x0 : Vec F S256x8192 .f32) (x1 : Vec F S8192x66 .f32) (xs0 : Vec F S8192x66 .f32) (y : S8192x66.Idx) :
    ∃ pc ∈ (kernelRun3_B c i arg1 harg1 arg2 harg2 arg3 harg3 arg4 harg4 hc0 hc1 x0 x1 xs0).2.1, y ∈ pc.1.set :=
  View.cover_of_tiledL (kernelRun3_B c i arg1 harg1 arg2 harg2 arg3 harg3 arg4 harg4 hc0 hc1 x0 x1 xs0).2.1 S8192x66.size (by sl_kernel_rfl) y

/-- What a middle point leaves in the accumulator: its piece read back over junk. -/
def sout3_B_0 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : ¬cond3_1 i)
    (x0 : Vec F S256x8192 .f32) (x1 : Vec F S8192x66 .f32) (xs0 : Vec F S8192x66 .f32) : Vec F S8192x66 .f32 :=
  VS3_0.read (Elt F) (VS3_0.writes (Elt F) VS3_0.junk (kernelRun3_B c i arg1 harg1 arg2 harg2 arg3 harg3 arg4 harg4 hc0 hc1 x0 x1 xs0).2.1)

/-- The last point's piece for output 2 tiles its block (one whole-buffer store), so it covers it. -/
theorem cover3_C_2 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : cond3_1 i)
    (x0 : Vec F S256x8192 .f32) (x1 : Vec F S8192x66 .f32) (xs0 : Vec F S8192x66 .f32) (y : S8192x66.Idx) :
    ∃ pc ∈ (kernelRun3_C c i arg1 harg1 arg2 harg2 arg3 harg3 arg4 harg4 hc0 hc1 x0 x1 xs0).1, y ∈ pc.1.set :=
  View.cover_of_tiledL (kernelRun3_C c i arg1 harg1 arg2 harg2 arg3 harg3 arg4 harg4 hc0 hc1 x0 x1 xs0).1 S8192x66.size (by sl_kernel_rfl) y

/-- What the last point leaves in output 2's staging buffer: its piece read back over junk. -/
def out3_C_2 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : cond3_1 i)
    (x0 : Vec F S256x8192 .f32) (x1 : Vec F S8192x66 .f32) (xs0 : Vec F S8192x66 .f32) : Vec F S8192x66 .f32 :=
  VO3_2.read (Elt F) (VO3_2.writes (Elt F) VO3_2.junk (kernelRun3_C c i arg1 harg1 arg2 harg2 arg3 harg3 arg4 harg4 hc0 hc1 x0 x1 xs0).1)

/-- The last point's piece for the accumulator covers it: one whole-buffer piece (the sum). -/
theorem scover3_C_0 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : cond3_1 i)
    (x0 : Vec F S256x8192 .f32) (x1 : Vec F S8192x66 .f32) (xs0 : Vec F S8192x66 .f32) (y : S8192x66.Idx) :
    ∃ pc ∈ (kernelRun3_C c i arg1 harg1 arg2 harg2 arg3 harg3 arg4 harg4 hc0 hc1 x0 x1 xs0).2.1, y ∈ pc.1.set :=
  View.cover_of_tiledL (kernelRun3_C c i arg1 harg1 arg2 harg2 arg3 harg3 arg4 harg4 hc0 hc1 x0 x1 xs0).2.1 S8192x66.size (by sl_kernel_rfl) y

/-- What the last point leaves in the accumulator: its piece read back over junk. -/
def sout3_C_0 (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : cond3_1 i)
    (x0 : Vec F S256x8192 .f32) (x1 : Vec F S8192x66 .f32) (xs0 : Vec F S8192x66 .f32) : Vec F S8192x66 .f32 :=
  VS3_0.read (Elt F) (VS3_0.writes (Elt F) VS3_0.junk (kernelRun3_C c i arg1 harg1 arg2 harg2 arg3 harg3 arg4 harg4 hc0 hc1 x0 x1 xs0).2.1)

/-! ## What the output and the accumulator hold after each point -/

/-- THE ACCUMULATION. What output 2's staging buffer and the accumulator hold after the body at position `n` (a pair:
    the output, then the accumulator): the case the closed forms select at `n`, run at the point's memrefs and input
    blocks, the accumulator entering at what this leaves at `n - 1`. An assignment of the conditions no point meets is
    no case (`False.elim`). -/
def outsAt3 (c : Dev nD) : (n : ℕ) → n < cfg3.N → Vec F S8192x66 .f32 × Vec F S8192x66 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 32 = 0 then
      if h1 : (n + 1) % 32 = 31 then
        False.elim (by have hN : n + 1 < 32 := lt_of_lt_of_eq hn (show cfg3.N = 32 from N_3); omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 32 = 31 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- `outsAt3` at the first point: that case's contents. -/
theorem outsAt3_A (c : Dev nD) (t : Fin cfg3.N) (h0 : t.val % 32 = 0) (h1 : ¬t.val % 32 = 31) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- `outsAt3` at a middle point: that case's contents, over what the point before left. -/
theorem outsAt3_B (c : Dev nD) (t : Fin cfg3.N) (h0 : ¬t.val % 32 = 0) (h1 : ¬t.val % 32 = 31) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at the last point: that case's contents, over what the point before left. -/
theorem outsAt3_C (c : Dev nD) (t : Fin cfg3.N) (h0 : ¬t.val % 32 = 0) (h1 : t.val % 32 = 31) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the accumulator at what the point before left in it (`outsAt3`'s second
    component), beside the rest. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2)) ∗ G3 (F := F) c)

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(owns (c : Thread nD τ) scM3_0 fullShare ((outsAt3 V c n hn).2)) ∗ G3 (F := F) c) := rfl

/-- Before a point that is not the first: the accumulator at what the point before left. -/
theorem PhiS3_pos (c : Dev nD) (n : ℕ) (h : n ≤ cfg3.N) (hz : n ≠ 0) :
    PhiS3 V c n h = iprop(iprop(owns (c : Thread nD τ) scM3_0 fullShare ((outsAt3 V c (n - 1) (by omega)).2)) ∗ G3 (F := F) c) := by
  cases n with
  | zero => exact absurd rfl hz
  | succ n => rfl

/-! ## The pipeline's proof data -/

/-- The proof data of pipeline 3 on core `c`: the arrays as the region finds them (`V`); after the body at point `t`
    each input's buffer at its block and the output's at `outsAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents (the proof data's definition projected). -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks (`before3_0`, `before3_1`); the closed forms say
    which case the point is in; so the run applies; the invariant hands the body the accumulator at what the point
    before left (at anything at the first point) and takes it back at this point's contents; the rest of the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val % 32 = 0
  · by_cases h1 : t.val % 32 = 31
    · exfalso; omega
    · rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨HS0, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover3_A_0 c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 32 = 31
    · rw [show (dat3 V c).leavesExact 2 t = owns (c : Thread nD τ) (ms3_2 t) fullShare ((dat3 V c).after 2 t) from by
        unfold Dat.leavesExact; rw [liveAt3_2_C t (fun h => h0 ((hcond3_0 t).mp h)) ((hcond3_1 t).mpr h1)], after3_2]
      rw [outsAt3_C V c t h0 h1]
      unfold out3_C_2 sout3_C_0; (try dsimp only)
      have hz : t.val ≠ 0 := by omega
      rw [PhiS3_castSucc V c t, PhiS3_pos V c _ _ hz]
      iintro ⟨⟨HS0, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover3_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
      rw [outsAt3_B V c t h0 h1]
      unfold sout3_B_0; (try dsimp only)
      have hz : t.val ≠ 0 := by omega
      rw [PhiS3_castSucc V c t, PhiS3_pos V c _ _ hz]
      iintro ⟨⟨HS0, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover3_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS0, Hg⟩
  isplitl [HS0]
  · iexists _; iexact HS0
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

end Cert.KernelIdeal.H

end
-- ==== Proof.KI.Reg4Runs.lean ====
import proofs.«164042_j22436909154350_2_alg».proof.Proof.Gen.KernelIdeal.Launch
import proofs.«164042_j22436909154350_2_alg».proof.Proof.Gen.KernelIdeal.Skeleton
import proofs.«164042_j22436909154350_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 4 of @main: custom_call 4, `cc4__adjT_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s (`hA`) and whose body leaves the block in place (`hafter`): the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there (the first point) or not (every
    later point: the block index has not moved, and the body leaves the block in place). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first `scf.if` (the grid coordinate is 0), from the grid coordinates. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val % 32 = 0 :=
  (by decide +kernel : ∀ t : Fin grid4.N, cond4_0 (grid4.coords t) ↔ t.val % 32 = 0)

/-- The condition of the body's second `scf.if` (the grid coordinate is 31), from the grid coordinates. -/
abbrev cond4_1 (i : grid4.Coords) : Prop := k4_cond2 i = 1#1
/-- It holds at the last point only — decided over the grid. -/
theorem hcond4_1 : ∀ t : Fin cfg4.N, cond4_1 (grid4.coords t) ↔ t.val % 32 = 31 :=
  (by decide +kernel : ∀ t : Fin grid4.N, cond4_1 (grid4.coords t) ↔ t.val % 32 = 31)

/-! ## Where the windows are idle -/

/-- Windows 0 and 1 are never idle (inputs). -/
theorem liveAt4_0 : ∀ t : Fin cfg4.N, cfg4.idle 0 (grid4.coords t) = false := by decide +kernel
theorem liveAt4_1 : ∀ t : Fin cfg4.N, cfg4.idle 1 (grid4.coords t) = false := by decide +kernel
/-- At the first point output 2 is idle: the case stores nothing into it. -/
theorem idleAt4_2_A : ∀ t : Fin cfg4.N, cond4_0 (grid4.coords t) → ¬cond4_1 (grid4.coords t) → cfg4.idle 2 (grid4.coords t) = true := by decide +kernel
/-- At the first point the pipeline does not write output 2's block back. -/
theorem noFlush4_2_A : ∀ t : Fin cfg4.N, cond4_0 (grid4.coords t) → ¬cond4_1 (grid4.coords t) → (cfg4.win 2).flush t = false := by decide +kernel
/-- At the middle points output 2 is idle: the case stores nothing into it. -/
theorem idleAt4_2_B : ∀ t : Fin cfg4.N, ¬cond4_0 (grid4.coords t) → ¬cond4_1 (grid4.coords t) → cfg4.idle 2 (grid4.coords t) = true := by decide +kernel
/-- At the middle points the pipeline does not write output 2's block back. -/
theorem noFlush4_2_B : ∀ t : Fin cfg4.N, ¬cond4_0 (grid4.coords t) → ¬cond4_1 (grid4.coords t) → (cfg4.win 2).flush t = false := by decide +kernel
/-- At the last point output 2 is live: the case stores into it. -/
theorem liveAt4_2_C : ∀ t : Fin cfg4.N, ¬cond4_0 (grid4.coords t) → cond4_1 (grid4.coords t) → cfg4.idle 2 (grid4.coords t) = false := by decide +kernel

/-! ## The kernel body on any staging memrefs -/

/-- The staging buffer of output window 2, through which its contents are stated. -/
abbrev VO4_2 : View sig .tc .vmem S8192x66 .f32 := (Memref.whole cc4_stg2_0 : Memref sig .tc .vmem S8192x66 .f32).view
/-- Each window's current staging memref at point `t`, spelled as the pipeline passes it (`bodyAt4`), and its wholeness. -/
abbrev ms4_0 (t : Fin cfg4.N) : Memref sig .tc .vmem S256x8192 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x66 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S8192x66 .f32 := win4_2.stage (cfg4.slots t 2)
abbrev hs4_2 (t : Fin cfg4.N) : (ms4_2 t).IsWhole := hstage4_2 ((cfg4.slots t 2).cast nbuf4_2)
/-- The scratch operand: a whole scoped buffer of the kernel's own, passed beside the windows. -/
abbrev scM4_0 : Memref sig .tc .vmem S8192x66 .f32 := Memref.whole cc4_scratch0
/-- The scratch the kernel carries between points (the accumulator), as a view: what it holds is stated through it. -/
abbrev VS4_0 : View sig .tc .vmem S8192x66 .f32 := scM4_0.view

/-- Two assertions entailing each other are equal. -/
theorem sProp_eq_of4 {P Q : sProp 𝕄} (h₁ : P ⊢ Q) (h₂ : Q ⊢ P) : P = Q := BI.equiv_iff.mp ⟨h₁, h₂⟩

/-- A scoped buffer at some contents. -/
abbrev someAt4 (c : Dev nD) (b : Ref sig .tc) : sProp 𝕄 :=
  iprop(∃ f : Buf (Elt F) ((c : Thread nD τ).loc b), ((c : Thread nD τ).loc b) ↦{fullShare} f)

/-- What the region's invariant holds beside the accumulator and the body never touches: the other scoped buffers
    that are no staging buffer of this pipeline (the other regions' staging buffers and accumulators), each at some
    contents, and the generator register at some state. -/
def G4 (c : Dev nD) : sProp 𝕄 :=
  iprop(iprop(someAt4 (F := F) c cc0_stg0_0 ∗ someAt4 (F := F) c cc0_stg0_1 ∗ someAt4 (F := F) c cc0_stg1_0 ∗ someAt4 (F := F) c cc0_stg1_1 ∗ someAt4 (F := F) c cc1_stg0_0 ∗ someAt4 (F := F) c cc1_stg0_1 ∗ someAt4 (F := F) c cc1_stg1_0 ∗ someAt4 (F := F) c cc1_stg2_0 ∗ someAt4 (F := F) c cc1_scratch0 ∗ someAt4 (F := F) c cc2_stg0_0 ∗ someAt4 (F := F) c cc2_stg0_1 ∗ someAt4 (F := F) c cc2_stg1_0 ∗ someAt4 (F := F) c cc2_stg2_0 ∗ someAt4 (F := F) c cc2_scratch0 ∗ someAt4 (F := F) c cc3_stg0_0 ∗ someAt4 (F := F) c cc3_stg0_1 ∗ someAt4 (F := F) c cc3_stg1_0 ∗ someAt4 (F := F) c cc3_stg2_0 ∗ someAt4 (F := F) c cc3_scratch0) ∗ (∃ r, prngReg c r))

/-- The region's invariant with the accumulator as a memref owned at some contents, beside the rest: what the body
    obligation hands the run and takes back. -/
theorem PhiA4_eq (c : Dev nD) :
    (Pipeline.ΦA spec4 c : sProp 𝕄)
      = iprop(iprop((∃ d, owns (c : Thread nD τ) scM4_0 fullShare d)) ∗ G4 (F := F) c) := by
  unfold Pipeline.ΦA G4; rw [scopedRest4_eq]; simp only [scM4_0, owns_whole]
  refine sProp_eq_of4 ?_ ?_
  · iintro ⟨⟨A0, A1, A2, A3, A4, A5, A6, A7, A8, A9, A10, A11, A12, A13, A14, A15, A16, A17, A18, HS⟩, Hg⟩
    isplitl [HS]; · iexact HS
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    iexact A18
  · iintro ⟨HS, ⟨A0, A1, A2, A3, A4, A5, A6, A7, A8, A9, A10, A11, A12, A13, A14, A15, A16, A17, A18⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    iexact HS

end Cert.KernelIdeal.H

end
-- ==== Proof.KI.Reg4RunA.lean ====
import proofs.«164042_j22436909154350_2_alg».proof.Proof.KI.Reg4Runs

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    FIRST POINT (the first `scf.if` taken, the second not), WITH the proof that on whole staging memrefs — the inputs'
    at their contents `x0`, `x1`, the output's (no store: the window is idle and not written back there) at contents
    `xi2` handed back untouched, the accumulator at anything — the body runs to the continuation holding the inputs' as
    they were and the accumulator with its pieces written (the zero fill, then the sum): the printed function is its
    skeleton, which `sl_exec` runs, each `scf.if` decided by the case's hypotheses; the pieces are the witness the
    run finds. -/
noncomputable def kernelRun4_A (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond4_0 i) (hc1 : ¬cond4_1 i)
    (x0 : Vec F S256x8192 .f32) (x1 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__adjT_kernel i arg1 harg1 arg2 harg2 arg3 harg3 arg4 harg4) K } := by
  refine ⟨[], ?_, fun xi2 E K => ?run⟩
  case run =>
    simp only [cc4__adjT_kernel_eq_skeleton]; unfold cc4__adjT_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.H

end
-- ==== Proof.KI.Reg4RunB.lean ====
import proofs.«164042_j22436909154350_2_alg».proof.Proof.KI.Reg4RunA

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT A
    MIDDLE POINT (neither `scf.if` taken), WITH the proof that on whole staging memrefs — the inputs' at their contents
    `x0`, `x1`, the output's (no store: the window is idle and not written back there) at contents `xi2` handed back
    untouched, the accumulator at what the point before left (`xs0`) — the body runs to the continuation holding the
    inputs' as they were and the accumulator with its piece written (the sum): the printed function is its skeleton,
    which `sl_exec` runs, each `scf.if` decided by the case's hypotheses; the pieces are the witness the run finds. -/
noncomputable def kernelRun4_B (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : ¬cond4_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (xi2 : Vec F S8192x66 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__adjT_kernel i arg1 harg1 arg2 harg2 arg3 harg3 arg4 harg4) K } := by
  refine ⟨[], ?_, fun xi2 E K => ?run⟩
  case run =>
    simp only [cc4__adjT_kernel_eq_skeleton]; unfold cc4__adjT_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.H

end
-- ==== Proof.KI.Reg4RunC.lean ====
import proofs.«164042_j22436909154350_2_alg».proof.Proof.KI.Reg4RunB

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in output 2's staging memref and in the accumulator, as pieces (last first), AT THE
    LAST POINT (the first `scf.if` not taken, the second taken), WITH the proof that on whole staging memrefs — the
    inputs' at their contents `x0`, `x1`, the output's at anything, the accumulator at what the point before left
    (`xs0`) — the body runs to the continuation holding the inputs' as they were, the accumulator with its piece written
    (the sum) and the output's buffer with its piece written (the sum plus the second input): the printed function is
    its skeleton, which `sl_exec` runs, each `scf.if` decided by the case's hypotheses; the pieces are the witness the
    run finds. -/
noncomputable def kernelRun4_C (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : cond4_1 i)
    (x0 : Vec F S256x8192 .f32) (x1 : Vec F S8192x66 .f32) (xs0 : Vec F S8192x66 .f32) :
    Σ' (L2 : List (View.Piece (Elt F) S8192x66 .f32)), { LS0 : List (View.Piece (Elt F) S8192x66 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc4__adjT_kernel i arg1 harg1 arg2 harg2 arg3 harg3 arg4 harg4) K } := by
  refine ⟨?_, ?_, fun E K => ?run⟩
  case run =>
    simp only [cc4__adjT_kernel_eq_skeleton]; unfold cc4__adjT_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.H

end
-- ==== Proof.KI.Reg4.lean ====
import proofs.«164042_j22436909154350_2_alg».proof.Proof.KI.Reg4RunC

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- The first point stores nothing into output 2 (the window is idle there and not written back): no pieces — a
    placeholder (junk read back) that nothing consults, since at that point the window is neither written back nor
    read at the next point. -/
def out4_A_2 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond4_0 i) (hc1 : ¬cond4_1 i)
    (x0 : Vec F S256x8192 .f32) (x1 : Vec F S8192x66 .f32) : Vec F S8192x66 .f32 :=
  VO4_2.read (Elt F) (VO4_2.writes (Elt F) VO4_2.junk (kernelRun4_A c i arg1 harg1 arg2 harg2 arg3 harg3 arg4 harg4 hc0 hc1 x0 x1).1)

/-- The first point's pieces for the accumulator cover it: two whole-buffer pieces (the zero fill, the sum). -/
theorem scover4_A_0 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond4_0 i) (hc1 : ¬cond4_1 i)
    (x0 : Vec F S256x8192 .f32) (x1 : Vec F S8192x66 .f32) (y : S8192x66.Idx) :
    ∃ pc ∈ (kernelRun4_A c i arg1 harg1 arg2 harg2 arg3 harg3 arg4 harg4 hc0 hc1 x0 x1).2.1, y ∈ pc.1.set :=
  View.cover_of_tiledL (kernelRun4_A c i arg1 harg1 arg2 harg2 arg3 harg3 arg4 harg4 hc0 hc1 x0 x1).2.1 S8192x66.size (by sl_kernel_rfl) y

/-- What the first point leaves in the accumulator: its pieces read back over junk. -/
def sout4_A_0 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond4_0 i) (hc1 : ¬cond4_1 i)
    (x0 : Vec F S256x8192 .f32) (x1 : Vec F S8192x66 .f32) : Vec F S8192x66 .f32 :=
  VS4_0.read (Elt F) (VS4_0.writes (Elt F) VS4_0.junk (kernelRun4_A c i arg1 harg1 arg2 harg2 arg3 harg3 arg4 harg4 hc0 hc1 x0 x1).2.1)

/-- A middle point stores nothing into output 2 (the window is idle there and not written back): no pieces — a
    placeholder (junk read back) that nothing consults. -/
def out4_B_2 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : ¬cond4_1 i)
    (x0 : Vec F S256x8192 .f32) (x1 : Vec F S8192x66 .f32) (xs0 : Vec F S8192x66 .f32) : Vec F S8192x66 .f32 :=
  VO4_2.read (Elt F) (VO4_2.writes (Elt F) VO4_2.junk (kernelRun4_B c i arg1 harg1 arg2 harg2 arg3 harg3 arg4 harg4 hc0 hc1 x0 x1 xs0).1)

/-- A middle point's piece for the accumulator covers it: one whole-buffer piece (the sum). -/
theorem scover4_B_0 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : ¬cond4_1 i)
    (x0 : Vec F S256x8192 .f32) (x1 : Vec F S8192x66 .f32) (xs0 : Vec F S8192x66 .f32) (y : S8192x66.Idx) :
    ∃ pc ∈ (kernelRun4_B c i arg1 harg1 arg2 harg2 arg3 harg3 arg4 harg4 hc0 hc1 x0 x1 xs0).2.1, y ∈ pc.1.set :=
  View.cover_of_tiledL (kernelRun4_B c i arg1 harg1 arg2 harg2 arg3 harg3 arg4 harg4 hc0 hc1 x0 x1 xs0).2.1 S8192x66.size (by sl_kernel_rfl) y

/-- What a middle point leaves in the accumulator: its piece read back over junk. -/
def sout4_B_0 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : ¬cond4_1 i)
    (x0 : Vec F S256x8192 .f32) (x1 : Vec F S8192x66 .f32) (xs0 : Vec F S8192x66 .f32) : Vec F S8192x66 .f32 :=
  VS4_0.read (Elt F) (VS4_0.writes (Elt F) VS4_0.junk (kernelRun4_B c i arg1 harg1 arg2 harg2 arg3 harg3 arg4 harg4 hc0 hc1 x0 x1 xs0).2.1)

/-- The last point's piece for output 2 tiles its block (one whole-buffer store), so it covers it. -/
theorem cover4_C_2 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : cond4_1 i)
    (x0 : Vec F S256x8192 .f32) (x1 : Vec F S8192x66 .f32) (xs0 : Vec F S8192x66 .f32) (y : S8192x66.Idx) :
    ∃ pc ∈ (kernelRun4_C c i arg1 harg1 arg2 harg2 arg3 harg3 arg4 harg4 hc0 hc1 x0 x1 xs0).1, y ∈ pc.1.set :=
  View.cover_of_tiledL (kernelRun4_C c i arg1 harg1 arg2 harg2 arg3 harg3 arg4 harg4 hc0 hc1 x0 x1 xs0).1 S8192x66.size (by sl_kernel_rfl) y

/-- What the last point leaves in output 2's staging buffer: its piece read back over junk. -/
def out4_C_2 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : cond4_1 i)
    (x0 : Vec F S256x8192 .f32) (x1 : Vec F S8192x66 .f32) (xs0 : Vec F S8192x66 .f32) : Vec F S8192x66 .f32 :=
  VO4_2.read (Elt F) (VO4_2.writes (Elt F) VO4_2.junk (kernelRun4_C c i arg1 harg1 arg2 harg2 arg3 harg3 arg4 harg4 hc0 hc1 x0 x1 xs0).1)

/-- The last point's piece for the accumulator covers it: one whole-buffer piece (the sum). -/
theorem scover4_C_0 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : cond4_1 i)
    (x0 : Vec F S256x8192 .f32) (x1 : Vec F S8192x66 .f32) (xs0 : Vec F S8192x66 .f32) (y : S8192x66.Idx) :
    ∃ pc ∈ (kernelRun4_C c i arg1 harg1 arg2 harg2 arg3 harg3 arg4 harg4 hc0 hc1 x0 x1 xs0).2.1, y ∈ pc.1.set :=
  View.cover_of_tiledL (kernelRun4_C c i arg1 harg1 arg2 harg2 arg3 harg3 arg4 harg4 hc0 hc1 x0 x1 xs0).2.1 S8192x66.size (by sl_kernel_rfl) y

/-- What the last point leaves in the accumulator: its piece read back over junk. -/
def sout4_C_0 (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : cond4_1 i)
    (x0 : Vec F S256x8192 .f32) (x1 : Vec F S8192x66 .f32) (xs0 : Vec F S8192x66 .f32) : Vec F S8192x66 .f32 :=
  VS4_0.read (Elt F) (VS4_0.writes (Elt F) VS4_0.junk (kernelRun4_C c i arg1 harg1 arg2 harg2 arg3 harg3 arg4 harg4 hc0 hc1 x0 x1 xs0).2.1)

/-! ## What the output and the accumulator hold after each point -/

/-- THE ACCUMULATION. What output 2's staging buffer and the accumulator hold after the body at position `n` (a pair:
    the output, then the accumulator): the case the closed forms select at `n`, run at the point's memrefs and input
    blocks, the accumulator entering at what this leaves at `n - 1`. An assignment of the conditions no point meets is
    no case (`False.elim`). -/
def outsAt4 (c : Dev nD) : (n : ℕ) → n < cfg4.N → Vec F S8192x66 .f32 × Vec F S8192x66 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 32 = 0 then
      if h1 : (n + 1) % 32 = 31 then
        False.elim (by have hN : n + 1 < 32 := lt_of_lt_of_eq hn (show cfg4.N = 32 from N_4); omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 32 = 31 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at the first point: that case's contents. -/
theorem outsAt4_A (c : Dev nD) (t : Fin cfg4.N) (h0 : t.val % 32 = 0) (h1 : ¬t.val % 32 = 31) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a middle point: that case's contents, over what the point before left. -/
theorem outsAt4_B (c : Dev nD) (t : Fin cfg4.N) (h0 : ¬t.val % 32 = 0) (h1 : ¬t.val % 32 = 31) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at the last point: that case's contents, over what the point before left. -/
theorem outsAt4_C (c : Dev nD) (t : Fin cfg4.N) (h0 : ¬t.val % 32 = 0) (h1 : t.val % 32 = 31) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the accumulator at what the point before left in it (`outsAt4`'s second
    component), beside the rest. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)) ∗ G4 (F := F) c)

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(owns (c : Thread nD τ) scM4_0 fullShare ((outsAt4 V c n hn).2)) ∗ G4 (F := F) c) := rfl

/-- Before a point that is not the first: the accumulator at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2)) ∗ G4 (F := F) c) := by
  cases n with
  | zero => exact absurd rfl hz
  | succ n => rfl

/-! ## The pipeline's proof data -/

/-- The proof data of pipeline 4 on core `c`: the arrays as the region finds them (`V`); after the body at point `t`
    each input's buffer at its block and the output's at `outsAt4`'s first component; the invariant `PhiS4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents (the proof data's definition projected). -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks (`before4_0`, `before4_1`); the closed forms say
    which case the point is in; so the run applies; the invariant hands the body the accumulator at what the point
    before left (at anything at the first point) and takes it back at this point's contents; the rest of the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 32 = 0
  · by_cases h1 : t.val % 32 = 31
    · exfalso; omega
    · rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨HS0, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover4_A_0 c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 32 = 31
    · rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      have hz : t.val ≠ 0 := by omega
      rw [PhiS4_castSucc V c t, PhiS4_pos V c _ _ hz]
      iintro ⟨⟨HS0, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover4_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      have hz : t.val ≠ 0 := by omega
      rw [PhiS4_castSucc V c t, PhiS4_pos V c _ _ hz]
      iintro ⟨⟨HS0, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover4_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨HS0, Hg⟩
  isplitl [HS0]
  · iexists _; iexact HS0
  iexact Hg

/-- The same after the last point. -/
theorem hout4 (c : Dev nD) : (dat4 V c).Φ (Fin.last cfg4.N) ⊢ Pipeline.ΦA spec4 c :=
  Phi_out4 V c _ (by rw [Fin.val_last]; have : cfg4.N = 32 := N_4; omega)

end Cert.KernelIdeal.H

end
-- ==== Proof.KI.Run.lean ====
/-
  The run of the whole program at any float instance: its eleven items in order — six stretches of host operations
  and five kernel regions — from the launch memory to the return.

  Between two items every unscoped buffer of the TensorCore holds a known array: `W0` is the launch memory; a host
  stretch replaces the contents by the fold of its operations over them; a region replaces the arrays of its windows by
  what its write-backs leave (the inputs as entered, the output at the fold of the blocks flushed) and keeps every other
  buffer. `W11` is the contents at the return: the program's result and its argument arrays are read off it.
-/
import proofs.«164042_j22436909154350_2_alg».proof.Proof.KI.Reg0
import proofs.«164042_j22436909154350_2_alg».proof.Proof.KI.Reg1
import proofs.«164042_j22436909154350_2_alg».proof.Proof.KI.Reg2
import proofs.«164042_j22436909154350_2_alg».proof.Proof.KI.Reg3
import proofs.«164042_j22436909154350_2_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The buffers at launch. -/
abbrev W0 : Dev nD → Valuation τ sig (Elt F) := fun c b => (s₀ m ρ).mem ((c : Dev nD), b)

/-- After host stretch 0: region 0's entry. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After host stretch 1: region 1's entry. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After host stretch 2: region 2's entry. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its windows' arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After host stretch 3: region 3's entry. -/
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
/-- At region 3's exit: its windows' arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)

/-- After host stretch 4: region 4's entry. -/
abbrev W9 : Dev nD → Valuation τ sig (Elt F) := fun c => StableHlo.after hostOps4 (W8 m ρ c)
abbrev U9 : (c : Dev nD) → (b : Ref sig .tc) → Buf (Elt F) ((c : Thread nD τ).loc b) := fun c b => W9 m ρ c b
/-- At region 4's exit: its windows' arrays at what the pipeline leaves, every other buffer as entered. -/
def W10 (c : Dev nD) : Valuation τ sig (Elt F) :=
  Pipeline.withArrays spec4 c (W9 m ρ c) fun w => (dat4 (U9 m ρ) c).arrAt w cfg4.N
theorem W10_arr (c : Dev nD) (w : Fin cfg4.W) :
    W10 m ρ c (Proc.devRef .tc (Pipeline.arrRef spec4 w)) = (dat4 (U9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev U10 : (c : Dev nD) → (b : Ref sig .tc) → Buf (Elt F) ((c : Thread nD τ).loc b) := fun c b => W10 m ρ c b
theorem hF4 (c : Dev nD) (w : Fin cfg4.W) : (dat4 (U9 m ρ) c).arrAt w cfg4.N = U10 m ρ c (Pipeline.arrRef spec4 w) :=
  (W10_arr m ρ c w).symm
theorem hrest4 (c : Dev nD) : ∀ b, b ∉ Finset.univ.image (Pipeline.arrRef spec4) → U10 m ρ c b = U9 m ρ c b :=
  fun b hb => W10_of_ne m ρ c b fun w e => hb (Finset.mem_image.mpr ⟨w, Finset.mem_univ _, e⟩)

/-- After the last host stretch: the contents at the return. -/
abbrev W11 : Dev nD → Valuation τ sig (Elt F) := fun c => StableHlo.after hostOps5 (W10 m ρ c)

/-! ## The proof data family and the thread state -/

/-- No pipeline has a prefetched table. -/
abbrev admH : (p : Fin 5) → (pcfgs (F := F) p).Adm := fun p => (cfgs p).toPCfg_adm
/-- Every pipeline's proof data, each at its region's entry contents. -/
def pd : (p : Fin 5) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U9 m ρ) c
/-- No core owes another anything: no level is assigned. -/
abbrev Lz : GSem nD τ sig → Finset Unit := fun _ => ∅
abbrev lvz : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps4_fresh' : (hostOps4 : List (HloOp τ sig (Elt F))).Forall fun op => op.fresh = ∅ := by
  simp only [List.Forall]; repeat' constructor
theorem hostOps5_fresh' : (hostOps5 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the return's contents, the generator register. -/
abbrev Tn (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0: entered from every unscoped buffer at `W1`, left at `W2`. Its arrays are split out of the unscoped
    buffers and put back at the exit contents; the generator register goes into the invariant and comes out; nothing is owed. -/
def reg0 : Pipeline.RegionSeg (pcfgs (F := F)) admH (pd m ρ) () defs₀ Variants.none Lz lvz 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lz lvz 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pd m ρ) launch0.win launch0.arr_whole c
      ((pd m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pd m ρ) ((pd m ρ 0 c).share_full fun _ => rfl)
      (U1 m ρ c) (U2 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the unscoped
    buffers and put back at the exit contents; the generator register goes into the invariant and comes out; nothing is owed. -/
def reg1 : Pipeline.RegionSeg (pcfgs (F := F)) admH (pd m ρ) () defs₀ Variants.none Lz lvz 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lz lvz 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admH (pd m ρ) launch1.win launch1.arr_whole c
      ((pd m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pd m ρ 1 c).Φ 0 := hin1 (U3 m ρ) c
    unfold Pipeline.ΦA at h
    iintro ⟨Hp, -, Hr⟩
    iapply h
    isplitl [Hr]; · iexact Hr
    iexact Hp
  hout c := by
    rw [Pipeline.ownSems0_none]
    have h : (pd m ρ 1 c).Φ (Fin.last _) ⊢ Pipeline.ΦA spec1 c := hout1 (U3 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pd m ρ) ((pd m ρ 1 c).share_full fun _ => rfl)
      (U3 m ρ c) (U4 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. Its arrays are split out of the unscoped
    buffers and put back at the exit contents; the generator register goes into the invariant and comes out; nothing is owed. -/
def reg2 : Pipeline.RegionSeg (pcfgs (F := F)) admH (pd m ρ) () defs₀ Variants.none Lz lvz 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lz lvz 2 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) admH (pd m ρ) launch2.win launch2.arr_whole c
      ((pd m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pd m ρ 2 c).Φ 0 := hin2 (U5 m ρ) c
    unfold Pipeline.ΦA at h
    iintro ⟨Hp, -, Hr⟩
    iapply h
    isplitl [Hr]; · iexact Hr
    iexact Hp
  hout c := by
    rw [Pipeline.ownSems0_none]
    have h : (pd m ρ 2 c).Φ (Fin.last _) ⊢ Pipeline.ΦA spec2 c := hout2 (U5 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pd m ρ) ((pd m ρ 2 c).share_full fun _ => rfl)
      (U5 m ρ c) (U6 m ρ c) ((pd m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. Its arrays are split out of the unscoped
    buffers and put back at the exit contents; the generator register goes into the invariant and comes out; nothing is owed. -/
def reg3 : Pipeline.RegionSeg (pcfgs (F := F)) admH (pd m ρ) () defs₀ Variants.none Lz lvz 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ Lz lvz 3 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) admH (pd m ρ) launch3.win launch3.arr_whole c
      ((pd m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec3 c ⊢ (pd m ρ 3 c).Φ 0 := hin3 (U7 m ρ) c
    unfold Pipeline.ΦA at h
    iintro ⟨Hp, -, Hr⟩
    iapply h
    isplitl [Hr]; · iexact Hr
    iexact Hp
  hout c := by
    rw [Pipeline.ownSems0_none]
    have h : (pd m ρ 3 c).Φ (Fin.last _) ⊢ Pipeline.ΦA spec3 c := hout3 (U7 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pd m ρ) ((pd m ρ 3 c).share_full fun _ => rfl)
      (U7 m ρ c) (U8 m ρ c) ((pd m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W9`, left at `W10`. Its arrays are split out of the unscoped
    buffers and put back at the exit contents; the generator register goes into the invariant and comes out; nothing is owed. -/
def reg4 : Pipeline.RegionSeg (pcfgs (F := F)) admH (pd m ρ) () defs₀ Variants.none Lz lvz 4 where
  win := launch4.win.to₀
  block_pos := launch4.block_pos
  stage_whole := launch4.stage_whole
  K := PEmpty
  osem k := k.elim
  ho := Pipeline.OwnSemFacts.none _
  hbody c := (body_obligation4 (U9 m ρ) c).loose
  hwaits := Pipeline.hwaits_of_owed_zero _ _ _ _ Lz lvz 4 fun _ _ => rfl
  pre c := iprop(StableHlo.held (c : Thread nD τ) (Pipeline.ucRefs τ sig) (W9 m ρ c) ∗ Rr c)
  post c := iprop(StableHlo.held (c : Thread nD τ) (Pipeline.ucRefs τ sig) (W10 m ρ c) ∗ Rr c)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) admH (pd m ρ) launch4.win launch4.arr_whole c
      ((pd m ρ 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec4 c ⊢ (pd m ρ 4 c).Φ 0 := hin4 (U9 m ρ) c
    unfold Pipeline.ΦA at h
    iintro ⟨Hp, -, Hr⟩
    iapply h
    isplitl [Hr]; · iexact Hr
    iexact Hp
  hout c := by
    rw [Pipeline.ownSems0_none]
    have h : (pd m ρ 4 c).Φ (Fin.last _) ⊢ Pipeline.ΦA spec4 c := hout4 (U9 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pd m ρ) ((pd m ρ 4 c).share_full fun _ => rfl)
      (U9 m ρ c) (U10 m ρ c) ((pd m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The eleven items in order. -/
abbrev sgs : List (Pipeline.Seg (pcfgs (F := F)) admH (pd m ρ) () defs₀ Variants.none Lz lvz) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ),
    .host (hseg hostOps3 hostOps3_sub hostOps3_fresh' (W6 m ρ)),
    .region (reg3 m ρ),
    .host (hseg hostOps4 hostOps4_sub hostOps4_fresh' (W8 m ρ)),
    .region (reg4 m ρ),
    .host (hseg hostOps5 hostOps5_sub hostOps5_fresh' (W10 m ρ)) ]
/-- The program IS the run of the segments. -/
theorem main_run (c : Dev nD) : main (F := F) c = Pipeline.Seg.run (sgs m ρ) := (main_chain c).trans (by chain_rfl)

set_option backward.isDefEq.respectTransparency.types false in
/-- From any memory with zero counters every weakly fair execution of the program terminates, nothing faulting, and in
    every final state each unscoped buffer of each TensorCore holds the return's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) admH (pd m ρ) () cellOf_inj emb₁ defs₀ Variants.none Lz lvz m ρ main (sgs m ρ)
    (fun c Q => by rw [main_run m ρ c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tn m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ Rr c) ⊢ _
        iintro ⟨Hh, Hp, HO⟩
        isplitl [Hh Hp]
        · isplitl [Hh]; · iexact Hh
          iexact Hp
        iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.H

end
-- ==== Proof.KI.Args.lean ====
/-
  The argument arrays at the return are the launch contents, and the frame of the program at any float instance.

  No host operation writes an argument array, and a region either does not touch it or stages it through an input
  window, whose array the pipeline leaves as entered; so the contents at the return, read at an argument, walk back
  item by item to the launch memory.
-/
import proofs.«164042_j22436909154350_2_alg».proof.Proof.KI.Run
import proofs.«164042_j22436909154350_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H          -- the hand-written part lives in its own namespace (the generated modules own Cert.KernelIdeal.Gen)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` at the return is its launch contents. -/
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := StableHlo.after_of_writes_sub hostOps5 _ hostOps5_writes (by decide : main_arg0 ∉ hostOps5_W)
    _ = W9 m ρ c (Proc.devRef .tc main_arg0) := W10_of_ne m ρ c main_arg0 (by decide)
    _ = W8 m ρ c (Proc.devRef .tc main_arg0) := StableHlo.after_of_writes_sub hostOps4 _ hostOps4_writes (by decide : main_arg0 ∉ hostOps4_W)
    _ = W7 m ρ c (Proc.devRef .tc main_arg0) := W8_of_ne m ρ c main_arg0 (by decide)
    _ = W6 m ρ c (Proc.devRef .tc main_arg0) := StableHlo.after_of_writes_sub hostOps3 _ hostOps3_writes (by decide : main_arg0 ∉ hostOps3_W)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

/-- `main_arg1` at the return is its launch contents. -/
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := StableHlo.after_of_writes_sub hostOps5 _ hostOps5_writes (by decide : main_arg1 ∉ hostOps5_W)
    _ = W9 m ρ c (Proc.devRef .tc main_arg1) := W10_of_ne m ρ c main_arg1 (by decide)
    _ = W8 m ρ c (Proc.devRef .tc main_arg1) := StableHlo.after_of_writes_sub hostOps4 _ hostOps4_writes (by decide : main_arg1 ∉ hostOps4_W)
    _ = W7 m ρ c (Proc.devRef .tc main_arg1) := W8_of_ne m ρ c main_arg1 (by decide)
    _ = W6 m ρ c (Proc.devRef .tc main_arg1) := StableHlo.after_of_writes_sub hostOps3 _ hostOps3_writes (by decide : main_arg1 ∉ hostOps3_W)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-- `main_arg2` at the return is its launch contents. -/
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := StableHlo.after_of_writes_sub hostOps5 _ hostOps5_writes (by decide : main_arg2 ∉ hostOps5_W)
    _ = W9 m ρ c (Proc.devRef .tc main_arg2) := (W10_arr m ρ c 0).trans (((dat4 (U9 m ρ) c).arrAt_in 0 rfl _).trans (A_eq4 (U9 m ρ) c 0))
    _ = W8 m ρ c (Proc.devRef .tc main_arg2) := StableHlo.after_of_writes_sub hostOps4 _ hostOps4_writes (by decide : main_arg2 ∉ hostOps4_W)
    _ = W7 m ρ c (Proc.devRef .tc main_arg2) := (W8_arr m ρ c 0).trans (((dat3 (U7 m ρ) c).arrAt_in 0 rfl _).trans (A_eq3 (U7 m ρ) c 0))
    _ = W6 m ρ c (Proc.devRef .tc main_arg2) := StableHlo.after_of_writes_sub hostOps3 _ hostOps3_writes (by decide : main_arg2 ∉ hostOps3_W)
    _ = W5 m ρ c (Proc.devRef .tc main_arg2) := (W6_arr m ρ c 0).trans (((dat2 (U5 m ρ) c).arrAt_in 0 rfl _).trans (A_eq2 (U5 m ρ) c 0))
    _ = W4 m ρ c (Proc.devRef .tc main_arg2) := StableHlo.after_of_writes_sub hostOps2 _ hostOps2_writes (by decide : main_arg2 ∉ hostOps2_W)
    _ = W3 m ρ c (Proc.devRef .tc main_arg2) := (W4_arr m ρ c 0).trans (((dat1 (U3 m ρ) c).arrAt_in 0 rfl _).trans (A_eq1 (U3 m ρ) c 0))
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 0).trans (((dat0 (U1 m ρ) c).arrAt_in 0 rfl _).trans (A_eq0 (U1 m ρ) c 0))
    _ = W0 m ρ c (Proc.devRef .tc main_arg2) := StableHlo.after_of_writes_sub hostOps0 _ hostOps0_writes (by decide : main_arg2 ∉ hostOps0_W)
    _ = m ((c : Thread nD τ).loc main_arg2) := rfl

/-- `main_arg3` at the return is its launch contents. -/
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_writes_sub hostOps5 _ hostOps5_writes (by decide : main_arg3 ∉ hostOps5_W)
    _ = W9 m ρ c (Proc.devRef .tc main_arg3) := W10_of_ne m ρ c main_arg3 (by decide)
    _ = W8 m ρ c (Proc.devRef .tc main_arg3) := StableHlo.after_of_writes_sub hostOps4 _ hostOps4_writes (by decide : main_arg3 ∉ hostOps4_W)
    _ = W7 m ρ c (Proc.devRef .tc main_arg3) := W8_of_ne m ρ c main_arg3 (by decide)
    _ = W6 m ρ c (Proc.devRef .tc main_arg3) := StableHlo.after_of_writes_sub hostOps3 _ hostOps3_writes (by decide : main_arg3 ∉ hostOps3_W)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

/-- `main_arg4` at the return is its launch contents. -/
theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := StableHlo.after_of_writes_sub hostOps5 _ hostOps5_writes (by decide : main_arg4 ∉ hostOps5_W)
    _ = W9 m ρ c (Proc.devRef .tc main_arg4) := W10_of_ne m ρ c main_arg4 (by decide)
    _ = W8 m ρ c (Proc.devRef .tc main_arg4) := StableHlo.after_of_writes_sub hostOps4 _ hostOps4_writes (by decide : main_arg4 ∉ hostOps4_W)
    _ = W7 m ρ c (Proc.devRef .tc main_arg4) := W8_of_ne m ρ c main_arg4 (by decide)
    _ = W6 m ρ c (Proc.devRef .tc main_arg4) := StableHlo.after_of_writes_sub hostOps3 _ hostOps3_writes (by decide : main_arg4 ∉ hostOps3_W)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

/-- `main_arg5` at the return is its launch contents. -/
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := StableHlo.after_of_writes_sub hostOps5 _ hostOps5_writes (by decide : main_arg5 ∉ hostOps5_W)
    _ = W9 m ρ c (Proc.devRef .tc main_arg5) := W10_of_ne m ρ c main_arg5 (by decide)
    _ = W8 m ρ c (Proc.devRef .tc main_arg5) := StableHlo.after_of_writes_sub hostOps4 _ hostOps4_writes (by decide : main_arg5 ∉ hostOps4_W)
    _ = W7 m ρ c (Proc.devRef .tc main_arg5) := W8_of_ne m ρ c main_arg5 (by decide)
    _ = W6 m ρ c (Proc.devRef .tc main_arg5) := StableHlo.after_of_writes_sub hostOps3 _ hostOps3_writes (by decide : main_arg5 ∉ hostOps3_W)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-- `main_arg6` at the return is its launch contents. -/
theorem W11_main_arg6 (c : Dev nD) : W11 m ρ c (Proc.devRef .tc main_arg6) = m ((c : Thread nD τ).loc main_arg6) :=
  calc W11 m ρ c (Proc.devRef .tc main_arg6)
    _ = W10 m ρ c (Proc.devRef .tc main_arg6) := StableHlo.after_of_writes_sub hostOps5 _ hostOps5_writes (by decide : main_arg6 ∉ hostOps5_W)
    _ = W9 m ρ c (Proc.devRef .tc main_arg6) := W10_of_ne m ρ c main_arg6 (by decide)
    _ = W8 m ρ c (Proc.devRef .tc main_arg6) := StableHlo.after_of_writes_sub hostOps4 _ hostOps4_writes (by decide : main_arg6 ∉ hostOps4_W)
    _ = W7 m ρ c (Proc.devRef .tc main_arg6) := W8_of_ne m ρ c main_arg6 (by decide)
    _ = W6 m ρ c (Proc.devRef .tc main_arg6) := StableHlo.after_of_writes_sub hostOps3 _ hostOps3_writes (by decide : main_arg6 ∉ hostOps3_W)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-- `main_arg7` at the return is its launch contents. -/
theorem W11_main_arg7 (c : Dev nD) : W11 m ρ c (Proc.devRef .tc main_arg7) = m ((c : Thread nD τ).loc main_arg7) :=
  calc W11 m ρ c (Proc.devRef .tc main_arg7)
    _ = W10 m ρ c (Proc.devRef .tc main_arg7) := StableHlo.after_of_writes_sub hostOps5 _ hostOps5_writes (by decide : main_arg7 ∉ hostOps5_W)
    _ = W9 m ρ c (Proc.devRef .tc main_arg7) := W10_of_ne m ρ c main_arg7 (by decide)
    _ = W8 m ρ c (Proc.devRef .tc main_arg7) := StableHlo.after_of_writes_sub hostOps4 _ hostOps4_writes (by decide : main_arg7 ∉ hostOps4_W)
    _ = W7 m ρ c (Proc.devRef .tc main_arg7) := W8_of_ne m ρ c main_arg7 (by decide)
    _ = W6 m ρ c (Proc.devRef .tc main_arg7) := StableHlo.after_of_writes_sub hostOps3 _ hostOps3_writes (by decide : main_arg7 ∉ hostOps3_W)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-- THE FRAME at any float instance: from any memory with zero counters every weakly fair execution of the program
    terminates, nothing faulting, and every final state has the eight argument arrays as launched. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c)⟩) (run_all m ρ)

/-- The same run with the program's result named: it ends holding the return's contents at `main_v56`. -/
theorem run_value : θ_run defs (onTc (τ := τ) (main (F := F))) ⟨m, fun _ => 0, ρ⟩ (fun r => ∀ c : Dev nD,
      r.2.mem ((c.tc : Thread nD τ).loc main_v56) = W11 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v56 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c)⟩) (run_all m ρ)

end Cert.KernelIdeal.H

end
-- ==== Proof.KI.Reg0Value.lean ====
import proofs.«164042_j22436909154350_2_alg».proof.Proof.KI.Reg0
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe
open Idealize.SL Idealize.SL.Sem

variable {F : FTy → Type} [FloatOps F]

/-- The offset of both whole-block rectangles is zero on every axis. -/
theorem zero2 : (![0, 0] : Fin 2 → Nat) = fun _ => 0 := funext fun a => by fin_cases a <;> rfl

/-- Region 0's output block as a pure function of its input block: the one store covers the whole output buffer, so
    what it leaves is its payload; the one load reads the whole input buffer, so the payload is taken at the block
    itself. Hence the block is `1 / (rowsum + 1)` of the input block, as `k0_pay1` spells it. -/
theorem out0_1_eq (x0 : Vec F S512x8192 .f32) : out0_1 x0 = k0_pay1 x0 := by
  unfold out0_1
  rw [View.canon_unit_zero (S := S512x1) zero2 inb_S512x1_S512x1_0_0,
    View.ld_unit_zero (S := S512x8192) zero2 inb_S512x8192_S512x8192_0_0]

end Cert.KernelIdeal.H

end
-- ==== Proof.LibKeepdims.lean ====
/-
  Two layout reads that every row reduction with kept dimensions meets, at any sizes:
  a vector of length a viewed as an a × 1 column, and an a × 1 column repeated along rows of length b.
  Both only rename entries: the column's entry (p, 0) is the vector's entry p, and the broadcast's entry (p, k) is
  the column's entry (p, 0), whatever k.
-/
import Idealize.ShloMosaic.Lib.Pipeline.Value
import Idealize.ShloMosaic.Lib.ValueIdx

noncomputable section

namespace Cert.Lib.Keepdims

open Idealize.ShloMosaic Idealize.ShloMosaic.ValueIdx

variable {α : Type}

/-- A length-`a` vector reshaped to an `a × 1` column: entry (p, 0) of the column is entry p of the vector
    (both sit at row-major position p). -/
theorem shapeCast_column_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- An `a × 1` column broadcast along rows of length `b`: entry (p, k) of the result is entry (p, 0) of the
    column (when a = 1 the only row is row 0, so the rule "a unit axis reads 0" and the rule "a kept axis reads
    its own coordinate" agree). -/
theorem broadcastTo_column_apply {a b : Nat} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun c => ?_
  match c with
  | ⟨0, _⟩ =>
    show p.val = if a = 1 then 0 else p.val
    split
    · have := p.isLt; omega
    · rfl
  | ⟨1, _⟩ => show 0 = if (1 : Nat) = 1 then 0 else k.val; rw [if_pos rfl]

end Cert.Lib.Keepdims

end
-- ==== Proof.KI.Reg0Final.lean ====
import proofs.«164042_j22436909154350_2_alg».proof.Proof.KI.Reg0Value
import proofs.«164042_j22436909154350_2_alg».proof.Proof.LibKeepdims
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

set_option maxHeartbeats 400000

/-! # Region 0's value at the ideal reals: the result array holds, row by row, one over (the row's sum plus one) -/

/-- The row sum of a 512 × 8192 block at row `p`: the lane reduction is the sum over the 8192 lanes. -/
theorem rowsum_apply (x : FVec Ideal S512x8192 .f32) (hφ : FKind.Formats .f32)
    (hacc : (0x00000000#32 : BitVec 32) = FKind.add.neutral .f32 hφ) (p : Fin 512) :
    multiReduction .add [1] S512 x 0x00000000#32 reduces_S512x8192_S512 hφ hacc (ix1 p) = ∑ k : Fin 8192, x (ix2 p k) := by
  refine (Ideal.multiReduction_add_single x _ reduces_S512x8192_S512 hφ hacc (ix1 p)).trans ?_
  refine Finset.sum_congr rfl fun k _ => congrArg x ?_
  funext a; apply Fin.ext
  match a with
  | ⟨0, _⟩ => rfl
  | ⟨1, _⟩ => rfl

/-- The body's payload at row `p` (its one column): one over (the row's sum plus one). -/
theorem pay_apply (x : Vec Ideal S512x8192 .f32) (p : Fin 512) :
    k0_pay1 (F := Ideal) x (ix2 p (0 : Fin 1)) = Ideal.div 1 ((∑ k : Fin 8192, x (ix2 p k)) + 1) := by
  unfold k0_pay1
  simp only [divf_apply, addf_apply, broadcast_apply, Ideal.ofBits_def, Ideal.ofBits_one_f32]
  refine congrArg (fun y => Ideal.div 1 (y + 1)) ?_
  exact (Cert.Lib.Keepdims.shapeCast_column_apply (a := 512) _ _ p).trans (rowsum_apply x _ _ p)

/-- A finite sum of reals, read in the extended reals, is the extended real of the sum. -/
theorem coe_sum_real {ι : Type} (s : Finset ι) (f : ι → ℝ) : ∑ i ∈ s, ((f i : ℝ) : EReal) = ((∑ i ∈ s, f i : ℝ) : EReal) := by
  classical
  induction s using Finset.induction_on with
  | empty => simp
  | insert b s hb ih => rw [Finset.sum_insert hb, Finset.sum_insert hb, ih, EReal.coe_add]

/-- With the row's entries real, the payload at row `p` is the real `1 / (∑ + 1)`. -/
theorem pay_real (x : Vec Ideal S512x8192 .f32) (f : Fin 8192 → ℝ) (p : Fin 512)
    (hx : ∀ k : Fin 8192, x (ix2 p k) = ((f k : ℝ) : EReal)) (hnz : (∑ k, f k) + 1 ≠ 0) :
    k0_pay1 (F := Ideal) x (ix2 p (0 : Fin 1)) = ((1 / ((∑ k, f k) + 1) : ℝ) : EReal) := by
  rw [pay_apply, Finset.sum_congr rfl (fun k _ => hx k), coe_sum_real]
  rw [show ((1 : EReal)) = ((1 : ℝ) : EReal) from rfl, ← EReal.coe_add, Ideal.div_coe hnz, EReal.coe_one, one_mul]

/-- The printed index maps, decided over the 16 points: both windows sit at row block `t`, column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What the result array ends holding: at row `r`, one over (row `r`'s sum plus one). -/
def G0 (a : Fin 8192 → Fin 8192 → ℝ) : S8192x1.Idx → EReal :=
  fun i => ((1 / ((∑ j, a (i 0) j) + 1) : ℝ) : EReal)

section
variable (V : (c : Dev nD) → (b : Ref sig .tc) → Buf (Elt Ideal) ((c : Thread nD τ).loc b))

theorem flushed1_eq (c : Dev nD) (a : Fin 8192 → Fin 8192 → ℝ)
    (ha : ∀ i j : Fin 8192, V c main_arg2 (ix2 i j) = ((a i j : ℝ) : EReal))
    (hnz : ∀ r : Fin 8192, (∑ j, a r j) + 1 ≠ 0) (t : Fin cfg0.N) :
    (dat0 (F := Ideal) V c).flushed 1 t = ((cfg0.win 1).blk t).view.read (Elt Ideal) (G0 a) := by
  show (cfg0.win 1).cut (grid0.coords t) ((dat0 V c).after 1 t) = _
  rw [after0_1, out0_1_eq]
  obtain ⟨e0, e1, e2, e3⟩ := idx_facts0 t
  funext j
  show k0_pay1 (F := Ideal) (iblk0 V c 0 t) j = G0 a (((cfg0.win 1).blk t).view.emb j)
  have hN : cfg0.N = 16 := N_0
  have ht : t.val < 16 := hN ▸ t.isLt
  have hj0 : (j 0).val < 512 := (j 0).isLt
  have hj1 : (j 1).val < 1 := (j 1).isLt
  obtain ⟨p, hp⟩ : ∃ p : Fin 512, p = j 0 := ⟨j 0, rfl⟩
  have hj : (j : S512x1.Idx) = ix2 p (0 : Fin 1) := by
    funext b
    match b with
    | ⟨0, _⟩ => exact hp.symm
    | ⟨1, _⟩ => exact Fin.ext (by show (j 1).val = 0; omega)
  rw [hj]
  have hr : t.val * 512 + p.val < 8192 := by have := p.isLt; omega
  refine (pay_real (iblk0 V c 0 t) (a ⟨t.val * 512 + p.val, hr⟩) p (fun k => ?_) (hnz _)).trans ?_
  · unfold iblk0
    rw [View.read_apply]
    show V c main_arg2 (((cfg0.win 0).blk t).view.emb (ix2 p k)) = _
    refine (congrArg (V c main_arg2) ?_).trans (ha ⟨t.val * 512 + p.val, hr⟩ k)
    funext b; apply Fin.ext
    match b with
    | ⟨0, _⟩ => show win0_0.index t (0 : Fin 2) * 512 + 1 * p.val = t.val * 512 + p.val; omega
    | ⟨1, _⟩ => show win0_0.index t (1 : Fin 2) * 8192 + 1 * k.val = k.val; omega
  · have hrow : (((cfg0.win 1).blk t).view.emb (ix2 p (0 : Fin 1))) 0 = (⟨t.val * 512 + p.val, hr⟩ : Fin 8192) :=
      Fin.ext (by show win0_1.index t (0 : Fin 2) * 512 + 1 * p.val = t.val * 512 + p.val; omega)
    unfold G0
    rw [hrow]

/-- An index of the result array is in point `t`'s block iff each coordinate is in the block's range on its axis. -/
theorem mem_blk1 (t : Fin cfg0.N) (i : S8192x1.Idx) :
    i ∈ ((cfg0.win 1).blk t).view.set ↔ ∀ b : Fin 2, win0_1.index t b * S512x1.size b ≤ (i b).val ∧ (i b).val < win0_1.index t b * S512x1.size b + S512x1.size b := by
  show i ∈ ((View.whole main_v2).slice (win0_1.rect t)).set ↔ _
  rw [View.set_slice_whole, Rect.mem_set_unit]
  exact Iff.rfl

/-- Every index of the result array is in some point's block: row `r` is written back by point `r / 512`. -/
theorem cover1 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 16 := N_0
  obtain ⟨t, htv⟩ : ∃ t : Fin cfg0.N, t.val = (i 0).val / 512 := ⟨⟨(i 0).val / 512, by omega⟩, rfl⟩
  obtain ⟨e0, e1, e2, e3⟩ := idx_facts0 t
  refine ⟨t, flush0_1 t, ?_⟩
  rw [mem_blk1]
  intro b
  match b with
  | ⟨0, _⟩ => show win0_1.index t (0 : Fin 2) * 512 ≤ (i 0).val ∧ (i 0).val < win0_1.index t (0 : Fin 2) * 512 + 512; omega
  | ⟨1, _⟩ => show win0_1.index t (1 : Fin 2) * 1 ≤ (i 1).val ∧ (i 1).val < win0_1.index t (1 : Fin 2) * 1 + 1; omega

/-- Region 0's value: after the region the result array holds, at row `r`, one over (row `r`'s sum plus one). -/
theorem final0 (c : Dev nD) (a : Fin 8192 → Fin 8192 → ℝ)
    (ha : ∀ i j : Fin 8192, V c main_arg2 (ix2 i j) = ((a i j : ℝ) : EReal))
    (hnz : ∀ r : Fin 8192, (∑ j, a r j) + 1 ≠ 0) (r : Fin 8192) :
    (dat0 (F := Ideal) V c).arrAt 1 cfg0.N (ix2 r (0 : Fin 1)) = ((1 / ((∑ j, a r j) + 1) : ℝ) : EReal) := by
  have h := (dat0 (F := Ideal) V c).arrAt_eq_of_cover 1 (G0 a) (fun t _ => flushed1_eq V c a ha hnz t) cover1
  exact (congrFun h (ix2 r (0 : Fin 1))).trans rfl
end

end Cert.KernelIdeal.H
end
-- ==== Proof.Spec.lean ====
/-
  The result both programs compute, as ONE function over the real numbers.

  Inputs: the adjacency matrix `a` (8192 × 8192), two input features and 64 state features per node, the gate
  weights (198 × 128, bias 128) and the candidate weights (198 × 64, bias 64).
  `dinv i = 1 / (Σ_j a i j + 1)` is the reciprocal of row i's sum with the diagonal's one added.
  One diffusion step sends a feature matrix x to `Aᵀ (dinv · x) + dinv · x`, that is
  `step x i k = Σ_j a j i · (dinv j · x j k) + dinv i · x i k`: the product of the transposed, row-normalised
  matrix `((A + I) · dinv)ᵀ` with x, the identity's contribution written apart.
  The three stacked features of a node are x, step x and `2 · step (step x) − x`; column 3f + m of the stacked
  matrix holds feature f of the m-th of them. A graph convolution is that matrix times the weights plus the bias.
  The gates are the logistic function of the first convolution (reset gate: columns 0…63, update gate: columns
  64…127), the candidate is tanh of the convolution of the inputs beside the reset-gated state, and the new state is
  `u · h + (1 − u) · c`.
-/
import Idealize.ShloMosaic.PureOps.Ideal

noncomputable section

namespace Cert.Spec

open Finset

variable (a : Fin 8192 → Fin 8192 → ℝ) (inp : Fin 8192 → Fin 2 → ℝ) (h : Fin 8192 → Fin 64 → ℝ)
  (wru : Fin 198 → Fin 128 → ℝ) (bru : Fin 128 → ℝ) (wc : Fin 198 → Fin 64 → ℝ) (bc : Fin 64 → ℝ)

/-- The reciprocal of a row's sum plus one. -/
def dinv (i : Fin 8192) : ℝ := 1 / ((∑ j, a i j) + 1)

/-- Two input columns followed by 64 state columns. -/
def cat (s : Fin 8192 → Fin 64 → ℝ) (n : Fin 8192) (f : Fin 66) : ℝ :=
  if hf : f.val < 2 then inp n ⟨f.val, hf⟩ else s n ⟨f.val - 2, by have := f.isLt; omega⟩

/-- One diffusion step: `Aᵀ (dinv · x) + dinv · x`. -/
def step (x : Fin 8192 → Fin 66 → ℝ) (i : Fin 8192) (k : Fin 66) : ℝ :=
  (∑ j, a j i * (dinv a j * x j k)) + dinv a i * x i k

/-- The third stacked feature: `2 · step (step x) − x`. -/
def cheb (x : Fin 8192 → Fin 66 → ℝ) (i : Fin 8192) (k : Fin 66) : ℝ :=
  2 * step a (step a x) i k - x i k

/-- The stacked matrix: column 3f + m holds feature f of x (m = 0), of step x (m = 1), of cheb x (m = 2). -/
def stacked (x : Fin 8192 → Fin 66 → ℝ) (n : Fin 8192) (p : Fin 198) : ℝ :=
  let f : Fin 66 := ⟨p.val / 3, by have := p.isLt; omega⟩
  if p.val % 3 = 0 then x n f else if p.val % 3 = 1 then step a x n f else cheb a x n f

/-- A graph convolution with `C` output columns: the stacked matrix times the weights, plus the bias. -/
def gconv {C : ℕ} (x : Fin 8192 → Fin 66 → ℝ) (w : Fin 198 → Fin C → ℝ) (b : Fin C → ℝ) (n : Fin 8192) (c : Fin C) : ℝ :=
  (∑ p, stacked a x n p * w p c) + b c

/-- The logistic function. -/
def sig (x : ℝ) : ℝ := 1 / (1 + Real.exp (-x))

/-- The reset gate. -/
def r (n : Fin 8192) (q : Fin 64) : ℝ :=
  sig (gconv a (cat inp h) wru bru n ⟨q.val, by have := q.isLt; omega⟩)

/-- The update gate. -/
def u (n : Fin 8192) (q : Fin 64) : ℝ :=
  sig (gconv a (cat inp h) wru bru n ⟨q.val + 64, by have := q.isLt; omega⟩)

/-- The candidate state. -/
def cand (n : Fin 8192) (q : Fin 64) : ℝ :=
  Real.tanh (gconv a (cat inp fun n q => r a inp h wru bru n q * h n q) wc bc n q)

/-- The new state of node n, feature q. -/
def result (n : Fin 8192) (q : Fin 64) : ℝ :=
  u a inp h wru bru n q * h n q + (1 - u a inp h wru bru n q) * cand a inp h wru bru wc bc n q

end Cert.Spec

end
-- ==== Proof.KI.HostLib.lean ====
/-
  Host operations on arrays of extended reals that hold real numbers, read at an index.

  `R2 X x` says the rank-2 array X holds the real x i j at (i, j) (`R1`, `R3` likewise). Each lemma says one
  operation of the program's host stretches sends arrays holding reals to an array holding the expected reals:
  products, sums and differences entry by entry; negation, exponential, hyperbolic tangent and a quotient with nonzero
  divisor; a constant; a column broadcast along the rows and a bias along the columns; the flat inputs reshaped to
  nodes by features and back; two column blocks side by side; three arrays interleaved with column 3f + t holding
  feature f of the t-th; a matrix product as the sum over the contracted axis; and a block of columns cut out.
-/
import proofs.«164042_j22436909154350_2_alg».proof.Proof.Gen.KernelIdeal.Launch
import proofs.«164042_j22436909154350_2_alg».proof.Proof.Spec
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

set_option maxRecDepth 16384
set_option maxHeartbeats 400000

noncomputable section

namespace Cert.KernelIdeal.H

open Cert.KernelIdeal Cert.KernelIdeal.Gen
open Idealize.ShloMosaic Idealize.ShloMosaic.TcCoe Idealize.ShloMosaic.ValueIdx Idealize.SL.Sem
open scoped BigOperators

/-- The rank-2 array X holds the reals x. -/
def R2 {n0 n1 : ℕ} (X : (⟨2, ![n0, n1]⟩ : Shape).Idx → EReal) (x : Fin n0 → Fin n1 → ℝ) : Prop :=
  ∀ i j, X (ix2 i j) = ((x i j : ℝ) : EReal)
/-- The rank-1 array X holds the reals x. -/
def R1 {n : ℕ} (X : (⟨1, ![n]⟩ : Shape).Idx → EReal) (x : Fin n → ℝ) : Prop := ∀ i, X (ix1 i) = ((x i : ℝ) : EReal)

theorem R2.of_eq {n0 n1 : ℕ} {X Y : (⟨2, ![n0, n1]⟩ : Shape).Idx → EReal} {x : Fin n0 → Fin n1 → ℝ} (e : X = Y) (h : R2 Y x) : R2 X x :=
  e ▸ h
theorem R2.congr {n0 n1 : ℕ} {X : (⟨2, ![n0, n1]⟩ : Shape).Idx → EReal} {x y : Fin n0 → Fin n1 → ℝ} (h : R2 X x) (e : ∀ i j, x i j = y i j) :
    R2 X y := fun i j => (h i j).trans (congrArg _ (e i j))

/-- A sum of products of reals, taken in the extended reals, is the real sum's coercion. -/
theorem sum_coe_mul {ι : Type} (s : Finset ι) (f g : ι → ℝ) :
    (∑ k ∈ s, ((f k : ℝ) : EReal) * ((g k : ℝ) : EReal)) = ((∑ k ∈ s, f k * g k : ℝ) : EReal) := by
  classical
  induction s using Finset.induction_on with
  | empty => simp
  | insert k s hk ih => rw [Finset.sum_insert hk, Finset.sum_insert hk, ih, ← EReal.coe_mul, ← EReal.coe_add]

/-- The pattern 0x40000000 is two; 0x3F800000 is one. -/
theorem two_f32 : Ideal.ofBits .f32 0x40000000#32 = ((2 : ℝ) : EReal) := by
  simp [Ideal.ofBits, Ideal.ieee, -EReal.coe_mul]; norm_num
theorem one_f32 : Ideal.ofBits .f32 0x3F800000#32 = ((1 : ℝ) : EReal) := by
  rw [Ideal.ofBits_one_f32]; rfl

section Elementwise
variable {n0 n1 : ℕ} {X Y : (⟨2, ![n0, n1]⟩ : Shape).Idx → EReal} {x y : Fin n0 → Fin n1 → ℝ}

theorem R2.mul (hX : R2 X x) (hY : R2 Y y) :
    R2 (mulf (F := Ideal) (s := ⟨2, ![n0, n1]⟩) (φ := .f32) X Y) (fun i j => x i j * y i j) := fun i j => by
  show X (ix2 i j) * Y (ix2 i j) = _
  rw [hX i j, hY i j, ← EReal.coe_mul]
theorem R2.add (hX : R2 X x) (hY : R2 Y y) :
    R2 (addf (F := Ideal) (s := ⟨2, ![n0, n1]⟩) (φ := .f32) X Y) (fun i j => x i j + y i j) := fun i j => by
  show X (ix2 i j) + Y (ix2 i j) = _
  rw [hX i j, hY i j, ← EReal.coe_add]
theorem R2.sub (hX : R2 X x) (hY : R2 Y y) :
    R2 (subf (F := Ideal) (s := ⟨2, ![n0, n1]⟩) (φ := .f32) X Y) (fun i j => x i j - y i j) := fun i j => by
  show X (ix2 i j) - Y (ix2 i j) = _
  rw [hX i j, hY i j, ← EReal.coe_sub]
theorem R2.neg (hX : R2 X x) :
    R2 (Host.negf (F := Ideal) (s := ⟨2, ![n0, n1]⟩) (φ := .f32) X) (fun i j => -x i j) := fun i j => by
  show -(X (ix2 i j)) = _
  rw [hX i j, ← EReal.coe_neg]
theorem R2.exp (hX : R2 X x) :
    R2 (Host.exp (F := Ideal) (s := ⟨2, ![n0, n1]⟩) (φ := .f32) X) (fun i j => Real.exp (x i j)) := fun i j => by
  show Ideal.exp (X (ix2 i j)) = _
  rw [hX i j]; rfl
theorem R2.tanh (hX : R2 X x) :
    R2 (Host.tanh (F := Ideal) (s := ⟨2, ![n0, n1]⟩) (φ := .f32) X) (fun i j => Real.tanh (x i j)) := fun i j => by
  show Ideal.tanh (X (ix2 i j)) = _
  rw [hX i j]; rfl
theorem R2.div (hX : R2 X x) (hY : R2 Y y) (hy : ∀ i j, y i j ≠ 0) :
    R2 (Host.divf (F := Ideal) (s := ⟨2, ![n0, n1]⟩) (φ := .f32) X Y) (fun i j => x i j / y i j) := fun i j => by
  show Ideal.div (X (ix2 i j)) (Y (ix2 i j)) = _
  rw [hX i j, hY i j, Ideal.div_coe (hy i j), ← EReal.coe_mul, mul_one_div]

/-- A constant broadcast to every entry. -/
theorem R2.const (h : (⟨0, ![]⟩ : Shape).BroadcastsInDim (⟨2, ![n0, n1]⟩ : Shape) ![]) (bits : BitVec 32) (r : ℝ)
    (hb : Ideal.ofBits .f32 bits = ((r : ℝ) : EReal)) :
    R2 (broadcastInDim (⟨2, ![n0, n1]⟩ : Shape) ![] h (constant (F := Ideal) (⟨0, ![]⟩ : Shape) .f32 bits)) (fun _ _ => r) := fun i j => by
  rw [ValueIdx.broadcastInDim_scalar_apply]; exact hb
end Elementwise

/-- A column of 8192 reals broadcast along 66 columns. -/
theorem R2.bcastCol {X : (⟨2, ![8192, 1]⟩ : Shape).Idx → EReal} {x : Fin 8192 → Fin 1 → ℝ}
    (h : (⟨2, ![8192, 1]⟩ : Shape).BroadcastsInDim ⟨2, ![8192, 66]⟩ ![0, 1]) (hX : R2 X x) :
    R2 (broadcastInDim (⟨2, ![8192, 66]⟩ : Shape) ![0, 1] h X) (fun i _ => x i 0) := fun i j => by
  rw [broadcastInDim_apply ![0, 1] h X (ix2 i j) (ix2 i (0 : Fin 1)) (fun a => by
    match a with
    | ⟨0, _⟩ => show i.val = if (8192 : ℕ) = 1 then 0 else i.val; rw [if_neg (by decide)]
    | ⟨1, _⟩ => show (0 : ℕ) = if (1 : ℕ) = 1 then 0 else j.val; rw [if_pos rfl])]
  exact hX i 0

/-- The flat array of 16384 reals as 8192 rows of two. -/
theorem R2.reshapeIn2 {A : (⟨2, ![1, 16384]⟩ : Shape).Idx → EReal} {inp : Fin 8192 → Fin 2 → ℝ}
    (h : (⟨2, ![1, 16384]⟩ : Shape).ShapeCasts ⟨2, ![8192, 2]⟩)
    (hA : ∀ (n : Fin 8192) (d : Fin 2), A (ix2 0 ⟨2 * n.val + d.val, by have := n.isLt; have := d.isLt; omega⟩) = ((inp n d : ℝ) : EReal)) :
    R2 (shapeCast (⟨2, ![8192, 2]⟩ : Shape) A h) inp := fun n d => by
  rw [shapeCast_apply A h (ix2 n d) (ix2 0 ⟨2 * n.val + d.val, by have := n.isLt; have := d.isLt; omega⟩) (by
    rw [Shape.rowMajor_val_two, Shape.rowMajor_val_two]
    show 0 * 16384 + (2 * n.val + d.val) = n.val * 2 + d.val
    omega)]
  exact hA n d

/-- The flat array of 524288 reals as 8192 rows of 64. -/
theorem R2.reshapeIn64 {A : (⟨2, ![1, 524288]⟩ : Shape).Idx → EReal} {s : Fin 8192 → Fin 64 → ℝ}
    (h : (⟨2, ![1, 524288]⟩ : Shape).ShapeCasts ⟨2, ![8192, 64]⟩)
    (hA : ∀ (n : Fin 8192) (q : Fin 64), A (ix2 0 ⟨64 * n.val + q.val, by have := n.isLt; have := q.isLt; omega⟩) = ((s n q : ℝ) : EReal)) :
    R2 (shapeCast (⟨2, ![8192, 64]⟩ : Shape) A h) s := fun n q => by
  rw [shapeCast_apply A h (ix2 n q) (ix2 0 ⟨64 * n.val + q.val, by have := n.isLt; have := q.isLt; omega⟩) (by
    rw [Shape.rowMajor_val_two, Shape.rowMajor_val_two]
    show 0 * 524288 + (64 * n.val + q.val) = n.val * 64 + q.val
    omega)]
  exact hA n q

/-- 8192 rows of 64 reals as one flat array. -/
theorem R2.reshapeOut {X : (⟨2, ![8192, 64]⟩ : Shape).Idx → EReal} {x : Fin 8192 → Fin 64 → ℝ}
    (h : (⟨2, ![8192, 64]⟩ : Shape).ShapeCasts ⟨2, ![1, 524288]⟩) (hX : R2 X x) (n : Fin 8192) (q : Fin 64) :
    shapeCast (⟨2, ![1, 524288]⟩ : Shape) X h (ix2 0 ⟨64 * n.val + q.val, by have := n.isLt; have := q.isLt; omega⟩) = ((x n q : ℝ) : EReal) := by
  rw [shapeCast_apply X h (ix2 0 ⟨64 * n.val + q.val, by have := n.isLt; have := q.isLt; omega⟩) (ix2 n q) (by
    rw [Shape.rowMajor_val_two, Shape.rowMajor_val_two]
    show n.val * 64 + q.val = 0 * 524288 + (64 * n.val + q.val)
    omega)]
  exact hX n q

/-- Two columns of X followed by 64 columns of Y. -/
theorem R2.cat {X : (⟨2, ![8192, 2]⟩ : Shape).Idx → EReal} {Y : (⟨2, ![8192, 64]⟩ : Shape).Idx → EReal}
    {inp : Fin 8192 → Fin 2 → ℝ} {s : Fin 8192 → Fin 64 → ℝ}
    (h : Shape.Concatenates [(⟨2, ![8192, 2]⟩ : Shape), ⟨2, ![8192, 64]⟩] ⟨2, ![8192, 66]⟩ 1)
    (hX : R2 X inp) (hY : R2 Y s) :
    R2 (concatenate (⟨2, ![8192, 66]⟩ : Shape) 1 [⟨⟨2, ![8192, 2]⟩, X⟩, ⟨⟨2, ![8192, 64]⟩, Y⟩] h) (Cert.Spec.cat inp s) := fun n f => by
  unfold Cert.Spec.cat
  by_cases hf : f.val < 2
  · rw [dif_pos hf]
    rw [concatenate_pair_apply_left (1 : Fin 2) X Y h (ix2 n f) rfl (ix2 n ⟨f.val, hf⟩)
      (fun b => by match b with | ⟨0, _⟩ => rfl | ⟨1, _⟩ => rfl), hX]
  · rw [dif_neg hf]
    rw [concatenate_pair_apply_right (1 : Fin 2) X Y h (ix2 n f) rfl rfl
      (ix2 n ⟨f.val - 2, by have := f.isLt; omega⟩)
      (fun b hb => by
        match b, hb with
        | ⟨0, _⟩, _ => rfl
        | ⟨1, _⟩, hb => exact absurd rfl hb)
      (by show (f.val - 2) + 2 = f.val; omega), hY]

/-- Three [8192, 66, 1] arrays side by side along the last axis, read at layer t. -/
theorem cat3_at (Q0 Q1 Q2 : (⟨3, ![8192, 66, 1]⟩ : Shape).Idx → EReal)
    (h : Shape.Concatenates [(⟨3, ![8192, 66, 1]⟩ : Shape), ⟨3, ![8192, 66, 1]⟩, ⟨3, ![8192, 66, 1]⟩] ⟨3, ![8192, 66, 3]⟩ 2)
    (t : ℕ) (ht : t < 3) (n : Fin 8192) (f : Fin 66) :
    concatenate (⟨3, ![8192, 66, 3]⟩ : Shape) 2
        [⟨⟨3, ![8192, 66, 1]⟩, Q0⟩, ⟨⟨3, ![8192, 66, 1]⟩, Q1⟩, ⟨⟨3, ![8192, 66, 1]⟩, Q2⟩] h (ix3 n f ⟨t, ht⟩)
      = if t = 0 then Q0 (ix3 n f 0) else if t = 1 then Q1 (ix3 n f 0) else Q2 (ix3 n f 0) := by
  have hi : ∀ (t : ℕ) (ht : t < 3) (b : Fin 3), b.cast rfl ≠ (2 : Fin 3) →
      ((ix3 n f (0 : Fin 1) : (⟨3, ![8192, 66, 1]⟩ : Shape).Idx) b).val
        = ((ix3 n f (⟨t, ht⟩ : Fin 3) : (⟨3, ![8192, 66, 3]⟩ : Shape).Idx) (b.cast rfl)).val := fun t ht b hb => by
    match b, hb with
    | ⟨0, _⟩, _ => rfl
    | ⟨1, _⟩, _ => rfl
    | ⟨2, _⟩, hb => exact absurd rfl hb
  match t, ht with
  | 0, ht =>
    rw [if_pos rfl]
    exact concatenate_apply_piece (t := ⟨3, ![8192, 66, 3]⟩) (2 : Fin 3)
      [⟨⟨3, ![8192, 66, 1]⟩, Q0⟩, ⟨⟨3, ![8192, 66, 1]⟩, Q1⟩, ⟨⟨3, ![8192, 66, 1]⟩, Q2⟩] h (ix3 n f ⟨0, ht⟩) 0 (by show (0 : ℕ) < 3; omega)
      ⟨3, ![8192, 66, 1]⟩ Q0 rfl rfl 0 rfl (ix3 n f 0) (hi 0 ht) rfl
  | 1, ht =>
    rw [if_neg (by decide), if_pos rfl]
    exact concatenate_apply_piece (t := ⟨3, ![8192, 66, 3]⟩) (2 : Fin 3)
      [⟨⟨3, ![8192, 66, 1]⟩, Q0⟩, ⟨⟨3, ![8192, 66, 1]⟩, Q1⟩, ⟨⟨3, ![8192, 66, 1]⟩, Q2⟩] h (ix3 n f ⟨1, ht⟩) 1 (by show (1 : ℕ) < 3; omega)
      ⟨3, ![8192, 66, 1]⟩ Q1 rfl rfl 1 rfl (ix3 n f 0) (hi 1 ht) rfl
  | 2, ht =>
    rw [if_neg (by decide), if_neg (by decide)]
    exact concatenate_apply_piece (t := ⟨3, ![8192, 66, 3]⟩) (2 : Fin 3)
      [⟨⟨3, ![8192, 66, 1]⟩, Q0⟩, ⟨⟨3, ![8192, 66, 1]⟩, Q1⟩, ⟨⟨3, ![8192, 66, 1]⟩, Q2⟩] h (ix3 n f ⟨2, ht⟩) 2 (by show (2 : ℕ) < 3; omega)
      ⟨3, ![8192, 66, 1]⟩ Q2 rfl rfl 2 rfl (ix3 n f 0) (hi 2 ht) rfl
  | t + 3, ht => exact absurd ht (by omega)

/-- A [8192, 66] array with a trailing unit axis added, read at (n, f, 0). -/
theorem bcast3_at (P : (⟨2, ![8192, 66]⟩ : Shape).Idx → EReal)
    (h : (⟨2, ![8192, 66]⟩ : Shape).BroadcastsInDim ⟨3, ![8192, 66, 1]⟩ ![0, 1]) (n : Fin 8192) (f : Fin 66) :
    broadcastInDim (⟨3, ![8192, 66, 1]⟩ : Shape) ![0, 1] h P (ix3 n f (0 : Fin 1)) = P (ix2 n f) :=
  broadcastInDim_apply ![0, 1] h P (ix3 n f (0 : Fin 1)) (ix2 n f) (fun a => by
    match a with
    | ⟨0, _⟩ => show n.val = if (8192 : ℕ) = 1 then 0 else n.val; rw [if_neg (by decide)]
    | ⟨1, _⟩ => show f.val = if (66 : ℕ) = 1 then 0 else f.val; rw [if_neg (by decide)])

/-- The three stacked features: column 3f + t of row n holds feature f of the t-th of x0, x1 and 2 · x2 − x0. -/
def stk3 (x0 x1 x2 : Fin 8192 → Fin 66 → ℝ) (n : Fin 8192) (p : Fin 198) : ℝ :=
  if p.val % 3 = 0 then x0 n ⟨p.val / 3, by have := p.isLt; omega⟩
  else if p.val % 3 = 1 then x1 n ⟨p.val / 3, by have := p.isLt; omega⟩
  else 2 * x2 n ⟨p.val / 3, by have := p.isLt; omega⟩ - x0 n ⟨p.val / 3, by have := p.isLt; omega⟩

/-- Three arrays of reals interleaved: the unit axes added, joined along them, and the last two axes merged. -/
theorem R2.stack {P0 P1 P2 : (⟨2, ![8192, 66]⟩ : Shape).Idx → EReal} {p0 p1 p2 : Fin 8192 → Fin 66 → ℝ}
    (hb : (⟨2, ![8192, 66]⟩ : Shape).BroadcastsInDim ⟨3, ![8192, 66, 1]⟩ ![0, 1])
    (hc : Shape.Concatenates [(⟨3, ![8192, 66, 1]⟩ : Shape), ⟨3, ![8192, 66, 1]⟩, ⟨3, ![8192, 66, 1]⟩] ⟨3, ![8192, 66, 3]⟩ 2)
    (hs : (⟨3, ![8192, 66, 3]⟩ : Shape).ShapeCasts ⟨2, ![8192, 198]⟩)
    (h0 : R2 P0 p0) (h1 : R2 P1 p1) (h2 : R2 P2 p2) :
    R2 (shapeCast (⟨2, ![8192, 198]⟩ : Shape) (concatenate (⟨3, ![8192, 66, 3]⟩ : Shape) 2
        [⟨⟨3, ![8192, 66, 1]⟩, broadcastInDim (⟨3, ![8192, 66, 1]⟩ : Shape) ![0, 1] hb P0⟩,
         ⟨⟨3, ![8192, 66, 1]⟩, broadcastInDim (⟨3, ![8192, 66, 1]⟩ : Shape) ![0, 1] hb P1⟩,
         ⟨⟨3, ![8192, 66, 1]⟩, broadcastInDim (⟨3, ![8192, 66, 1]⟩ : Shape) ![0, 1] hb P2⟩] hc) hs)
      (fun n p => if p.val % 3 = 0 then p0 n ⟨p.val / 3, by have := p.isLt; omega⟩
        else if p.val % 3 = 1 then p1 n ⟨p.val / 3, by have := p.isLt; omega⟩
        else p2 n ⟨p.val / 3, by have := p.isLt; omega⟩) := fun n p => by
  have hn := n.isLt; have hp := p.isLt
  have hf : p.val / 3 < 66 := by omega
  have ht : p.val % 3 < 3 := by omega
  rw [shapeCast_apply _ hs (ix2 n p) (ix3 n ⟨p.val / 3, hf⟩ ⟨p.val % 3, ht⟩) (by
    rw [Shape.rowMajor_val_three, Shape.rowMajor_val_two]
    show (n.val * 66 + p.val / 3) * 3 + p.val % 3 = n.val * 198 + p.val
    omega)]
  rw [cat3_at _ _ _ hc (p.val % 3) ht n ⟨p.val / 3, hf⟩, bcast3_at, bcast3_at, bcast3_at, h0, h1, h2]
  dsimp only
  split_ifs <;> rfl

/-- The product of a [8192, 198] array with a [198, 128] array, both of reals, is the real matrix product. -/
theorem R2.dot128 {L : (⟨2, ![8192, 198]⟩ : Shape).Idx → EReal} {Rr : (⟨2, ![198, 128]⟩ : Shape).Idx → EReal}
    {l : Fin 8192 → Fin 198 → ℝ} {r : Fin 198 → Fin 128 → ℝ} (hL : R2 L l) (hR : R2 Rr r) :
    R2 (Host.dotGeneral (F := Ideal) (φ₁ := .f32) (φ₂ := .f32) dot_S8192x198_S198x128_S8192x128_1_0_0_1_n_n none L Rr) (fun n c => ∑ p, l n p * r p c) := fun n c => by
  simp only [Host.dotGeneral]
  rw [Ideal.dotGeneral_apply, ← Equiv.sum_comp (ValueIdx.contrEquiv1 dot_S8192x198_S198x128_S8192x128_1_0_0_1_n_n 198 rfl rfl).symm]
  refine (Finset.sum_congr rfl fun k _ => ?_).trans (sum_coe_mul Finset.univ (fun p => l n p) (fun p => r p c))
  have hk := ValueIdx.contrEquiv1_symm_val dot_S8192x198_S198x128_S8192x128_1_0_0_1_n_n 198 rfl rfl k
  have el : dot_S8192x198_S198x128_S8192x128_1_0_0_1_n_n.lhsIdx (ix2 n c) ((ValueIdx.contrEquiv1 dot_S8192x198_S198x128_S8192x128_1_0_0_1_n_n 198 rfl rfl).symm k) = ix2 n k :=
    funext fun a => Fin.ext (by
      match a with
      | ⟨0, _⟩ =>
        show (dot_S8192x198_S198x128_S8192x128_1_0_0_1_n_n.lhsIdx (ix2 n c) _ 0).val = n.val
        unfold DotDims.lhsIdx
        rw [dif_neg (show ¬(0 : Fin S8192x198.rank) ∈ dot_S8192x198_S198x128_S8192x128_1_0_0_1_n_n.lhsBatch by decide), dif_pos (show (0 : Fin S8192x198.rank) ∈ dot_S8192x198_S198x128_S8192x128_1_0_0_1_n_n.lhsNonContracting by decide)]
        rfl
      | ⟨1, _⟩ => exact (dot_S8192x198_S198x128_S8192x128_1_0_0_1_n_n.lhsIdx_val_of_single rfl (ix2 n c) _).trans hk)
  have er : dot_S8192x198_S198x128_S8192x128_1_0_0_1_n_n.rhsIdx (ix2 n c) ((ValueIdx.contrEquiv1 dot_S8192x198_S198x128_S8192x128_1_0_0_1_n_n 198 rfl rfl).symm k) = ix2 k c :=
    funext fun a => Fin.ext (by
      match a with
      | ⟨0, _⟩ => exact (dot_S8192x198_S198x128_S8192x128_1_0_0_1_n_n.rhsIdx_val_of_single rfl (ix2 n c) _).trans hk
      | ⟨1, _⟩ =>
        show (dot_S8192x198_S198x128_S8192x128_1_0_0_1_n_n.rhsIdx (ix2 n c) _ 1).val = c.val
        unfold DotDims.rhsIdx
        rw [dif_neg (show ¬(1 : Fin S198x128.rank) ∈ dot_S8192x198_S198x128_S8192x128_1_0_0_1_n_n.rhsBatch by decide), dif_pos (show (1 : Fin S198x128.rank) ∈ dot_S8192x198_S198x128_S8192x128_1_0_0_1_n_n.rhsNonContracting by decide)]
        rfl)
  rw [el, er, hL n k, hR k c]

/-- A bias of 128 reals broadcast along the rows. -/
theorem R2.bias128 {B : (⟨1, ![128]⟩ : Shape).Idx → EReal} {b : Fin 128 → ℝ}
    (h1 : (⟨1, ![128]⟩ : Shape).BroadcastsInDim ⟨2, ![1, 128]⟩ ![1])
    (h2 : (⟨2, ![1, 128]⟩ : Shape).BroadcastsInDim ⟨2, ![8192, 128]⟩ ![0, 1]) (hB : R1 B b) :
    R2 (broadcastInDim (⟨2, ![8192, 128]⟩ : Shape) ![0, 1] h2 (broadcastInDim (⟨2, ![1, 128]⟩ : Shape) ![1] h1 B)) (fun _ c => b c) := fun n c => by
  rw [broadcastInDim_apply ![0, 1] h2 _ (ix2 n c) (ix2 (0 : Fin 1) c) (fun a => by
    match a with
    | ⟨0, _⟩ => show (0 : ℕ) = if (1 : ℕ) = 1 then 0 else n.val; rw [if_pos rfl]
    | ⟨1, _⟩ => show c.val = if (128 : ℕ) = 1 then 0 else c.val; rw [if_neg (by decide)])]
  rw [broadcastInDim_apply ![1] h1 B (ix2 (0 : Fin 1) c) (ix1 c) (fun a => by
    match a with
    | ⟨0, _⟩ => show c.val = if (128 : ℕ) = 1 then 0 else c.val; rw [if_neg (by decide)])]
  exact hB c

/-- The product of a [8192, 198] array with a [198, 64] array, both of reals, is the real matrix product. -/
theorem R2.dot64 {L : (⟨2, ![8192, 198]⟩ : Shape).Idx → EReal} {Rr : (⟨2, ![198, 64]⟩ : Shape).Idx → EReal}
    {l : Fin 8192 → Fin 198 → ℝ} {r : Fin 198 → Fin 64 → ℝ} (hL : R2 L l) (hR : R2 Rr r) :
    R2 (Host.dotGeneral (F := Ideal) (φ₁ := .f32) (φ₂ := .f32) dot_S8192x198_S198x64_S8192x64_1_0_0_1_n_n none L Rr) (fun n c => ∑ p, l n p * r p c) := fun n c => by
  simp only [Host.dotGeneral]
  rw [Ideal.dotGeneral_apply, ← Equiv.sum_comp (ValueIdx.contrEquiv1 dot_S8192x198_S198x64_S8192x64_1_0_0_1_n_n 198 rfl rfl).symm]
  refine (Finset.sum_congr rfl fun k _ => ?_).trans (sum_coe_mul Finset.univ (fun p => l n p) (fun p => r p c))
  have hk := ValueIdx.contrEquiv1_symm_val dot_S8192x198_S198x64_S8192x64_1_0_0_1_n_n 198 rfl rfl k
  have el : dot_S8192x198_S198x64_S8192x64_1_0_0_1_n_n.lhsIdx (ix2 n c) ((ValueIdx.contrEquiv1 dot_S8192x198_S198x64_S8192x64_1_0_0_1_n_n 198 rfl rfl).symm k) = ix2 n k :=
    funext fun a => Fin.ext (by
      match a with
      | ⟨0, _⟩ =>
        show (dot_S8192x198_S198x64_S8192x64_1_0_0_1_n_n.lhsIdx (ix2 n c) _ 0).val = n.val
        unfold DotDims.lhsIdx
        rw [dif_neg (show ¬(0 : Fin S8192x198.rank) ∈ dot_S8192x198_S198x64_S8192x64_1_0_0_1_n_n.lhsBatch by decide), dif_pos (show (0 : Fin S8192x198.rank) ∈ dot_S8192x198_S198x64_S8192x64_1_0_0_1_n_n.lhsNonContracting by decide)]
        rfl
      | ⟨1, _⟩ => exact (dot_S8192x198_S198x64_S8192x64_1_0_0_1_n_n.lhsIdx_val_of_single rfl (ix2 n c) _).trans hk)
  have er : dot_S8192x198_S198x64_S8192x64_1_0_0_1_n_n.rhsIdx (ix2 n c) ((ValueIdx.contrEquiv1 dot_S8192x198_S198x64_S8192x64_1_0_0_1_n_n 198 rfl rfl).symm k) = ix2 k c :=
    funext fun a => Fin.ext (by
      match a with
      | ⟨0, _⟩ => exact (dot_S8192x198_S198x64_S8192x64_1_0_0_1_n_n.rhsIdx_val_of_single rfl (ix2 n c) _).trans hk
      | ⟨1, _⟩ =>
        show (dot_S8192x198_S198x64_S8192x64_1_0_0_1_n_n.rhsIdx (ix2 n c) _ 1).val = c.val
        unfold DotDims.rhsIdx
        rw [dif_neg (show ¬(1 : Fin S198x64.rank) ∈ dot_S8192x198_S198x64_S8192x64_1_0_0_1_n_n.rhsBatch by decide), dif_pos (show (1 : Fin S198x64.rank) ∈ dot_S8192x198_S198x64_S8192x64_1_0_0_1_n_n.rhsNonContracting by decide)]
        rfl)
  rw [el, er, hL n k, hR k c]

/-- A bias of 64 reals broadcast along the rows. -/
theorem R2.bias64 {B : (⟨1, ![64]⟩ : Shape).Idx → EReal} {b : Fin 64 → ℝ}
    (h1 : (⟨1, ![64]⟩ : Shape).BroadcastsInDim ⟨2, ![1, 64]⟩ ![1])
    (h2 : (⟨2, ![1, 64]⟩ : Shape).BroadcastsInDim ⟨2, ![8192, 64]⟩ ![0, 1]) (hB : R1 B b) :
    R2 (broadcastInDim (⟨2, ![8192, 64]⟩ : Shape) ![0, 1] h2 (broadcastInDim (⟨2, ![1, 64]⟩ : Shape) ![1] h1 B)) (fun _ c => b c) := fun n c => by
  rw [broadcastInDim_apply ![0, 1] h2 _ (ix2 n c) (ix2 (0 : Fin 1) c) (fun a => by
    match a with
    | ⟨0, _⟩ => show (0 : ℕ) = if (1 : ℕ) = 1 then 0 else n.val; rw [if_pos rfl]
    | ⟨1, _⟩ => show c.val = if (64 : ℕ) = 1 then 0 else c.val; rw [if_neg (by decide)])]
  rw [broadcastInDim_apply ![1] h1 B (ix2 (0 : Fin 1) c) (ix1 c) (fun a => by
    match a with
    | ⟨0, _⟩ => show c.val = if (64 : ℕ) = 1 then 0 else c.val; rw [if_neg (by decide)])]
  exact hB c

/-- The first 64 of 128 columns; the last 64. -/
theorem R2.sliceLo {X : (⟨2, ![8192, 128]⟩ : Shape).Idx → EReal} {x : Fin 8192 → Fin 128 → ℝ}
    (h : (⟨2, ![8192, 128]⟩ : Shape).Slices ![0, 0] ⟨2, ![8192, 64]⟩) (hX : R2 X x) :
    R2 (extractStridedSlice (⟨2, ![8192, 64]⟩ : Shape) ![0, 0] X h) (fun n q => x n ⟨q.val, by have := q.isLt; omega⟩) := fun n q => by
  rw [extractStridedSlice_apply ![0, 0] X h (ix2 n q) (ix2 n ⟨q.val, by have := q.isLt; omega⟩) (fun a => by
    match a with
    | ⟨0, _⟩ => show n.val = 0 + n.val; omega
    | ⟨1, _⟩ => show q.val = 0 + q.val; omega)]
  exact hX n _
theorem R2.sliceHi {X : (⟨2, ![8192, 128]⟩ : Shape).Idx → EReal} {x : Fin 8192 → Fin 128 → ℝ}
    (h : (⟨2, ![8192, 128]⟩ : Shape).Slices ![0, 64] ⟨2, ![8192, 64]⟩) (hX : R2 X x) :
    R2 (extractStridedSlice (⟨2, ![8192, 64]⟩ : Shape) ![0, 64] X h) (fun n q => x n ⟨q.val + 64, by have := q.isLt; omega⟩) := fun n q => by
  rw [extractStridedSlice_apply ![0, 64] X h (ix2 n q) (ix2 n ⟨q.val + 64, by have := q.isLt; omega⟩) (fun a => by
    match a with
    | ⟨0, _⟩ => show n.val = 0 + n.val; omega
    | ⟨1, _⟩ => show q.val + 64 = 64 + q.val; omega)]
  exact hX n _

end Cert.KernelIdeal.H

end
-- ==== Proof.KI.HostA.lean ====
/-
  The short host stretches read at an index, over any buffer contents W: stretch 0 reshapes the two flat inputs to nodes by
  features; stretch 1 puts the two inputs' columns side by side and scales every row by the column of reciprocals;
  stretches 2 and 4 scale a feature matrix by the same column.
-/
import proofs.«164042_j22436909154350_2_alg».proof.Proof.KI.HostLib

set_option maxRecDepth 16384
set_option maxHeartbeats 400000

noncomputable section

namespace Cert.KernelIdeal.H

open Cert.KernelIdeal Cert.KernelIdeal.Gen
open Idealize.ShloMosaic Idealize.ShloMosaic.TcCoe Idealize.ShloMosaic.ValueIdx Idealize.SL.Sem Idealize.ShloMosaic.StableHlo
open scoped BigOperators

variable (W : Valuation τ sig (Elt Ideal))

/-- Stretch 0: the inputs as 8192 rows of two. -/
theorem host0_v0 {inp : Fin 8192 → Fin 2 → ℝ}
    (hA0 : ∀ (n : Fin 8192) (d : Fin 2), (W (Proc.devRef .tc main_arg0) : S1x16384.Idx → EReal)
      (ix2 0 ⟨2 * n.val + d.val, by have := n.isLt; have := d.isLt; omega⟩) = ((inp n d : ℝ) : EReal)) :
    R2 (StableHlo.after (hostOps0 (F := Ideal)) W (Proc.devRef .tc main_v0) : S8192x2.Idx → EReal) inp := by
  after_results
  exact R2.reshapeIn2 _ hA0

/-- Stretch 0: the state as 8192 rows of 64. -/
theorem host0_v1 {h : Fin 8192 → Fin 64 → ℝ}
    (hA1 : ∀ (n : Fin 8192) (q : Fin 64), (W (Proc.devRef .tc main_arg1) : S1x524288.Idx → EReal)
      (ix2 0 ⟨64 * n.val + q.val, by have := n.isLt; have := q.isLt; omega⟩) = ((h n q : ℝ) : EReal)) :
    R2 (StableHlo.after (hostOps0 (F := Ideal)) W (Proc.devRef .tc main_v1) : S8192x64.Idx → EReal) h := by
  after_results
  exact R2.reshapeIn64 _ hA1

/-- Stretch 1: inputs beside state. -/
theorem host1_v3 {inp : Fin 8192 → Fin 2 → ℝ} {h : Fin 8192 → Fin 64 → ℝ}
    (h0 : R2 (W (Proc.devRef .tc main_v0) : S8192x2.Idx → EReal) inp) (h1 : R2 (W (Proc.devRef .tc main_v1) : S8192x64.Idx → EReal) h) :
    R2 (StableHlo.after (hostOps1 (F := Ideal)) W (Proc.devRef .tc main_v3) : S8192x66.Idx → EReal) (Cert.Spec.cat inp h) := by
  after_results
  exact R2.cat _ h0 h1

/-- Stretch 1: every row scaled by its reciprocal. -/
theorem host1_v5 {inp : Fin 8192 → Fin 2 → ℝ} {h : Fin 8192 → Fin 64 → ℝ} {dcol : Fin 8192 → Fin 1 → ℝ}
    (h0 : R2 (W (Proc.devRef .tc main_v0) : S8192x2.Idx → EReal) inp) (h1 : R2 (W (Proc.devRef .tc main_v1) : S8192x64.Idx → EReal) h) (h2 : R2 (W (Proc.devRef .tc main_v2) : S8192x1.Idx → EReal) dcol) :
    R2 (StableHlo.after (hostOps1 (F := Ideal)) W (Proc.devRef .tc main_v5) : S8192x66.Idx → EReal)
      (fun n f => dcol n 0 * Cert.Spec.cat inp h n f) := by
  after_results
  exact (R2.bcastCol _ h2).mul (R2.cat _ h0 h1)

/-- Stretch 2: the first step's result, every row scaled by its reciprocal. -/
theorem host2_v8 {dcol : Fin 8192 → Fin 1 → ℝ} {x1 : Fin 8192 → Fin 66 → ℝ}
    (h2 : R2 (W (Proc.devRef .tc main_v2) : S8192x1.Idx → EReal) dcol) (h6 : R2 (W (Proc.devRef .tc main_v6) : S8192x66.Idx → EReal) x1) :
    R2 (StableHlo.after (hostOps2 (F := Ideal)) W (Proc.devRef .tc main_v8) : S8192x66.Idx → EReal)
      (fun n f => dcol n 0 * x1 n f) := by
  after_results
  exact (R2.bcastCol _ h2).mul h6

/-- Stretch 4: likewise for the second convolution. -/
theorem host4_v36 {dcol : Fin 8192 → Fin 1 → ℝ} {y1 : Fin 8192 → Fin 66 → ℝ}
    (h2 : R2 (W (Proc.devRef .tc main_v2) : S8192x1.Idx → EReal) dcol) (h34 : R2 (W (Proc.devRef .tc main_v34) : S8192x66.Idx → EReal) y1) :
    R2 (StableHlo.after (hostOps4 (F := Ideal)) W (Proc.devRef .tc main_v36) : S8192x66.Idx → EReal)
      (fun n f => dcol n 0 * y1 n f) := by
  after_results
  exact (R2.bcastCol _ h2).mul h34

end Cert.KernelIdeal.H

end
-- ==== Proof.KI.Host3.lean ====
/-
  Host stretch 3 read at an index, over any buffer contents W holding reals: the third stacked feature 2 · x2 − x0, the
  three features interleaved, the product with the gate weights plus the bias, the logistic function spelled
  1 / (1 + exp (−g)), its two halves (reset and update gates), the reset-gated state beside the inputs, and that matrix
  scaled by the column of reciprocals.
-/
import proofs.«164042_j22436909154350_2_alg».proof.Proof.KI.HostLib

set_option maxRecDepth 16384
set_option maxHeartbeats 400000

noncomputable section

namespace Cert.KernelIdeal.H

open Cert.KernelIdeal Cert.KernelIdeal.Gen
open Idealize.ShloMosaic Idealize.ShloMosaic.TcCoe Idealize.ShloMosaic.ValueIdx Idealize.SL.Sem Idealize.ShloMosaic.StableHlo
open scoped BigOperators

/-- A three-operand operation's result holds its function of the operands' contents, each at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The contents of one buffer after a stretch: each operation's result at its own buffer, any other buffer as before. -/
macro "after_results3" : tactic =>
  `(tactic| (simp only [StableHlo.after_cons, StableHlo.after_nil]
             repeat (first
               | rw [nary3_result]
               | rw [StableHlo.nullary_result] | rw [StableHlo.unary_result] | rw [StableHlo.binary_result] | rw [StableHlo.reshape_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-- The stacked matrix over x0, x1, 2 · x2 − x0 times the weights, plus the bias. -/
def conv3 {C : ℕ} (x0 x1 x2 : Fin 8192 → Fin 66 → ℝ) (w : Fin 198 → Fin C → ℝ) (b : Fin C → ℝ) (n : Fin 8192) (c : Fin C) : ℝ :=
  (∑ p, stk3 x0 x1 x2 n p * w p c) + b c

/-- The logistic of the convolution: both gates, 128 columns. -/
def gate3 (x0 x1 x2 : Fin 8192 → Fin 66 → ℝ) (w : Fin 198 → Fin 128 → ℝ) (b : Fin 128 → ℝ) (n : Fin 8192) (c : Fin 128) : ℝ :=
  Cert.Spec.sig (conv3 x0 x1 x2 w b n c)

variable (W : Valuation τ sig (Elt Ideal))

-- the chain from the three feature matrices to the logistic of the convolution, spelled once
local macro "GATECHAIN" h3:term:max h6:term:max h9:term:max hw:term:max hb:term:max : term =>
  `((R2.const _ _ 1 one_f32).div ((R2.const _ _ 1 one_f32).add ((R2.dot128 (R2.stack Cert.KernelIdeal.Gen.bcast_S8192x66_S8192x66x1_0_1 _ _ $h3 $h6
      (((R2.const _ _ 2 two_f32).mul $h9).sub $h3)) $hw).add (R2.bias128 _ _ $hb)).neg.exp)
      (fun i j => by show (1 : ℝ) + Real.exp _ ≠ 0; positivity))

set_option maxHeartbeats 4000000 in
/-- Both gates: the logistic of the first convolution. -/
theorem host3_v27 {inp : Fin 8192 → Fin 2 → ℝ} {h : Fin 8192 → Fin 64 → ℝ} {dcol : Fin 8192 → Fin 1 → ℝ}
    {x0 x1 x2 : Fin 8192 → Fin 66 → ℝ} {wru : Fin 198 → Fin 128 → ℝ} {bru : Fin 128 → ℝ}
    (h3 : R2 (W (Proc.devRef .tc main_v3) : S8192x66.Idx → EReal) x0) (h6 : R2 (W (Proc.devRef .tc main_v6) : S8192x66.Idx → EReal) x1)
    (h9 : R2 (W (Proc.devRef .tc main_v9) : S8192x66.Idx → EReal) x2) (hw : R2 (W (Proc.devRef .tc main_arg3) : S198x128.Idx → EReal) wru)
    (hb : R1 (W (Proc.devRef .tc main_arg4) : S128.Idx → EReal) bru) :
    R2 (StableHlo.after (hostOps3 (F := Ideal)) W (Proc.devRef .tc main_v27) : S8192x128.Idx → EReal) (gate3 x0 x1 x2 wru bru) := by
  after_results3
  exact (GATECHAIN h3 h6 h9 hw hb).congr fun i j => rfl

set_option maxHeartbeats 4000000 in
/-- The update gate: columns 64 … 127. -/
theorem host3_v29 {inp : Fin 8192 → Fin 2 → ℝ} {h : Fin 8192 → Fin 64 → ℝ} {dcol : Fin 8192 → Fin 1 → ℝ}
    {x0 x1 x2 : Fin 8192 → Fin 66 → ℝ} {wru : Fin 198 → Fin 128 → ℝ} {bru : Fin 128 → ℝ}
    (h3 : R2 (W (Proc.devRef .tc main_v3) : S8192x66.Idx → EReal) x0) (h6 : R2 (W (Proc.devRef .tc main_v6) : S8192x66.Idx → EReal) x1)
    (h9 : R2 (W (Proc.devRef .tc main_v9) : S8192x66.Idx → EReal) x2) (hw : R2 (W (Proc.devRef .tc main_arg3) : S198x128.Idx → EReal) wru)
    (hb : R1 (W (Proc.devRef .tc main_arg4) : S128.Idx → EReal) bru) :
    R2 (StableHlo.after (hostOps3 (F := Ideal)) W (Proc.devRef .tc main_v29) : S8192x64.Idx → EReal)
      (fun n q => gate3 x0 x1 x2 wru bru n ⟨q.val + 64, by have := q.isLt; omega⟩) := by
  after_results3
  exact (R2.sliceHi _ (GATECHAIN h3 h6 h9 hw hb)).congr fun i j => rfl

set_option maxHeartbeats 4000000 in
/-- The inputs beside the reset-gated state. -/
theorem host3_v31 {inp : Fin 8192 → Fin 2 → ℝ} {h : Fin 8192 → Fin 64 → ℝ} {dcol : Fin 8192 → Fin 1 → ℝ}
    {x0 x1 x2 : Fin 8192 → Fin 66 → ℝ} {wru : Fin 198 → Fin 128 → ℝ} {bru : Fin 128 → ℝ}
    (h0 : R2 (W (Proc.devRef .tc main_v0) : S8192x2.Idx → EReal) inp) (h1 : R2 (W (Proc.devRef .tc main_v1) : S8192x64.Idx → EReal) h)
    (h3 : R2 (W (Proc.devRef .tc main_v3) : S8192x66.Idx → EReal) x0) (h6 : R2 (W (Proc.devRef .tc main_v6) : S8192x66.Idx → EReal) x1)
    (h9 : R2 (W (Proc.devRef .tc main_v9) : S8192x66.Idx → EReal) x2) (hw : R2 (W (Proc.devRef .tc main_arg3) : S198x128.Idx → EReal) wru)
    (hb : R1 (W (Proc.devRef .tc main_arg4) : S128.Idx → EReal) bru) :
    R2 (StableHlo.after (hostOps3 (F := Ideal)) W (Proc.devRef .tc main_v31) : S8192x66.Idx → EReal)
      (Cert.Spec.cat inp fun n q => gate3 x0 x1 x2 wru bru n ⟨q.val, by have := q.isLt; omega⟩ * h n q) := by
  after_results3
  exact R2.cat _ h0 ((R2.sliceLo _ (GATECHAIN h3 h6 h9 hw hb)).mul h1)

set_option maxHeartbeats 4000000 in
/-- That matrix, every row scaled by its reciprocal. -/
theorem host3_v33 {inp : Fin 8192 → Fin 2 → ℝ} {h : Fin 8192 → Fin 64 → ℝ} {dcol : Fin 8192 → Fin 1 → ℝ}
    {x0 x1 x2 : Fin 8192 → Fin 66 → ℝ} {wru : Fin 198 → Fin 128 → ℝ} {bru : Fin 128 → ℝ}
    (h0 : R2 (W (Proc.devRef .tc main_v0) : S8192x2.Idx → EReal) inp) (h1 : R2 (W (Proc.devRef .tc main_v1) : S8192x64.Idx → EReal) h) (h2 : R2 (W (Proc.devRef .tc main_v2) : S8192x1.Idx → EReal) dcol)
    (h3 : R2 (W (Proc.devRef .tc main_v3) : S8192x66.Idx → EReal) x0) (h6 : R2 (W (Proc.devRef .tc main_v6) : S8192x66.Idx → EReal) x1)
    (h9 : R2 (W (Proc.devRef .tc main_v9) : S8192x66.Idx → EReal) x2) (hw : R2 (W (Proc.devRef .tc main_arg3) : S198x128.Idx → EReal) wru)
    (hb : R1 (W (Proc.devRef .tc main_arg4) : S128.Idx → EReal) bru) :
    R2 (StableHlo.after (hostOps3 (F := Ideal)) W (Proc.devRef .tc main_v33) : S8192x66.Idx → EReal)
      (fun n f => dcol n 0 * Cert.Spec.cat inp (fun n q => gate3 x0 x1 x2 wru bru n ⟨q.val, by have := q.isLt; omega⟩ * h n q) n f) := by
  after_results3
  exact (R2.bcastCol _ h2).mul (R2.cat _ h0 ((R2.sliceLo _ (GATECHAIN h3 h6 h9 hw hb)).mul h1))

end Cert.KernelIdeal.H

end
-- ==== Proof.KI.Host5.lean ====
/-
  Host stretch 5 read at an index, over any buffer contents W holding reals: the second convolution's stacked features
  times the candidate weights plus the bias, its hyperbolic tangent, the new state u · h + (1 − u) · c, and the flat
  result.
-/
import proofs.«164042_j22436909154350_2_alg».proof.Proof.KI.Host3

set_option maxRecDepth 16384
set_option maxHeartbeats 400000

noncomputable section

namespace Cert.KernelIdeal.H

open Cert.KernelIdeal Cert.KernelIdeal.Gen
open Idealize.ShloMosaic Idealize.ShloMosaic.TcCoe Idealize.ShloMosaic.ValueIdx Idealize.SL.Sem Idealize.ShloMosaic.StableHlo
open scoped BigOperators

/-- The flat array X of 524288 entries holds the reals x, row n column q at position 64 n + q. -/
def RFlat (X : (⟨2, ![1, 524288]⟩ : Shape).Idx → EReal) (x : Fin 8192 → Fin 64 → ℝ) : Prop :=
  ∀ (n : Fin 8192) (q : Fin 64), X (ix2 0 ⟨64 * n.val + q.val, by have := n.isLt; have := q.isLt; omega⟩) = ((x n q : ℝ) : EReal)

theorem RFlat.of_R2 {X : (⟨2, ![8192, 64]⟩ : Shape).Idx → EReal} {x : Fin 8192 → Fin 64 → ℝ}
    (h : (⟨2, ![8192, 64]⟩ : Shape).ShapeCasts ⟨2, ![1, 524288]⟩) (hX : R2 X x) :
    RFlat (shapeCast (⟨2, ![1, 524288]⟩ : Shape) X h) x := fun n q => R2.reshapeOut h hX n q

variable (W : Valuation τ sig (Elt Ideal))

set_option maxHeartbeats 4000000 in
/-- The program's result: position 64 n + q holds u · h + (1 − u) · tanh (second convolution). -/
theorem host5_v56 {h u : Fin 8192 → Fin 64 → ℝ} {y0 y1 y2 : Fin 8192 → Fin 66 → ℝ} {wc : Fin 198 → Fin 64 → ℝ} {bc : Fin 64 → ℝ}
    (h1 : R2 (W (Proc.devRef .tc main_v1) : S8192x64.Idx → EReal) h) (h29 : R2 (W (Proc.devRef .tc main_v29) : S8192x64.Idx → EReal) u)
    (h31 : R2 (W (Proc.devRef .tc main_v31) : S8192x66.Idx → EReal) y0) (h34 : R2 (W (Proc.devRef .tc main_v34) : S8192x66.Idx → EReal) y1)
    (h37 : R2 (W (Proc.devRef .tc main_v37) : S8192x66.Idx → EReal) y2) (hw : R2 (W (Proc.devRef .tc main_arg5) : S198x64.Idx → EReal) wc)
    (hb : R1 (W (Proc.devRef .tc main_arg6) : S64.Idx → EReal) bc) :
    RFlat (StableHlo.after (hostOps5 (F := Ideal)) W (Proc.devRef .tc main_v56) : S1x524288.Idx → EReal)
      (fun n q => u n q * h n q + (1 - u n q) * Real.tanh (conv3 y0 y1 y2 wc bc n q)) := by
  after_results3
  exact RFlat.of_R2 _ ((h29.mul h1).add (((R2.const _ _ 1 one_f32).sub h29).mul
    ((R2.dot64 (R2.stack Cert.KernelIdeal.Gen.bcast_S8192x66_S8192x66x1_0_1 _ _ h31 h34 (((R2.const _ _ 2 two_f32).mul h37).sub h31)) hw).add (R2.bias64 _ _ hb)).tanh))

end Cert.KernelIdeal.H

end
-- ==== Proof.KI.HostValue.lean ====
/-
  The kernel program's result as the specification's real function of the real inputs.

  The contents at each of the eleven boundaries are followed from the launch memory: a host stretch's buffers by the
  stretch lemmas (any buffer it does not write is as before); a region's output by the region's value (taken as a
  hypothesis for regions 1 to 4), its input windows and every other buffer as entered. Writing x0 for the inputs beside
  the state, the buffers hold in turn: dinv · x0; step x0; dinv · step x0; step (step x0); the two gates; the inputs
  beside the reset-gated state y0 and the same three stages over y0; the hyperbolic tangent of the second convolution;
  and u · h + (1 − u) · c, which is the specification's result by unfolding its definitions.
-/
import proofs.«164042_j22436909154350_2_alg».proof.Proof.KI.Run
import proofs.«164042_j22436909154350_2_alg».proof.Proof.KI.Reg0Final
import proofs.«164042_j22436909154350_2_alg».proof.Proof.KI.HostA
import proofs.«164042_j22436909154350_2_alg».proof.Proof.KI.Host5
import proofs.«164042_j22436909154350_2_alg».proof.Proof.Gen.KernelIdeal.Regions

set_option maxRecDepth 16384
set_option maxHeartbeats 1000000

noncomputable section

namespace Cert.KernelIdeal.H

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- The statement of a diffusion region's value: its output array holds Aᵀ x + x when its inputs hold a and x. -/
def RegionValue (K : ℕ) (out : (V : (c : Dev nD) → (b : Ref sig .tc) → Buf (Elt Ideal) ((c : Thread nD τ).loc b)) → (c : Dev nD) →
    (⟨2, ![8192, 66]⟩ : Shape).Idx → EReal)
    (inp : (V : (c : Dev nD) → (b : Ref sig .tc) → Buf (Elt Ideal) ((c : Thread nD τ).loc b)) → (c : Dev nD) →
    (⟨2, ![8192, 66]⟩ : Shape).Idx → EReal) : Prop :=
  ∀ (V : (c : Dev nD) → (b : Ref sig .tc) → Buf (Elt Ideal) ((c : Thread nD τ).loc b)) (c : Dev nD)
    (a : Fin 8192 → Fin 8192 → ℝ) (x : Fin 8192 → Fin 66 → ℝ)
    (ha : ∀ i j : Fin 8192, V c main_arg2 (ix2 i j) = ((a i j : ℝ) : EReal))
    (hx : ∀ (j : Fin 8192) (k : Fin 66), inp V c (ix2 j k) = ((x j k : ℝ) : EReal)) (i : Fin 8192) (k : Fin 66),
    out V c (ix2 i k) = (((∑ j, a j i * x j k) + x i k : ℝ) : EReal)

/-- The gates, the candidate and the new state, over the stage functions, are the specification's. -/
theorem result_eq (a : Fin 8192 → Fin 8192 → ℝ) (inp : Fin 8192 → Fin 2 → ℝ) (h : Fin 8192 → Fin 64 → ℝ)
    (wru : Fin 198 → Fin 128 → ℝ) (bru : Fin 128 → ℝ) (wc : Fin 198 → Fin 64 → ℝ) (bc : Fin 64 → ℝ) (n : Fin 8192) (q : Fin 64) :
    (let x0 := Cert.Spec.cat inp h
     let G := gate3 x0 (Cert.Spec.step a x0) (Cert.Spec.step a (Cert.Spec.step a x0)) wru bru
     let y0 := Cert.Spec.cat inp fun n q => G n ⟨q.val, by have := q.isLt; omega⟩ * h n q
     G n ⟨q.val + 64, by have := q.isLt; omega⟩ * h n q + (1 - G n ⟨q.val + 64, by have := q.isLt; omega⟩)
       * Real.tanh (conv3 y0 (Cert.Spec.step a y0) (Cert.Spec.step a (Cert.Spec.step a y0)) wc bc n q))
      = Cert.Spec.result a inp h wru bru wc bc n q := rfl

variable (m : (ℓ : Loc nD τ sig) → Buf (Elt Ideal) ℓ) (ρ : Dev nD → PrngReg)

/-- THE KERNEL PROGRAM'S VALUE: the returned array at flat position 64 n + q is the specification's result. -/
theorem kernel_value (c : Dev nD)
    (a : Fin 8192 → Fin 8192 → ℝ) (inp : Fin 8192 → Fin 2 → ℝ) (h : Fin 8192 → Fin 64 → ℝ) (wru : Fin 198 → Fin 128 → ℝ)
    (bru : Fin 128 → ℝ) (wc : Fin 198 → Fin 64 → ℝ) (bc : Fin 64 → ℝ)
    (hA2 : ∀ i j, (m ((c : Thread nD τ).loc main_arg2) : S8192x8192.Idx → EReal) (ix2 i j) = ((a i j : ℝ) : EReal))
    (hA0 : ∀ (n : Fin 8192) (d : Fin 2), (m ((c : Thread nD τ).loc main_arg0) : S1x16384.Idx → EReal)
      (ix2 0 ⟨2 * n.val + d.val, by have := n.isLt; have := d.isLt; omega⟩) = ((inp n d : ℝ) : EReal))
    (hA1 : ∀ (n : Fin 8192) (q : Fin 64), (m ((c : Thread nD τ).loc main_arg1) : S1x524288.Idx → EReal)
      (ix2 0 ⟨64 * n.val + q.val, by have := n.isLt; have := q.isLt; omega⟩) = ((h n q : ℝ) : EReal))
    (hA3 : ∀ p k, (m ((c : Thread nD τ).loc main_arg3) : S198x128.Idx → EReal) (ix2 p k) = ((wru p k : ℝ) : EReal))
    (hA4 : ∀ k, (m ((c : Thread nD τ).loc main_arg4) : S128.Idx → EReal) (ix1 k) = ((bru k : ℝ) : EReal))
    (hA5 : ∀ p k, (m ((c : Thread nD τ).loc main_arg5) : S198x64.Idx → EReal) (ix2 p k) = ((wc p k : ℝ) : EReal))
    (hA6 : ∀ k, (m ((c : Thread nD τ).loc main_arg6) : S64.Idx → EReal) (ix1 k) = ((bc k : ℝ) : EReal))
    (hrow : ∀ i, (∑ j, a i j) + 1 ≠ 0)
    (hf1 : RegionValue 1 (fun V c => (dat1 (F := Ideal) V c).arrAt 2 cfg1.N) (fun V c => V c main_v5))
    (hf2 : RegionValue 2 (fun V c => (dat2 (F := Ideal) V c).arrAt 2 cfg2.N) (fun V c => V c main_v8))
    (hf3 : RegionValue 3 (fun V c => (dat3 (F := Ideal) V c).arrAt 2 cfg3.N) (fun V c => V c main_v33))
    (hf4 : RegionValue 4 (fun V c => (dat4 (F := Ideal) V c).arrAt 2 cfg4.N) (fun V c => V c main_v36))
    (n : Fin 8192) (q : Fin 64) :
    (W11 m ρ c (Proc.devRef .tc main_v56) : S1x524288.Idx → EReal)
        (ix2 0 ⟨64 * n.val + q.val, by have := n.isLt; have := q.isLt; omega⟩)
      = ((Cert.Spec.result a inp h wru bru wc bc n q : ℝ) : EReal) := by
  -- the stage functions
  let dcol : Fin 8192 → Fin 1 → ℝ := fun n _ => Cert.Spec.dinv a n
  let x0 : Fin 8192 → Fin 66 → ℝ := Cert.Spec.cat inp h
  let x1 : Fin 8192 → Fin 66 → ℝ := Cert.Spec.step a x0
  let x2 : Fin 8192 → Fin 66 → ℝ := Cert.Spec.step a x1
  let G : Fin 8192 → Fin 128 → ℝ := gate3 x0 x1 x2 wru bru
  let y0 : Fin 8192 → Fin 66 → ℝ := Cert.Spec.cat inp fun n q => G n ⟨q.val, by have := q.isLt; omega⟩ * h n q
  let y1 : Fin 8192 → Fin 66 → ℝ := Cert.Spec.step a y0
  let y2 : Fin 8192 → Fin 66 → ℝ := Cert.Spec.step a y1
  -- the argument arrays at the launch
  have a0_2 : R2 (W0 m ρ c (Proc.devRef .tc main_arg2) : S8192x8192.Idx → EReal) a := hA2
  have a0_3 : R2 (W0 m ρ c (Proc.devRef .tc main_arg3) : S198x128.Idx → EReal) wru := hA3
  have a0_4 : R1 (W0 m ρ c (Proc.devRef .tc main_arg4) : S128.Idx → EReal) bru := hA4
  have a0_5 : R2 (W0 m ρ c (Proc.devRef .tc main_arg5) : S198x64.Idx → EReal) wc := hA5
  have a0_6 : R1 (W0 m ρ c (Proc.devRef .tc main_arg6) : S64.Idx → EReal) bc := hA6
  -- after stretch 0
  have g1_v0 : R2 (W1 m ρ c (Proc.devRef .tc main_v0) : S8192x2.Idx → EReal) inp := host0_v0 (W0 m ρ c) hA0
  have g1_v1 : R2 (W1 m ρ c (Proc.devRef .tc main_v1) : S8192x64.Idx → EReal) h := host0_v1 (W0 m ρ c) hA1
  have g1_a2 : R2 (W1 m ρ c (Proc.devRef .tc main_arg2) : S8192x8192.Idx → EReal) a := by
    rw [show W1 m ρ c (Proc.devRef .tc main_arg2) = W0 m ρ c (Proc.devRef .tc main_arg2) from (StableHlo.after_of_writes_sub hostOps0 _ hostOps0_writes (by decide : main_arg2 ∉ hostOps0_W))]
    exact a0_2
  -- after region 0
  have g2_v2 : R2 (W2 m ρ c (Proc.devRef .tc main_v2) : S8192x1.Idx → EReal) dcol := fun r j => by
    obtain rfl : j = 0 := Subsingleton.elim _ _
    exact (congrFun (W2_arr m ρ c 1) (ix2 r (0 : Fin 1))).trans (final0 (U1 m ρ) c a g1_a2 hrow r)
  have g2_v0 : R2 (W2 m ρ c (Proc.devRef .tc main_v0) : S8192x2.Idx → EReal) inp := by
    rw [show W2 m ρ c (Proc.devRef .tc main_v0) = W1 m ρ c (Proc.devRef .tc main_v0) from (W2_of_ne m ρ c main_v0 (by decide))]
    exact g1_v0
  have g2_v1 : R2 (W2 m ρ c (Proc.devRef .tc main_v1) : S8192x64.Idx → EReal) h := by
    rw [show W2 m ρ c (Proc.devRef .tc main_v1) = W1 m ρ c (Proc.devRef .tc main_v1) from (W2_of_ne m ρ c main_v1 (by decide))]
    exact g1_v1
  -- after stretch 1
  have g3_v3 : R2 (W3 m ρ c (Proc.devRef .tc main_v3) : S8192x66.Idx → EReal) x0 := host1_v3 (W2 m ρ c) g2_v0 g2_v1
  have g3_v5 : R2 (W3 m ρ c (Proc.devRef .tc main_v5) : S8192x66.Idx → EReal) (fun n f => dcol n 0 * x0 n f) := host1_v5 (W2 m ρ c) g2_v0 g2_v1 g2_v2
  have g3_a2 : R2 (W3 m ρ c (Proc.devRef .tc main_arg2) : S8192x8192.Idx → EReal) a := by
    rw [show W3 m ρ c (Proc.devRef .tc main_arg2) = W0 m ρ c (Proc.devRef .tc main_arg2) from ((StableHlo.after_of_writes_sub hostOps1 _ hostOps1_writes (by decide : main_arg2 ∉ hostOps1_W)).trans (((W2_arr m ρ c 0).trans (((dat0 (U1 m ρ) c).arrAt_in 0 rfl _).trans (A_eq0 (U1 m ρ) c 0))).trans (StableHlo.after_of_writes_sub hostOps0 _ hostOps0_writes (by decide : main_arg2 ∉ hostOps0_W))))]
    exact a0_2
  -- after region 1
  have g4_v6 : R2 (W4 m ρ c (Proc.devRef .tc main_v6) : S8192x66.Idx → EReal) x1 := fun i k =>
    (congrFun (W4_arr m ρ c 2) (ix2 i k)).trans (hf1 (U3 m ρ) c a (fun n f => dcol n 0 * x0 n f) g3_a2 g3_v5 i k)
  have g4_v2 : R2 (W4 m ρ c (Proc.devRef .tc main_v2) : S8192x1.Idx → EReal) dcol := by
    rw [show W4 m ρ c (Proc.devRef .tc main_v2) = W2 m ρ c (Proc.devRef .tc main_v2) from ((W4_of_ne m ρ c main_v2 (by decide)).trans (StableHlo.after_of_writes_sub hostOps1 _ hostOps1_writes (by decide : main_v2 ∉ hostOps1_W)))]
    exact g2_v2
  -- after stretch 2
  have g5_v8 : R2 (W5 m ρ c (Proc.devRef .tc main_v8) : S8192x66.Idx → EReal) (fun n f => dcol n 0 * x1 n f) := host2_v8 (W4 m ρ c) g4_v2 g4_v6
  have g5_a2 : R2 (W5 m ρ c (Proc.devRef .tc main_arg2) : S8192x8192.Idx → EReal) a := by
    rw [show W5 m ρ c (Proc.devRef .tc main_arg2) = W0 m ρ c (Proc.devRef .tc main_arg2) from ((StableHlo.after_of_writes_sub hostOps2 _ hostOps2_writes (by decide : main_arg2 ∉ hostOps2_W)).trans (((W4_arr m ρ c 0).trans (((dat1 (U3 m ρ) c).arrAt_in 0 rfl _).trans (A_eq1 (U3 m ρ) c 0))).trans ((StableHlo.after_of_writes_sub hostOps1 _ hostOps1_writes (by decide : main_arg2 ∉ hostOps1_W)).trans (((W2_arr m ρ c 0).trans (((dat0 (U1 m ρ) c).arrAt_in 0 rfl _).trans (A_eq0 (U1 m ρ) c 0))).trans (StableHlo.after_of_writes_sub hostOps0 _ hostOps0_writes (by decide : main_arg2 ∉ hostOps0_W))))))]
    exact a0_2
  -- after region 2
  have g6_v9 : R2 (W6 m ρ c (Proc.devRef .tc main_v9) : S8192x66.Idx → EReal) x2 := fun i k =>
    (congrFun (W6_arr m ρ c 2) (ix2 i k)).trans (hf2 (U5 m ρ) c a (fun n f => dcol n 0 * x1 n f) g5_a2 g5_v8 i k)
  have g6_v0 : R2 (W6 m ρ c (Proc.devRef .tc main_v0) : S8192x2.Idx → EReal) inp := by
    rw [show W6 m ρ c (Proc.devRef .tc main_v0) = W1 m ρ c (Proc.devRef .tc main_v0) from ((W6_of_ne m ρ c main_v0 (by decide)).trans ((StableHlo.after_of_writes_sub hostOps2 _ hostOps2_writes (by decide : main_v0 ∉ hostOps2_W)).trans ((W4_of_ne m ρ c main_v0 (by decide)).trans ((StableHlo.after_of_writes_sub hostOps1 _ hostOps1_writes (by decide : main_v0 ∉ hostOps1_W)).trans (W2_of_ne m ρ c main_v0 (by decide))))))]
    exact g1_v0
  have g6_v1 : R2 (W6 m ρ c (Proc.devRef .tc main_v1) : S8192x64.Idx → EReal) h := by
    rw [show W6 m ρ c (Proc.devRef .tc main_v1) = W1 m ρ c (Proc.devRef .tc main_v1) from ((W6_of_ne m ρ c main_v1 (by decide)).trans ((StableHlo.after_of_writes_sub hostOps2 _ hostOps2_writes (by decide : main_v1 ∉ hostOps2_W)).trans ((W4_of_ne m ρ c main_v1 (by decide)).trans ((StableHlo.after_of_writes_sub hostOps1 _ hostOps1_writes (by decide : main_v1 ∉ hostOps1_W)).trans (W2_of_ne m ρ c main_v1 (by decide))))))]
    exact g1_v1
  have g6_v2 : R2 (W6 m ρ c (Proc.devRef .tc main_v2) : S8192x1.Idx → EReal) dcol := by
    rw [show W6 m ρ c (Proc.devRef .tc main_v2) = W2 m ρ c (Proc.devRef .tc main_v2) from ((W6_of_ne m ρ c main_v2 (by decide)).trans ((StableHlo.after_of_writes_sub hostOps2 _ hostOps2_writes (by decide : main_v2 ∉ hostOps2_W)).trans ((W4_of_ne m ρ c main_v2 (by decide)).trans (StableHlo.after_of_writes_sub hostOps1 _ hostOps1_writes (by decide : main_v2 ∉ hostOps1_W)))))]
    exact g2_v2
  have g6_v3 : R2 (W6 m ρ c (Proc.devRef .tc main_v3) : S8192x66.Idx → EReal) x0 := by
    rw [show W6 m ρ c (Proc.devRef .tc main_v3) = W3 m ρ c (Proc.devRef .tc main_v3) from ((W6_of_ne m ρ c main_v3 (by decide)).trans ((StableHlo.after_of_writes_sub hostOps2 _ hostOps2_writes (by decide : main_v3 ∉ hostOps2_W)).trans (W4_of_ne m ρ c main_v3 (by decide))))]
    exact g3_v3
  have g6_v6 : R2 (W6 m ρ c (Proc.devRef .tc main_v6) : S8192x66.Idx → EReal) x1 := by
    rw [show W6 m ρ c (Proc.devRef .tc main_v6) = W4 m ρ c (Proc.devRef .tc main_v6) from ((W6_of_ne m ρ c main_v6 (by decide)).trans (StableHlo.after_of_writes_sub hostOps2 _ hostOps2_writes (by decide : main_v6 ∉ hostOps2_W)))]
    exact g4_v6
  have g6_a3 : R2 (W6 m ρ c (Proc.devRef .tc main_arg3) : S198x128.Idx → EReal) wru := by
    rw [show W6 m ρ c (Proc.devRef .tc main_arg3) = W0 m ρ c (Proc.devRef .tc main_arg3) from ((W6_of_ne m ρ c main_arg3 (by decide)).trans ((StableHlo.after_of_writes_sub hostOps2 _ hostOps2_writes (by decide : main_arg3 ∉ hostOps2_W)).trans ((W4_of_ne m ρ c main_arg3 (by decide)).trans ((StableHlo.after_of_writes_sub hostOps1 _ hostOps1_writes (by decide : main_arg3 ∉ hostOps1_W)).trans ((W2_of_ne m ρ c main_arg3 (by decide)).trans (StableHlo.after_of_writes_sub hostOps0 _ hostOps0_writes (by decide : main_arg3 ∉ hostOps0_W)))))))]
    exact a0_3
  have g6_a4 : R1 (W6 m ρ c (Proc.devRef .tc main_arg4) : S128.Idx → EReal) bru := by
    rw [show W6 m ρ c (Proc.devRef .tc main_arg4) = W0 m ρ c (Proc.devRef .tc main_arg4) from ((W6_of_ne m ρ c main_arg4 (by decide)).trans ((StableHlo.after_of_writes_sub hostOps2 _ hostOps2_writes (by decide : main_arg4 ∉ hostOps2_W)).trans ((W4_of_ne m ρ c main_arg4 (by decide)).trans ((StableHlo.after_of_writes_sub hostOps1 _ hostOps1_writes (by decide : main_arg4 ∉ hostOps1_W)).trans ((W2_of_ne m ρ c main_arg4 (by decide)).trans (StableHlo.after_of_writes_sub hostOps0 _ hostOps0_writes (by decide : main_arg4 ∉ hostOps0_W)))))))]
    exact a0_4
  -- after stretch 3
  have g7_v29 : R2 (W7 m ρ c (Proc.devRef .tc main_v29) : S8192x64.Idx → EReal) (fun n q => G n ⟨q.val + 64, by have := q.isLt; omega⟩) :=
    host3_v29 (inp := inp) (h := h) (dcol := dcol) (W6 m ρ c) g6_v3 g6_v6 g6_v9 g6_a3 g6_a4
  have g7_v31 : R2 (W7 m ρ c (Proc.devRef .tc main_v31) : S8192x66.Idx → EReal) y0 := host3_v31 (dcol := dcol) (W6 m ρ c) g6_v0 g6_v1 g6_v3 g6_v6 g6_v9 g6_a3 g6_a4
  have g7_v33 : R2 (W7 m ρ c (Proc.devRef .tc main_v33) : S8192x66.Idx → EReal) (fun n f => dcol n 0 * y0 n f) :=
    host3_v33 (W6 m ρ c) g6_v0 g6_v1 g6_v2 g6_v3 g6_v6 g6_v9 g6_a3 g6_a4
  have g7_a2 : R2 (W7 m ρ c (Proc.devRef .tc main_arg2) : S8192x8192.Idx → EReal) a := by
    rw [show W7 m ρ c (Proc.devRef .tc main_arg2) = W0 m ρ c (Proc.devRef .tc main_arg2) from ((StableHlo.after_of_writes_sub hostOps3 _ hostOps3_writes (by decide : main_arg2 ∉ hostOps3_W)).trans (((W6_arr m ρ c 0).trans (((dat2 (U5 m ρ) c).arrAt_in 0 rfl _).trans (A_eq2 (U5 m ρ) c 0))).trans ((StableHlo.after_of_writes_sub hostOps2 _ hostOps2_writes (by decide : main_arg2 ∉ hostOps2_W)).trans (((W4_arr m ρ c 0).trans (((dat1 (U3 m ρ) c).arrAt_in 0 rfl _).trans (A_eq1 (U3 m ρ) c 0))).trans ((StableHlo.after_of_writes_sub hostOps1 _ hostOps1_writes (by decide : main_arg2 ∉ hostOps1_W)).trans (((W2_arr m ρ c 0).trans (((dat0 (U1 m ρ) c).arrAt_in 0 rfl _).trans (A_eq0 (U1 m ρ) c 0))).trans (StableHlo.after_of_writes_sub hostOps0 _ hostOps0_writes (by decide : main_arg2 ∉ hostOps0_W))))))))]
    exact a0_2
  -- after region 3
  have g8_v34 : R2 (W8 m ρ c (Proc.devRef .tc main_v34) : S8192x66.Idx → EReal) y1 := fun i k =>
    (congrFun (W8_arr m ρ c 2) (ix2 i k)).trans (hf3 (U7 m ρ) c a (fun n f => dcol n 0 * y0 n f) g7_a2 g7_v33 i k)
  have g8_v2 : R2 (W8 m ρ c (Proc.devRef .tc main_v2) : S8192x1.Idx → EReal) dcol := by
    rw [show W8 m ρ c (Proc.devRef .tc main_v2) = W2 m ρ c (Proc.devRef .tc main_v2) from ((W8_of_ne m ρ c main_v2 (by decide)).trans ((StableHlo.after_of_writes_sub hostOps3 _ hostOps3_writes (by decide : main_v2 ∉ hostOps3_W)).trans ((W6_of_ne m ρ c main_v2 (by decide)).trans ((StableHlo.after_of_writes_sub hostOps2 _ hostOps2_writes (by decide : main_v2 ∉ hostOps2_W)).trans ((W4_of_ne m ρ c main_v2 (by decide)).trans (StableHlo.after_of_writes_sub hostOps1 _ hostOps1_writes (by decide : main_v2 ∉ hostOps1_W)))))))]
    exact g2_v2
  -- after stretch 4
  have g9_v36 : R2 (W9 m ρ c (Proc.devRef .tc main_v36) : S8192x66.Idx → EReal) (fun n f => dcol n 0 * y1 n f) := host4_v36 (W8 m ρ c) g8_v2 g8_v34
  have g9_a2 : R2 (W9 m ρ c (Proc.devRef .tc main_arg2) : S8192x8192.Idx → EReal) a := by
    rw [show W9 m ρ c (Proc.devRef .tc main_arg2) = W0 m ρ c (Proc.devRef .tc main_arg2) from ((StableHlo.after_of_writes_sub hostOps4 _ hostOps4_writes (by decide : main_arg2 ∉ hostOps4_W)).trans (((W8_arr m ρ c 0).trans (((dat3 (U7 m ρ) c).arrAt_in 0 rfl _).trans (A_eq3 (U7 m ρ) c 0))).trans ((StableHlo.after_of_writes_sub hostOps3 _ hostOps3_writes (by decide : main_arg2 ∉ hostOps3_W)).trans (((W6_arr m ρ c 0).trans (((dat2 (U5 m ρ) c).arrAt_in 0 rfl _).trans (A_eq2 (U5 m ρ) c 0))).trans ((StableHlo.after_of_writes_sub hostOps2 _ hostOps2_writes (by decide : main_arg2 ∉ hostOps2_W)).trans (((W4_arr m ρ c 0).trans (((dat1 (U3 m ρ) c).arrAt_in 0 rfl _).trans (A_eq1 (U3 m ρ) c 0))).trans ((StableHlo.after_of_writes_sub hostOps1 _ hostOps1_writes (by decide : main_arg2 ∉ hostOps1_W)).trans (((W2_arr m ρ c 0).trans (((dat0 (U1 m ρ) c).arrAt_in 0 rfl _).trans (A_eq0 (U1 m ρ) c 0))).trans (StableHlo.after_of_writes_sub hostOps0 _ hostOps0_writes (by decide : main_arg2 ∉ hostOps0_W))))))))))]
    exact a0_2
  -- after region 4
  have g10_v37 : R2 (W10 m ρ c (Proc.devRef .tc main_v37) : S8192x66.Idx → EReal) y2 := fun i k =>
    (congrFun (W10_arr m ρ c 2) (ix2 i k)).trans (hf4 (U9 m ρ) c a (fun n f => dcol n 0 * y1 n f) g9_a2 g9_v36 i k)
  have g10_v1 : R2 (W10 m ρ c (Proc.devRef .tc main_v1) : S8192x64.Idx → EReal) h := by
    rw [show W10 m ρ c (Proc.devRef .tc main_v1) = W1 m ρ c (Proc.devRef .tc main_v1) from ((W10_of_ne m ρ c main_v1 (by decide)).trans ((StableHlo.after_of_writes_sub hostOps4 _ hostOps4_writes (by decide : main_v1 ∉ hostOps4_W)).trans ((W8_of_ne m ρ c main_v1 (by decide)).trans ((StableHlo.after_of_writes_sub hostOps3 _ hostOps3_writes (by decide : main_v1 ∉ hostOps3_W)).trans ((W6_of_ne m ρ c main_v1 (by decide)).trans ((StableHlo.after_of_writes_sub hostOps2 _ hostOps2_writes (by decide : main_v1 ∉ hostOps2_W)).trans ((W4_of_ne m ρ c main_v1 (by decide)).trans ((StableHlo.after_of_writes_sub hostOps1 _ hostOps1_writes (by decide : main_v1 ∉ hostOps1_W)).trans (W2_of_ne m ρ c main_v1 (by decide))))))))))]
    exact g1_v1
  have g10_v29 : R2 (W10 m ρ c (Proc.devRef .tc main_v29) : S8192x64.Idx → EReal) (fun n q => G n ⟨q.val + 64, by have := q.isLt; omega⟩) := by
    rw [show W10 m ρ c (Proc.devRef .tc main_v29) = W7 m ρ c (Proc.devRef .tc main_v29) from ((W10_of_ne m ρ c main_v29 (by decide)).trans ((StableHlo.after_of_writes_sub hostOps4 _ hostOps4_writes (by decide : main_v29 ∉ hostOps4_W)).trans (W8_of_ne m ρ c main_v29 (by decide))))]
    exact g7_v29
  have g10_v31 : R2 (W10 m ρ c (Proc.devRef .tc main_v31) : S8192x66.Idx → EReal) y0 := by
    rw [show W10 m ρ c (Proc.devRef .tc main_v31) = W7 m ρ c (Proc.devRef .tc main_v31) from ((W10_of_ne m ρ c main_v31 (by decide)).trans ((StableHlo.after_of_writes_sub hostOps4 _ hostOps4_writes (by decide : main_v31 ∉ hostOps4_W)).trans (W8_of_ne m ρ c main_v31 (by decide))))]
    exact g7_v31
  have g10_v34 : R2 (W10 m ρ c (Proc.devRef .tc main_v34) : S8192x66.Idx → EReal) y1 := by
    rw [show W10 m ρ c (Proc.devRef .tc main_v34) = W8 m ρ c (Proc.devRef .tc main_v34) from ((W10_of_ne m ρ c main_v34 (by decide)).trans (StableHlo.after_of_writes_sub hostOps4 _ hostOps4_writes (by decide : main_v34 ∉ hostOps4_W)))]
    exact g8_v34
  have g10_a5 : R2 (W10 m ρ c (Proc.devRef .tc main_arg5) : S198x64.Idx → EReal) wc := by
    rw [show W10 m ρ c (Proc.devRef .tc main_arg5) = W0 m ρ c (Proc.devRef .tc main_arg5) from ((W10_of_ne m ρ c main_arg5 (by decide)).trans ((StableHlo.after_of_writes_sub hostOps4 _ hostOps4_writes (by decide : main_arg5 ∉ hostOps4_W)).trans ((W8_of_ne m ρ c main_arg5 (by decide)).trans ((StableHlo.after_of_writes_sub hostOps3 _ hostOps3_writes (by decide : main_arg5 ∉ hostOps3_W)).trans ((W6_of_ne m ρ c main_arg5 (by decide)).trans ((StableHlo.after_of_writes_sub hostOps2 _ hostOps2_writes (by decide : main_arg5 ∉ hostOps2_W)).trans ((W4_of_ne m ρ c main_arg5 (by decide)).trans ((StableHlo.after_of_writes_sub hostOps1 _ hostOps1_writes (by decide : main_arg5 ∉ hostOps1_W)).trans ((W2_of_ne m ρ c main_arg5 (by decide)).trans (StableHlo.after_of_writes_sub hostOps0 _ hostOps0_writes (by decide : main_arg5 ∉ hostOps0_W)))))))))))]
    exact a0_5
  have g10_a6 : R1 (W10 m ρ c (Proc.devRef .tc main_arg6) : S64.Idx → EReal) bc := by
    rw [show W10 m ρ c (Proc.devRef .tc main_arg6) = W0 m ρ c (Proc.devRef .tc main_arg6) from ((W10_of_ne m ρ c main_arg6 (by decide)).trans ((StableHlo.after_of_writes_sub hostOps4 _ hostOps4_writes (by decide : main_arg6 ∉ hostOps4_W)).trans ((W8_of_ne m ρ c main_arg6 (by decide)).trans ((StableHlo.after_of_writes_sub hostOps3 _ hostOps3_writes (by decide : main_arg6 ∉ hostOps3_W)).trans ((W6_of_ne m ρ c main_arg6 (by decide)).trans ((StableHlo.after_of_writes_sub hostOps2 _ hostOps2_writes (by decide : main_arg6 ∉ hostOps2_W)).trans ((W4_of_ne m ρ c main_arg6 (by decide)).trans ((StableHlo.after_of_writes_sub hostOps1 _ hostOps1_writes (by decide : main_arg6 ∉ hostOps1_W)).trans ((W2_of_ne m ρ c main_arg6 (by decide)).trans (StableHlo.after_of_writes_sub hostOps0 _ hostOps0_writes (by decide : main_arg6 ∉ hostOps0_W)))))))))))]
    exact a0_6
  -- after stretch 5: the result
  exact (host5_v56 (W10 m ρ c) g10_v1 g10_v29 g10_v31 g10_v34 g10_v37 g10_a5 g10_a6 n q).trans
    (congrArg (fun r : ℝ => (r : EReal)) (result_eq a inp h wru bru wc bc n q))

end Cert.KernelIdeal.H

end
-- ==== Proof.KI.Reg1Pieces.lean ====
import proofs.«164042_j22436909154350_2_alg».proof.Proof.KI.Reg1
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.Sem

variable {F : FTy → Type} [FloatOps F]

set_option maxHeartbeats 1000000

/-! # Region 1: what each case's stores leave, as the payloads of the input blocks and the entering accumulator -/

namespace R1

/-- Both whole-buffer rectangles sit at offset zero on every axis. -/
theorem zero2' : (![0, 0] : Fin 2 → Nat) = fun _ => 0 := funext fun a => by fin_cases a <;> rfl

/-- The 256 rows of the second input that the body loads at a point: rows `256·t … 256·t + 255`. -/
def rows1 (i : grid1.Coords) (x1 : Vec F S8192x66 .f32) : Vec F S256x66 .f32 :=
  View.ld x1 (Rect.unit (s := S8192x66) (k1_off1 i) S256x66.size (k1_off1_inb i))

/-- The first point leaves in the accumulator the block's contraction added onto the zero fill. -/
theorem soutA_eq (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond1_0 i) (hc1 : ¬cond1_1 i) (x0 : Vec F S256x8192 .f32) (x1 : Vec F S8192x66 .f32) :
    sout1_A_0 c i arg1 harg1 arg2 harg2 arg3 harg3 arg4 harg4 hc0 hc1 x0 x1 = k1_pay2 x0 (rows1 i x1) (k1_pay1 (F := F)) := by
  unfold sout1_A_0
  rw [View.read_writes_eq_canon _ _ _ (scover1_A_0 c i arg1 harg1 arg2 harg2 arg3 harg3 arg4 harg4 hc0 hc1 x0 x1)]
  unfold kernelRun1_A
  dsimp only
  try sl_unfold_words
  rw [View.canon_cons_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

/-- A middle point leaves in the accumulator the block's contraction added onto what it held. -/
theorem soutB_eq (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : ¬cond1_1 i) (x0 : Vec F S256x8192 .f32) (x1 : Vec F S8192x66 .f32) (xs0 : Vec F S8192x66 .f32) :
    sout1_B_0 c i arg1 harg1 arg2 harg2 arg3 harg3 arg4 harg4 hc0 hc1 x0 x1 xs0 = k1_pay2 x0 (rows1 i x1) xs0 := by
  unfold sout1_B_0
  rw [View.read_writes_eq_canon _ _ _ (scover1_B_0 c i arg1 harg1 arg2 harg2 arg3 harg3 arg4 harg4 hc0 hc1 x0 x1 xs0)]
  unfold kernelRun1_B
  dsimp only
  try sl_unfold_words
  rw [View.canon_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

/-- The last point leaves in the accumulator the block's contraction added onto what it held. -/
theorem soutC_eq (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : cond1_1 i) (x0 : Vec F S256x8192 .f32) (x1 : Vec F S8192x66 .f32) (xs0 : Vec F S8192x66 .f32) :
    sout1_C_0 c i arg1 harg1 arg2 harg2 arg3 harg3 arg4 harg4 hc0 hc1 x0 x1 xs0 = k1_pay2 x0 (rows1 i x1) xs0 := by
  unfold sout1_C_0
  rw [View.read_writes_eq_canon _ _ _ (scover1_C_0 c i arg1 harg1 arg2 harg2 arg3 harg3 arg4 harg4 hc0 hc1 x0 x1 xs0)]
  unfold kernelRun1_C
  dsimp only
  try sl_unfold_words
  rw [View.canon_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

/-- The last point stores into the output the new accumulator plus the second input. -/
theorem outC_eq (c : Dev nD) (i : grid1.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond1_0 i) (hc1 : cond1_1 i) (x0 : Vec F S256x8192 .f32) (x1 : Vec F S8192x66 .f32) (xs0 : Vec F S8192x66 .f32) :
    out1_C_2 c i arg1 harg1 arg2 harg2 arg3 harg3 arg4 harg4 hc0 hc1 x0 x1 xs0 = k1_pay3 (k1_pay2 x0 (rows1 i x1) xs0) x1 := by
  unfold out1_C_2
  rw [View.read_writes_eq_canon _ _ _ (cover1_C_2 c i arg1 harg1 arg2 harg2 arg3 harg3 arg4 harg4 hc0 hc1 x0 x1 xs0)]
  unfold kernelRun1_C
  dsimp only
  try sl_unfold_words
  rw [View.canon_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

end R1

end Cert.KernelIdeal.H
end
-- ==== Proof.LibBlockSum.lean ====
/-
  Block decomposition of a finite sum: a sum over `Fin (a * b)` is the sum over the `a` consecutive
  blocks of length `b` of the sums inside each block.  Stated in any additive commutative monoid, and
  once more at the literal sizes `8192 = 8 * 1024` with no cast in the statement.
-/
import Mathlib.Algebra.BigOperators.Fin
import Mathlib.Logic.Equiv.Fin.Basic

open scoped BigOperators

namespace Cert.Math

/-- The position `b * i + p` of entry `p` of block `i` lies below `a * b`. -/
theorem block_index_lt {a b : ℕ} (i : Fin a) (p : Fin b) : b * i.val + p.val < a * b := by
  have hi : i.val + 1 ≤ a := i.isLt
  have hp : p.val < b := p.isLt
  calc b * i.val + p.val < b * i.val + b := Nat.add_lt_add_left hp _
    _ = (i.val + 1) * b := by rw [Nat.succ_mul, Nat.mul_comm]
    _ ≤ a * b := Nat.mul_le_mul_right _ hi

/-- A sum over `Fin (a * b)` split into `a` consecutive blocks of length `b`: the pair `(i, p)`
    names position `b * i + p`, and the pairs enumerate every position exactly once. -/
theorem sum_fin_mul {M : Type*} [AddCommMonoid M] (a b : ℕ) (f : Fin (a * b) → M) :
    ∑ r, f r = ∑ i : Fin a, ∑ p : Fin b, f ⟨b * i.val + p.val, block_index_lt i p⟩ := by
  rw [← Equiv.sum_comp (finProdFinEquiv (m := a) (n := b)) f, Fintype.sum_prod_type]
  refine Finset.sum_congr rfl fun i _ => Finset.sum_congr rfl fun p _ => ?_
  congr 1
  apply Fin.ext
  show p.val + b * i.val = b * i.val + p.val
  exact Nat.add_comm _ _

/-- The same at `8192 = 8 * 1024`: eight blocks of 1024 consecutive positions. -/
theorem sum_blocks_8192 {M : Type*} [AddCommMonoid M] (f : Fin 8192 → M) :
    ∑ r : Fin 8192, f r
      = ∑ i : Fin 8, ∑ p : Fin 1024,
          f ⟨1024 * i.val + p.val, by have := i.isLt; have := p.isLt; omega⟩ :=
  sum_fin_mul 8 1024 f

end Cert.Math
-- ==== Proof.KI.Reg1Final.lean ====
import proofs.«164042_j22436909154350_2_alg».proof.Proof.KI.Reg1Pieces
import proofs.«164042_j22436909154350_2_alg».proof.Proof.LibBlockSum
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

set_option maxHeartbeats 1000000

namespace R1

/-! # Region 1's value at the ideal reals: the result array holds `Aᵀ·v + v`, entry by entry -/

/-- The kernel's dot: contracts axis 0 of the [256, 8192] block with axis 0 of the [256, 66] rows. -/
abbrev D1 : DotDims S256x8192 S256x66 S8192x66 := dot_S256x8192_S256x66_S8192x66_0_0_1_1_n_n

theorem lhs1_0 (j : S8192x66.Idx) (q : D1.contr.Idx) : (D1.lhsIdx j q 0).val = (q ⟨0, by decide⟩).val :=
  D1.lhsIdx_val_of_single rfl j q
theorem lhs1_1 (j : S8192x66.Idx) (q : D1.contr.Idx) : (D1.lhsIdx j q 1).val = (j 0).val := by
  unfold DotDims.lhsIdx
  rw [dif_neg (show ¬(1 : Fin S256x8192.rank) ∈ D1.lhsBatch by decide), dif_pos (show (1 : Fin S256x8192.rank) ∈ D1.lhsNonContracting by decide)]
  rfl
theorem rhs1_0 (j : S8192x66.Idx) (q : D1.contr.Idx) : (D1.rhsIdx j q 0).val = (q ⟨0, by decide⟩).val :=
  D1.rhsIdx_val_of_single rfl j q
theorem rhs1_1 (j : S8192x66.Idx) (q : D1.contr.Idx) : (D1.rhsIdx j q 1).val = (j 1).val := by
  unfold DotDims.rhsIdx
  rw [dif_neg (show ¬(1 : Fin S256x66.rank) ∈ D1.rhsBatch by decide), dif_pos (show (1 : Fin S256x66.rank) ∈ D1.rhsNonContracting by decide)]
  rfl

/-- The zero fill at an index. -/
theorem pay1_apply (j : S8192x66.Idx) : k1_pay1 (F := Ideal) j = ((0 : ℝ) : EReal) := by
  unfold k1_pay1
  simp only [shapeCast_self, broadcast_apply, Ideal.ofBits_def, Ideal.ofBits_zero_f32]
  exact EReal.coe_zero.symm

/-- The accumulation payload at (i, k): the accumulator there plus the block's column `i` against the rows' column `k`. -/
theorem pay2_apply (v5 : Vec Ideal S256x8192 .f32) (v8 : Vec Ideal S256x66 .f32) (v12 : Vec Ideal S8192x66 .f32) (i : Fin 8192) (k : Fin 66) :
    k1_pay2 (F := Ideal) v5 v8 v12 (ix2 i k) = v12 (ix2 i k) + ∑ p : Fin 256, v5 (ix2 p i) * v8 (ix2 p k) := by
  unfold k1_pay2
  simp only [shapeCast_self, addf_apply]
  refine congrArg (fun y => v12 (ix2 i k) + y) ?_
  refine (Ideal.matmul_constant_zero_apply D1 none _ _ (ix2 i k)).trans ?_
  rw [← Equiv.sum_comp (contrEquiv1 D1 256 rfl rfl).symm]
  refine Finset.sum_congr rfl fun p _ => ?_
  have hp := contrEquiv1_symm_val D1 256 rfl rfl p
  have el : D1.lhsIdx (ix2 i k) ((contrEquiv1 D1 256 rfl rfl).symm p) = ix2 p i := funext fun b => Fin.ext (by
    match b with
    | ⟨0, _⟩ => exact (lhs1_0 _ _).trans hp
    | ⟨1, _⟩ => exact lhs1_1 _ _)
  have er : D1.rhsIdx (ix2 i k) ((contrEquiv1 D1 256 rfl rfl).symm p) = ix2 p k := funext fun b => Fin.ext (by
    match b with
    | ⟨0, _⟩ => exact (rhs1_0 _ _).trans hp
    | ⟨1, _⟩ => exact rhs1_1 _ _)
  rw [el, er]
  rfl

/-- The last point's output payload at an index: the accumulator plus the second input. -/
theorem pay3_apply (v20 v21 : Vec Ideal S8192x66 .f32) (j : S8192x66.Idx) : k1_pay3 (F := Ideal) v20 v21 j = v20 j + v21 j := by
  unfold k1_pay3
  simp only [shapeCast_self, addf_apply]

/-- The grid is one axis of 32 points: the coordinate is the point. -/
theorem coords1_0 : ∀ t : Fin cfg1.N, ((grid1.coords t) 0).val = t.val :=
  (by decide +kernel : ∀ t : Fin grid1.N, ((grid1.coords t) 0).val = t.val)

/-- The printed index maps, decided over the 32 points: window 0 at row block `t`, windows 1 and 2 whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

section Generic
variable {F : FTy → Type} [FloatOps F]

/-- The 256 loaded rows, entry (p, k), are the second input's entry (256·t + p, k). -/
theorem rows1_apply (t : Fin cfg1.N) (x1 : Vec F S8192x66 .f32) (p : Fin 256) (k : Fin 66) (r : Fin 8192) (hr : r.val = 256 * t.val + p.val) :
    rows1 (grid1.coords t) x1 (ix2 p k) = x1 (ix2 r k) := by
  unfold rows1
  show x1 ((Rect.unit (s := S8192x66) (k1_off1 (grid1.coords t)) S256x66.size (k1_off1_inb _)).idx (ix2 p k)) = _
  refine congrArg x1 (funext fun b => Fin.ext ?_)
  have hc := coords1_0 t
  have ho := k1_off1_eq (grid1.coords t)
  match b with
  | ⟨0, _⟩ =>
    show k1_off1 (grid1.coords t) (0 : Fin 2) + 1 * p.val = r.val
    rw [ho]; show 256 * ((grid1.coords t) 0).val + 1 * p.val = r.val; omega
  | ⟨1, _⟩ =>
    show k1_off1 (grid1.coords t) (1 : Fin 2) + 1 * k.val = k.val
    rw [ho]; show 0 + 1 * k.val = k.val; omega
end Generic

section
variable (V : (c : Dev nD) → (b : Ref sig .tc) → Buf (Elt Ideal) ((c : Thread nD τ).loc b))

/-- Window 0's block at point `t`, entry (p, q), is the first argument's entry (256·t + p, q). -/
theorem iblk1_0_apply (c : Dev nD) (t : Fin cfg1.N) (p : Fin 256) (q : Fin 8192) (r : Fin 8192) (hr : r.val = 256 * t.val + p.val) :
    (iblk1 V c 0 t : Vec Ideal S256x8192 .f32) (ix2 p q) = V c main_arg2 (ix2 r q) := by
  obtain ⟨e0, e1, -⟩ := idx_facts1 t
  unfold iblk1
  rw [View.read_apply]
  show V c main_arg2 (((cfg1.win 0).blk t).view.emb (ix2 p q)) = _
  refine congrArg (V c main_arg2) (funext fun b => Fin.ext ?_)
  match b with
  | ⟨0, _⟩ => show win1_0.index t (0 : Fin 2) * 256 + 1 * p.val = r.val; omega
  | ⟨1, _⟩ => show win1_0.index t (1 : Fin 2) * 8192 + 1 * q.val = q.val; omega

/-- Window 1's block at any point is the whole second argument. -/
theorem iblk1_1_apply (c : Dev nD) (t : Fin cfg1.N) (j : Fin 8192) (k : Fin 66) :
    (iblk1 V c 1 t : Vec Ideal S8192x66 .f32) (ix2 j k) = V c main_v5 (ix2 j k) := by
  obtain ⟨-, -, e2, e3, -⟩ := idx_facts1 t
  unfold iblk1
  rw [View.read_apply]
  show V c main_v5 (((cfg1.win 1).blk t).view.emb (ix2 j k)) = _
  refine congrArg (V c main_v5) (funext fun b => Fin.ext ?_)
  match b with
  | ⟨0, _⟩ => show win1_1.index t (0 : Fin 2) * 8192 + 1 * j.val = j.val; omega
  | ⟨1, _⟩ => show win1_1.index t (1 : Fin 2) * 66 + 1 * k.val = k.val; omega

/-- The arguments' entries past the last row read zero: total functions of the row number, for the partial sums. -/
def aN (a : Fin 8192 → Fin 8192 → ℝ) (j : ℕ) (i : Fin 8192) : ℝ := if h : j < 8192 then a ⟨j, h⟩ i else 0
def xN (x : Fin 8192 → Fin 66 → ℝ) (j : ℕ) (k : Fin 66) : ℝ := if h : j < 8192 then x ⟨j, h⟩ k else 0
/-- Row block `t`'s share of entry (i, k) of `Aᵀ·v`. -/
def blkSum (a : Fin 8192 → Fin 8192 → ℝ) (x : Fin 8192 → Fin 66 → ℝ) (t : ℕ) (i : Fin 8192) (k : Fin 66) : ℝ :=
  ∑ p : Fin 256, aN a (256 * t + p.val) i * xN x (256 * t + p.val) k

/-- A finite sum of reals, read in the extended reals, is the extended real of the sum. -/
theorem coe_sum_real1 {ι : Type} (s : Finset ι) (f : ι → ℝ) : ∑ i ∈ s, ((f i : ℝ) : EReal) = ((∑ i ∈ s, f i : ℝ) : EReal) := by
  classical
  induction s using Finset.induction_on with
  | empty => simp
  | insert b s hb ih => rw [Finset.sum_insert hb, Finset.sum_insert hb, ih, EReal.coe_add]

/-- The components of a pair known by an equation. -/
theorem fst_of_eq {α β : Type} {p : α × β} {u : α} {w : β} (h : p = (u, w)) : p.1 = u := by rw [h]
theorem snd_of_eq {α β : Type} {p : α × β} {u : α} {w : β} (h : p = (u, w)) : p.2 = w := by rw [h]

/-- One point's step, over any block and rows with real entries: onto an accumulator entry holding the real `s`,
    the body adds row block `t`'s share. -/
theorem step_val' (a : Fin 8192 → Fin 8192 → ℝ) (x : Fin 8192 → Fin 66 → ℝ) (t : Fin cfg1.N)
    (x0 : Vec Ideal S256x8192 .f32) (x1 : Vec Ideal S8192x66 .f32) (acc : Vec Ideal S8192x66 .f32) (s : ℝ) (i : Fin 8192) (k : Fin 66)
    (h0 : ∀ (p : Fin 256) (r : Fin 8192), r.val = 256 * t.val + p.val → x0 (ix2 p i) = ((a r i : ℝ) : EReal))
    (h1 : ∀ r : Fin 8192, x1 (ix2 r k) = ((x r k : ℝ) : EReal))
    (hacc : acc (ix2 i k) = ((s : ℝ) : EReal)) :
    k1_pay2 (F := Ideal) x0 (rows1 (grid1.coords t) x1) acc (ix2 i k) = ((s + blkSum a x t.val i k : ℝ) : EReal) := by
  have hN : cfg1.N = 32 := N_1
  have ht : t.val < 32 := hN ▸ t.isLt
  unfold blkSum
  rw [pay2_apply, hacc]
  have hterm : ∀ p : Fin 256, x0 (ix2 p i) * rows1 (grid1.coords t) x1 (ix2 p k)
      = ((aN a (256 * t.val + p.val) i * xN x (256 * t.val + p.val) k : ℝ) : EReal) := by
    intro p
    have hr : 256 * t.val + p.val < 8192 := by have := p.isLt; omega
    rw [h0 p ⟨256 * t.val + p.val, hr⟩ rfl, rows1_apply t x1 p k ⟨256 * t.val + p.val, hr⟩ rfl, h1, ← EReal.coe_mul]
    unfold aN xN
    rw [dif_pos hr, dif_pos hr]
  rw [Finset.sum_congr rfl (fun p _ => hterm p), coe_sum_real1, ← EReal.coe_add]

variable (c : Dev nD) (a : Fin 8192 → Fin 8192 → ℝ) (x : Fin 8192 → Fin 66 → ℝ)
  (ha : ∀ i j : Fin 8192, V c main_arg2 (ix2 i j) = ((a i j : ℝ) : EReal))
  (hx : ∀ (j : Fin 8192) (k : Fin 66), V c main_v5 (ix2 j k) = ((x j k : ℝ) : EReal))

include ha in
/-- Window 0's block at point `t` has the first argument's real entries at rows `256·t + p`. -/
theorem blk0_real (t : Fin cfg1.N) (i : Fin 8192) (p : Fin 256) (r : Fin 8192) (hr : r.val = 256 * t.val + p.val) :
    (iblk1 V c 0 t : Vec Ideal S256x8192 .f32) (ix2 p i) = ((a r i : ℝ) : EReal) :=
  (iblk1_0_apply V c t p i r hr).trans (ha r i)

include hx in
/-- Window 1's block has the second argument's real entries. -/
theorem blk1_real (t : Fin cfg1.N) (k : Fin 66) (r : Fin 8192) :
    (iblk1 V c 1 t : Vec Ideal S8192x66 .f32) (ix2 r k) = ((x r k : ℝ) : EReal) :=
  (iblk1_1_apply V c t r k).trans (hx r k)

include ha hx in
/-- A later point's accumulator entry from the point before's. -/
theorem acc_step (t : Fin cfg1.N) (h0 : ¬t.val % 32 = 0) (i : Fin 8192) (k : Fin 66) (s : ℝ)
    (hprev : (outsAt1 V c (t.val - 1) (Nat.lt_of_le_of_lt (Nat.sub_le _ _) t.isLt)).2 (ix2 i k) = ((s : ℝ) : EReal)) :
    (outsAt1 V c t.val t.isLt).2 (ix2 i k) = ((s + blkSum a x t.val i k : ℝ) : EReal) := by
  by_cases h1 : t.val % 32 = 31
  · rw [snd_of_eq (outsAt1_C V c t h0 h1), soutC_eq]
    exact step_val' a x t (iblk1 V c 0 t) (iblk1 V c 1 t) _ s i k (blk0_real V c a ha t i) (blk1_real V c x hx t k) hprev
  · rw [snd_of_eq (outsAt1_B V c t h0 h1), soutB_eq]
    exact step_val' a x t (iblk1 V c 0 t) (iblk1 V c 1 t) _ s i k (blk0_real V c a ha t i) (blk1_real V c x hx t k) hprev

include ha hx in
/-- THE INVARIANT: after point `n` the accumulator's entry (i, k) is the sum of the first `n + 1` row blocks' shares. -/
theorem acc_inv : ∀ (n : ℕ) (hn : n < cfg1.N) (i : Fin 8192) (k : Fin 66),
    (outsAt1 V c n hn).2 (ix2 i k) = ((∑ t ∈ Finset.range (n + 1), blkSum a x t i k : ℝ) : EReal)
  | 0, hn, i, k => by
    have hA := outsAt1_A V c ⟨0, hn⟩ (Nat.zero_mod 32) (by show ¬(0 % 32 = 31); decide)
    show (outsAt1 V c (⟨0, hn⟩ : Fin cfg1.N).val (⟨0, hn⟩ : Fin cfg1.N).isLt).2 (ix2 i k) = _
    rw [snd_of_eq hA, soutA_eq]
    have h := step_val' a x ⟨0, hn⟩ (iblk1 V c 0 ⟨0, hn⟩) (iblk1 V c 1 ⟨0, hn⟩) (k1_pay1 (F := Ideal)) 0 i k
      (blk0_real V c a ha ⟨0, hn⟩ i) (blk1_real V c x hx ⟨0, hn⟩ k) (pay1_apply _)
    rw [zero_add] at h
    rw [Finset.sum_range_one]
    exact h
  | n + 1, hn, i, k => by
    have hN : cfg1.N = 32 := N_1
    have ih := acc_inv n (Nat.lt_of_succ_lt hn) i k
    have h0 : ¬(n + 1) % 32 = 0 := by omega
    have h := acc_step V c a x ha hx ⟨n + 1, hn⟩ h0 i k _ ih
    rw [Finset.sum_range_succ]
    exact h

/-- The 32 row blocks' shares add up to the whole contraction. -/
theorem total_sum (i : Fin 8192) (k : Fin 66) : ∑ t ∈ Finset.range 32, blkSum a x t i k = ∑ r : Fin 8192, a r i * x r k := by
  have h2 : ∑ r : Fin 8192, a r i * x r k
      = ∑ t : Fin 32, ∑ p : Fin 256, (fun r : Fin 8192 => a r i * x r k) ⟨256 * t.val + p.val, by have := t.isLt; have := p.isLt; omega⟩ :=
    Cert.Math.sum_fin_mul 32 256 (fun r : Fin 8192 => a r i * x r k)
  rw [h2, ← Fin.sum_univ_eq_sum_range (fun t => blkSum a x t i k) 32]
  refine Finset.sum_congr rfl fun t _ => ?_
  unfold blkSum
  refine Finset.sum_congr rfl fun p _ => ?_
  have hr : 256 * t.val + p.val < 8192 := by have := t.isLt; have := p.isLt; omega
  unfold aN xN
  rw [dif_pos hr, dif_pos hr]

/-- What the result array ends holding. -/
def G1v (a : Fin 8192 → Fin 8192 → ℝ) (x : Fin 8192 → Fin 66 → ℝ) : S8192x66.Idx → EReal :=
  fun j => (((∑ r, a r (j 0) * x r (j 1)) + x (j 0) (j 1) : ℝ) : EReal)

include ha hx in
/-- What the last point writes back is the whole of `G1v`. -/
theorem flushed2_eq (t : Fin cfg1.N) (hf : (cfg1.win 2).flush t = true) :
    (dat1 (F := Ideal) V c).flushed 2 t = ((cfg1.win 2).blk t).view.read (Elt Ideal) (G1v a x) := by
  have hN : cfg1.N = 32 := N_1
  have ht : t.val < 32 := hN ▸ t.isLt
  have h1 : t.val % 32 = 31 := (flush1_2 t).mp hf
  have h0 : ¬t.val % 32 = 0 := by omega
  obtain ⟨-, -, -, -, e4, e5⟩ := idx_facts1 t
  show (cfg1.win 2).cut (grid1.coords t) ((dat1 V c).after 2 t) = _
  rw [after1_2, fst_of_eq (outsAt1_C V c t h0 h1), outC_eq]
  funext j
  show k1_pay3 (F := Ideal) (k1_pay2 (iblk1 V c 0 t) (rows1 (grid1.coords t) (iblk1 V c 1 t)) (outsAt1 V c (t.val - 1) _).2) (iblk1 V c 1 t) j
    = G1v a x (((cfg1.win 2).blk t).view.emb j)
  obtain ⟨i, hi⟩ : ∃ i : Fin 8192, i = j 0 := ⟨j 0, rfl⟩
  obtain ⟨k, hk⟩ : ∃ k : Fin 66, k = j 1 := ⟨j 1, rfl⟩
  have hj : (j : S8192x66.Idx) = ix2 i k := by
    funext b
    match b with
    | ⟨0, _⟩ => exact hi.symm
    | ⟨1, _⟩ => exact hk.symm
  rw [hj]
  have hemb : ((cfg1.win 2).blk t).view.emb (ix2 i k) = (ix2 i k : S8192x66.Idx) := funext fun b => Fin.ext (by
    match b with
    | ⟨0, _⟩ => show win1_2.index t (0 : Fin 2) * 8192 + 1 * i.val = i.val; omega
    | ⟨1, _⟩ => show win1_2.index t (1 : Fin 2) * 66 + 1 * k.val = k.val; omega)
  rw [hemb, pay3_apply]
  have hprev := acc_inv V c a x ha hx (t.val - 1) (Nat.lt_of_le_of_lt (Nat.sub_le _ _) t.isLt) i k
  rw [step_val' a x t (iblk1 V c 0 t) (iblk1 V c 1 t) _ _ i k (blk0_real V c a ha t i) (blk1_real V c x hx t k) hprev,
    blk1_real V c x hx t k i, ← EReal.coe_add]
  unfold G1v
  refine congrArg (fun y : ℝ => ((y + x i k : ℝ) : EReal)) ?_
  refine Eq.trans ?_ (total_sum a x i k)
  have e32 : (32 : ℕ) = t.val + 1 := by omega
  have et : t.val - 1 + 1 = t.val := by omega
  rw [e32, et, Finset.sum_range_succ]

/-- The one flushing point's block is the whole result array. -/
theorem cover2 (j : S8192x66.Idx) : ∃ t : Fin cfg1.N, (cfg1.win 2).flush t = true ∧ j ∈ ((cfg1.win 2).blk t).view.set := by
  have hN : cfg1.N = 32 := N_1
  obtain ⟨t, htv⟩ : ∃ t : Fin cfg1.N, t.val = 31 := ⟨⟨31, by omega⟩, rfl⟩
  obtain ⟨-, -, -, -, e4, e5⟩ := idx_facts1 t
  refine ⟨t, (flush1_2 t).mpr (by omega), ?_⟩
  show j ∈ ((View.whole main_v6).slice (win1_2.rect t)).set
  rw [View.set_slice_whole, Rect.mem_set_unit]
  intro b
  have hj0 : (j 0).val < 8192 := (j 0).isLt
  have hj1 : (j 1).val < 66 := (j 1).isLt
  match b with
  | ⟨0, _⟩ => show win1_2.index t (0 : Fin 2) * 8192 ≤ (j 0).val ∧ (j 0).val < win1_2.index t (0 : Fin 2) * 8192 + 8192; omega
  | ⟨1, _⟩ => show win1_2.index t (1 : Fin 2) * 66 ≤ (j 1).val ∧ (j 1).val < win1_2.index t (1 : Fin 2) * 66 + 66; omega

include ha hx in
/-- Region 1's value: after the region the result array holds, at (i, k), `∑ j, a j i · x j k + x i k`. -/
theorem final (i : Fin 8192) (k : Fin 66) :
    (dat1 (F := Ideal) V c).arrAt 2 cfg1.N (ix2 i k) = (((∑ j, a j i * x j k) + x i k : ℝ) : EReal) := by
  have h := (dat1 (F := Ideal) V c).arrAt_eq_of_cover 2 (G1v a x) (fun t hf => flushed2_eq V c a x ha hx t hf) cover2
  exact (congrFun h (ix2 i k)).trans rfl
end

end R1

/-- Region 1's value: after the region the result array holds, at (i, k), `∑ j, a j i · x j k + x i k`. -/
theorem final1 (V : (c : Dev nD) → (b : Ref sig .tc) → Buf (Elt Ideal) ((c : Thread nD τ).loc b)) (c : Dev nD)
    (a : Fin 8192 → Fin 8192 → ℝ) (x : Fin 8192 → Fin 66 → ℝ)
    (ha : ∀ i j : Fin 8192, V c main_arg2 (ix2 i j) = ((a i j : ℝ) : EReal))
    (hx : ∀ (j : Fin 8192) (k : Fin 66), V c main_v5 (ix2 j k) = ((x j k : ℝ) : EReal)) (i : Fin 8192) (k : Fin 66) :
    (dat1 (F := Ideal) V c).arrAt 2 cfg1.N (ix2 i k) = (((∑ j, a j i * x j k) + x i k : ℝ) : EReal) :=
  R1.final V c a x ha hx i k

end Cert.KernelIdeal.H
end
-- ==== Proof.KI.Reg2Pieces.lean ====
import proofs.«164042_j22436909154350_2_alg».proof.Proof.KI.Reg2
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.Sem

variable {F : FTy → Type} [FloatOps F]

set_option maxHeartbeats 1000000

/-! # Region 2: what each case's stores leave, as the payloads of the input blocks and the entering accumulator -/

namespace R2

/-- Both whole-buffer rectangles sit at offset zero on every axis. -/
theorem zero2' : (![0, 0] : Fin 2 → Nat) = fun _ => 0 := funext fun a => by fin_cases a <;> rfl

/-- The 256 rows of the second input that the body loads at a point: rows `256·t … 256·t + 255`. -/
def rows2 (i : grid2.Coords) (x1 : Vec F S8192x66 .f32) : Vec F S256x66 .f32 :=
  View.ld x1 (Rect.unit (s := S8192x66) (k2_off1 i) S256x66.size (k2_off1_inb i))

/-- The first point leaves in the accumulator the block's contraction added onto the zero fill. -/
theorem soutA_eq (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond2_0 i) (hc1 : ¬cond2_1 i) (x0 : Vec F S256x8192 .f32) (x1 : Vec F S8192x66 .f32) :
    sout2_A_0 c i arg1 harg1 arg2 harg2 arg3 harg3 arg4 harg4 hc0 hc1 x0 x1 = k2_pay2 x0 (rows2 i x1) (k2_pay1 (F := F)) := by
  unfold sout2_A_0
  rw [View.read_writes_eq_canon _ _ _ (scover2_A_0 c i arg1 harg1 arg2 harg2 arg3 harg3 arg4 harg4 hc0 hc1 x0 x1)]
  unfold kernelRun2_A
  dsimp only
  try sl_unfold_words
  rw [View.canon_cons_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

/-- A middle point leaves in the accumulator the block's contraction added onto what it held. -/
theorem soutB_eq (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : ¬cond2_1 i) (x0 : Vec F S256x8192 .f32) (x1 : Vec F S8192x66 .f32) (xs0 : Vec F S8192x66 .f32) :
    sout2_B_0 c i arg1 harg1 arg2 harg2 arg3 harg3 arg4 harg4 hc0 hc1 x0 x1 xs0 = k2_pay2 x0 (rows2 i x1) xs0 := by
  unfold sout2_B_0
  rw [View.read_writes_eq_canon _ _ _ (scover2_B_0 c i arg1 harg1 arg2 harg2 arg3 harg3 arg4 harg4 hc0 hc1 x0 x1 xs0)]
  unfold kernelRun2_B
  dsimp only
  try sl_unfold_words
  rw [View.canon_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

/-- The last point leaves in the accumulator the block's contraction added onto what it held. -/
theorem soutC_eq (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : cond2_1 i) (x0 : Vec F S256x8192 .f32) (x1 : Vec F S8192x66 .f32) (xs0 : Vec F S8192x66 .f32) :
    sout2_C_0 c i arg1 harg1 arg2 harg2 arg3 harg3 arg4 harg4 hc0 hc1 x0 x1 xs0 = k2_pay2 x0 (rows2 i x1) xs0 := by
  unfold sout2_C_0
  rw [View.read_writes_eq_canon _ _ _ (scover2_C_0 c i arg1 harg1 arg2 harg2 arg3 harg3 arg4 harg4 hc0 hc1 x0 x1 xs0)]
  unfold kernelRun2_C
  dsimp only
  try sl_unfold_words
  rw [View.canon_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

/-- The last point stores into the output the new accumulator plus the second input. -/
theorem outC_eq (c : Dev nD) (i : grid2.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond2_0 i) (hc1 : cond2_1 i) (x0 : Vec F S256x8192 .f32) (x1 : Vec F S8192x66 .f32) (xs0 : Vec F S8192x66 .f32) :
    out2_C_2 c i arg1 harg1 arg2 harg2 arg3 harg3 arg4 harg4 hc0 hc1 x0 x1 xs0 = k2_pay3 (k2_pay2 x0 (rows2 i x1) xs0) x1 := by
  unfold out2_C_2
  rw [View.read_writes_eq_canon _ _ _ (cover2_C_2 c i arg1 harg1 arg2 harg2 arg3 harg3 arg4 harg4 hc0 hc1 x0 x1 xs0)]
  unfold kernelRun2_C
  dsimp only
  try sl_unfold_words
  rw [View.canon_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

end R2

end Cert.KernelIdeal.H
end
-- ==== Proof.KI.Reg2Final.lean ====
import proofs.«164042_j22436909154350_2_alg».proof.Proof.KI.Reg2Pieces
import proofs.«164042_j22436909154350_2_alg».proof.Proof.LibBlockSum
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

set_option maxHeartbeats 1000000

namespace R2

/-! # Region 2's value at the ideal reals: the result array holds `Aᵀ·v + v`, entry by entry -/

/-- The kernel's dot: contracts axis 0 of the [256, 8192] block with axis 0 of the [256, 66] rows. -/
abbrev D2 : DotDims S256x8192 S256x66 S8192x66 := dot_S256x8192_S256x66_S8192x66_0_0_1_1_n_n

theorem lhs2_0 (j : S8192x66.Idx) (q : D2.contr.Idx) : (D2.lhsIdx j q 0).val = (q ⟨0, by decide⟩).val :=
  D2.lhsIdx_val_of_single rfl j q
theorem lhs2_1 (j : S8192x66.Idx) (q : D2.contr.Idx) : (D2.lhsIdx j q 1).val = (j 0).val := by
  unfold DotDims.lhsIdx
  rw [dif_neg (show ¬(1 : Fin S256x8192.rank) ∈ D2.lhsBatch by decide), dif_pos (show (1 : Fin S256x8192.rank) ∈ D2.lhsNonContracting by decide)]
  rfl
theorem rhs2_0 (j : S8192x66.Idx) (q : D2.contr.Idx) : (D2.rhsIdx j q 0).val = (q ⟨0, by decide⟩).val :=
  D2.rhsIdx_val_of_single rfl j q
theorem rhs2_1 (j : S8192x66.Idx) (q : D2.contr.Idx) : (D2.rhsIdx j q 1).val = (j 1).val := by
  unfold DotDims.rhsIdx
  rw [dif_neg (show ¬(1 : Fin S256x66.rank) ∈ D2.rhsBatch by decide), dif_pos (show (1 : Fin S256x66.rank) ∈ D2.rhsNonContracting by decide)]
  rfl

/-- The zero fill at an index. -/
theorem pay1_apply (j : S8192x66.Idx) : k2_pay1 (F := Ideal) j = ((0 : ℝ) : EReal) := by
  unfold k2_pay1
  simp only [shapeCast_self, broadcast_apply, Ideal.ofBits_def, Ideal.ofBits_zero_f32]
  exact EReal.coe_zero.symm

/-- The accumulation payload at (i, k): the accumulator there plus the block's column `i` against the rows' column `k`. -/
theorem pay2_apply (v5 : Vec Ideal S256x8192 .f32) (v8 : Vec Ideal S256x66 .f32) (v12 : Vec Ideal S8192x66 .f32) (i : Fin 8192) (k : Fin 66) :
    k2_pay2 (F := Ideal) v5 v8 v12 (ix2 i k) = v12 (ix2 i k) + ∑ p : Fin 256, v5 (ix2 p i) * v8 (ix2 p k) := by
  unfold k2_pay2
  simp only [shapeCast_self, addf_apply]
  refine congrArg (fun y => v12 (ix2 i k) + y) ?_
  refine (Ideal.matmul_constant_zero_apply D2 none _ _ (ix2 i k)).trans ?_
  rw [← Equiv.sum_comp (contrEquiv1 D2 256 rfl rfl).symm]
  refine Finset.sum_congr rfl fun p _ => ?_
  have hp := contrEquiv1_symm_val D2 256 rfl rfl p
  have el : D2.lhsIdx (ix2 i k) ((contrEquiv1 D2 256 rfl rfl).symm p) = ix2 p i := funext fun b => Fin.ext (by
    match b with
    | ⟨0, _⟩ => exact (lhs2_0 _ _).trans hp
    | ⟨1, _⟩ => exact lhs2_1 _ _)
  have er : D2.rhsIdx (ix2 i k) ((contrEquiv1 D2 256 rfl rfl).symm p) = ix2 p k := funext fun b => Fin.ext (by
    match b with
    | ⟨0, _⟩ => exact (rhs2_0 _ _).trans hp
    | ⟨1, _⟩ => exact rhs2_1 _ _)
  rw [el, er]
  rfl

/-- The last point's output payload at an index: the accumulator plus the second input. -/
theorem pay3_apply (v20 v21 : Vec Ideal S8192x66 .f32) (j : S8192x66.Idx) : k2_pay3 (F := Ideal) v20 v21 j = v20 j + v21 j := by
  unfold k2_pay3
  simp only [shapeCast_self, addf_apply]

/-- The grid is one axis of 32 points: the coordinate is the point. -/
theorem coords2_0 : ∀ t : Fin cfg2.N, ((grid2.coords t) 0).val = t.val :=
  (by decide +kernel : ∀ t : Fin grid2.N, ((grid2.coords t) 0).val = t.val)

/-- The printed index maps, decided over the 32 points: window 0 at row block `t`, windows 1 and 2 whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

section Generic
variable {F : FTy → Type} [FloatOps F]

/-- The 256 loaded rows, entry (p, k), are the second input's entry (256·t + p, k). -/
theorem rows2_apply (t : Fin cfg2.N) (x1 : Vec F S8192x66 .f32) (p : Fin 256) (k : Fin 66) (r : Fin 8192) (hr : r.val = 256 * t.val + p.val) :
    rows2 (grid2.coords t) x1 (ix2 p k) = x1 (ix2 r k) := by
  unfold rows2
  show x1 ((Rect.unit (s := S8192x66) (k2_off1 (grid2.coords t)) S256x66.size (k2_off1_inb _)).idx (ix2 p k)) = _
  refine congrArg x1 (funext fun b => Fin.ext ?_)
  have hc := coords2_0 t
  have ho := k2_off1_eq (grid2.coords t)
  match b with
  | ⟨0, _⟩ =>
    show k2_off1 (grid2.coords t) (0 : Fin 2) + 1 * p.val = r.val
    rw [ho]; show 256 * ((grid2.coords t) 0).val + 1 * p.val = r.val; omega
  | ⟨1, _⟩ =>
    show k2_off1 (grid2.coords t) (1 : Fin 2) + 1 * k.val = k.val
    rw [ho]; show 0 + 1 * k.val = k.val; omega
end Generic

section
variable (V : (c : Dev nD) → (b : Ref sig .tc) → Buf (Elt Ideal) ((c : Thread nD τ).loc b))

/-- Window 0's block at point `t`, entry (p, q), is the first argument's entry (256·t + p, q). -/
theorem iblk2_0_apply (c : Dev nD) (t : Fin cfg2.N) (p : Fin 256) (q : Fin 8192) (r : Fin 8192) (hr : r.val = 256 * t.val + p.val) :
    (iblk2 V c 0 t : Vec Ideal S256x8192 .f32) (ix2 p q) = V c main_arg2 (ix2 r q) := by
  obtain ⟨e0, e1, -⟩ := idx_facts2 t
  unfold iblk2
  rw [View.read_apply]
  show V c main_arg2 (((cfg2.win 0).blk t).view.emb (ix2 p q)) = _
  refine congrArg (V c main_arg2) (funext fun b => Fin.ext ?_)
  match b with
  | ⟨0, _⟩ => show win2_0.index t (0 : Fin 2) * 256 + 1 * p.val = r.val; omega
  | ⟨1, _⟩ => show win2_0.index t (1 : Fin 2) * 8192 + 1 * q.val = q.val; omega

/-- Window 1's block at any point is the whole second argument. -/
theorem iblk2_1_apply (c : Dev nD) (t : Fin cfg2.N) (j : Fin 8192) (k : Fin 66) :
    (iblk2 V c 1 t : Vec Ideal S8192x66 .f32) (ix2 j k) = V c main_v8 (ix2 j k) := by
  obtain ⟨-, -, e2, e3, -⟩ := idx_facts2 t
  unfold iblk2
  rw [View.read_apply]
  show V c main_v8 (((cfg2.win 1).blk t).view.emb (ix2 j k)) = _
  refine congrArg (V c main_v8) (funext fun b => Fin.ext ?_)
  match b with
  | ⟨0, _⟩ => show win2_1.index t (0 : Fin 2) * 8192 + 1 * j.val = j.val; omega
  | ⟨1, _⟩ => show win2_1.index t (1 : Fin 2) * 66 + 1 * k.val = k.val; omega

/-- The arguments' entries past the last row read zero: total functions of the row number, for the partial sums. -/
def aN (a : Fin 8192 → Fin 8192 → ℝ) (j : ℕ) (i : Fin 8192) : ℝ := if h : j < 8192 then a ⟨j, h⟩ i else 0
def xN (x : Fin 8192 → Fin 66 → ℝ) (j : ℕ) (k : Fin 66) : ℝ := if h : j < 8192 then x ⟨j, h⟩ k else 0
/-- Row block `t`'s share of entry (i, k) of `Aᵀ·v`. -/
def blkSum (a : Fin 8192 → Fin 8192 → ℝ) (x : Fin 8192 → Fin 66 → ℝ) (t : ℕ) (i : Fin 8192) (k : Fin 66) : ℝ :=
  ∑ p : Fin 256, aN a (256 * t + p.val) i * xN x (256 * t + p.val) k

/-- A finite sum of reals, read in the extended reals, is the extended real of the sum. -/
theorem coe_sum_real2 {ι : Type} (s : Finset ι) (f : ι → ℝ) : ∑ i ∈ s, ((f i : ℝ) : EReal) = ((∑ i ∈ s, f i : ℝ) : EReal) := by
  classical
  induction s using Finset.induction_on with
  | empty => simp
  | insert b s hb ih => rw [Finset.sum_insert hb, Finset.sum_insert hb, ih, EReal.coe_add]

/-- The components of a pair known by an equation. -/
theorem fst_of_eq {α β : Type} {p : α × β} {u : α} {w : β} (h : p = (u, w)) : p.1 = u := by rw [h]
theorem snd_of_eq {α β : Type} {p : α × β} {u : α} {w : β} (h : p = (u, w)) : p.2 = w := by rw [h]

/-- One point's step, over any block and rows with real entries: onto an accumulator entry holding the real `s`,
    the body adds row block `t`'s share. -/
theorem step_val' (a : Fin 8192 → Fin 8192 → ℝ) (x : Fin 8192 → Fin 66 → ℝ) (t : Fin cfg2.N)
    (x0 : Vec Ideal S256x8192 .f32) (x1 : Vec Ideal S8192x66 .f32) (acc : Vec Ideal S8192x66 .f32) (s : ℝ) (i : Fin 8192) (k : Fin 66)
    (h0 : ∀ (p : Fin 256) (r : Fin 8192), r.val = 256 * t.val + p.val → x0 (ix2 p i) = ((a r i : ℝ) : EReal))
    (h1 : ∀ r : Fin 8192, x1 (ix2 r k) = ((x r k : ℝ) : EReal))
    (hacc : acc (ix2 i k) = ((s : ℝ) : EReal)) :
    k2_pay2 (F := Ideal) x0 (rows2 (grid2.coords t) x1) acc (ix2 i k) = ((s + blkSum a x t.val i k : ℝ) : EReal) := by
  have hN : cfg2.N = 32 := N_2
  have ht : t.val < 32 := hN ▸ t.isLt
  unfold blkSum
  rw [pay2_apply, hacc]
  have hterm : ∀ p : Fin 256, x0 (ix2 p i) * rows2 (grid2.coords t) x1 (ix2 p k)
      = ((aN a (256 * t.val + p.val) i * xN x (256 * t.val + p.val) k : ℝ) : EReal) := by
    intro p
    have hr : 256 * t.val + p.val < 8192 := by have := p.isLt; omega
    rw [h0 p ⟨256 * t.val + p.val, hr⟩ rfl, rows2_apply t x1 p k ⟨256 * t.val + p.val, hr⟩ rfl, h1, ← EReal.coe_mul]
    unfold aN xN
    rw [dif_pos hr, dif_pos hr]
  rw [Finset.sum_congr rfl (fun p _ => hterm p), coe_sum_real2, ← EReal.coe_add]

variable (c : Dev nD) (a : Fin 8192 → Fin 8192 → ℝ) (x : Fin 8192 → Fin 66 → ℝ)
  (ha : ∀ i j : Fin 8192, V c main_arg2 (ix2 i j) = ((a i j : ℝ) : EReal))
  (hx : ∀ (j : Fin 8192) (k : Fin 66), V c main_v8 (ix2 j k) = ((x j k : ℝ) : EReal))

include ha in
/-- Window 0's block at point `t` has the first argument's real entries at rows `256·t + p`. -/
theorem blk0_real (t : Fin cfg2.N) (i : Fin 8192) (p : Fin 256) (r : Fin 8192) (hr : r.val = 256 * t.val + p.val) :
    (iblk2 V c 0 t : Vec Ideal S256x8192 .f32) (ix2 p i) = ((a r i : ℝ) : EReal) :=
  (iblk2_0_apply V c t p i r hr).trans (ha r i)

include hx in
/-- Window 1's block has the second argument's real entries. -/
theorem blk1_real (t : Fin cfg2.N) (k : Fin 66) (r : Fin 8192) :
    (iblk2 V c 1 t : Vec Ideal S8192x66 .f32) (ix2 r k) = ((x r k : ℝ) : EReal) :=
  (iblk2_1_apply V c t r k).trans (hx r k)

include ha hx in
/-- A later point's accumulator entry from the point before's. -/
theorem acc_step (t : Fin cfg2.N) (h0 : ¬t.val % 32 = 0) (i : Fin 8192) (k : Fin 66) (s : ℝ)
    (hprev : (outsAt2 V c (t.val - 1) (Nat.lt_of_le_of_lt (Nat.sub_le _ _) t.isLt)).2 (ix2 i k) = ((s : ℝ) : EReal)) :
    (outsAt2 V c t.val t.isLt).2 (ix2 i k) = ((s + blkSum a x t.val i k : ℝ) : EReal) := by
  by_cases h1 : t.val % 32 = 31
  · rw [snd_of_eq (outsAt2_C V c t h0 h1), soutC_eq]
    exact step_val' a x t (iblk2 V c 0 t) (iblk2 V c 1 t) _ s i k (blk0_real V c a ha t i) (blk1_real V c x hx t k) hprev
  · rw [snd_of_eq (outsAt2_B V c t h0 h1), soutB_eq]
    exact step_val' a x t (iblk2 V c 0 t) (iblk2 V c 1 t) _ s i k (blk0_real V c a ha t i) (blk1_real V c x hx t k) hprev

include ha hx in
/-- THE INVARIANT: after point `n` the accumulator's entry (i, k) is the sum of the first `n + 1` row blocks' shares. -/
theorem acc_inv : ∀ (n : ℕ) (hn : n < cfg2.N) (i : Fin 8192) (k : Fin 66),
    (outsAt2 V c n hn).2 (ix2 i k) = ((∑ t ∈ Finset.range (n + 1), blkSum a x t i k : ℝ) : EReal)
  | 0, hn, i, k => by
    have hA := outsAt2_A V c ⟨0, hn⟩ (Nat.zero_mod 32) (by show ¬(0 % 32 = 31); decide)
    show (outsAt2 V c (⟨0, hn⟩ : Fin cfg2.N).val (⟨0, hn⟩ : Fin cfg2.N).isLt).2 (ix2 i k) = _
    rw [snd_of_eq hA, soutA_eq]
    have h := step_val' a x ⟨0, hn⟩ (iblk2 V c 0 ⟨0, hn⟩) (iblk2 V c 1 ⟨0, hn⟩) (k2_pay1 (F := Ideal)) 0 i k
      (blk0_real V c a ha ⟨0, hn⟩ i) (blk1_real V c x hx ⟨0, hn⟩ k) (pay1_apply _)
    rw [zero_add] at h
    rw [Finset.sum_range_one]
    exact h
  | n + 1, hn, i, k => by
    have hN : cfg2.N = 32 := N_2
    have ih := acc_inv n (Nat.lt_of_succ_lt hn) i k
    have h0 : ¬(n + 1) % 32 = 0 := by omega
    have h := acc_step V c a x ha hx ⟨n + 1, hn⟩ h0 i k _ ih
    rw [Finset.sum_range_succ]
    exact h

/-- The 32 row blocks' shares add up to the whole contraction. -/
theorem total_sum (i : Fin 8192) (k : Fin 66) : ∑ t ∈ Finset.range 32, blkSum a x t i k = ∑ r : Fin 8192, a r i * x r k := by
  have h2 : ∑ r : Fin 8192, a r i * x r k
      = ∑ t : Fin 32, ∑ p : Fin 256, (fun r : Fin 8192 => a r i * x r k) ⟨256 * t.val + p.val, by have := t.isLt; have := p.isLt; omega⟩ :=
    Cert.Math.sum_fin_mul 32 256 (fun r : Fin 8192 => a r i * x r k)
  rw [h2, ← Fin.sum_univ_eq_sum_range (fun t => blkSum a x t i k) 32]
  refine Finset.sum_congr rfl fun t _ => ?_
  unfold blkSum
  refine Finset.sum_congr rfl fun p _ => ?_
  have hr : 256 * t.val + p.val < 8192 := by have := t.isLt; have := p.isLt; omega
  unfold aN xN
  rw [dif_pos hr, dif_pos hr]

/-- What the result array ends holding. -/
def G2v (a : Fin 8192 → Fin 8192 → ℝ) (x : Fin 8192 → Fin 66 → ℝ) : S8192x66.Idx → EReal :=
  fun j => (((∑ r, a r (j 0) * x r (j 1)) + x (j 0) (j 1) : ℝ) : EReal)

include ha hx in
/-- What the last point writes back is the whole of `G2v`. -/
theorem flushed2_eq (t : Fin cfg2.N) (hf : (cfg2.win 2).flush t = true) :
    (dat2 (F := Ideal) V c).flushed 2 t = ((cfg2.win 2).blk t).view.read (Elt Ideal) (G2v a x) := by
  have hN : cfg2.N = 32 := N_2
  have ht : t.val < 32 := hN ▸ t.isLt
  have h1 : t.val % 32 = 31 := (flush2_2 t).mp hf
  have h0 : ¬t.val % 32 = 0 := by omega
  obtain ⟨-, -, -, -, e4, e5⟩ := idx_facts2 t
  show (cfg2.win 2).cut (grid2.coords t) ((dat2 V c).after 2 t) = _
  rw [after2_2, fst_of_eq (outsAt2_C V c t h0 h1), outC_eq]
  funext j
  show k2_pay3 (F := Ideal) (k2_pay2 (iblk2 V c 0 t) (rows2 (grid2.coords t) (iblk2 V c 1 t)) (outsAt2 V c (t.val - 1) _).2) (iblk2 V c 1 t) j
    = G2v a x (((cfg2.win 2).blk t).view.emb j)
  obtain ⟨i, hi⟩ : ∃ i : Fin 8192, i = j 0 := ⟨j 0, rfl⟩
  obtain ⟨k, hk⟩ : ∃ k : Fin 66, k = j 1 := ⟨j 1, rfl⟩
  have hj : (j : S8192x66.Idx) = ix2 i k := by
    funext b
    match b with
    | ⟨0, _⟩ => exact hi.symm
    | ⟨1, _⟩ => exact hk.symm
  rw [hj]
  have hemb : ((cfg2.win 2).blk t).view.emb (ix2 i k) = (ix2 i k : S8192x66.Idx) := funext fun b => Fin.ext (by
    match b with
    | ⟨0, _⟩ => show win2_2.index t (0 : Fin 2) * 8192 + 1 * i.val = i.val; omega
    | ⟨1, _⟩ => show win2_2.index t (1 : Fin 2) * 66 + 1 * k.val = k.val; omega)
  rw [hemb, pay3_apply]
  have hprev := acc_inv V c a x ha hx (t.val - 1) (Nat.lt_of_le_of_lt (Nat.sub_le _ _) t.isLt) i k
  rw [step_val' a x t (iblk2 V c 0 t) (iblk2 V c 1 t) _ _ i k (blk0_real V c a ha t i) (blk1_real V c x hx t k) hprev,
    blk1_real V c x hx t k i, ← EReal.coe_add]
  unfold G2v
  refine congrArg (fun y : ℝ => ((y + x i k : ℝ) : EReal)) ?_
  refine Eq.trans ?_ (total_sum a x i k)
  have e32 : (32 : ℕ) = t.val + 1 := by omega
  have et : t.val - 1 + 1 = t.val := by omega
  rw [e32, et, Finset.sum_range_succ]

/-- The one flushing point's block is the whole result array. -/
theorem cover2 (j : S8192x66.Idx) : ∃ t : Fin cfg2.N, (cfg2.win 2).flush t = true ∧ j ∈ ((cfg2.win 2).blk t).view.set := by
  have hN : cfg2.N = 32 := N_2
  obtain ⟨t, htv⟩ : ∃ t : Fin cfg2.N, t.val = 31 := ⟨⟨31, by omega⟩, rfl⟩
  obtain ⟨-, -, -, -, e4, e5⟩ := idx_facts2 t
  refine ⟨t, (flush2_2 t).mpr (by omega), ?_⟩
  show j ∈ ((View.whole main_v9).slice (win2_2.rect t)).set
  rw [View.set_slice_whole, Rect.mem_set_unit]
  intro b
  have hj0 : (j 0).val < 8192 := (j 0).isLt
  have hj1 : (j 1).val < 66 := (j 1).isLt
  match b with
  | ⟨0, _⟩ => show win2_2.index t (0 : Fin 2) * 8192 ≤ (j 0).val ∧ (j 0).val < win2_2.index t (0 : Fin 2) * 8192 + 8192; omega
  | ⟨1, _⟩ => show win2_2.index t (1 : Fin 2) * 66 ≤ (j 1).val ∧ (j 1).val < win2_2.index t (1 : Fin 2) * 66 + 66; omega

include ha hx in
/-- Region 2's value: after the region the result array holds, at (i, k), `∑ j, a j i · x j k + x i k`. -/
theorem final (i : Fin 8192) (k : Fin 66) :
    (dat2 (F := Ideal) V c).arrAt 2 cfg2.N (ix2 i k) = (((∑ j, a j i * x j k) + x i k : ℝ) : EReal) := by
  have h := (dat2 (F := Ideal) V c).arrAt_eq_of_cover 2 (G2v a x) (fun t hf => flushed2_eq V c a x ha hx t hf) cover2
  exact (congrFun h (ix2 i k)).trans rfl
end

end R2

/-- Region 2's value: after the region the result array holds, at (i, k), `∑ j, a j i · x j k + x i k`. -/
theorem final2 (V : (c : Dev nD) → (b : Ref sig .tc) → Buf (Elt Ideal) ((c : Thread nD τ).loc b)) (c : Dev nD)
    (a : Fin 8192 → Fin 8192 → ℝ) (x : Fin 8192 → Fin 66 → ℝ)
    (ha : ∀ i j : Fin 8192, V c main_arg2 (ix2 i j) = ((a i j : ℝ) : EReal))
    (hx : ∀ (j : Fin 8192) (k : Fin 66), V c main_v8 (ix2 j k) = ((x j k : ℝ) : EReal)) (i : Fin 8192) (k : Fin 66) :
    (dat2 (F := Ideal) V c).arrAt 2 cfg2.N (ix2 i k) = (((∑ j, a j i * x j k) + x i k : ℝ) : EReal) :=
  R2.final V c a x ha hx i k

end Cert.KernelIdeal.H
end
-- ==== Proof.KI.Reg3Pieces.lean ====
import proofs.«164042_j22436909154350_2_alg».proof.Proof.KI.Reg3
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.Sem

variable {F : FTy → Type} [FloatOps F]

set_option maxHeartbeats 1000000

/-! # Region 3: what each case's stores leave, as the payloads of the input blocks and the entering accumulator -/

namespace R3

/-- Both whole-buffer rectangles sit at offset zero on every axis. -/
theorem zero2' : (![0, 0] : Fin 2 → Nat) = fun _ => 0 := funext fun a => by fin_cases a <;> rfl

/-- The 256 rows of the second input that the body loads at a point: rows `256·t … 256·t + 255`. -/
def rows3 (i : grid3.Coords) (x1 : Vec F S8192x66 .f32) : Vec F S256x66 .f32 :=
  View.ld x1 (Rect.unit (s := S8192x66) (k3_off1 i) S256x66.size (k3_off1_inb i))

/-- The first point leaves in the accumulator the block's contraction added onto the zero fill. -/
theorem soutA_eq (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond3_0 i) (hc1 : ¬cond3_1 i) (x0 : Vec F S256x8192 .f32) (x1 : Vec F S8192x66 .f32) :
    sout3_A_0 c i arg1 harg1 arg2 harg2 arg3 harg3 arg4 harg4 hc0 hc1 x0 x1 = k3_pay2 x0 (rows3 i x1) (k3_pay1 (F := F)) := by
  unfold sout3_A_0
  rw [View.read_writes_eq_canon _ _ _ (scover3_A_0 c i arg1 harg1 arg2 harg2 arg3 harg3 arg4 harg4 hc0 hc1 x0 x1)]
  unfold kernelRun3_A
  dsimp only
  try sl_unfold_words
  rw [View.canon_cons_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

/-- A middle point leaves in the accumulator the block's contraction added onto what it held. -/
theorem soutB_eq (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : ¬cond3_1 i) (x0 : Vec F S256x8192 .f32) (x1 : Vec F S8192x66 .f32) (xs0 : Vec F S8192x66 .f32) :
    sout3_B_0 c i arg1 harg1 arg2 harg2 arg3 harg3 arg4 harg4 hc0 hc1 x0 x1 xs0 = k3_pay2 x0 (rows3 i x1) xs0 := by
  unfold sout3_B_0
  rw [View.read_writes_eq_canon _ _ _ (scover3_B_0 c i arg1 harg1 arg2 harg2 arg3 harg3 arg4 harg4 hc0 hc1 x0 x1 xs0)]
  unfold kernelRun3_B
  dsimp only
  try sl_unfold_words
  rw [View.canon_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

/-- The last point leaves in the accumulator the block's contraction added onto what it held. -/
theorem soutC_eq (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : cond3_1 i) (x0 : Vec F S256x8192 .f32) (x1 : Vec F S8192x66 .f32) (xs0 : Vec F S8192x66 .f32) :
    sout3_C_0 c i arg1 harg1 arg2 harg2 arg3 harg3 arg4 harg4 hc0 hc1 x0 x1 xs0 = k3_pay2 x0 (rows3 i x1) xs0 := by
  unfold sout3_C_0
  rw [View.read_writes_eq_canon _ _ _ (scover3_C_0 c i arg1 harg1 arg2 harg2 arg3 harg3 arg4 harg4 hc0 hc1 x0 x1 xs0)]
  unfold kernelRun3_C
  dsimp only
  try sl_unfold_words
  rw [View.canon_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

/-- The last point stores into the output the new accumulator plus the second input. -/
theorem outC_eq (c : Dev nD) (i : grid3.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond3_0 i) (hc1 : cond3_1 i) (x0 : Vec F S256x8192 .f32) (x1 : Vec F S8192x66 .f32) (xs0 : Vec F S8192x66 .f32) :
    out3_C_2 c i arg1 harg1 arg2 harg2 arg3 harg3 arg4 harg4 hc0 hc1 x0 x1 xs0 = k3_pay3 (k3_pay2 x0 (rows3 i x1) xs0) x1 := by
  unfold out3_C_2
  rw [View.read_writes_eq_canon _ _ _ (cover3_C_2 c i arg1 harg1 arg2 harg2 arg3 harg3 arg4 harg4 hc0 hc1 x0 x1 xs0)]
  unfold kernelRun3_C
  dsimp only
  try sl_unfold_words
  rw [View.canon_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

end R3

end Cert.KernelIdeal.H
end
-- ==== Proof.KI.Reg3Final.lean ====
import proofs.«164042_j22436909154350_2_alg».proof.Proof.KI.Reg3Pieces
import proofs.«164042_j22436909154350_2_alg».proof.Proof.LibBlockSum
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

set_option maxHeartbeats 1000000

namespace R3

/-! # Region 3's value at the ideal reals: the result array holds `Aᵀ·v + v`, entry by entry -/

/-- The kernel's dot: contracts axis 0 of the [256, 8192] block with axis 0 of the [256, 66] rows. -/
abbrev D3 : DotDims S256x8192 S256x66 S8192x66 := dot_S256x8192_S256x66_S8192x66_0_0_1_1_n_n

theorem lhs3_0 (j : S8192x66.Idx) (q : D3.contr.Idx) : (D3.lhsIdx j q 0).val = (q ⟨0, by decide⟩).val :=
  D3.lhsIdx_val_of_single rfl j q
theorem lhs3_1 (j : S8192x66.Idx) (q : D3.contr.Idx) : (D3.lhsIdx j q 1).val = (j 0).val := by
  unfold DotDims.lhsIdx
  rw [dif_neg (show ¬(1 : Fin S256x8192.rank) ∈ D3.lhsBatch by decide), dif_pos (show (1 : Fin S256x8192.rank) ∈ D3.lhsNonContracting by decide)]
  rfl
theorem rhs3_0 (j : S8192x66.Idx) (q : D3.contr.Idx) : (D3.rhsIdx j q 0).val = (q ⟨0, by decide⟩).val :=
  D3.rhsIdx_val_of_single rfl j q
theorem rhs3_1 (j : S8192x66.Idx) (q : D3.contr.Idx) : (D3.rhsIdx j q 1).val = (j 1).val := by
  unfold DotDims.rhsIdx
  rw [dif_neg (show ¬(1 : Fin S256x66.rank) ∈ D3.rhsBatch by decide), dif_pos (show (1 : Fin S256x66.rank) ∈ D3.rhsNonContracting by decide)]
  rfl

/-- The zero fill at an index. -/
theorem pay1_apply (j : S8192x66.Idx) : k3_pay1 (F := Ideal) j = ((0 : ℝ) : EReal) := by
  unfold k3_pay1
  simp only [shapeCast_self, broadcast_apply, Ideal.ofBits_def, Ideal.ofBits_zero_f32]
  exact EReal.coe_zero.symm

/-- The accumulation payload at (i, k): the accumulator there plus the block's column `i` against the rows' column `k`. -/
theorem pay2_apply (v5 : Vec Ideal S256x8192 .f32) (v8 : Vec Ideal S256x66 .f32) (v12 : Vec Ideal S8192x66 .f32) (i : Fin 8192) (k : Fin 66) :
    k3_pay2 (F := Ideal) v5 v8 v12 (ix2 i k) = v12 (ix2 i k) + ∑ p : Fin 256, v5 (ix2 p i) * v8 (ix2 p k) := by
  unfold k3_pay2
  simp only [shapeCast_self, addf_apply]
  refine congrArg (fun y => v12 (ix2 i k) + y) ?_
  refine (Ideal.matmul_constant_zero_apply D3 none _ _ (ix2 i k)).trans ?_
  rw [← Equiv.sum_comp (contrEquiv1 D3 256 rfl rfl).symm]
  refine Finset.sum_congr rfl fun p _ => ?_
  have hp := contrEquiv1_symm_val D3 256 rfl rfl p
  have el : D3.lhsIdx (ix2 i k) ((contrEquiv1 D3 256 rfl rfl).symm p) = ix2 p i := funext fun b => Fin.ext (by
    match b with
    | ⟨0, _⟩ => exact (lhs3_0 _ _).trans hp
    | ⟨1, _⟩ => exact lhs3_1 _ _)
  have er : D3.rhsIdx (ix2 i k) ((contrEquiv1 D3 256 rfl rfl).symm p) = ix2 p k := funext fun b => Fin.ext (by
    match b with
    | ⟨0, _⟩ => exact (rhs3_0 _ _).trans hp
    | ⟨1, _⟩ => exact rhs3_1 _ _)
  rw [el, er]
  rfl

/-- The last point's output payload at an index: the accumulator plus the second input. -/
theorem pay3_apply (v20 v21 : Vec Ideal S8192x66 .f32) (j : S8192x66.Idx) : k3_pay3 (F := Ideal) v20 v21 j = v20 j + v21 j := by
  unfold k3_pay3
  simp only [shapeCast_self, addf_apply]

/-- The grid is one axis of 32 points: the coordinate is the point. -/
theorem coords3_0 : ∀ t : Fin cfg3.N, ((grid3.coords t) 0).val = t.val :=
  (by decide +kernel : ∀ t : Fin grid3.N, ((grid3.coords t) 0).val = t.val)

/-- The printed index maps, decided over the 32 points: window 0 at row block `t`, windows 1 and 2 whole. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

section Generic
variable {F : FTy → Type} [FloatOps F]

/-- The 256 loaded rows, entry (p, k), are the second input's entry (256·t + p, k). -/
theorem rows3_apply (t : Fin cfg3.N) (x1 : Vec F S8192x66 .f32) (p : Fin 256) (k : Fin 66) (r : Fin 8192) (hr : r.val = 256 * t.val + p.val) :
    rows3 (grid3.coords t) x1 (ix2 p k) = x1 (ix2 r k) := by
  unfold rows3
  show x1 ((Rect.unit (s := S8192x66) (k3_off1 (grid3.coords t)) S256x66.size (k3_off1_inb _)).idx (ix2 p k)) = _
  refine congrArg x1 (funext fun b => Fin.ext ?_)
  have hc := coords3_0 t
  have ho := k3_off1_eq (grid3.coords t)
  match b with
  | ⟨0, _⟩ =>
    show k3_off1 (grid3.coords t) (0 : Fin 2) + 1 * p.val = r.val
    rw [ho]; show 256 * ((grid3.coords t) 0).val + 1 * p.val = r.val; omega
  | ⟨1, _⟩ =>
    show k3_off1 (grid3.coords t) (1 : Fin 2) + 1 * k.val = k.val
    rw [ho]; show 0 + 1 * k.val = k.val; omega
end Generic

section
variable (V : (c : Dev nD) → (b : Ref sig .tc) → Buf (Elt Ideal) ((c : Thread nD τ).loc b))

/-- Window 0's block at point `t`, entry (p, q), is the first argument's entry (256·t + p, q). -/
theorem iblk3_0_apply (c : Dev nD) (t : Fin cfg3.N) (p : Fin 256) (q : Fin 8192) (r : Fin 8192) (hr : r.val = 256 * t.val + p.val) :
    (iblk3 V c 0 t : Vec Ideal S256x8192 .f32) (ix2 p q) = V c main_arg2 (ix2 r q) := by
  obtain ⟨e0, e1, -⟩ := idx_facts3 t
  unfold iblk3
  rw [View.read_apply]
  show V c main_arg2 (((cfg3.win 0).blk t).view.emb (ix2 p q)) = _
  refine congrArg (V c main_arg2) (funext fun b => Fin.ext ?_)
  match b with
  | ⟨0, _⟩ => show win3_0.index t (0 : Fin 2) * 256 + 1 * p.val = r.val; omega
  | ⟨1, _⟩ => show win3_0.index t (1 : Fin 2) * 8192 + 1 * q.val = q.val; omega

/-- Window 1's block at any point is the whole second argument. -/
theorem iblk3_1_apply (c : Dev nD) (t : Fin cfg3.N) (j : Fin 8192) (k : Fin 66) :
    (iblk3 V c 1 t : Vec Ideal S8192x66 .f32) (ix2 j k) = V c main_v33 (ix2 j k) := by
  obtain ⟨-, -, e2, e3, -⟩ := idx_facts3 t
  unfold iblk3
  rw [View.read_apply]
  show V c main_v33 (((cfg3.win 1).blk t).view.emb (ix2 j k)) = _
  refine congrArg (V c main_v33) (funext fun b => Fin.ext ?_)
  match b with
  | ⟨0, _⟩ => show win3_1.index t (0 : Fin 2) * 8192 + 1 * j.val = j.val; omega
  | ⟨1, _⟩ => show win3_1.index t (1 : Fin 2) * 66 + 1 * k.val = k.val; omega

/-- The arguments' entries past the last row read zero: total functions of the row number, for the partial sums. -/
def aN (a : Fin 8192 → Fin 8192 → ℝ) (j : ℕ) (i : Fin 8192) : ℝ := if h : j < 8192 then a ⟨j, h⟩ i else 0
def xN (x : Fin 8192 → Fin 66 → ℝ) (j : ℕ) (k : Fin 66) : ℝ := if h : j < 8192 then x ⟨j, h⟩ k else 0
/-- Row block `t`'s share of entry (i, k) of `Aᵀ·v`. -/
def blkSum (a : Fin 8192 → Fin 8192 → ℝ) (x : Fin 8192 → Fin 66 → ℝ) (t : ℕ) (i : Fin 8192) (k : Fin 66) : ℝ :=
  ∑ p : Fin 256, aN a (256 * t + p.val) i * xN x (256 * t + p.val) k

/-- A finite sum of reals, read in the extended reals, is the extended real of the sum. -/
theorem coe_sum_real3 {ι : Type} (s : Finset ι) (f : ι → ℝ) : ∑ i ∈ s, ((f i : ℝ) : EReal) = ((∑ i ∈ s, f i : ℝ) : EReal) := by
  classical
  induction s using Finset.induction_on with
  | empty => simp
  | insert b s hb ih => rw [Finset.sum_insert hb, Finset.sum_insert hb, ih, EReal.coe_add]

/-- The components of a pair known by an equation. -/
theorem fst_of_eq {α β : Type} {p : α × β} {u : α} {w : β} (h : p = (u, w)) : p.1 = u := by rw [h]
theorem snd_of_eq {α β : Type} {p : α × β} {u : α} {w : β} (h : p = (u, w)) : p.2 = w := by rw [h]

/-- One point's step, over any block and rows with real entries: onto an accumulator entry holding the real `s`,
    the body adds row block `t`'s share. -/
theorem step_val' (a : Fin 8192 → Fin 8192 → ℝ) (x : Fin 8192 → Fin 66 → ℝ) (t : Fin cfg3.N)
    (x0 : Vec Ideal S256x8192 .f32) (x1 : Vec Ideal S8192x66 .f32) (acc : Vec Ideal S8192x66 .f32) (s : ℝ) (i : Fin 8192) (k : Fin 66)
    (h0 : ∀ (p : Fin 256) (r : Fin 8192), r.val = 256 * t.val + p.val → x0 (ix2 p i) = ((a r i : ℝ) : EReal))
    (h1 : ∀ r : Fin 8192, x1 (ix2 r k) = ((x r k : ℝ) : EReal))
    (hacc : acc (ix2 i k) = ((s : ℝ) : EReal)) :
    k3_pay2 (F := Ideal) x0 (rows3 (grid3.coords t) x1) acc (ix2 i k) = ((s + blkSum a x t.val i k : ℝ) : EReal) := by
  have hN : cfg3.N = 32 := N_3
  have ht : t.val < 32 := hN ▸ t.isLt
  unfold blkSum
  rw [pay2_apply, hacc]
  have hterm : ∀ p : Fin 256, x0 (ix2 p i) * rows3 (grid3.coords t) x1 (ix2 p k)
      = ((aN a (256 * t.val + p.val) i * xN x (256 * t.val + p.val) k : ℝ) : EReal) := by
    intro p
    have hr : 256 * t.val + p.val < 8192 := by have := p.isLt; omega
    rw [h0 p ⟨256 * t.val + p.val, hr⟩ rfl, rows3_apply t x1 p k ⟨256 * t.val + p.val, hr⟩ rfl, h1, ← EReal.coe_mul]
    unfold aN xN
    rw [dif_pos hr, dif_pos hr]
  rw [Finset.sum_congr rfl (fun p _ => hterm p), coe_sum_real3, ← EReal.coe_add]

variable (c : Dev nD) (a : Fin 8192 → Fin 8192 → ℝ) (x : Fin 8192 → Fin 66 → ℝ)
  (ha : ∀ i j : Fin 8192, V c main_arg2 (ix2 i j) = ((a i j : ℝ) : EReal))
  (hx : ∀ (j : Fin 8192) (k : Fin 66), V c main_v33 (ix2 j k) = ((x j k : ℝ) : EReal))

include ha in
/-- Window 0's block at point `t` has the first argument's real entries at rows `256·t + p`. -/
theorem blk0_real (t : Fin cfg3.N) (i : Fin 8192) (p : Fin 256) (r : Fin 8192) (hr : r.val = 256 * t.val + p.val) :
    (iblk3 V c 0 t : Vec Ideal S256x8192 .f32) (ix2 p i) = ((a r i : ℝ) : EReal) :=
  (iblk3_0_apply V c t p i r hr).trans (ha r i)

include hx in
/-- Window 1's block has the second argument's real entries. -/
theorem blk1_real (t : Fin cfg3.N) (k : Fin 66) (r : Fin 8192) :
    (iblk3 V c 1 t : Vec Ideal S8192x66 .f32) (ix2 r k) = ((x r k : ℝ) : EReal) :=
  (iblk3_1_apply V c t r k).trans (hx r k)

include ha hx in
/-- A later point's accumulator entry from the point before's. -/
theorem acc_step (t : Fin cfg3.N) (h0 : ¬t.val % 32 = 0) (i : Fin 8192) (k : Fin 66) (s : ℝ)
    (hprev : (outsAt3 V c (t.val - 1) (Nat.lt_of_le_of_lt (Nat.sub_le _ _) t.isLt)).2 (ix2 i k) = ((s : ℝ) : EReal)) :
    (outsAt3 V c t.val t.isLt).2 (ix2 i k) = ((s + blkSum a x t.val i k : ℝ) : EReal) := by
  by_cases h1 : t.val % 32 = 31
  · rw [snd_of_eq (outsAt3_C V c t h0 h1), soutC_eq]
    exact step_val' a x t (iblk3 V c 0 t) (iblk3 V c 1 t) _ s i k (blk0_real V c a ha t i) (blk1_real V c x hx t k) hprev
  · rw [snd_of_eq (outsAt3_B V c t h0 h1), soutB_eq]
    exact step_val' a x t (iblk3 V c 0 t) (iblk3 V c 1 t) _ s i k (blk0_real V c a ha t i) (blk1_real V c x hx t k) hprev

include ha hx in
/-- THE INVARIANT: after point `n` the accumulator's entry (i, k) is the sum of the first `n + 1` row blocks' shares. -/
theorem acc_inv : ∀ (n : ℕ) (hn : n < cfg3.N) (i : Fin 8192) (k : Fin 66),
    (outsAt3 V c n hn).2 (ix2 i k) = ((∑ t ∈ Finset.range (n + 1), blkSum a x t i k : ℝ) : EReal)
  | 0, hn, i, k => by
    have hA := outsAt3_A V c ⟨0, hn⟩ (Nat.zero_mod 32) (by show ¬(0 % 32 = 31); decide)
    show (outsAt3 V c (⟨0, hn⟩ : Fin cfg3.N).val (⟨0, hn⟩ : Fin cfg3.N).isLt).2 (ix2 i k) = _
    rw [snd_of_eq hA, soutA_eq]
    have h := step_val' a x ⟨0, hn⟩ (iblk3 V c 0 ⟨0, hn⟩) (iblk3 V c 1 ⟨0, hn⟩) (k3_pay1 (F := Ideal)) 0 i k
      (blk0_real V c a ha ⟨0, hn⟩ i) (blk1_real V c x hx ⟨0, hn⟩ k) (pay1_apply _)
    rw [zero_add] at h
    rw [Finset.sum_range_one]
    exact h
  | n + 1, hn, i, k => by
    have hN : cfg3.N = 32 := N_3
    have ih := acc_inv n (Nat.lt_of_succ_lt hn) i k
    have h0 : ¬(n + 1) % 32 = 0 := by omega
    have h := acc_step V c a x ha hx ⟨n + 1, hn⟩ h0 i k _ ih
    rw [Finset.sum_range_succ]
    exact h

/-- The 32 row blocks' shares add up to the whole contraction. -/
theorem total_sum (i : Fin 8192) (k : Fin 66) : ∑ t ∈ Finset.range 32, blkSum a x t i k = ∑ r : Fin 8192, a r i * x r k := by
  have h2 : ∑ r : Fin 8192, a r i * x r k
      = ∑ t : Fin 32, ∑ p : Fin 256, (fun r : Fin 8192 => a r i * x r k) ⟨256 * t.val + p.val, by have := t.isLt; have := p.isLt; omega⟩ :=
    Cert.Math.sum_fin_mul 32 256 (fun r : Fin 8192 => a r i * x r k)
  rw [h2, ← Fin.sum_univ_eq_sum_range (fun t => blkSum a x t i k) 32]
  refine Finset.sum_congr rfl fun t _ => ?_
  unfold blkSum
  refine Finset.sum_congr rfl fun p _ => ?_
  have hr : 256 * t.val + p.val < 8192 := by have := t.isLt; have := p.isLt; omega
  unfold aN xN
  rw [dif_pos hr, dif_pos hr]

/-- What the result array ends holding. -/
def G3v (a : Fin 8192 → Fin 8192 → ℝ) (x : Fin 8192 → Fin 66 → ℝ) : S8192x66.Idx → EReal :=
  fun j => (((∑ r, a r (j 0) * x r (j 1)) + x (j 0) (j 1) : ℝ) : EReal)

include ha hx in
/-- What the last point writes back is the whole of `G3v`. -/
theorem flushed2_eq (t : Fin cfg3.N) (hf : (cfg3.win 2).flush t = true) :
    (dat3 (F := Ideal) V c).flushed 2 t = ((cfg3.win 2).blk t).view.read (Elt Ideal) (G3v a x) := by
  have hN : cfg3.N = 32 := N_3
  have ht : t.val < 32 := hN ▸ t.isLt
  have h1 : t.val % 32 = 31 := (flush3_2 t).mp hf
  have h0 : ¬t.val % 32 = 0 := by omega
  obtain ⟨-, -, -, -, e4, e5⟩ := idx_facts3 t
  show (cfg3.win 2).cut (grid3.coords t) ((dat3 V c).after 2 t) = _
  rw [after3_2, fst_of_eq (outsAt3_C V c t h0 h1), outC_eq]
  funext j
  show k3_pay3 (F := Ideal) (k3_pay2 (iblk3 V c 0 t) (rows3 (grid3.coords t) (iblk3 V c 1 t)) (outsAt3 V c (t.val - 1) _).2) (iblk3 V c 1 t) j
    = G3v a x (((cfg3.win 2).blk t).view.emb j)
  obtain ⟨i, hi⟩ : ∃ i : Fin 8192, i = j 0 := ⟨j 0, rfl⟩
  obtain ⟨k, hk⟩ : ∃ k : Fin 66, k = j 1 := ⟨j 1, rfl⟩
  have hj : (j : S8192x66.Idx) = ix2 i k := by
    funext b
    match b with
    | ⟨0, _⟩ => exact hi.symm
    | ⟨1, _⟩ => exact hk.symm
  rw [hj]
  have hemb : ((cfg3.win 2).blk t).view.emb (ix2 i k) = (ix2 i k : S8192x66.Idx) := funext fun b => Fin.ext (by
    match b with
    | ⟨0, _⟩ => show win3_2.index t (0 : Fin 2) * 8192 + 1 * i.val = i.val; omega
    | ⟨1, _⟩ => show win3_2.index t (1 : Fin 2) * 66 + 1 * k.val = k.val; omega)
  rw [hemb, pay3_apply]
  have hprev := acc_inv V c a x ha hx (t.val - 1) (Nat.lt_of_le_of_lt (Nat.sub_le _ _) t.isLt) i k
  rw [step_val' a x t (iblk3 V c 0 t) (iblk3 V c 1 t) _ _ i k (blk0_real V c a ha t i) (blk1_real V c x hx t k) hprev,
    blk1_real V c x hx t k i, ← EReal.coe_add]
  unfold G3v
  refine congrArg (fun y : ℝ => ((y + x i k : ℝ) : EReal)) ?_
  refine Eq.trans ?_ (total_sum a x i k)
  have e32 : (32 : ℕ) = t.val + 1 := by omega
  have et : t.val - 1 + 1 = t.val := by omega
  rw [e32, et, Finset.sum_range_succ]

/-- The one flushing point's block is the whole result array. -/
theorem cover2 (j : S8192x66.Idx) : ∃ t : Fin cfg3.N, (cfg3.win 2).flush t = true ∧ j ∈ ((cfg3.win 2).blk t).view.set := by
  have hN : cfg3.N = 32 := N_3
  obtain ⟨t, htv⟩ : ∃ t : Fin cfg3.N, t.val = 31 := ⟨⟨31, by omega⟩, rfl⟩
  obtain ⟨-, -, -, -, e4, e5⟩ := idx_facts3 t
  refine ⟨t, (flush3_2 t).mpr (by omega), ?_⟩
  show j ∈ ((View.whole main_v34).slice (win3_2.rect t)).set
  rw [View.set_slice_whole, Rect.mem_set_unit]
  intro b
  have hj0 : (j 0).val < 8192 := (j 0).isLt
  have hj1 : (j 1).val < 66 := (j 1).isLt
  match b with
  | ⟨0, _⟩ => show win3_2.index t (0 : Fin 2) * 8192 ≤ (j 0).val ∧ (j 0).val < win3_2.index t (0 : Fin 2) * 8192 + 8192; omega
  | ⟨1, _⟩ => show win3_2.index t (1 : Fin 2) * 66 ≤ (j 1).val ∧ (j 1).val < win3_2.index t (1 : Fin 2) * 66 + 66; omega

include ha hx in
/-- Region 3's value: after the region the result array holds, at (i, k), `∑ j, a j i · x j k + x i k`. -/
theorem final (i : Fin 8192) (k : Fin 66) :
    (dat3 (F := Ideal) V c).arrAt 2 cfg3.N (ix2 i k) = (((∑ j, a j i * x j k) + x i k : ℝ) : EReal) := by
  have h := (dat3 (F := Ideal) V c).arrAt_eq_of_cover 2 (G3v a x) (fun t hf => flushed2_eq V c a x ha hx t hf) cover2
  exact (congrFun h (ix2 i k)).trans rfl
end

end R3

/-- Region 3's value: after the region the result array holds, at (i, k), `∑ j, a j i · x j k + x i k`. -/
theorem final3 (V : (c : Dev nD) → (b : Ref sig .tc) → Buf (Elt Ideal) ((c : Thread nD τ).loc b)) (c : Dev nD)
    (a : Fin 8192 → Fin 8192 → ℝ) (x : Fin 8192 → Fin 66 → ℝ)
    (ha : ∀ i j : Fin 8192, V c main_arg2 (ix2 i j) = ((a i j : ℝ) : EReal))
    (hx : ∀ (j : Fin 8192) (k : Fin 66), V c main_v33 (ix2 j k) = ((x j k : ℝ) : EReal)) (i : Fin 8192) (k : Fin 66) :
    (dat3 (F := Ideal) V c).arrAt 2 cfg3.N (ix2 i k) = (((∑ j, a j i * x j k) + x i k : ℝ) : EReal) :=
  R3.final V c a x ha hx i k

end Cert.KernelIdeal.H
end
-- ==== Proof.KI.Reg4Pieces.lean ====
import proofs.«164042_j22436909154350_2_alg».proof.Proof.KI.Reg4
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.Sem

variable {F : FTy → Type} [FloatOps F]

set_option maxHeartbeats 1000000

/-! # Region 4: what each case's stores leave, as the payloads of the input blocks and the entering accumulator -/

namespace R4

/-- Both whole-buffer rectangles sit at offset zero on every axis. -/
theorem zero2' : (![0, 0] : Fin 2 → Nat) = fun _ => 0 := funext fun a => by fin_cases a <;> rfl

/-- The 256 rows of the second input that the body loads at a point: rows `256·t … 256·t + 255`. -/
def rows4 (i : grid4.Coords) (x1 : Vec F S8192x66 .f32) : Vec F S256x66 .f32 :=
  View.ld x1 (Rect.unit (s := S8192x66) (k4_off1 i) S256x66.size (k4_off1_inb i))

/-- The first point leaves in the accumulator the block's contraction added onto the zero fill. -/
theorem soutA_eq (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : cond4_0 i) (hc1 : ¬cond4_1 i) (x0 : Vec F S256x8192 .f32) (x1 : Vec F S8192x66 .f32) :
    sout4_A_0 c i arg1 harg1 arg2 harg2 arg3 harg3 arg4 harg4 hc0 hc1 x0 x1 = k4_pay2 x0 (rows4 i x1) (k4_pay1 (F := F)) := by
  unfold sout4_A_0
  rw [View.read_writes_eq_canon _ _ _ (scover4_A_0 c i arg1 harg1 arg2 harg2 arg3 harg3 arg4 harg4 hc0 hc1 x0 x1)]
  unfold kernelRun4_A
  dsimp only
  try sl_unfold_words
  rw [View.canon_cons_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

/-- A middle point leaves in the accumulator the block's contraction added onto what it held. -/
theorem soutB_eq (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : ¬cond4_1 i) (x0 : Vec F S256x8192 .f32) (x1 : Vec F S8192x66 .f32) (xs0 : Vec F S8192x66 .f32) :
    sout4_B_0 c i arg1 harg1 arg2 harg2 arg3 harg3 arg4 harg4 hc0 hc1 x0 x1 xs0 = k4_pay2 x0 (rows4 i x1) xs0 := by
  unfold sout4_B_0
  rw [View.read_writes_eq_canon _ _ _ (scover4_B_0 c i arg1 harg1 arg2 harg2 arg3 harg3 arg4 harg4 hc0 hc1 x0 x1 xs0)]
  unfold kernelRun4_B
  dsimp only
  try sl_unfold_words
  rw [View.canon_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

/-- The last point leaves in the accumulator the block's contraction added onto what it held. -/
theorem soutC_eq (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : cond4_1 i) (x0 : Vec F S256x8192 .f32) (x1 : Vec F S8192x66 .f32) (xs0 : Vec F S8192x66 .f32) :
    sout4_C_0 c i arg1 harg1 arg2 harg2 arg3 harg3 arg4 harg4 hc0 hc1 x0 x1 xs0 = k4_pay2 x0 (rows4 i x1) xs0 := by
  unfold sout4_C_0
  rw [View.read_writes_eq_canon _ _ _ (scover4_C_0 c i arg1 harg1 arg2 harg2 arg3 harg3 arg4 harg4 hc0 hc1 x0 x1 xs0)]
  unfold kernelRun4_C
  dsimp only
  try sl_unfold_words
  rw [View.canon_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

/-- The last point stores into the output the new accumulator plus the second input. -/
theorem outC_eq (c : Dev nD) (i : grid4.Coords) (arg1 : Memref sig .tc .vmem S256x8192 .f32) (harg1 : arg1.IsWhole) (arg2 : Memref sig .tc .vmem S8192x66 .f32) (harg2 : arg2.IsWhole) (arg3 : Memref sig .tc .vmem S8192x66 .f32) (harg3 : arg3.IsWhole) (arg4 : Memref sig .tc .vmem S8192x66 .f32) (harg4 : arg4.IsWhole) (hc0 : ¬cond4_0 i) (hc1 : cond4_1 i) (x0 : Vec F S256x8192 .f32) (x1 : Vec F S8192x66 .f32) (xs0 : Vec F S8192x66 .f32) :
    out4_C_2 c i arg1 harg1 arg2 harg2 arg3 harg3 arg4 harg4 hc0 hc1 x0 x1 xs0 = k4_pay3 (k4_pay2 x0 (rows4 i x1) xs0) x1 := by
  unfold out4_C_2
  rw [View.read_writes_eq_canon _ _ _ (cover4_C_2 c i arg1 harg1 arg2 harg2 arg3 harg3 arg4 harg4 hc0 hc1 x0 x1 xs0)]
  unfold kernelRun4_C
  dsimp only
  try sl_unfold_words
  rw [View.canon_unit_zero zero2']
  simp only [View.readAt_eq_ld, harg1.read_unread, harg2.read_unread, harg4.read_unread, View.ld_unit_zero (S := S256x8192) zero2', View.ld_unit_zero (S := S8192x66) zero2', View.readCov_unit_zero (S := S8192x66) _ zero2']
  rfl

end R4

end Cert.KernelIdeal.H
end
-- ==== Proof.KI.Reg4Final.lean ====
import proofs.«164042_j22436909154350_2_alg».proof.Proof.KI.Reg4Pieces
import proofs.«164042_j22436909154350_2_alg».proof.Proof.LibBlockSum
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

set_option maxHeartbeats 1000000

namespace R4

/-! # Region 4's value at the ideal reals: the result array holds `Aᵀ·v + v`, entry by entry -/

/-- The kernel's dot: contracts axis 0 of the [256, 8192] block with axis 0 of the [256, 66] rows. -/
abbrev D4 : DotDims S256x8192 S256x66 S8192x66 := dot_S256x8192_S256x66_S8192x66_0_0_1_1_n_n

theorem lhs4_0 (j : S8192x66.Idx) (q : D4.contr.Idx) : (D4.lhsIdx j q 0).val = (q ⟨0, by decide⟩).val :=
  D4.lhsIdx_val_of_single rfl j q
theorem lhs4_1 (j : S8192x66.Idx) (q : D4.contr.Idx) : (D4.lhsIdx j q 1).val = (j 0).val := by
  unfold DotDims.lhsIdx
  rw [dif_neg (show ¬(1 : Fin S256x8192.rank) ∈ D4.lhsBatch by decide), dif_pos (show (1 : Fin S256x8192.rank) ∈ D4.lhsNonContracting by decide)]
  rfl
theorem rhs4_0 (j : S8192x66.Idx) (q : D4.contr.Idx) : (D4.rhsIdx j q 0).val = (q ⟨0, by decide⟩).val :=
  D4.rhsIdx_val_of_single rfl j q
theorem rhs4_1 (j : S8192x66.Idx) (q : D4.contr.Idx) : (D4.rhsIdx j q 1).val = (j 1).val := by
  unfold DotDims.rhsIdx
  rw [dif_neg (show ¬(1 : Fin S256x66.rank) ∈ D4.rhsBatch by decide), dif_pos (show (1 : Fin S256x66.rank) ∈ D4.rhsNonContracting by decide)]
  rfl

/-- The zero fill at an index. -/
theorem pay1_apply (j : S8192x66.Idx) : k4_pay1 (F := Ideal) j = ((0 : ℝ) : EReal) := by
  unfold k4_pay1
  simp only [shapeCast_self, broadcast_apply, Ideal.ofBits_def, Ideal.ofBits_zero_f32]
  exact EReal.coe_zero.symm

/-- The accumulation payload at (i, k): the accumulator there plus the block's column `i` against the rows' column `k`. -/
theorem pay2_apply (v5 : Vec Ideal S256x8192 .f32) (v8 : Vec Ideal S256x66 .f32) (v12 : Vec Ideal S8192x66 .f32) (i : Fin 8192) (k : Fin 66) :
    k4_pay2 (F := Ideal) v5 v8 v12 (ix2 i k) = v12 (ix2 i k) + ∑ p : Fin 256, v5 (ix2 p i) * v8 (ix2 p k) := by
  unfold k4_pay2
  simp only [shapeCast_self, addf_apply]
  refine congrArg (fun y => v12 (ix2 i k) + y) ?_
  refine (Ideal.matmul_constant_zero_apply D4 none _ _ (ix2 i k)).trans ?_
  rw [← Equiv.sum_comp (contrEquiv1 D4 256 rfl rfl).symm]
  refine Finset.sum_congr rfl fun p _ => ?_
  have hp := contrEquiv1_symm_val D4 256 rfl rfl p
  have el : D4.lhsIdx (ix2 i k) ((contrEquiv1 D4 256 rfl rfl).symm p) = ix2 p i := funext fun b => Fin.ext (by
    match b with
    | ⟨0, _⟩ => exact (lhs4_0 _ _).trans hp
    | ⟨1, _⟩ => exact lhs4_1 _ _)
  have er : D4.rhsIdx (ix2 i k) ((contrEquiv1 D4 256 rfl rfl).symm p) = ix2 p k := funext fun b => Fin.ext (by
    match b with
    | ⟨0, _⟩ => exact (rhs4_0 _ _).trans hp
    | ⟨1, _⟩ => exact rhs4_1 _ _)
  rw [el, er]
  rfl

/-- The last point's output payload at an index: the accumulator plus the second input. -/
theorem pay3_apply (v20 v21 : Vec Ideal S8192x66 .f32) (j : S8192x66.Idx) : k4_pay3 (F := Ideal) v20 v21 j = v20 j + v21 j := by
  unfold k4_pay3
  simp only [shapeCast_self, addf_apply]

/-- The grid is one axis of 32 points: the coordinate is the point. -/
theorem coords4_0 : ∀ t : Fin cfg4.N, ((grid4.coords t) 0).val = t.val :=
  (by decide +kernel : ∀ t : Fin grid4.N, ((grid4.coords t) 0).val = t.val)

/-- The printed index maps, decided over the 32 points: window 0 at row block `t`, windows 1 and 2 whole. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

section Generic
variable {F : FTy → Type} [FloatOps F]

/-- The 256 loaded rows, entry (p, k), are the second input's entry (256·t + p, k). -/
theorem rows4_apply (t : Fin cfg4.N) (x1 : Vec F S8192x66 .f32) (p : Fin 256) (k : Fin 66) (r : Fin 8192) (hr : r.val = 256 * t.val + p.val) :
    rows4 (grid4.coords t) x1 (ix2 p k) = x1 (ix2 r k) := by
  unfold rows4
  show x1 ((Rect.unit (s := S8192x66) (k4_off1 (grid4.coords t)) S256x66.size (k4_off1_inb _)).idx (ix2 p k)) = _
  refine congrArg x1 (funext fun b => Fin.ext ?_)
  have hc := coords4_0 t
  have ho := k4_off1_eq (grid4.coords t)
  match b with
  | ⟨0, _⟩ =>
    show k4_off1 (grid4.coords t) (0 : Fin 2) + 1 * p.val = r.val
    rw [ho]; show 256 * ((grid4.coords t) 0).val + 1 * p.val = r.val; omega
  | ⟨1, _⟩ =>
    show k4_off1 (grid4.coords t) (1 : Fin 2) + 1 * k.val = k.val
    rw [ho]; show 0 + 1 * k.val = k.val; omega
end Generic

section
variable (V : (c : Dev nD) → (b : Ref sig .tc) → Buf (Elt Ideal) ((c : Thread nD τ).loc b))

/-- Window 0's block at point `t`, entry (p, q), is the first argument's entry (256·t + p, q). -/
theorem iblk4_0_apply (c : Dev nD) (t : Fin cfg4.N) (p : Fin 256) (q : Fin 8192) (r : Fin 8192) (hr : r.val = 256 * t.val + p.val) :
    (iblk4 V c 0 t : Vec Ideal S256x8192 .f32) (ix2 p q) = V c main_arg2 (ix2 r q) := by
  obtain ⟨e0, e1, -⟩ := idx_facts4 t
  unfold iblk4
  rw [View.read_apply]
  show V c main_arg2 (((cfg4.win 0).blk t).view.emb (ix2 p q)) = _
  refine congrArg (V c main_arg2) (funext fun b => Fin.ext ?_)
  match b with
  | ⟨0, _⟩ => show win4_0.index t (0 : Fin 2) * 256 + 1 * p.val = r.val; omega
  | ⟨1, _⟩ => show win4_0.index t (1 : Fin 2) * 8192 + 1 * q.val = q.val; omega

/-- Window 1's block at any point is the whole second argument. -/
theorem iblk4_1_apply (c : Dev nD) (t : Fin cfg4.N) (j : Fin 8192) (k : Fin 66) :
    (iblk4 V c 1 t : Vec Ideal S8192x66 .f32) (ix2 j k) = V c main_v36 (ix2 j k) := by
  obtain ⟨-, -, e2, e3, -⟩ := idx_facts4 t
  unfold iblk4
  rw [View.read_apply]
  show V c main_v36 (((cfg4.win 1).blk t).view.emb (ix2 j k)) = _
  refine congrArg (V c main_v36) (funext fun b => Fin.ext ?_)
  match b with
  | ⟨0, _⟩ => show win4_1.index t (0 : Fin 2) * 8192 + 1 * j.val = j.val; omega
  | ⟨1, _⟩ => show win4_1.index t (1 : Fin 2) * 66 + 1 * k.val = k.val; omega

/-- The arguments' entries past the last row read zero: total functions of the row number, for the partial sums. -/
def aN (a : Fin 8192 → Fin 8192 → ℝ) (j : ℕ) (i : Fin 8192) : ℝ := if h : j < 8192 then a ⟨j, h⟩ i else 0
def xN (x : Fin 8192 → Fin 66 → ℝ) (j : ℕ) (k : Fin 66) : ℝ := if h : j < 8192 then x ⟨j, h⟩ k else 0
/-- Row block `t`'s share of entry (i, k) of `Aᵀ·v`. -/
def blkSum (a : Fin 8192 → Fin 8192 → ℝ) (x : Fin 8192 → Fin 66 → ℝ) (t : ℕ) (i : Fin 8192) (k : Fin 66) : ℝ :=
  ∑ p : Fin 256, aN a (256 * t + p.val) i * xN x (256 * t + p.val) k

/-- A finite sum of reals, read in the extended reals, is the extended real of the sum. -/
theorem coe_sum_real4 {ι : Type} (s : Finset ι) (f : ι → ℝ) : ∑ i ∈ s, ((f i : ℝ) : EReal) = ((∑ i ∈ s, f i : ℝ) : EReal) := by
  classical
  induction s using Finset.induction_on with
  | empty => simp
  | insert b s hb ih => rw [Finset.sum_insert hb, Finset.sum_insert hb, ih, EReal.coe_add]

/-- The components of a pair known by an equation. -/
theorem fst_of_eq {α β : Type} {p : α × β} {u : α} {w : β} (h : p = (u, w)) : p.1 = u := by rw [h]
theorem snd_of_eq {α β : Type} {p : α × β} {u : α} {w : β} (h : p = (u, w)) : p.2 = w := by rw [h]

/-- One point's step, over any block and rows with real entries: onto an accumulator entry holding the real `s`,
    the body adds row block `t`'s share. -/
theorem step_val' (a : Fin 8192 → Fin 8192 → ℝ) (x : Fin 8192 → Fin 66 → ℝ) (t : Fin cfg4.N)
    (x0 : Vec Ideal S256x8192 .f32) (x1 : Vec Ideal S8192x66 .f32) (acc : Vec Ideal S8192x66 .f32) (s : ℝ) (i : Fin 8192) (k : Fin 66)
    (h0 : ∀ (p : Fin 256) (r : Fin 8192), r.val = 256 * t.val + p.val → x0 (ix2 p i) = ((a r i : ℝ) : EReal))
    (h1 : ∀ r : Fin 8192, x1 (ix2 r k) = ((x r k : ℝ) : EReal))
    (hacc : acc (ix2 i k) = ((s : ℝ) : EReal)) :
    k4_pay2 (F := Ideal) x0 (rows4 (grid4.coords t) x1) acc (ix2 i k) = ((s + blkSum a x t.val i k : ℝ) : EReal) := by
  have hN : cfg4.N = 32 := N_4
  have ht : t.val < 32 := hN ▸ t.isLt
  unfold blkSum
  rw [pay2_apply, hacc]
  have hterm : ∀ p : Fin 256, x0 (ix2 p i) * rows4 (grid4.coords t) x1 (ix2 p k)
      = ((aN a (256 * t.val + p.val) i * xN x (256 * t.val + p.val) k : ℝ) : EReal) := by
    intro p
    have hr : 256 * t.val + p.val < 8192 := by have := p.isLt; omega
    rw [h0 p ⟨256 * t.val + p.val, hr⟩ rfl, rows4_apply t x1 p k ⟨256 * t.val + p.val, hr⟩ rfl, h1, ← EReal.coe_mul]
    unfold aN xN
    rw [dif_pos hr, dif_pos hr]
  rw [Finset.sum_congr rfl (fun p _ => hterm p), coe_sum_real4, ← EReal.coe_add]

variable (c : Dev nD) (a : Fin 8192 → Fin 8192 → ℝ) (x : Fin 8192 → Fin 66 → ℝ)
  (ha : ∀ i j : Fin 8192, V c main_arg2 (ix2 i j) = ((a i j : ℝ) : EReal))
  (hx : ∀ (j : Fin 8192) (k : Fin 66), V c main_v36 (ix2 j k) = ((x j k : ℝ) : EReal))

include ha in
/-- Window 0's block at point `t` has the first argument's real entries at rows `256·t + p`. -/
theorem blk0_real (t : Fin cfg4.N) (i : Fin 8192) (p : Fin 256) (r : Fin 8192) (hr : r.val = 256 * t.val + p.val) :
    (iblk4 V c 0 t : Vec Ideal S256x8192 .f32) (ix2 p i) = ((a r i : ℝ) : EReal) :=
  (iblk4_0_apply V c t p i r hr).trans (ha r i)

include hx in
/-- Window 1's block has the second argument's real entries. -/
theorem blk1_real (t : Fin cfg4.N) (k : Fin 66) (r : Fin 8192) :
    (iblk4 V c 1 t : Vec Ideal S8192x66 .f32) (ix2 r k) = ((x r k : ℝ) : EReal) :=
  (iblk4_1_apply V c t r k).trans (hx r k)

include ha hx in
/-- A later point's accumulator entry from the point before's. -/
theorem acc_step (t : Fin cfg4.N) (h0 : ¬t.val % 32 = 0) (i : Fin 8192) (k : Fin 66) (s : ℝ)
    (hprev : (outsAt4 V c (t.val - 1) (Nat.lt_of_le_of_lt (Nat.sub_le _ _) t.isLt)).2 (ix2 i k) = ((s : ℝ) : EReal)) :
    (outsAt4 V c t.val t.isLt).2 (ix2 i k) = ((s + blkSum a x t.val i k : ℝ) : EReal) := by
  by_cases h1 : t.val % 32 = 31
  · rw [snd_of_eq (outsAt4_C V c t h0 h1), soutC_eq]
    exact step_val' a x t (iblk4 V c 0 t) (iblk4 V c 1 t) _ s i k (blk0_real V c a ha t i) (blk1_real V c x hx t k) hprev
  · rw [snd_of_eq (outsAt4_B V c t h0 h1), soutB_eq]
    exact step_val' a x t (iblk4 V c 0 t) (iblk4 V c 1 t) _ s i k (blk0_real V c a ha t i) (blk1_real V c x hx t k) hprev

include ha hx in
/-- THE INVARIANT: after point `n` the accumulator's entry (i, k) is the sum of the first `n + 1` row blocks' shares. -/
theorem acc_inv : ∀ (n : ℕ) (hn : n < cfg4.N) (i : Fin 8192) (k : Fin 66),
    (outsAt4 V c n hn).2 (ix2 i k) = ((∑ t ∈ Finset.range (n + 1), blkSum a x t i k : ℝ) : EReal)
  | 0, hn, i, k => by
    have hA := outsAt4_A V c ⟨0, hn⟩ (Nat.zero_mod 32) (by show ¬(0 % 32 = 31); decide)
    show (outsAt4 V c (⟨0, hn⟩ : Fin cfg4.N).val (⟨0, hn⟩ : Fin cfg4.N).isLt).2 (ix2 i k) = _
    rw [snd_of_eq hA, soutA_eq]
    have h := step_val' a x ⟨0, hn⟩ (iblk4 V c 0 ⟨0, hn⟩) (iblk4 V c 1 ⟨0, hn⟩) (k4_pay1 (F := Ideal)) 0 i k
      (blk0_real V c a ha ⟨0, hn⟩ i) (blk1_real V c x hx ⟨0, hn⟩ k) (pay1_apply _)
    rw [zero_add] at h
    rw [Finset.sum_range_one]
    exact h
  | n + 1, hn, i, k => by
    have hN : cfg4.N = 32 := N_4
    have ih := acc_inv n (Nat.lt_of_succ_lt hn) i k
    have h0 : ¬(n + 1) % 32 = 0 := by omega
    have h := acc_step V c a x ha hx ⟨n + 1, hn⟩ h0 i k _ ih
    rw [Finset.sum_range_succ]
    exact h

/-- The 32 row blocks' shares add up to the whole contraction. -/
theorem total_sum (i : Fin 8192) (k : Fin 66) : ∑ t ∈ Finset.range 32, blkSum a x t i k = ∑ r : Fin 8192, a r i * x r k := by
  have h2 : ∑ r : Fin 8192, a r i * x r k
      = ∑ t : Fin 32, ∑ p : Fin 256, (fun r : Fin 8192 => a r i * x r k) ⟨256 * t.val + p.val, by have := t.isLt; have := p.isLt; omega⟩ :=
    Cert.Math.sum_fin_mul 32 256 (fun r : Fin 8192 => a r i * x r k)
  rw [h2, ← Fin.sum_univ_eq_sum_range (fun t => blkSum a x t i k) 32]
  refine Finset.sum_congr rfl fun t _ => ?_
  unfold blkSum
  refine Finset.sum_congr rfl fun p _ => ?_
  have hr : 256 * t.val + p.val < 8192 := by have := t.isLt; have := p.isLt; omega
  unfold aN xN
  rw [dif_pos hr, dif_pos hr]

/-- What the result array ends holding. -/
def G4v (a : Fin 8192 → Fin 8192 → ℝ) (x : Fin 8192 → Fin 66 → ℝ) : S8192x66.Idx → EReal :=
  fun j => (((∑ r, a r (j 0) * x r (j 1)) + x (j 0) (j 1) : ℝ) : EReal)

include ha hx in
/-- What the last point writes back is the whole of `G4v`. -/
theorem flushed2_eq (t : Fin cfg4.N) (hf : (cfg4.win 2).flush t = true) :
    (dat4 (F := Ideal) V c).flushed 2 t = ((cfg4.win 2).blk t).view.read (Elt Ideal) (G4v a x) := by
  have hN : cfg4.N = 32 := N_4
  have ht : t.val < 32 := hN ▸ t.isLt
  have h1 : t.val % 32 = 31 := (flush4_2 t).mp hf
  have h0 : ¬t.val % 32 = 0 := by omega
  obtain ⟨-, -, -, -, e4, e5⟩ := idx_facts4 t
  show (cfg4.win 2).cut (grid4.coords t) ((dat4 V c).after 2 t) = _
  rw [after4_2, fst_of_eq (outsAt4_C V c t h0 h1), outC_eq]
  funext j
  show k4_pay3 (F := Ideal) (k4_pay2 (iblk4 V c 0 t) (rows4 (grid4.coords t) (iblk4 V c 1 t)) (outsAt4 V c (t.val - 1) _).2) (iblk4 V c 1 t) j
    = G4v a x (((cfg4.win 2).blk t).view.emb j)
  obtain ⟨i, hi⟩ : ∃ i : Fin 8192, i = j 0 := ⟨j 0, rfl⟩
  obtain ⟨k, hk⟩ : ∃ k : Fin 66, k = j 1 := ⟨j 1, rfl⟩
  have hj : (j : S8192x66.Idx) = ix2 i k := by
    funext b
    match b with
    | ⟨0, _⟩ => exact hi.symm
    | ⟨1, _⟩ => exact hk.symm
  rw [hj]
  have hemb : ((cfg4.win 2).blk t).view.emb (ix2 i k) = (ix2 i k : S8192x66.Idx) := funext fun b => Fin.ext (by
    match b with
    | ⟨0, _⟩ => show win4_2.index t (0 : Fin 2) * 8192 + 1 * i.val = i.val; omega
    | ⟨1, _⟩ => show win4_2.index t (1 : Fin 2) * 66 + 1 * k.val = k.val; omega)
  rw [hemb, pay3_apply]
  have hprev := acc_inv V c a x ha hx (t.val - 1) (Nat.lt_of_le_of_lt (Nat.sub_le _ _) t.isLt) i k
  rw [step_val' a x t (iblk4 V c 0 t) (iblk4 V c 1 t) _ _ i k (blk0_real V c a ha t i) (blk1_real V c x hx t k) hprev,
    blk1_real V c x hx t k i, ← EReal.coe_add]
  unfold G4v
  refine congrArg (fun y : ℝ => ((y + x i k : ℝ) : EReal)) ?_
  refine Eq.trans ?_ (total_sum a x i k)
  have e32 : (32 : ℕ) = t.val + 1 := by omega
  have et : t.val - 1 + 1 = t.val := by omega
  rw [e32, et, Finset.sum_range_succ]

/-- The one flushing point's block is the whole result array. -/
theorem cover2 (j : S8192x66.Idx) : ∃ t : Fin cfg4.N, (cfg4.win 2).flush t = true ∧ j ∈ ((cfg4.win 2).blk t).view.set := by
  have hN : cfg4.N = 32 := N_4
  obtain ⟨t, htv⟩ : ∃ t : Fin cfg4.N, t.val = 31 := ⟨⟨31, by omega⟩, rfl⟩
  obtain ⟨-, -, -, -, e4, e5⟩ := idx_facts4 t
  refine ⟨t, (flush4_2 t).mpr (by omega), ?_⟩
  show j ∈ ((View.whole main_v37).slice (win4_2.rect t)).set
  rw [View.set_slice_whole, Rect.mem_set_unit]
  intro b
  have hj0 : (j 0).val < 8192 := (j 0).isLt
  have hj1 : (j 1).val < 66 := (j 1).isLt
  match b with
  | ⟨0, _⟩ => show win4_2.index t (0 : Fin 2) * 8192 ≤ (j 0).val ∧ (j 0).val < win4_2.index t (0 : Fin 2) * 8192 + 8192; omega
  | ⟨1, _⟩ => show win4_2.index t (1 : Fin 2) * 66 ≤ (j 1).val ∧ (j 1).val < win4_2.index t (1 : Fin 2) * 66 + 66; omega

include ha hx in
/-- Region 4's value: after the region the result array holds, at (i, k), `∑ j, a j i · x j k + x i k`. -/
theorem final (i : Fin 8192) (k : Fin 66) :
    (dat4 (F := Ideal) V c).arrAt 2 cfg4.N (ix2 i k) = (((∑ j, a j i * x j k) + x i k : ℝ) : EReal) := by
  have h := (dat4 (F := Ideal) V c).arrAt_eq_of_cover 2 (G4v a x) (fun t hf => flushed2_eq V c a x ha hx t hf) cover2
  exact (congrFun h (ix2 i k)).trans rfl
end

end R4

/-- Region 4's value: after the region the result array holds, at (i, k), `∑ j, a j i · x j k + x i k`. -/
theorem final4 (V : (c : Dev nD) → (b : Ref sig .tc) → Buf (Elt Ideal) ((c : Thread nD τ).loc b)) (c : Dev nD)
    (a : Fin 8192 → Fin 8192 → ℝ) (x : Fin 8192 → Fin 66 → ℝ)
    (ha : ∀ i j : Fin 8192, V c main_arg2 (ix2 i j) = ((a i j : ℝ) : EReal))
    (hx : ∀ (j : Fin 8192) (k : Fin 66), V c main_v36 (ix2 j k) = ((x j k : ℝ) : EReal)) (i : Fin 8192) (k : Fin 66) :
    (dat4 (F := Ideal) V c).arrAt 2 cfg4.N (ix2 i k) = (((∑ j, a j i * x j k) + x i k : ℝ) : EReal) :=
  R4.final V c a x ha hx i k

end Cert.KernelIdeal.H
end
-- ==== Proof.Pre.Finite.lean ====
/-
  The precondition at extended reals, decoded — part one: every entry of the seven float inputs is a real.

  The predicate is a conjunction of eight bits. The first seven are, for each float input x, the conjunction over all
  entries of the comparison |x i| < +∞; the eighth (part two) says no row of the matrix plus the identity sums to zero.
  A conjunction of bits that is 1 has every bit 1; a fold of bits by "and" over all entries into one result that is 1 met
  only 1s; and an extended real whose absolute value max(x, −x) lies strictly below ⊤ is neither ⊤ nor ⊥, so it is a real.
-/
import proofs.«164042_j22436909154350_2_alg».proof.Pre_finite_inputs
import Idealize.ShloMosaic.Lib.ReduceAll
import Idealize.ShloMosaic.Lib.ValueIdx
import Idealize.ShloMosaic.Lib.IdealHost
import Idealize.ShloMosaic.PureOps.Ideal

noncomputable section

namespace Cert.PreDecode

open Idealize.ShloMosaic Cert.Pre_finite_inputs

/-- The rank-zero shape has one index. -/
instance subsingleton_S_ : Subsingleton S_.Idx := ⟨fun a b => funext fun d => d.elim0⟩

/-- The pattern 0x7F800000 is +∞. -/
theorem inf_eq_top : Ideal.ofBits .f32 0x7F800000#32 = (⊤ : EReal) := by simp [Ideal.ofBits, Ideal.ieee]

/-- An extended real whose absolute value is strictly below +∞ is a real. -/
theorem real_of_abs_lt (x : EReal) (h : Ideal.cmp .olt (max x (-x)) (Ideal.ofBits .f32 0x7F800000#32) = 1#1) :
    ∃ r : ℝ, x = (r : EReal) := by
  rw [inf_eq_top] at h
  induction x using EReal.rec with
  | bot => exact absurd h (by simp [Ideal.cmp])
  | top => exact absurd h (by simp [Ideal.cmp])
  | coe r => exact ⟨r, rfl⟩

/-- One entry: the comparison bit |x i| < +∞ being 1 makes x i a real. -/
theorem entry_real {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    ∃ r : ℝ, x i = (r : EReal) := by
  refine real_of_abs_lt (x i) ?_
  rw [← h]
  unfold cmpf
  rw [ValueIdx.broadcastInDim_scalar_apply]
  rfl

/-- One input: the conjunction over all entries being 1 makes every entry a real. -/
theorem all_real {s : Shape} {axes : List (Fin s.rank)} (hb : S_.BroadcastsInDim s (![] : Fin 0 → Fin s.rank))
    (hr : s.ReducesTo axes S_) (hu : 0 < S_.numel) (x : FVec Ideal s .f32) (init : IVec S_ 1) (j : S_.Idx)
    (h : Host.reduce IntOp.andi (cmpf .olt (Host.absf x) (broadcastInDim s ![] hb (constant S_ .f32 0x7F800000#32))) init hr hu j = 1#1) :
    ∀ i, ∃ r : ℝ, x i = (r : EReal) :=
  fun i => entry_real hb x i (Host.reduce_andi_all _ init hr hu j h i)

variable [Facts]

/-- THE PRECONDITION DECODED, part one: every entry of each of the seven float inputs is a real. -/
theorem real_entries (A0 : FVec Ideal S1x16384 .f32) (A1 : FVec Ideal S1x524288 .f32) (A2 : FVec Ideal S8192x8192 .f32)
    (A3 : FVec Ideal S198x128 .f32) (A4 : FVec Ideal S128 .f32) (A5 : FVec Ideal S198x64 .f32) (A6 : FVec Ideal S64 .f32)
    (A7 : IVec S8192 32)
    (hpre : Cert.Pre_finite_inputs.fn (F := Ideal) A0 A1 A2 A3 A4 A5 A6 A7 = (fun _ => 1#1)) :
    (∀ i, ∃ x : ℝ, A0 i = (x : EReal)) ∧ (∀ i, ∃ x : ℝ, A1 i = (x : EReal)) ∧ (∀ i, ∃ x : ℝ, A2 i = (x : EReal))
      ∧ (∀ i, ∃ x : ℝ, A3 i = (x : EReal)) ∧ (∀ i, ∃ x : ℝ, A4 i = (x : EReal)) ∧ (∀ i, ∃ x : ℝ, A5 i = (x : EReal))
      ∧ (∀ i, ∃ x : ℝ, A6 i = (x : EReal)) := by
  have e := congrFun hpre ValueIdx.ix0
  simp only [fn, fn_part1, fn_part2, andi, IntOp.andi_eq_one] at e
  obtain ⟨⟨⟨⟨⟨⟨⟨h0, h1⟩, h2⟩, h3⟩, h4⟩, h5⟩, h6⟩, -⟩ := e
  exact ⟨all_real _ _ _ A0 _ _ h0, all_real _ _ _ A1 _ _ h1, all_real _ _ _ A2 _ _ h2, all_real _ _ _ A3 _ _ h3,
    all_real _ _ _ A4 _ _ h4, all_real _ _ _ A5 _ _ h5, all_real _ _ _ A6 _ _ h6⟩

end Cert.PreDecode

end
-- ==== Proof.Pre.RowSum.lean ====
/-
  The precondition at extended reals, decoded — part two: no row of the matrix plus the identity sums to zero.

  The last conjunct folds by "and", over the 8192 rows, the bits "row sum ≠ 0". The row sum is the sum over one axis with
  initial value 0, so at extended reals it is 0 + Σ_j (adj r j + I r j); the identity's entry I r j is the bit (r + 0 = j),
  compared as 32-bit words (no wrap: both below 8192), read as an unsigned integer: 1 on the diagonal, 0 off it.
-/
import proofs.«164042_j22436909154350_2_alg».proof.Proof.Pre.Finite
import Idealize.ShloMosaic.PureOps.Ideal.Laws

noncomputable section

namespace Cert.PreDecode

open Idealize.ShloMosaic Cert.Pre_finite_inputs
open scoped BigOperators

/-- Two coordinates below 8192 with equal 32-bit words are equal. -/
theorem eq_of_ofNat_eq (r j : Fin 8192) (h : BitVec.ofNat 32 r.val = BitVec.ofNat 32 j.val) : r = j := by
  have h' := congrArg BitVec.toNat h
  simp only [BitVec.toNat_ofNat] at h'
  have hr := r.isLt
  have hj := j.isLt
  exact Fin.ext (by omega)

/-- The identity's entry: the bit (r + 0 = j) read as an unsigned integer is 1 on the diagonal and 0 off it. -/
theorem eye_entry (r j : Fin 8192) :
    FloatOps.uitofp (F := Ideal) .f32 (IntOp.cmpi .eq (IntOp.addi (BitVec.ofNat 32 r.val) 0#32) (BitVec.ofNat 32 j.val))
      = if r = j then (1 : EReal) else 0 := by
  have hadd : IntOp.addi (BitVec.ofNat 32 r.val) 0#32 = BitVec.ofNat 32 r.val := by
    unfold IntOp.addi; exact BitVec.add_zero _
  rw [hadd]
  show (((IntOp.cmpi .eq (BitVec.ofNat 32 r.val) (BitVec.ofNat 32 j.val)).toNat : ℝ) : EReal) = _
  by_cases h : r = j
  · subst h
    rw [if_pos rfl, IntOp.cmpi_eq.2 rfl]
    simp
  · rw [if_neg h]
    have hne : (BitVec.ofNat 32 r.val == BitVec.ofNat 32 j.val) = false :=
      beq_eq_false_iff_ne.2 fun hc => h (eq_of_ofNat_eq r j hc)
    have h0 : IntOp.cmpi .eq (BitVec.ofNat 32 r.val) (BitVec.ofNat 32 j.val) = 0#1 := by
      unfold IntOp.cmpi; simp only [hne]; rfl
    rw [h0]
    simp

/-- The printed identity matrix at (r, j). -/
theorem eye_apply (hb : S_.BroadcastsInDim S8192x8192 (![] : Fin 0 → Fin S8192x8192.rank)) (r j : Fin 8192) :
    (uitofp (F := Ideal) .f32 (cmpi .eq (addi (iotaInDim S8192x8192 32 0)
        (broadcastInDim S8192x8192 ![] hb (constantI S_ 32 0#32))) (iotaInDim S8192x8192 32 1))) (ValueIdx.ix2 r j)
      = if r = j then (1 : EReal) else 0 :=
  eye_entry r j

/-- The sum over the second axis, at row r: the initial value plus the sum of the row's entries. -/
theorem rowsum_read (hr : S8192x8192.ReducesTo [1] S8192) (hu : 0 < S_.numel) (y : FVec Ideal S8192x8192 .f32)
    (init : FVec Ideal S_ .f32) (r : Fin 8192) :
    Host.reduceAdd y init hr hu (ValueIdx.ix1 r) = init (Shape.Idx.first hu) + ∑ k : Fin 8192, y (ValueIdx.ix2 r k) := by
  simp only [Host.reduceAdd, Ideal.hostReduceAdd_def]
  rw [Ideal.hostReduceAdd_single hr (by decide)]
  refine congrArg (_ + ·) (Finset.sum_congr rfl fun k _ => ?_)
  exact congrArg y (funext fun a => Fin.ext (by match a with | ⟨0, _⟩ => rfl | ⟨1, _⟩ => rfl))

/-- The pattern 0 is zero. -/
theorem zero_eq : Ideal.ofBits .f32 0x00000000#32 = (0 : EReal) := by simp [Ideal.ofBits, Ideal.ieee]

/-- One entry: the comparison bit x i ≠ 0 being 1 says x i ≠ 0. -/
theorem entry_ne_zero {s : Shape} (hb : S_.BroadcastsInDim s (![] : Fin 0 → Fin s.rank)) (x : FVec Ideal s .f32) (i : s.Idx)
    (h : cmpf .une x (broadcastInDim s ![] hb (constant S_ .f32 0x00000000#32)) i = 1#1) : x i ≠ 0 := by
  have h' : Ideal.cmp .une (x i) (Ideal.ofBits .f32 0x00000000#32) = 1#1 := by
    rw [← h]; unfold cmpf; rw [ValueIdx.broadcastInDim_scalar_apply]; rfl
  rw [zero_eq] at h'
  intro hx
  rw [hx] at h'
  exact absurd h' (by simp [Ideal.cmp])

variable [Facts]

/-- THE PRECONDITION DECODED, part two: for every row r, 0 + Σ_j (adj r j + [r = j]) ≠ 0 over the extended reals. -/
theorem rowsum_ne_zero (A0 : FVec Ideal S1x16384 .f32) (A1 : FVec Ideal S1x524288 .f32) (A2 : FVec Ideal S8192x8192 .f32)
    (A3 : FVec Ideal S198x128 .f32) (A4 : FVec Ideal S128 .f32) (A5 : FVec Ideal S198x64 .f32) (A6 : FVec Ideal S64 .f32)
    (A7 : IVec S8192 32)
    (hpre : Cert.Pre_finite_inputs.fn (F := Ideal) A0 A1 A2 A3 A4 A5 A6 A7 = (fun _ => 1#1)) :
    ∀ r : Fin 8192, (0 + ∑ j : Fin 8192, (A2 (ValueIdx.ix2 r j) + (if r = j then (1 : EReal) else 0))) ≠ 0 := by
  have e := congrFun hpre ValueIdx.ix0
  simp only [fn, fn_part1, fn_part2, andi, IntOp.andi_eq_one] at e
  have h8 := e.2
  clear e
  intro r
  have h1 := entry_ne_zero _ _ _ (Host.reduce_andi_all _ _ _ _ _ h8 (ValueIdx.ix1 r))
  rw [rowsum_read] at h1
  intro hzero
  apply h1
  rw [← hzero]
  refine congrArg₂ (· + ·) zero_eq (Finset.sum_congr rfl fun k _ => ?_)
  exact congrArg (A2 (ValueIdx.ix2 r k) + ·) (eye_apply _ r k)

end Cert.PreDecode

end
-- ==== Proof.Pre.Decode.lean ====
/-
  The precondition at extended reals, decoded — the witnesses: real arrays a, inp, h, wru, bru, wc, bc whose coercions are
  the seven float inputs (the two flat inputs read as [8192, 2] and [8192, 64] in row-major order), with every row sum of
  a plus one nonzero OVER THE REALS: the extended-real sum 0 + Σ_j (a i j + [i = j]) of reals is the coercion of
  (Σ_j a i j) + 1, the coercion commuting with finite sums, and the identity's row summing to one.
-/
import proofs.«164042_j22436909154350_2_alg».proof.Proof.Pre.RowSum

noncomputable section

namespace Cert.PreDecode

open Idealize.ShloMosaic Cert.Pre_finite_inputs
open scoped BigOperators

/-- The coercion of reals into extended reals commutes with finite sums. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A row of reals plus the identity's row, summed from zero over the extended reals, is the real row sum plus one. -/
theorem rowsum_coe (x : Fin 8192 → EReal) (f : Fin 8192 → ℝ) (hx : ∀ j, x j = ((f j : ℝ) : EReal)) (i : Fin 8192) :
    (0 + ∑ j : Fin 8192, (x j + (if i = j then (1 : EReal) else 0))) = (((∑ j, f j) + 1 : ℝ) : EReal) := by
  rw [zero_add, Finset.sum_add_distrib, Finset.sum_ite_eq, if_pos (Finset.mem_univ i), EReal.coe_add, coe_sum, EReal.coe_one]
  exact congrArg (· + 1) (Finset.sum_congr rfl fun j _ => hx j)

variable [Facts]

/-- THE PRECONDITION DECODED: real witnesses of the seven float inputs, and every row sum of the matrix plus one nonzero. -/
theorem reals (A0 : FVec Ideal S1x16384 .f32) (A1 : FVec Ideal S1x524288 .f32) (A2 : FVec Ideal S8192x8192 .f32)
    (A3 : FVec Ideal S198x128 .f32) (A4 : FVec Ideal S128 .f32) (A5 : FVec Ideal S198x64 .f32) (A6 : FVec Ideal S64 .f32)
    (A7 : IVec S8192 32)
    (hpre : Cert.Pre_finite_inputs.fn (F := Ideal) A0 A1 A2 A3 A4 A5 A6 A7 = (fun _ => 1#1)) :
    ∃ (a : Fin 8192 → Fin 8192 → ℝ) (inp : Fin 8192 → Fin 2 → ℝ) (h : Fin 8192 → Fin 64 → ℝ)
      (wru : Fin 198 → Fin 128 → ℝ) (bru : Fin 128 → ℝ) (wc : Fin 198 → Fin 64 → ℝ) (bc : Fin 64 → ℝ),
      (∀ i j, A2 (ValueIdx.ix2 i j) = ((a i j : ℝ) : EReal))
      ∧ (∀ (n : Fin 8192) (d : Fin 2), A0 (ValueIdx.ix2 0 ⟨2 * n.val + d.val, by have := n.isLt; have := d.isLt; omega⟩)
          = ((inp n d : ℝ) : EReal))
      ∧ (∀ (n : Fin 8192) (q : Fin 64), A1 (ValueIdx.ix2 0 ⟨64 * n.val + q.val, by have := n.isLt; have := q.isLt; omega⟩)
          = ((h n q : ℝ) : EReal))
      ∧ (∀ p c, A3 (ValueIdx.ix2 p c) = ((wru p c : ℝ) : EReal))
      ∧ (∀ c, A4 (ValueIdx.ix1 c) = ((bru c : ℝ) : EReal))
      ∧ (∀ p c, A5 (ValueIdx.ix2 p c) = ((wc p c : ℝ) : EReal))
      ∧ (∀ c, A6 (ValueIdx.ix1 c) = ((bc c : ℝ) : EReal))
      ∧ (∀ i, (∑ j, a i j) + 1 ≠ 0) := by
  obtain ⟨h0, h1, h2, h3, h4, h5, h6⟩ := real_entries A0 A1 A2 A3 A4 A5 A6 A7 hpre
  have hrs := rowsum_ne_zero A0 A1 A2 A3 A4 A5 A6 A7 hpre
  choose f0 hf0 using h0
  choose f1 hf1 using h1
  choose f2 hf2 using h2
  choose f3 hf3 using h3
  choose f4 hf4 using h4
  choose f5 hf5 using h5
  choose f6 hf6 using h6
  refine ⟨fun i j => f2 (ValueIdx.ix2 i j),
    fun n d => f0 (ValueIdx.ix2 0 ⟨2 * n.val + d.val, by have := n.isLt; have := d.isLt; omega⟩),
    fun n q => f1 (ValueIdx.ix2 0 ⟨64 * n.val + q.val, by have := n.isLt; have := q.isLt; omega⟩),
    fun p c => f3 (ValueIdx.ix2 p c), fun c => f4 (ValueIdx.ix1 c), fun p c => f5 (ValueIdx.ix2 p c),
    fun c => f6 (ValueIdx.ix1 c),
    fun i j => hf2 _, fun n d => hf0 _, fun n q => hf1 _, fun p c => hf3 _, fun c => hf4 _, fun p c => hf5 _,
    fun c => hf6 _, fun i hi => hrs i ?_⟩
  rw [rowsum_coe (fun j => A2 (ValueIdx.ix2 i j)) (fun j => f2 (ValueIdx.ix2 i j)) (fun j => hf2 _) i, hi]
  rfl

end Cert.PreDecode

end
-- ==== Proof.Ref.RunSlices.lean ====
/-
  The reference program's operations read back by hand, in slices. The list of the 83 operations is cut into 17
  consecutive slices, right after the buffers that later operations read more than once; for each slice, over any
  valuation W that holds the stages the slice reads, the buffers it writes hold their stages; a buffer a slice does not
  write keeps its contents. Chained from the launch contents, the result buffer holds the last stage of the argument
  arrays, and no operation writes an argument.
-/
import proofs.«164042_j22436909154350_2_alg».proof.Proof.Ref.RunOps
import proofs.«164042_j22436909154350_2_alg».proof.Proof.Ref.ReadStages

set_option maxRecDepth 8192

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Two lists of operations run one after the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-! ## Slice 1: main_v0 … main_v13 -/

/-- Operations main_v0 … main_v13. -/
abbrev S1 : List (HloOp τ sig (Elt F)) :=
  [ nullary main_v0 (iotaInDim S8192x8192 32 0),
    nullary main_v1 (iotaInDim S8192x8192 32 1),
    nullary main_c (constantI S_ 32 0#32),
    unary main_c main_v2 (broadcastInDim S8192x8192 ![] bcast_S_S8192x8192 : (⟨S_, .i32⟩ : BufTy).Contents (Elt F) → (⟨S8192x8192, .i32⟩ : BufTy).Contents (Elt F)),
    binary main_v0 main_v2 main_v3 (addi : (⟨S8192x8192, .i32⟩ : BufTy).Contents (Elt F) → (⟨S8192x8192, .i32⟩ : BufTy).Contents (Elt F) → (⟨S8192x8192, .i32⟩ : BufTy).Contents (Elt F)),
    binary main_v3 main_v1 main_v4 (cmpi .eq : (⟨S8192x8192, .i32⟩ : BufTy).Contents (Elt F) → (⟨S8192x8192, .i32⟩ : BufTy).Contents (Elt F) → (⟨S8192x8192, .i1⟩ : BufTy).Contents (Elt F)),
    unary main_v4 main_v5 (uitofp .f32 : (⟨S8192x8192, .i1⟩ : BufTy).Contents (Elt F) → (⟨S8192x8192, .f32⟩ : BufTy).Contents (Elt F)),
    binary main_arg2 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    binary main_v6 main_cst main_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_0 (constant S_ .f32 0x3F800000#32),
    unary main_cst_0 main_v8 (broadcastInDim S8192 ![] bcast_S_S8192 : (⟨S_, .f32⟩ : BufTy).Contents (Elt F) → (⟨S8192, .f32⟩ : BufTy).Contents (Elt F)),
    binary main_v8 main_v7 main_v9 (Host.divf : (⟨S8192, .f32⟩ : BufTy).Contents (Elt F) → (⟨S8192, .f32⟩ : BufTy).Contents (Elt F) → (⟨S8192, .f32⟩ : BufTy).Contents (Elt F)),
    unary main_v9 main_v10 (broadcastInDim S8192x1 ![0] bcast_S8192_S8192x1_0 : (⟨S8192, .f32⟩ : BufTy).Contents (Elt F) → (⟨S8192x1, .f32⟩ : BufTy).Contents (Elt F)),
    unary main_v10 main_v11 (broadcastInDim S8192x8192 ![0, 1] bcast_S8192x1_S8192x8192_0_1 : (⟨S8192x1, .f32⟩ : BufTy).Contents (Elt F) → (⟨S8192x8192, .f32⟩ : BufTy).Contents (Elt F)),
    binary main_v6 main_v11 main_v12 (mulf : (⟨S8192x8192, .f32⟩ : BufTy).Contents (Elt F) → (⟨S8192x8192, .f32⟩ : BufTy).Contents (Elt F) → (⟨S8192x8192, .f32⟩ : BufTy).Contents (Elt F)),
    unary main_v12 main_v13 ((transpose S8192x8192 [1, 0] · transposes_S8192x8192_S8192x8192_1_0) : (⟨S8192x8192, .f32⟩ : BufTy).Contents (Elt F) → (⟨S8192x8192, .f32⟩ : BufTy).Contents (Elt F)) ]

/-- The references slice 1 writes. -/
abbrev S1_W : List (Ref sig .tc) := [main_v0, main_v1, main_c, main_v2, main_v3, main_v4, main_v5, main_v6, main_cst, main_v7, main_cst_0, main_v8, main_v9, main_v10, main_v11, main_v12, main_v13]

theorem S1_writes : (S1 : List (HloOp τ sig (Elt F))).Forall fun op => op.writes ⊆ (S1_W.map (Proc.devRef (τ := τ) .tc)).toFinset := by
  simp only [List.Forall]
  refine ⟨?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 1 does not write keeps its contents. -/
theorem S1_keep (W : Valuation τ sig (Elt F)) (r : Ref sig .tc) (h : r ∉ S1_W) :
    StableHlo.after (S1 (F := F)) W (Proc.devRef .tc r) = W (Proc.devRef .tc r) :=
  StableHlo.after_of_writes_sub (S1 (F := F)) W S1_writes h

theorem S1_main_v13 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_arg2 : W (Proc.devRef .tc main_arg2) = x2) :
    StableHlo.after (S1 (F := F)) W (Proc.devRef .tc main_v13) = (Cert.ReferenceIdeal.Read.val_main_v13 (F := F) x2) := by
  after_results
  rw [h_main_arg2]
  try rfl

/-! ## Slice 2: main_v14 … main_v18 -/

/-- Operations main_v14 … main_v18. -/
abbrev S2 : List (HloOp τ sig (Elt F)) :=
  [ reshape main_arg0 main_v14 rfl shapeCasts_S1x16384_S1x8192x2,
    reshape main_arg1 main_v15 rfl shapeCasts_S1x524288_S1x8192x64,
    binary main_v14 main_v15 main_v16 ((fun a b => concatenate S1x8192x66 2 [⟨S1x8192x2, a⟩, ⟨S1x8192x64, b⟩] concatenates_S1x8192x2_S1x8192x64_S1x8192x66_d2) : (⟨S1x8192x2, .f32⟩ : BufTy).Contents (Elt F) → (⟨S1x8192x64, .f32⟩ : BufTy).Contents (Elt F) → (⟨S1x8192x66, .f32⟩ : BufTy).Contents (Elt F)),
    unary main_v16 main_v17 ((transpose S8192x66x1 [1, 2, 0] · transposes_S1x8192x66_S8192x66x1_1_2_0) : (⟨S1x8192x66, .f32⟩ : BufTy).Contents (Elt F) → (⟨S8192x66x1, .f32⟩ : BufTy).Contents (Elt F)),
    reshape main_v17 main_v18 rfl shapeCasts_S8192x66x1_S8192x66 ]

/-- The references slice 2 writes. -/
abbrev S2_W : List (Ref sig .tc) := [main_v14, main_v15, main_v16, main_v17, main_v18]

theorem S2_writes : (S2 : List (HloOp τ sig (Elt F))).Forall fun op => op.writes ⊆ (S2_W.map (Proc.devRef (τ := τ) .tc)).toFinset := by
  simp only [List.Forall]
  refine ⟨?_, ?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 2 does not write keeps its contents. -/
theorem S2_keep (W : Valuation τ sig (Elt F)) (r : Ref sig .tc) (h : r ∉ S2_W) :
    StableHlo.after (S2 (F := F)) W (Proc.devRef .tc r) = W (Proc.devRef .tc r) :=
  StableHlo.after_of_writes_sub (S2 (F := F)) W S2_writes h

theorem S2_main_v14 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_arg0 : W (Proc.devRef .tc main_arg0) = x0) :
    StableHlo.after (S2 (F := F)) W (Proc.devRef .tc main_v14) = (Cert.ReferenceIdeal.Read.val_main_v14 (F := F) x0) := by
  after_results
  rw [h_main_arg0]
  try rfl

theorem S2_main_v18 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_arg0 : W (Proc.devRef .tc main_arg0) = x0)
    (h_main_arg1 : W (Proc.devRef .tc main_arg1) = x1) :
    StableHlo.after (S2 (F := F)) W (Proc.devRef .tc main_v18) = (Cert.ReferenceIdeal.Read.val_main_v18 (F := F) x0 x1) := by
  after_results
  rw [h_main_arg0, h_main_arg1]
  try rfl

/-! ## Slice 3: main_v19 … main_v19 -/

/-- Operations main_v19 … main_v19. -/
abbrev S3 : List (HloOp τ sig (Elt F)) :=
  [ binary main_v13 main_v18 main_v19 ((fun l r => Host.dotGeneral dot_S8192x8192_S8192x66_S8192x66_1_0_0_1_n_n none l r) : (⟨S8192x8192, .f32⟩ : BufTy).Contents (Elt F) → (⟨S8192x66, .f32⟩ : BufTy).Contents (Elt F) → (⟨S8192x66, .f32⟩ : BufTy).Contents (Elt F)) ]

/-- The references slice 3 writes. -/
abbrev S3_W : List (Ref sig .tc) := [main_v19]

theorem S3_writes : (S3 : List (HloOp τ sig (Elt F))).Forall fun op => op.writes ⊆ (S3_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)

/-- A buffer slice 3 does not write keeps its contents. -/
theorem S3_keep (W : Valuation τ sig (Elt F)) (r : Ref sig .tc) (h : r ∉ S3_W) :
    StableHlo.after (S3 (F := F)) W (Proc.devRef .tc r) = W (Proc.devRef .tc r) :=
  StableHlo.after_of_writes_sub (S3 (F := F)) W S3_writes h

theorem S3_main_v19 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v13 : W (Proc.devRef .tc main_v13) = (Cert.ReferenceIdeal.Read.val_main_v13 (F := F) x2))
    (h_main_v18 : W (Proc.devRef .tc main_v18) = (Cert.ReferenceIdeal.Read.val_main_v18 (F := F) x0 x1)) :
    StableHlo.after (S3 (F := F)) W (Proc.devRef .tc main_v19) = (Cert.ReferenceIdeal.Read.val_main_v19 (F := F) x0 x1 x2) := by
  after_results
  rw [h_main_v13, h_main_v18]
  try rfl

/-! ## Slice 4: main_v20 … main_v23 -/

/-- Operations main_v20 … main_v23. -/
abbrev S4 : List (HloOp τ sig (Elt F)) :=
  [ binary main_v13 main_v19 main_v20 ((fun l r => Host.dotGeneral dot_S8192x8192_S8192x66_S8192x66_1_0_0_1_n_n none l r) : (⟨S8192x8192, .f32⟩ : BufTy).Contents (Elt F) → (⟨S8192x66, .f32⟩ : BufTy).Contents (Elt F) → (⟨S8192x66, .f32⟩ : BufTy).Contents (Elt F)),
    nullary main_cst_1 (constant S_ .f32 0x40000000#32),
    unary main_cst_1 main_v21 (broadcastInDim S8192x66 ![] bcast_S_S8192x66 : (⟨S_, .f32⟩ : BufTy).Contents (Elt F) → (⟨S8192x66, .f32⟩ : BufTy).Contents (Elt F)),
    binary main_v21 main_v20 main_v22 (mulf : (⟨S8192x66, .f32⟩ : BufTy).Contents (Elt F) → (⟨S8192x66, .f32⟩ : BufTy).Contents (Elt F) → (⟨S8192x66, .f32⟩ : BufTy).Contents (Elt F)),
    binary main_v22 main_v18 main_v23 (subf : (⟨S8192x66, .f32⟩ : BufTy).Contents (Elt F) → (⟨S8192x66, .f32⟩ : BufTy).Contents (Elt F) → (⟨S8192x66, .f32⟩ : BufTy).Contents (Elt F)) ]

/-- The references slice 4 writes. -/
abbrev S4_W : List (Ref sig .tc) := [main_v20, main_cst_1, main_v21, main_v22, main_v23]

theorem S4_writes : (S4 : List (HloOp τ sig (Elt F))).Forall fun op => op.writes ⊆ (S4_W.map (Proc.devRef (τ := τ) .tc)).toFinset := by
  simp only [List.Forall]
  refine ⟨?_, ?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 4 does not write keeps its contents. -/
theorem S4_keep (W : Valuation τ sig (Elt F)) (r : Ref sig .tc) (h : r ∉ S4_W) :
    StableHlo.after (S4 (F := F)) W (Proc.devRef .tc r) = W (Proc.devRef .tc r) :=
  StableHlo.after_of_writes_sub (S4 (F := F)) W S4_writes h

theorem S4_main_v23 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v13 : W (Proc.devRef .tc main_v13) = (Cert.ReferenceIdeal.Read.val_main_v13 (F := F) x2))
    (h_main_v19 : W (Proc.devRef .tc main_v19) = (Cert.ReferenceIdeal.Read.val_main_v19 (F := F) x0 x1 x2))
    (h_main_v18 : W (Proc.devRef .tc main_v18) = (Cert.ReferenceIdeal.Read.val_main_v18 (F := F) x0 x1)) :
    StableHlo.after (S4 (F := F)) W (Proc.devRef .tc main_v23) = (Cert.ReferenceIdeal.Read.val_main_v23 (F := F) x0 x1 x2) := by
  after_results
  rw [h_main_v13, h_main_v19, h_main_v18]
  try rfl

/-! ## Slice 5: main_v24 … main_v26 -/

/-- Operations main_v24 … main_v26. -/
abbrev S5 : List (HloOp τ sig (Elt F)) :=
  [ unary main_v18 main_v24 (broadcastInDim S1x8192x66 ![1, 2] bcast_S8192x66_S1x8192x66_1_2 : (⟨S8192x66, .f32⟩ : BufTy).Contents (Elt F) → (⟨S1x8192x66, .f32⟩ : BufTy).Contents (Elt F)),
    unary main_v19 main_v25 (broadcastInDim S1x8192x66 ![1, 2] bcast_S8192x66_S1x8192x66_1_2 : (⟨S8192x66, .f32⟩ : BufTy).Contents (Elt F) → (⟨S1x8192x66, .f32⟩ : BufTy).Contents (Elt F)),
    unary main_v23 main_v26 (broadcastInDim S1x8192x66 ![1, 2] bcast_S8192x66_S1x8192x66_1_2 : (⟨S8192x66, .f32⟩ : BufTy).Contents (Elt F) → (⟨S1x8192x66, .f32⟩ : BufTy).Contents (Elt F)) ]

/-- The references slice 5 writes. -/
abbrev S5_W : List (Ref sig .tc) := [main_v24, main_v25, main_v26]

theorem S5_writes : (S5 : List (HloOp τ sig (Elt F))).Forall fun op => op.writes ⊆ (S5_W.map (Proc.devRef (τ := τ) .tc)).toFinset := by
  simp only [List.Forall]
  refine ⟨?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 5 does not write keeps its contents. -/
theorem S5_keep (W : Valuation τ sig (Elt F)) (r : Ref sig .tc) (h : r ∉ S5_W) :
    StableHlo.after (S5 (F := F)) W (Proc.devRef .tc r) = W (Proc.devRef .tc r) :=
  StableHlo.after_of_writes_sub (S5 (F := F)) W S5_writes h

theorem S5_main_v24 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v18 : W (Proc.devRef .tc main_v18) = (Cert.ReferenceIdeal.Read.val_main_v18 (F := F) x0 x1)) :
    StableHlo.after (S5 (F := F)) W (Proc.devRef .tc main_v24) = (Cert.ReferenceIdeal.Read.val_main_v24 (F := F) x0 x1) := by
  after_results
  rw [h_main_v18]
  try rfl

theorem S5_main_v25 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v19 : W (Proc.devRef .tc main_v19) = (Cert.ReferenceIdeal.Read.val_main_v19 (F := F) x0 x1 x2)) :
    StableHlo.after (S5 (F := F)) W (Proc.devRef .tc main_v25) = (Cert.ReferenceIdeal.Read.val_main_v25 (F := F) x0 x1 x2) := by
  after_results
  rw [h_main_v19]
  try rfl

theorem S5_main_v26 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v23 : W (Proc.devRef .tc main_v23) = (Cert.ReferenceIdeal.Read.val_main_v23 (F := F) x0 x1 x2)) :
    StableHlo.after (S5 (F := F)) W (Proc.devRef .tc main_v26) = (Cert.ReferenceIdeal.Read.val_main_v26 (F := F) x0 x1 x2) := by
  after_results
  rw [h_main_v23]
  try rfl

/-! ## Slice 6: main_v27 … main_v27 -/

/-- Operations main_v27 … main_v27. -/
abbrev S6 : List (HloOp τ sig (Elt F)) :=
  [ nary ![main_v24, main_v25, main_v26] main_v27 (fun u => concatenate S3x8192x66 0 [⟨S1x8192x66, u 0⟩, ⟨S1x8192x66, u 1⟩, ⟨S1x8192x66, u 2⟩] concatenates_S1x8192x66_S1x8192x66_S1x8192x66_S3x8192x66_d0) ]

/-- The references slice 6 writes. -/
abbrev S6_W : List (Ref sig .tc) := [main_v27]

theorem S6_writes : (S6 : List (HloOp τ sig (Elt F))).Forall fun op => op.writes ⊆ (S6_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)

/-- A buffer slice 6 does not write keeps its contents. -/
theorem S6_keep (W : Valuation τ sig (Elt F)) (r : Ref sig .tc) (h : r ∉ S6_W) :
    StableHlo.after (S6 (F := F)) W (Proc.devRef .tc r) = W (Proc.devRef .tc r) :=
  StableHlo.after_of_writes_sub (S6 (F := F)) W S6_writes h

theorem S6_main_v27 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v24 : W (Proc.devRef .tc main_v24) = (Cert.ReferenceIdeal.Read.val_main_v24 (F := F) x0 x1))
    (h_main_v25 : W (Proc.devRef .tc main_v25) = (Cert.ReferenceIdeal.Read.val_main_v25 (F := F) x0 x1 x2))
    (h_main_v26 : W (Proc.devRef .tc main_v26) = (Cert.ReferenceIdeal.Read.val_main_v26 (F := F) x0 x1 x2)) :
    StableHlo.after (S6 (F := F)) W (Proc.devRef .tc main_v27) = (Cert.ReferenceIdeal.Read.val_main_v27 (F := F) x0 x1 x2) := by
  after_results
  show concatenate S3x8192x66 0 [⟨S1x8192x66, W (Proc.devRef .tc main_v24)⟩, ⟨S1x8192x66, W (Proc.devRef .tc main_v25)⟩, ⟨S1x8192x66, W (Proc.devRef .tc main_v26)⟩] concatenates_S1x8192x66_S1x8192x66_S1x8192x66_S3x8192x66_d0 = _
  rw [h_main_v24, h_main_v25, h_main_v26]
  try rfl

/-! ## Slice 7: main_v28 … main_v30 -/

/-- Operations main_v28 … main_v30. -/
abbrev S7 : List (HloOp τ sig (Elt F)) :=
  [ reshape main_v27 main_v28 rfl shapeCasts_S3x8192x66_S3x8192x66x1,
    unary main_v28 main_v29 ((transpose S1x8192x66x3 [3, 1, 2, 0] · transposes_S3x8192x66x1_S1x8192x66x3_3_1_2_0) : (⟨S3x8192x66x1, .f32⟩ : BufTy).Contents (Elt F) → (⟨S1x8192x66x3, .f32⟩ : BufTy).Contents (Elt F)),
    reshape main_v29 main_v30 rfl shapeCasts_S1x8192x66x3_S8192x198 ]

/-- The references slice 7 writes. -/
abbrev S7_W : List (Ref sig .tc) := [main_v28, main_v29, main_v30]

theorem S7_writes : (S7 : List (HloOp τ sig (Elt F))).Forall fun op => op.writes ⊆ (S7_W.map (Proc.devRef (τ := τ) .tc)).toFinset := by
  simp only [List.Forall]
  refine ⟨?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 7 does not write keeps its contents. -/
theorem S7_keep (W : Valuation τ sig (Elt F)) (r : Ref sig .tc) (h : r ∉ S7_W) :
    StableHlo.after (S7 (F := F)) W (Proc.devRef .tc r) = W (Proc.devRef .tc r) :=
  StableHlo.after_of_writes_sub (S7 (F := F)) W S7_writes h

theorem S7_main_v30 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v27 : W (Proc.devRef .tc main_v27) = (Cert.ReferenceIdeal.Read.val_main_v27 (F := F) x0 x1 x2)) :
    StableHlo.after (S7 (F := F)) W (Proc.devRef .tc main_v30) = (Cert.ReferenceIdeal.Read.val_main_v30 (F := F) x0 x1 x2) := by
  after_results
  rw [h_main_v27]
  try rfl

/-! ## Slice 8: main_v31 … main_v42 -/

/-- Operations main_v31 … main_v42. -/
abbrev S8 : List (HloOp τ sig (Elt F)) :=
  [ binary main_v30 main_arg3 main_v31 ((fun l r => Host.dotGeneral dot_S8192x198_S198x128_S8192x128_1_0_0_1_n_n none l r) : (⟨S8192x198, .f32⟩ : BufTy).Contents (Elt F) → (⟨S198x128, .f32⟩ : BufTy).Contents (Elt F) → (⟨S8192x128, .f32⟩ : BufTy).Contents (Elt F)),
    unary main_arg4 main_v32 (broadcastInDim S1x128 ![1] bcast_S128_S1x128_1 : (⟨S128, .f32⟩ : BufTy).Contents (Elt F) → (⟨S1x128, .f32⟩ : BufTy).Contents (Elt F)),
    unary main_v32 main_v33 (broadcastInDim S8192x128 ![0, 1] bcast_S1x128_S8192x128_0_1 : (⟨S1x128, .f32⟩ : BufTy).Contents (Elt F) → (⟨S8192x128, .f32⟩ : BufTy).Contents (Elt F)),
    binary main_v31 main_v33 main_v34 (addf : (⟨S8192x128, .f32⟩ : BufTy).Contents (Elt F) → (⟨S8192x128, .f32⟩ : BufTy).Contents (Elt F) → (⟨S8192x128, .f32⟩ : BufTy).Contents (Elt F)),
    reshape main_v34 main_v35 rfl shapeCasts_S8192x128_S1x1048576,
    unary main_v35 main_v36 (Host.negf : (⟨S1x1048576, .f32⟩ : BufTy).Contents (Elt F) → (⟨S1x1048576, .f32⟩ : BufTy).Contents (Elt F)),
    unary main_v36 main_v37 (Host.exp : (⟨S1x1048576, .f32⟩ : BufTy).Contents (Elt F) → (⟨S1x1048576, .f32⟩ : BufTy).Contents (Elt F)),
    nullary main_cst_2 (constant S_ .f32 0x3F800000#32),
    unary main_cst_2 main_v38 (broadcastInDim S1x1048576 ![] bcast_S_S1x1048576 : (⟨S_, .f32⟩ : BufTy).Contents (Elt F) → (⟨S1x1048576, .f32⟩ : BufTy).Contents (Elt F)),
    binary main_v38 main_v37 main_v39 (addf : (⟨S1x1048576, .f32⟩ : BufTy).Contents (Elt F) → (⟨S1x1048576, .f32⟩ : BufTy).Contents (Elt F) → (⟨S1x1048576, .f32⟩ : BufTy).Contents (Elt F)),
    nullary main_cst_3 (constant S_ .f32 0x3F800000#32),
    unary main_cst_3 main_v40 (broadcastInDim S1x1048576 ![] bcast_S_S1x1048576 : (⟨S_, .f32⟩ : BufTy).Contents (Elt F) → (⟨S1x1048576, .f32⟩ : BufTy).Contents (Elt F)),
    binary main_v40 main_v39 main_v41 (Host.divf : (⟨S1x1048576, .f32⟩ : BufTy).Contents (Elt F) → (⟨S1x1048576, .f32⟩ : BufTy).Contents (Elt F) → (⟨S1x1048576, .f32⟩ : BufTy).Contents (Elt F)),
    reshape main_v41 main_v42 rfl shapeCasts_S1x1048576_S1x8192x128 ]

/-- The references slice 8 writes. -/
abbrev S8_W : List (Ref sig .tc) := [main_v31, main_v32, main_v33, main_v34, main_v35, main_v36, main_v37, main_cst_2, main_v38, main_v39, main_cst_3, main_v40, main_v41, main_v42]

theorem S8_writes : (S8 : List (HloOp τ sig (Elt F))).Forall fun op => op.writes ⊆ (S8_W.map (Proc.devRef (τ := τ) .tc)).toFinset := by
  simp only [List.Forall]
  refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 8 does not write keeps its contents. -/
theorem S8_keep (W : Valuation τ sig (Elt F)) (r : Ref sig .tc) (h : r ∉ S8_W) :
    StableHlo.after (S8 (F := F)) W (Proc.devRef .tc r) = W (Proc.devRef .tc r) :=
  StableHlo.after_of_writes_sub (S8 (F := F)) W S8_writes h

theorem S8_main_v42 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v30 : W (Proc.devRef .tc main_v30) = (Cert.ReferenceIdeal.Read.val_main_v30 (F := F) x0 x1 x2))
    (h_main_arg3 : W (Proc.devRef .tc main_arg3) = x3)
    (h_main_arg4 : W (Proc.devRef .tc main_arg4) = x4) :
    StableHlo.after (S8 (F := F)) W (Proc.devRef .tc main_v42) = (Cert.ReferenceIdeal.Read.val_main_v42 (F := F) x0 x1 x2 x3 x4) := by
  after_results
  rw [h_main_v30, h_main_arg3, h_main_arg4]
  try rfl

/-! ## Slice 9: main_v43 … main_v46 -/

/-- Operations main_v43 … main_v46. -/
abbrev S9 : List (HloOp τ sig (Elt F)) :=
  [ unary main_v42 main_v43 ((extractStridedSlice S1x8192x64 ![0, 0, 0] · slices_S1x8192x128_S1x8192x64_0_0_0) : (⟨S1x8192x128, .f32⟩ : BufTy).Contents (Elt F) → (⟨S1x8192x64, .f32⟩ : BufTy).Contents (Elt F)),
    reshape main_v43 main_v44 rfl shapeCasts_S1x8192x64_S1x524288,
    unary main_v42 main_v45 ((extractStridedSlice S1x8192x64 ![0, 0, 64] · slices_S1x8192x128_S1x8192x64_0_0_64) : (⟨S1x8192x128, .f32⟩ : BufTy).Contents (Elt F) → (⟨S1x8192x64, .f32⟩ : BufTy).Contents (Elt F)),
    reshape main_v45 main_v46 rfl shapeCasts_S1x8192x64_S1x524288 ]

/-- The references slice 9 writes. -/
abbrev S9_W : List (Ref sig .tc) := [main_v43, main_v44, main_v45, main_v46]

theorem S9_writes : (S9 : List (HloOp τ sig (Elt F))).Forall fun op => op.writes ⊆ (S9_W.map (Proc.devRef (τ := τ) .tc)).toFinset := by
  simp only [List.Forall]
  refine ⟨?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 9 does not write keeps its contents. -/
theorem S9_keep (W : Valuation τ sig (Elt F)) (r : Ref sig .tc) (h : r ∉ S9_W) :
    StableHlo.after (S9 (F := F)) W (Proc.devRef .tc r) = W (Proc.devRef .tc r) :=
  StableHlo.after_of_writes_sub (S9 (F := F)) W S9_writes h

theorem S9_main_v44 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v42 : W (Proc.devRef .tc main_v42) = (Cert.ReferenceIdeal.Read.val_main_v42 (F := F) x0 x1 x2 x3 x4)) :
    StableHlo.after (S9 (F := F)) W (Proc.devRef .tc main_v44) = (Cert.ReferenceIdeal.Read.val_main_v44 (F := F) x0 x1 x2 x3 x4) := by
  after_results
  rw [h_main_v42]
  try rfl

theorem S9_main_v46 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v42 : W (Proc.devRef .tc main_v42) = (Cert.ReferenceIdeal.Read.val_main_v42 (F := F) x0 x1 x2 x3 x4)) :
    StableHlo.after (S9 (F := F)) W (Proc.devRef .tc main_v46) = (Cert.ReferenceIdeal.Read.val_main_v46 (F := F) x0 x1 x2 x3 x4) := by
  after_results
  rw [h_main_v42]
  try rfl

/-! ## Slice 10: main_v47 … main_v51 -/

/-- Operations main_v47 … main_v51. -/
abbrev S10 : List (HloOp τ sig (Elt F)) :=
  [ binary main_v44 main_arg1 main_v47 (mulf : (⟨S1x524288, .f32⟩ : BufTy).Contents (Elt F) → (⟨S1x524288, .f32⟩ : BufTy).Contents (Elt F) → (⟨S1x524288, .f32⟩ : BufTy).Contents (Elt F)),
    reshape main_v47 main_v48 rfl shapeCasts_S1x524288_S1x8192x64,
    binary main_v14 main_v48 main_v49 ((fun a b => concatenate S1x8192x66 2 [⟨S1x8192x2, a⟩, ⟨S1x8192x64, b⟩] concatenates_S1x8192x2_S1x8192x64_S1x8192x66_d2) : (⟨S1x8192x2, .f32⟩ : BufTy).Contents (Elt F) → (⟨S1x8192x64, .f32⟩ : BufTy).Contents (Elt F) → (⟨S1x8192x66, .f32⟩ : BufTy).Contents (Elt F)),
    unary main_v49 main_v50 ((transpose S8192x66x1 [1, 2, 0] · transposes_S1x8192x66_S8192x66x1_1_2_0) : (⟨S1x8192x66, .f32⟩ : BufTy).Contents (Elt F) → (⟨S8192x66x1, .f32⟩ : BufTy).Contents (Elt F)),
    reshape main_v50 main_v51 rfl shapeCasts_S8192x66x1_S8192x66 ]

/-- The references slice 10 writes. -/
abbrev S10_W : List (Ref sig .tc) := [main_v47, main_v48, main_v49, main_v50, main_v51]

theorem S10_writes : (S10 : List (HloOp τ sig (Elt F))).Forall fun op => op.writes ⊆ (S10_W.map (Proc.devRef (τ := τ) .tc)).toFinset := by
  simp only [List.Forall]
  refine ⟨?_, ?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 10 does not write keeps its contents. -/
theorem S10_keep (W : Valuation τ sig (Elt F)) (r : Ref sig .tc) (h : r ∉ S10_W) :
    StableHlo.after (S10 (F := F)) W (Proc.devRef .tc r) = W (Proc.devRef .tc r) :=
  StableHlo.after_of_writes_sub (S10 (F := F)) W S10_writes h

theorem S10_main_v51 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v14 : W (Proc.devRef .tc main_v14) = (Cert.ReferenceIdeal.Read.val_main_v14 (F := F) x0))
    (h_main_v44 : W (Proc.devRef .tc main_v44) = (Cert.ReferenceIdeal.Read.val_main_v44 (F := F) x0 x1 x2 x3 x4))
    (h_main_arg1 : W (Proc.devRef .tc main_arg1) = x1) :
    StableHlo.after (S10 (F := F)) W (Proc.devRef .tc main_v51) = (Cert.ReferenceIdeal.Read.val_main_v51 (F := F) x0 x1 x2 x3 x4) := by
  after_results
  rw [h_main_v14, h_main_v44, h_main_arg1]
  try rfl

/-! ## Slice 11: main_v52 … main_v52 -/

/-- Operations main_v52 … main_v52. -/
abbrev S11 : List (HloOp τ sig (Elt F)) :=
  [ binary main_v13 main_v51 main_v52 ((fun l r => Host.dotGeneral dot_S8192x8192_S8192x66_S8192x66_1_0_0_1_n_n none l r) : (⟨S8192x8192, .f32⟩ : BufTy).Contents (Elt F) → (⟨S8192x66, .f32⟩ : BufTy).Contents (Elt F) → (⟨S8192x66, .f32⟩ : BufTy).Contents (Elt F)) ]

/-- The references slice 11 writes. -/
abbrev S11_W : List (Ref sig .tc) := [main_v52]

theorem S11_writes : (S11 : List (HloOp τ sig (Elt F))).Forall fun op => op.writes ⊆ (S11_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)

/-- A buffer slice 11 does not write keeps its contents. -/
theorem S11_keep (W : Valuation τ sig (Elt F)) (r : Ref sig .tc) (h : r ∉ S11_W) :
    StableHlo.after (S11 (F := F)) W (Proc.devRef .tc r) = W (Proc.devRef .tc r) :=
  StableHlo.after_of_writes_sub (S11 (F := F)) W S11_writes h

theorem S11_main_v52 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v13 : W (Proc.devRef .tc main_v13) = (Cert.ReferenceIdeal.Read.val_main_v13 (F := F) x2))
    (h_main_v51 : W (Proc.devRef .tc main_v51) = (Cert.ReferenceIdeal.Read.val_main_v51 (F := F) x0 x1 x2 x3 x4)) :
    StableHlo.after (S11 (F := F)) W (Proc.devRef .tc main_v52) = (Cert.ReferenceIdeal.Read.val_main_v52 (F := F) x0 x1 x2 x3 x4) := by
  after_results
  rw [h_main_v13, h_main_v51]
  try rfl

/-! ## Slice 12: main_v53 … main_v56 -/

/-- Operations main_v53 … main_v56. -/
abbrev S12 : List (HloOp τ sig (Elt F)) :=
  [ binary main_v13 main_v52 main_v53 ((fun l r => Host.dotGeneral dot_S8192x8192_S8192x66_S8192x66_1_0_0_1_n_n none l r) : (⟨S8192x8192, .f32⟩ : BufTy).Contents (Elt F) → (⟨S8192x66, .f32⟩ : BufTy).Contents (Elt F) → (⟨S8192x66, .f32⟩ : BufTy).Contents (Elt F)),
    nullary main_cst_4 (constant S_ .f32 0x40000000#32),
    unary main_cst_4 main_v54 (broadcastInDim S8192x66 ![] bcast_S_S8192x66 : (⟨S_, .f32⟩ : BufTy).Contents (Elt F) → (⟨S8192x66, .f32⟩ : BufTy).Contents (Elt F)),
    binary main_v54 main_v53 main_v55 (mulf : (⟨S8192x66, .f32⟩ : BufTy).Contents (Elt F) → (⟨S8192x66, .f32⟩ : BufTy).Contents (Elt F) → (⟨S8192x66, .f32⟩ : BufTy).Contents (Elt F)),
    binary main_v55 main_v51 main_v56 (subf : (⟨S8192x66, .f32⟩ : BufTy).Contents (Elt F) → (⟨S8192x66, .f32⟩ : BufTy).Contents (Elt F) → (⟨S8192x66, .f32⟩ : BufTy).Contents (Elt F)) ]

/-- The references slice 12 writes. -/
abbrev S12_W : List (Ref sig .tc) := [main_v53, main_cst_4, main_v54, main_v55, main_v56]

theorem S12_writes : (S12 : List (HloOp τ sig (Elt F))).Forall fun op => op.writes ⊆ (S12_W.map (Proc.devRef (τ := τ) .tc)).toFinset := by
  simp only [List.Forall]
  refine ⟨?_, ?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 12 does not write keeps its contents. -/
theorem S12_keep (W : Valuation τ sig (Elt F)) (r : Ref sig .tc) (h : r ∉ S12_W) :
    StableHlo.after (S12 (F := F)) W (Proc.devRef .tc r) = W (Proc.devRef .tc r) :=
  StableHlo.after_of_writes_sub (S12 (F := F)) W S12_writes h

theorem S12_main_v56 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v13 : W (Proc.devRef .tc main_v13) = (Cert.ReferenceIdeal.Read.val_main_v13 (F := F) x2))
    (h_main_v52 : W (Proc.devRef .tc main_v52) = (Cert.ReferenceIdeal.Read.val_main_v52 (F := F) x0 x1 x2 x3 x4))
    (h_main_v51 : W (Proc.devRef .tc main_v51) = (Cert.ReferenceIdeal.Read.val_main_v51 (F := F) x0 x1 x2 x3 x4)) :
    StableHlo.after (S12 (F := F)) W (Proc.devRef .tc main_v56) = (Cert.ReferenceIdeal.Read.val_main_v56 (F := F) x0 x1 x2 x3 x4) := by
  after_results
  rw [h_main_v13, h_main_v52, h_main_v51]
  try rfl

/-! ## Slice 13: main_v57 … main_v59 -/

/-- Operations main_v57 … main_v59. -/
abbrev S13 : List (HloOp τ sig (Elt F)) :=
  [ unary main_v51 main_v57 (broadcastInDim S1x8192x66 ![1, 2] bcast_S8192x66_S1x8192x66_1_2 : (⟨S8192x66, .f32⟩ : BufTy).Contents (Elt F) → (⟨S1x8192x66, .f32⟩ : BufTy).Contents (Elt F)),
    unary main_v52 main_v58 (broadcastInDim S1x8192x66 ![1, 2] bcast_S8192x66_S1x8192x66_1_2 : (⟨S8192x66, .f32⟩ : BufTy).Contents (Elt F) → (⟨S1x8192x66, .f32⟩ : BufTy).Contents (Elt F)),
    unary main_v56 main_v59 (broadcastInDim S1x8192x66 ![1, 2] bcast_S8192x66_S1x8192x66_1_2 : (⟨S8192x66, .f32⟩ : BufTy).Contents (Elt F) → (⟨S1x8192x66, .f32⟩ : BufTy).Contents (Elt F)) ]

/-- The references slice 13 writes. -/
abbrev S13_W : List (Ref sig .tc) := [main_v57, main_v58, main_v59]

theorem S13_writes : (S13 : List (HloOp τ sig (Elt F))).Forall fun op => op.writes ⊆ (S13_W.map (Proc.devRef (τ := τ) .tc)).toFinset := by
  simp only [List.Forall]
  refine ⟨?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 13 does not write keeps its contents. -/
theorem S13_keep (W : Valuation τ sig (Elt F)) (r : Ref sig .tc) (h : r ∉ S13_W) :
    StableHlo.after (S13 (F := F)) W (Proc.devRef .tc r) = W (Proc.devRef .tc r) :=
  StableHlo.after_of_writes_sub (S13 (F := F)) W S13_writes h

theorem S13_main_v57 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v51 : W (Proc.devRef .tc main_v51) = (Cert.ReferenceIdeal.Read.val_main_v51 (F := F) x0 x1 x2 x3 x4)) :
    StableHlo.after (S13 (F := F)) W (Proc.devRef .tc main_v57) = (Cert.ReferenceIdeal.Read.val_main_v57 (F := F) x0 x1 x2 x3 x4) := by
  after_results
  rw [h_main_v51]
  try rfl

theorem S13_main_v58 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v52 : W (Proc.devRef .tc main_v52) = (Cert.ReferenceIdeal.Read.val_main_v52 (F := F) x0 x1 x2 x3 x4)) :
    StableHlo.after (S13 (F := F)) W (Proc.devRef .tc main_v58) = (Cert.ReferenceIdeal.Read.val_main_v58 (F := F) x0 x1 x2 x3 x4) := by
  after_results
  rw [h_main_v52]
  try rfl

theorem S13_main_v59 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v56 : W (Proc.devRef .tc main_v56) = (Cert.ReferenceIdeal.Read.val_main_v56 (F := F) x0 x1 x2 x3 x4)) :
    StableHlo.after (S13 (F := F)) W (Proc.devRef .tc main_v59) = (Cert.ReferenceIdeal.Read.val_main_v59 (F := F) x0 x1 x2 x3 x4) := by
  after_results
  rw [h_main_v56]
  try rfl

/-! ## Slice 14: main_v60 … main_v60 -/

/-- Operations main_v60 … main_v60. -/
abbrev S14 : List (HloOp τ sig (Elt F)) :=
  [ nary ![main_v57, main_v58, main_v59] main_v60 (fun u => concatenate S3x8192x66 0 [⟨S1x8192x66, u 0⟩, ⟨S1x8192x66, u 1⟩, ⟨S1x8192x66, u 2⟩] concatenates_S1x8192x66_S1x8192x66_S1x8192x66_S3x8192x66_d0) ]

/-- The references slice 14 writes. -/
abbrev S14_W : List (Ref sig .tc) := [main_v60]

theorem S14_writes : (S14 : List (HloOp τ sig (Elt F))).Forall fun op => op.writes ⊆ (S14_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)

/-- A buffer slice 14 does not write keeps its contents. -/
theorem S14_keep (W : Valuation τ sig (Elt F)) (r : Ref sig .tc) (h : r ∉ S14_W) :
    StableHlo.after (S14 (F := F)) W (Proc.devRef .tc r) = W (Proc.devRef .tc r) :=
  StableHlo.after_of_writes_sub (S14 (F := F)) W S14_writes h

theorem S14_main_v60 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v57 : W (Proc.devRef .tc main_v57) = (Cert.ReferenceIdeal.Read.val_main_v57 (F := F) x0 x1 x2 x3 x4))
    (h_main_v58 : W (Proc.devRef .tc main_v58) = (Cert.ReferenceIdeal.Read.val_main_v58 (F := F) x0 x1 x2 x3 x4))
    (h_main_v59 : W (Proc.devRef .tc main_v59) = (Cert.ReferenceIdeal.Read.val_main_v59 (F := F) x0 x1 x2 x3 x4)) :
    StableHlo.after (S14 (F := F)) W (Proc.devRef .tc main_v60) = (Cert.ReferenceIdeal.Read.val_main_v60 (F := F) x0 x1 x2 x3 x4) := by
  after_results
  show concatenate S3x8192x66 0 [⟨S1x8192x66, W (Proc.devRef .tc main_v57)⟩, ⟨S1x8192x66, W (Proc.devRef .tc main_v58)⟩, ⟨S1x8192x66, W (Proc.devRef .tc main_v59)⟩] concatenates_S1x8192x66_S1x8192x66_S1x8192x66_S3x8192x66_d0 = _
  rw [h_main_v57, h_main_v58, h_main_v59]
  try rfl

/-! ## Slice 15: main_v61 … main_v63 -/

/-- Operations main_v61 … main_v63. -/
abbrev S15 : List (HloOp τ sig (Elt F)) :=
  [ reshape main_v60 main_v61 rfl shapeCasts_S3x8192x66_S3x8192x66x1,
    unary main_v61 main_v62 ((transpose S1x8192x66x3 [3, 1, 2, 0] · transposes_S3x8192x66x1_S1x8192x66x3_3_1_2_0) : (⟨S3x8192x66x1, .f32⟩ : BufTy).Contents (Elt F) → (⟨S1x8192x66x3, .f32⟩ : BufTy).Contents (Elt F)),
    reshape main_v62 main_v63 rfl shapeCasts_S1x8192x66x3_S8192x198 ]

/-- The references slice 15 writes. -/
abbrev S15_W : List (Ref sig .tc) := [main_v61, main_v62, main_v63]

theorem S15_writes : (S15 : List (HloOp τ sig (Elt F))).Forall fun op => op.writes ⊆ (S15_W.map (Proc.devRef (τ := τ) .tc)).toFinset := by
  simp only [List.Forall]
  refine ⟨?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 15 does not write keeps its contents. -/
theorem S15_keep (W : Valuation τ sig (Elt F)) (r : Ref sig .tc) (h : r ∉ S15_W) :
    StableHlo.after (S15 (F := F)) W (Proc.devRef .tc r) = W (Proc.devRef .tc r) :=
  StableHlo.after_of_writes_sub (S15 (F := F)) W S15_writes h

theorem S15_main_v63 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v60 : W (Proc.devRef .tc main_v60) = (Cert.ReferenceIdeal.Read.val_main_v60 (F := F) x0 x1 x2 x3 x4)) :
    StableHlo.after (S15 (F := F)) W (Proc.devRef .tc main_v63) = (Cert.ReferenceIdeal.Read.val_main_v63 (F := F) x0 x1 x2 x3 x4) := by
  after_results
  rw [h_main_v60]
  try rfl

/-! ## Slice 16: main_v64 … main_v69 -/

/-- Operations main_v64 … main_v69. -/
abbrev S16 : List (HloOp τ sig (Elt F)) :=
  [ binary main_v63 main_arg5 main_v64 ((fun l r => Host.dotGeneral dot_S8192x198_S198x64_S8192x64_1_0_0_1_n_n none l r) : (⟨S8192x198, .f32⟩ : BufTy).Contents (Elt F) → (⟨S198x64, .f32⟩ : BufTy).Contents (Elt F) → (⟨S8192x64, .f32⟩ : BufTy).Contents (Elt F)),
    unary main_arg6 main_v65 (broadcastInDim S1x64 ![1] bcast_S64_S1x64_1 : (⟨S64, .f32⟩ : BufTy).Contents (Elt F) → (⟨S1x64, .f32⟩ : BufTy).Contents (Elt F)),
    unary main_v65 main_v66 (broadcastInDim S8192x64 ![0, 1] bcast_S1x64_S8192x64_0_1 : (⟨S1x64, .f32⟩ : BufTy).Contents (Elt F) → (⟨S8192x64, .f32⟩ : BufTy).Contents (Elt F)),
    binary main_v64 main_v66 main_v67 (addf : (⟨S8192x64, .f32⟩ : BufTy).Contents (Elt F) → (⟨S8192x64, .f32⟩ : BufTy).Contents (Elt F) → (⟨S8192x64, .f32⟩ : BufTy).Contents (Elt F)),
    reshape main_v67 main_v68 rfl shapeCasts_S8192x64_S1x524288,
    unary main_v68 main_v69 (Host.tanh : (⟨S1x524288, .f32⟩ : BufTy).Contents (Elt F) → (⟨S1x524288, .f32⟩ : BufTy).Contents (Elt F)) ]

/-- The references slice 16 writes. -/
abbrev S16_W : List (Ref sig .tc) := [main_v64, main_v65, main_v66, main_v67, main_v68, main_v69]

theorem S16_writes : (S16 : List (HloOp τ sig (Elt F))).Forall fun op => op.writes ⊆ (S16_W.map (Proc.devRef (τ := τ) .tc)).toFinset := by
  simp only [List.Forall]
  refine ⟨?_, ?_, ?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 16 does not write keeps its contents. -/
theorem S16_keep (W : Valuation τ sig (Elt F)) (r : Ref sig .tc) (h : r ∉ S16_W) :
    StableHlo.after (S16 (F := F)) W (Proc.devRef .tc r) = W (Proc.devRef .tc r) :=
  StableHlo.after_of_writes_sub (S16 (F := F)) W S16_writes h

theorem S16_main_v69 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v63 : W (Proc.devRef .tc main_v63) = (Cert.ReferenceIdeal.Read.val_main_v63 (F := F) x0 x1 x2 x3 x4))
    (h_main_arg5 : W (Proc.devRef .tc main_arg5) = x5)
    (h_main_arg6 : W (Proc.devRef .tc main_arg6) = x6) :
    StableHlo.after (S16 (F := F)) W (Proc.devRef .tc main_v69) = (Cert.ReferenceIdeal.Read.val_main_v69 (F := F) x0 x1 x2 x3 x4 x5 x6) := by
  after_results
  rw [h_main_v63, h_main_arg5, h_main_arg6]
  try rfl

/-! ## Slice 17: main_v70 … main_v74 -/

/-- Operations main_v70 … main_v74. -/
abbrev S17 : List (HloOp τ sig (Elt F)) :=
  [ binary main_v46 main_arg1 main_v70 (mulf : (⟨S1x524288, .f32⟩ : BufTy).Contents (Elt F) → (⟨S1x524288, .f32⟩ : BufTy).Contents (Elt F) → (⟨S1x524288, .f32⟩ : BufTy).Contents (Elt F)),
    nullary main_cst_5 (constant S_ .f32 0x3F800000#32),
    unary main_cst_5 main_v71 (broadcastInDim S1x524288 ![] bcast_S_S1x524288 : (⟨S_, .f32⟩ : BufTy).Contents (Elt F) → (⟨S1x524288, .f32⟩ : BufTy).Contents (Elt F)),
    binary main_v71 main_v46 main_v72 (subf : (⟨S1x524288, .f32⟩ : BufTy).Contents (Elt F) → (⟨S1x524288, .f32⟩ : BufTy).Contents (Elt F) → (⟨S1x524288, .f32⟩ : BufTy).Contents (Elt F)),
    binary main_v72 main_v69 main_v73 (mulf : (⟨S1x524288, .f32⟩ : BufTy).Contents (Elt F) → (⟨S1x524288, .f32⟩ : BufTy).Contents (Elt F) → (⟨S1x524288, .f32⟩ : BufTy).Contents (Elt F)),
    binary main_v70 main_v73 main_v74 (addf : (⟨S1x524288, .f32⟩ : BufTy).Contents (Elt F) → (⟨S1x524288, .f32⟩ : BufTy).Contents (Elt F) → (⟨S1x524288, .f32⟩ : BufTy).Contents (Elt F))  ]

/-- The references slice 17 writes. -/
abbrev S17_W : List (Ref sig .tc) := [main_v70, main_cst_5, main_v71, main_v72, main_v73, main_v74]

theorem S17_writes : (S17 : List (HloOp τ sig (Elt F))).Forall fun op => op.writes ⊆ (S17_W.map (Proc.devRef (τ := τ) .tc)).toFinset := by
  simp only [List.Forall]
  refine ⟨?_, ?_, ?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer slice 17 does not write keeps its contents. -/
theorem S17_keep (W : Valuation τ sig (Elt F)) (r : Ref sig .tc) (h : r ∉ S17_W) :
    StableHlo.after (S17 (F := F)) W (Proc.devRef .tc r) = W (Proc.devRef .tc r) :=
  StableHlo.after_of_writes_sub (S17 (F := F)) W S17_writes h

theorem S17_main_v74 (W : Valuation τ sig (Elt F)) (x0 : (⟨S1x16384, .f32⟩ : BufTy).Contents (Elt F)) (x1 : (⟨S1x524288, .f32⟩ : BufTy).Contents (Elt F)) (x2 : (⟨S8192x8192, .f32⟩ : BufTy).Contents (Elt F)) (x3 : (⟨S198x128, .f32⟩ : BufTy).Contents (Elt F)) (x4 : (⟨S128, .f32⟩ : BufTy).Contents (Elt F)) (x5 : (⟨S198x64, .f32⟩ : BufTy).Contents (Elt F)) (x6 : (⟨S64, .f32⟩ : BufTy).Contents (Elt F))
    (h_main_v46 : W (Proc.devRef .tc main_v46) = (Cert.ReferenceIdeal.Read.val_main_v46 (F := F) x0 x1 x2 x3 x4))
    (h_main_arg1 : W (Proc.devRef .tc main_arg1) = x1)
    (h_main_v69 : W (Proc.devRef .tc main_v69) = (Cert.ReferenceIdeal.Read.val_main_v69 (F := F) x0 x1 x2 x3 x4 x5 x6)) :
    StableHlo.after (S17 (F := F)) W (Proc.devRef .tc main_v74) = (Cert.ReferenceIdeal.Read.val_main_v74 (F := F) x0 x1 x2 x3 x4 x5 x6) := by
  after_results
  rw [h_main_v46, h_main_arg1, h_main_v69]
  try rfl

/-! ## The chain -/

/-- The operations are the slices in order. -/
theorem ops_eq : (ops : List (HloOp τ sig (Elt F))) = S1 ++ (S2 ++ (S3 ++ (S4 ++ (S5 ++ (S6 ++ (S7 ++ (S8 ++ (S9 ++ (S10 ++ (S11 ++ (S12 ++ (S13 ++ (S14 ++ (S15 ++ (S16 ++ (S17)))))))))))))))) := rfl

/-- The result buffer after the operations holds the last stage of the argument arrays. -/
theorem after_ops_result (V : Valuation τ sig (Elt F)) :
    StableHlo.after ops V (Proc.devRef .tc main_v74)
      = (Cert.ReferenceIdeal.Read.val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) := by
  rw [ops_eq]
  simp only [after_append]
  have f1_main_arg0 : StableHlo.after S1 V (Proc.devRef .tc main_arg0) = (V (Proc.devRef .tc main_arg0)) :=
    S1_keep V main_arg0 (by decide)
  have f1_main_arg1 : StableHlo.after S1 V (Proc.devRef .tc main_arg1) = (V (Proc.devRef .tc main_arg1)) :=
    S1_keep V main_arg1 (by decide)
  have f1_main_v13 : StableHlo.after S1 V (Proc.devRef .tc main_v13) = (Cert.ReferenceIdeal.Read.val_main_v13 (F := F) (V (Proc.devRef .tc main_arg2))) :=
    S1_main_v13 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) rfl
  have f1_main_arg3 : StableHlo.after S1 V (Proc.devRef .tc main_arg3) = (V (Proc.devRef .tc main_arg3)) :=
    S1_keep V main_arg3 (by decide)
  have f1_main_arg4 : StableHlo.after S1 V (Proc.devRef .tc main_arg4) = (V (Proc.devRef .tc main_arg4)) :=
    S1_keep V main_arg4 (by decide)
  have f1_main_arg5 : StableHlo.after S1 V (Proc.devRef .tc main_arg5) = (V (Proc.devRef .tc main_arg5)) :=
    S1_keep V main_arg5 (by decide)
  have f1_main_arg6 : StableHlo.after S1 V (Proc.devRef .tc main_arg6) = (V (Proc.devRef .tc main_arg6)) :=
    S1_keep V main_arg6 (by decide)
  generalize StableHlo.after S1 V = V1 at *
  have f2_main_arg1 : StableHlo.after S2 V1 (Proc.devRef .tc main_arg1) = (V (Proc.devRef .tc main_arg1)) :=
    (S2_keep V1 main_arg1 (by decide)).trans f1_main_arg1
  have f2_main_v13 : StableHlo.after S2 V1 (Proc.devRef .tc main_v13) = (Cert.ReferenceIdeal.Read.val_main_v13 (F := F) (V (Proc.devRef .tc main_arg2))) :=
    (S2_keep V1 main_v13 (by decide)).trans f1_main_v13
  have f2_main_v18 : StableHlo.after S2 V1 (Proc.devRef .tc main_v18) = (Cert.ReferenceIdeal.Read.val_main_v18 (F := F) (V (Proc.devRef .tc main_arg0)) (V (Proc.devRef .tc main_arg1))) :=
    S2_main_v18 V1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f1_main_arg0 f1_main_arg1
  have f2_main_arg3 : StableHlo.after S2 V1 (Proc.devRef .tc main_arg3) = (V (Proc.devRef .tc main_arg3)) :=
    (S2_keep V1 main_arg3 (by decide)).trans f1_main_arg3
  have f2_main_arg4 : StableHlo.after S2 V1 (Proc.devRef .tc main_arg4) = (V (Proc.devRef .tc main_arg4)) :=
    (S2_keep V1 main_arg4 (by decide)).trans f1_main_arg4
  have f2_main_v14 : StableHlo.after S2 V1 (Proc.devRef .tc main_v14) = (Cert.ReferenceIdeal.Read.val_main_v14 (F := F) (V (Proc.devRef .tc main_arg0))) :=
    S2_main_v14 V1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f1_main_arg0
  have f2_main_arg5 : StableHlo.after S2 V1 (Proc.devRef .tc main_arg5) = (V (Proc.devRef .tc main_arg5)) :=
    (S2_keep V1 main_arg5 (by decide)).trans f1_main_arg5
  have f2_main_arg6 : StableHlo.after S2 V1 (Proc.devRef .tc main_arg6) = (V (Proc.devRef .tc main_arg6)) :=
    (S2_keep V1 main_arg6 (by decide)).trans f1_main_arg6
  generalize StableHlo.after S2 V1 = V2 at *
  have f3_main_arg1 : StableHlo.after S3 V2 (Proc.devRef .tc main_arg1) = (V (Proc.devRef .tc main_arg1)) :=
    (S3_keep V2 main_arg1 (by decide)).trans f2_main_arg1
  have f3_main_v13 : StableHlo.after S3 V2 (Proc.devRef .tc main_v13) = (Cert.ReferenceIdeal.Read.val_main_v13 (F := F) (V (Proc.devRef .tc main_arg2))) :=
    (S3_keep V2 main_v13 (by decide)).trans f2_main_v13
  have f3_main_v18 : StableHlo.after S3 V2 (Proc.devRef .tc main_v18) = (Cert.ReferenceIdeal.Read.val_main_v18 (F := F) (V (Proc.devRef .tc main_arg0)) (V (Proc.devRef .tc main_arg1))) :=
    (S3_keep V2 main_v18 (by decide)).trans f2_main_v18
  have f3_main_v19 : StableHlo.after S3 V2 (Proc.devRef .tc main_v19) = (Cert.ReferenceIdeal.Read.val_main_v19 (F := F) (V (Proc.devRef .tc main_arg0)) (V (Proc.devRef .tc main_arg1)) (V (Proc.devRef .tc main_arg2))) :=
    S3_main_v19 V2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f2_main_v13 f2_main_v18
  have f3_main_arg3 : StableHlo.after S3 V2 (Proc.devRef .tc main_arg3) = (V (Proc.devRef .tc main_arg3)) :=
    (S3_keep V2 main_arg3 (by decide)).trans f2_main_arg3
  have f3_main_arg4 : StableHlo.after S3 V2 (Proc.devRef .tc main_arg4) = (V (Proc.devRef .tc main_arg4)) :=
    (S3_keep V2 main_arg4 (by decide)).trans f2_main_arg4
  have f3_main_v14 : StableHlo.after S3 V2 (Proc.devRef .tc main_v14) = (Cert.ReferenceIdeal.Read.val_main_v14 (F := F) (V (Proc.devRef .tc main_arg0))) :=
    (S3_keep V2 main_v14 (by decide)).trans f2_main_v14
  have f3_main_arg5 : StableHlo.after S3 V2 (Proc.devRef .tc main_arg5) = (V (Proc.devRef .tc main_arg5)) :=
    (S3_keep V2 main_arg5 (by decide)).trans f2_main_arg5
  have f3_main_arg6 : StableHlo.after S3 V2 (Proc.devRef .tc main_arg6) = (V (Proc.devRef .tc main_arg6)) :=
    (S3_keep V2 main_arg6 (by decide)).trans f2_main_arg6
  generalize StableHlo.after S3 V2 = V3 at *
  have f4_main_arg1 : StableHlo.after S4 V3 (Proc.devRef .tc main_arg1) = (V (Proc.devRef .tc main_arg1)) :=
    (S4_keep V3 main_arg1 (by decide)).trans f3_main_arg1
  have f4_main_v13 : StableHlo.after S4 V3 (Proc.devRef .tc main_v13) = (Cert.ReferenceIdeal.Read.val_main_v13 (F := F) (V (Proc.devRef .tc main_arg2))) :=
    (S4_keep V3 main_v13 (by decide)).trans f3_main_v13
  have f4_main_v18 : StableHlo.after S4 V3 (Proc.devRef .tc main_v18) = (Cert.ReferenceIdeal.Read.val_main_v18 (F := F) (V (Proc.devRef .tc main_arg0)) (V (Proc.devRef .tc main_arg1))) :=
    (S4_keep V3 main_v18 (by decide)).trans f3_main_v18
  have f4_main_v19 : StableHlo.after S4 V3 (Proc.devRef .tc main_v19) = (Cert.ReferenceIdeal.Read.val_main_v19 (F := F) (V (Proc.devRef .tc main_arg0)) (V (Proc.devRef .tc main_arg1)) (V (Proc.devRef .tc main_arg2))) :=
    (S4_keep V3 main_v19 (by decide)).trans f3_main_v19
  have f4_main_v23 : StableHlo.after S4 V3 (Proc.devRef .tc main_v23) = (Cert.ReferenceIdeal.Read.val_main_v23 (F := F) (V (Proc.devRef .tc main_arg0)) (V (Proc.devRef .tc main_arg1)) (V (Proc.devRef .tc main_arg2))) :=
    S4_main_v23 V3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f3_main_v13 f3_main_v19 f3_main_v18
  have f4_main_arg3 : StableHlo.after S4 V3 (Proc.devRef .tc main_arg3) = (V (Proc.devRef .tc main_arg3)) :=
    (S4_keep V3 main_arg3 (by decide)).trans f3_main_arg3
  have f4_main_arg4 : StableHlo.after S4 V3 (Proc.devRef .tc main_arg4) = (V (Proc.devRef .tc main_arg4)) :=
    (S4_keep V3 main_arg4 (by decide)).trans f3_main_arg4
  have f4_main_v14 : StableHlo.after S4 V3 (Proc.devRef .tc main_v14) = (Cert.ReferenceIdeal.Read.val_main_v14 (F := F) (V (Proc.devRef .tc main_arg0))) :=
    (S4_keep V3 main_v14 (by decide)).trans f3_main_v14
  have f4_main_arg5 : StableHlo.after S4 V3 (Proc.devRef .tc main_arg5) = (V (Proc.devRef .tc main_arg5)) :=
    (S4_keep V3 main_arg5 (by decide)).trans f3_main_arg5
  have f4_main_arg6 : StableHlo.after S4 V3 (Proc.devRef .tc main_arg6) = (V (Proc.devRef .tc main_arg6)) :=
    (S4_keep V3 main_arg6 (by decide)).trans f3_main_arg6
  generalize StableHlo.after S4 V3 = V4 at *
  have f5_main_arg1 : StableHlo.after S5 V4 (Proc.devRef .tc main_arg1) = (V (Proc.devRef .tc main_arg1)) :=
    (S5_keep V4 main_arg1 (by decide)).trans f4_main_arg1
  have f5_main_v13 : StableHlo.after S5 V4 (Proc.devRef .tc main_v13) = (Cert.ReferenceIdeal.Read.val_main_v13 (F := F) (V (Proc.devRef .tc main_arg2))) :=
    (S5_keep V4 main_v13 (by decide)).trans f4_main_v13
  have f5_main_v24 : StableHlo.after S5 V4 (Proc.devRef .tc main_v24) = (Cert.ReferenceIdeal.Read.val_main_v24 (F := F) (V (Proc.devRef .tc main_arg0)) (V (Proc.devRef .tc main_arg1))) :=
    S5_main_v24 V4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f4_main_v18
  have f5_main_v25 : StableHlo.after S5 V4 (Proc.devRef .tc main_v25) = (Cert.ReferenceIdeal.Read.val_main_v25 (F := F) (V (Proc.devRef .tc main_arg0)) (V (Proc.devRef .tc main_arg1)) (V (Proc.devRef .tc main_arg2))) :=
    S5_main_v25 V4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f4_main_v19
  have f5_main_v26 : StableHlo.after S5 V4 (Proc.devRef .tc main_v26) = (Cert.ReferenceIdeal.Read.val_main_v26 (F := F) (V (Proc.devRef .tc main_arg0)) (V (Proc.devRef .tc main_arg1)) (V (Proc.devRef .tc main_arg2))) :=
    S5_main_v26 V4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f4_main_v23
  have f5_main_arg3 : StableHlo.after S5 V4 (Proc.devRef .tc main_arg3) = (V (Proc.devRef .tc main_arg3)) :=
    (S5_keep V4 main_arg3 (by decide)).trans f4_main_arg3
  have f5_main_arg4 : StableHlo.after S5 V4 (Proc.devRef .tc main_arg4) = (V (Proc.devRef .tc main_arg4)) :=
    (S5_keep V4 main_arg4 (by decide)).trans f4_main_arg4
  have f5_main_v14 : StableHlo.after S5 V4 (Proc.devRef .tc main_v14) = (Cert.ReferenceIdeal.Read.val_main_v14 (F := F) (V (Proc.devRef .tc main_arg0))) :=
    (S5_keep V4 main_v14 (by decide)).trans f4_main_v14
  have f5_main_arg5 : StableHlo.after S5 V4 (Proc.devRef .tc main_arg5) = (V (Proc.devRef .tc main_arg5)) :=
    (S5_keep V4 main_arg5 (by decide)).trans f4_main_arg5
  have f5_main_arg6 : StableHlo.after S5 V4 (Proc.devRef .tc main_arg6) = (V (Proc.devRef .tc main_arg6)) :=
    (S5_keep V4 main_arg6 (by decide)).trans f4_main_arg6
  generalize StableHlo.after S5 V4 = V5 at *
  have f6_main_arg1 : StableHlo.after S6 V5 (Proc.devRef .tc main_arg1) = (V (Proc.devRef .tc main_arg1)) :=
    (S6_keep V5 main_arg1 (by decide)).trans f5_main_arg1
  have f6_main_v13 : StableHlo.after S6 V5 (Proc.devRef .tc main_v13) = (Cert.ReferenceIdeal.Read.val_main_v13 (F := F) (V (Proc.devRef .tc main_arg2))) :=
    (S6_keep V5 main_v13 (by decide)).trans f5_main_v13
  have f6_main_v27 : StableHlo.after S6 V5 (Proc.devRef .tc main_v27) = (Cert.ReferenceIdeal.Read.val_main_v27 (F := F) (V (Proc.devRef .tc main_arg0)) (V (Proc.devRef .tc main_arg1)) (V (Proc.devRef .tc main_arg2))) :=
    S6_main_v27 V5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f5_main_v24 f5_main_v25 f5_main_v26
  have f6_main_arg3 : StableHlo.after S6 V5 (Proc.devRef .tc main_arg3) = (V (Proc.devRef .tc main_arg3)) :=
    (S6_keep V5 main_arg3 (by decide)).trans f5_main_arg3
  have f6_main_arg4 : StableHlo.after S6 V5 (Proc.devRef .tc main_arg4) = (V (Proc.devRef .tc main_arg4)) :=
    (S6_keep V5 main_arg4 (by decide)).trans f5_main_arg4
  have f6_main_v14 : StableHlo.after S6 V5 (Proc.devRef .tc main_v14) = (Cert.ReferenceIdeal.Read.val_main_v14 (F := F) (V (Proc.devRef .tc main_arg0))) :=
    (S6_keep V5 main_v14 (by decide)).trans f5_main_v14
  have f6_main_arg5 : StableHlo.after S6 V5 (Proc.devRef .tc main_arg5) = (V (Proc.devRef .tc main_arg5)) :=
    (S6_keep V5 main_arg5 (by decide)).trans f5_main_arg5
  have f6_main_arg6 : StableHlo.after S6 V5 (Proc.devRef .tc main_arg6) = (V (Proc.devRef .tc main_arg6)) :=
    (S6_keep V5 main_arg6 (by decide)).trans f5_main_arg6
  generalize StableHlo.after S6 V5 = V6 at *
  have f7_main_arg1 : StableHlo.after S7 V6 (Proc.devRef .tc main_arg1) = (V (Proc.devRef .tc main_arg1)) :=
    (S7_keep V6 main_arg1 (by decide)).trans f6_main_arg1
  have f7_main_v13 : StableHlo.after S7 V6 (Proc.devRef .tc main_v13) = (Cert.ReferenceIdeal.Read.val_main_v13 (F := F) (V (Proc.devRef .tc main_arg2))) :=
    (S7_keep V6 main_v13 (by decide)).trans f6_main_v13
  have f7_main_v30 : StableHlo.after S7 V6 (Proc.devRef .tc main_v30) = (Cert.ReferenceIdeal.Read.val_main_v30 (F := F) (V (Proc.devRef .tc main_arg0)) (V (Proc.devRef .tc main_arg1)) (V (Proc.devRef .tc main_arg2))) :=
    S7_main_v30 V6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f6_main_v27
  have f7_main_arg3 : StableHlo.after S7 V6 (Proc.devRef .tc main_arg3) = (V (Proc.devRef .tc main_arg3)) :=
    (S7_keep V6 main_arg3 (by decide)).trans f6_main_arg3
  have f7_main_arg4 : StableHlo.after S7 V6 (Proc.devRef .tc main_arg4) = (V (Proc.devRef .tc main_arg4)) :=
    (S7_keep V6 main_arg4 (by decide)).trans f6_main_arg4
  have f7_main_v14 : StableHlo.after S7 V6 (Proc.devRef .tc main_v14) = (Cert.ReferenceIdeal.Read.val_main_v14 (F := F) (V (Proc.devRef .tc main_arg0))) :=
    (S7_keep V6 main_v14 (by decide)).trans f6_main_v14
  have f7_main_arg5 : StableHlo.after S7 V6 (Proc.devRef .tc main_arg5) = (V (Proc.devRef .tc main_arg5)) :=
    (S7_keep V6 main_arg5 (by decide)).trans f6_main_arg5
  have f7_main_arg6 : StableHlo.after S7 V6 (Proc.devRef .tc main_arg6) = (V (Proc.devRef .tc main_arg6)) :=
    (S7_keep V6 main_arg6 (by decide)).trans f6_main_arg6
  generalize StableHlo.after S7 V6 = V7 at *
  have f8_main_arg1 : StableHlo.after S8 V7 (Proc.devRef .tc main_arg1) = (V (Proc.devRef .tc main_arg1)) :=
    (S8_keep V7 main_arg1 (by decide)).trans f7_main_arg1
  have f8_main_v13 : StableHlo.after S8 V7 (Proc.devRef .tc main_v13) = (Cert.ReferenceIdeal.Read.val_main_v13 (F := F) (V (Proc.devRef .tc main_arg2))) :=
    (S8_keep V7 main_v13 (by decide)).trans f7_main_v13
  have f8_main_v42 : StableHlo.after S8 V7 (Proc.devRef .tc main_v42) = (Cert.ReferenceIdeal.Read.val_main_v42 (F := F) (V (Proc.devRef .tc main_arg0)) (V (Proc.devRef .tc main_arg1)) (V (Proc.devRef .tc main_arg2)) (V (Proc.devRef .tc main_arg3)) (V (Proc.devRef .tc main_arg4))) :=
    S8_main_v42 V7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f7_main_v30 f7_main_arg3 f7_main_arg4
  have f8_main_v14 : StableHlo.after S8 V7 (Proc.devRef .tc main_v14) = (Cert.ReferenceIdeal.Read.val_main_v14 (F := F) (V (Proc.devRef .tc main_arg0))) :=
    (S8_keep V7 main_v14 (by decide)).trans f7_main_v14
  have f8_main_arg5 : StableHlo.after S8 V7 (Proc.devRef .tc main_arg5) = (V (Proc.devRef .tc main_arg5)) :=
    (S8_keep V7 main_arg5 (by decide)).trans f7_main_arg5
  have f8_main_arg6 : StableHlo.after S8 V7 (Proc.devRef .tc main_arg6) = (V (Proc.devRef .tc main_arg6)) :=
    (S8_keep V7 main_arg6 (by decide)).trans f7_main_arg6
  generalize StableHlo.after S8 V7 = V8 at *
  have f9_main_arg1 : StableHlo.after S9 V8 (Proc.devRef .tc main_arg1) = (V (Proc.devRef .tc main_arg1)) :=
    (S9_keep V8 main_arg1 (by decide)).trans f8_main_arg1
  have f9_main_v13 : StableHlo.after S9 V8 (Proc.devRef .tc main_v13) = (Cert.ReferenceIdeal.Read.val_main_v13 (F := F) (V (Proc.devRef .tc main_arg2))) :=
    (S9_keep V8 main_v13 (by decide)).trans f8_main_v13
  have f9_main_v44 : StableHlo.after S9 V8 (Proc.devRef .tc main_v44) = (Cert.ReferenceIdeal.Read.val_main_v44 (F := F) (V (Proc.devRef .tc main_arg0)) (V (Proc.devRef .tc main_arg1)) (V (Proc.devRef .tc main_arg2)) (V (Proc.devRef .tc main_arg3)) (V (Proc.devRef .tc main_arg4))) :=
    S9_main_v44 V8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f8_main_v42
  have f9_main_v14 : StableHlo.after S9 V8 (Proc.devRef .tc main_v14) = (Cert.ReferenceIdeal.Read.val_main_v14 (F := F) (V (Proc.devRef .tc main_arg0))) :=
    (S9_keep V8 main_v14 (by decide)).trans f8_main_v14
  have f9_main_arg5 : StableHlo.after S9 V8 (Proc.devRef .tc main_arg5) = (V (Proc.devRef .tc main_arg5)) :=
    (S9_keep V8 main_arg5 (by decide)).trans f8_main_arg5
  have f9_main_arg6 : StableHlo.after S9 V8 (Proc.devRef .tc main_arg6) = (V (Proc.devRef .tc main_arg6)) :=
    (S9_keep V8 main_arg6 (by decide)).trans f8_main_arg6
  have f9_main_v46 : StableHlo.after S9 V8 (Proc.devRef .tc main_v46) = (Cert.ReferenceIdeal.Read.val_main_v46 (F := F) (V (Proc.devRef .tc main_arg0)) (V (Proc.devRef .tc main_arg1)) (V (Proc.devRef .tc main_arg2)) (V (Proc.devRef .tc main_arg3)) (V (Proc.devRef .tc main_arg4))) :=
    S9_main_v46 V8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f8_main_v42
  generalize StableHlo.after S9 V8 = V9 at *
  have f10_main_arg1 : StableHlo.after S10 V9 (Proc.devRef .tc main_arg1) = (V (Proc.devRef .tc main_arg1)) :=
    (S10_keep V9 main_arg1 (by decide)).trans f9_main_arg1
  have f10_main_v13 : StableHlo.after S10 V9 (Proc.devRef .tc main_v13) = (Cert.ReferenceIdeal.Read.val_main_v13 (F := F) (V (Proc.devRef .tc main_arg2))) :=
    (S10_keep V9 main_v13 (by decide)).trans f9_main_v13
  have f10_main_v51 : StableHlo.after S10 V9 (Proc.devRef .tc main_v51) = (Cert.ReferenceIdeal.Read.val_main_v51 (F := F) (V (Proc.devRef .tc main_arg0)) (V (Proc.devRef .tc main_arg1)) (V (Proc.devRef .tc main_arg2)) (V (Proc.devRef .tc main_arg3)) (V (Proc.devRef .tc main_arg4))) :=
    S10_main_v51 V9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f9_main_v14 f9_main_v44 f9_main_arg1
  have f10_main_arg5 : StableHlo.after S10 V9 (Proc.devRef .tc main_arg5) = (V (Proc.devRef .tc main_arg5)) :=
    (S10_keep V9 main_arg5 (by decide)).trans f9_main_arg5
  have f10_main_arg6 : StableHlo.after S10 V9 (Proc.devRef .tc main_arg6) = (V (Proc.devRef .tc main_arg6)) :=
    (S10_keep V9 main_arg6 (by decide)).trans f9_main_arg6
  have f10_main_v46 : StableHlo.after S10 V9 (Proc.devRef .tc main_v46) = (Cert.ReferenceIdeal.Read.val_main_v46 (F := F) (V (Proc.devRef .tc main_arg0)) (V (Proc.devRef .tc main_arg1)) (V (Proc.devRef .tc main_arg2)) (V (Proc.devRef .tc main_arg3)) (V (Proc.devRef .tc main_arg4))) :=
    (S10_keep V9 main_v46 (by decide)).trans f9_main_v46
  generalize StableHlo.after S10 V9 = V10 at *
  have f11_main_arg1 : StableHlo.after S11 V10 (Proc.devRef .tc main_arg1) = (V (Proc.devRef .tc main_arg1)) :=
    (S11_keep V10 main_arg1 (by decide)).trans f10_main_arg1
  have f11_main_v13 : StableHlo.after S11 V10 (Proc.devRef .tc main_v13) = (Cert.ReferenceIdeal.Read.val_main_v13 (F := F) (V (Proc.devRef .tc main_arg2))) :=
    (S11_keep V10 main_v13 (by decide)).trans f10_main_v13
  have f11_main_v51 : StableHlo.after S11 V10 (Proc.devRef .tc main_v51) = (Cert.ReferenceIdeal.Read.val_main_v51 (F := F) (V (Proc.devRef .tc main_arg0)) (V (Proc.devRef .tc main_arg1)) (V (Proc.devRef .tc main_arg2)) (V (Proc.devRef .tc main_arg3)) (V (Proc.devRef .tc main_arg4))) :=
    (S11_keep V10 main_v51 (by decide)).trans f10_main_v51
  have f11_main_v52 : StableHlo.after S11 V10 (Proc.devRef .tc main_v52) = (Cert.ReferenceIdeal.Read.val_main_v52 (F := F) (V (Proc.devRef .tc main_arg0)) (V (Proc.devRef .tc main_arg1)) (V (Proc.devRef .tc main_arg2)) (V (Proc.devRef .tc main_arg3)) (V (Proc.devRef .tc main_arg4))) :=
    S11_main_v52 V10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f10_main_v13 f10_main_v51
  have f11_main_arg5 : StableHlo.after S11 V10 (Proc.devRef .tc main_arg5) = (V (Proc.devRef .tc main_arg5)) :=
    (S11_keep V10 main_arg5 (by decide)).trans f10_main_arg5
  have f11_main_arg6 : StableHlo.after S11 V10 (Proc.devRef .tc main_arg6) = (V (Proc.devRef .tc main_arg6)) :=
    (S11_keep V10 main_arg6 (by decide)).trans f10_main_arg6
  have f11_main_v46 : StableHlo.after S11 V10 (Proc.devRef .tc main_v46) = (Cert.ReferenceIdeal.Read.val_main_v46 (F := F) (V (Proc.devRef .tc main_arg0)) (V (Proc.devRef .tc main_arg1)) (V (Proc.devRef .tc main_arg2)) (V (Proc.devRef .tc main_arg3)) (V (Proc.devRef .tc main_arg4))) :=
    (S11_keep V10 main_v46 (by decide)).trans f10_main_v46
  generalize StableHlo.after S11 V10 = V11 at *
  have f12_main_arg1 : StableHlo.after S12 V11 (Proc.devRef .tc main_arg1) = (V (Proc.devRef .tc main_arg1)) :=
    (S12_keep V11 main_arg1 (by decide)).trans f11_main_arg1
  have f12_main_v51 : StableHlo.after S12 V11 (Proc.devRef .tc main_v51) = (Cert.ReferenceIdeal.Read.val_main_v51 (F := F) (V (Proc.devRef .tc main_arg0)) (V (Proc.devRef .tc main_arg1)) (V (Proc.devRef .tc main_arg2)) (V (Proc.devRef .tc main_arg3)) (V (Proc.devRef .tc main_arg4))) :=
    (S12_keep V11 main_v51 (by decide)).trans f11_main_v51
  have f12_main_v52 : StableHlo.after S12 V11 (Proc.devRef .tc main_v52) = (Cert.ReferenceIdeal.Read.val_main_v52 (F := F) (V (Proc.devRef .tc main_arg0)) (V (Proc.devRef .tc main_arg1)) (V (Proc.devRef .tc main_arg2)) (V (Proc.devRef .tc main_arg3)) (V (Proc.devRef .tc main_arg4))) :=
    (S12_keep V11 main_v52 (by decide)).trans f11_main_v52
  have f12_main_v56 : StableHlo.after S12 V11 (Proc.devRef .tc main_v56) = (Cert.ReferenceIdeal.Read.val_main_v56 (F := F) (V (Proc.devRef .tc main_arg0)) (V (Proc.devRef .tc main_arg1)) (V (Proc.devRef .tc main_arg2)) (V (Proc.devRef .tc main_arg3)) (V (Proc.devRef .tc main_arg4))) :=
    S12_main_v56 V11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f11_main_v13 f11_main_v52 f11_main_v51
  have f12_main_arg5 : StableHlo.after S12 V11 (Proc.devRef .tc main_arg5) = (V (Proc.devRef .tc main_arg5)) :=
    (S12_keep V11 main_arg5 (by decide)).trans f11_main_arg5
  have f12_main_arg6 : StableHlo.after S12 V11 (Proc.devRef .tc main_arg6) = (V (Proc.devRef .tc main_arg6)) :=
    (S12_keep V11 main_arg6 (by decide)).trans f11_main_arg6
  have f12_main_v46 : StableHlo.after S12 V11 (Proc.devRef .tc main_v46) = (Cert.ReferenceIdeal.Read.val_main_v46 (F := F) (V (Proc.devRef .tc main_arg0)) (V (Proc.devRef .tc main_arg1)) (V (Proc.devRef .tc main_arg2)) (V (Proc.devRef .tc main_arg3)) (V (Proc.devRef .tc main_arg4))) :=
    (S12_keep V11 main_v46 (by decide)).trans f11_main_v46
  generalize StableHlo.after S12 V11 = V12 at *
  have f13_main_arg1 : StableHlo.after S13 V12 (Proc.devRef .tc main_arg1) = (V (Proc.devRef .tc main_arg1)) :=
    (S13_keep V12 main_arg1 (by decide)).trans f12_main_arg1
  have f13_main_v57 : StableHlo.after S13 V12 (Proc.devRef .tc main_v57) = (Cert.ReferenceIdeal.Read.val_main_v57 (F := F) (V (Proc.devRef .tc main_arg0)) (V (Proc.devRef .tc main_arg1)) (V (Proc.devRef .tc main_arg2)) (V (Proc.devRef .tc main_arg3)) (V (Proc.devRef .tc main_arg4))) :=
    S13_main_v57 V12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f12_main_v51
  have f13_main_v58 : StableHlo.after S13 V12 (Proc.devRef .tc main_v58) = (Cert.ReferenceIdeal.Read.val_main_v58 (F := F) (V (Proc.devRef .tc main_arg0)) (V (Proc.devRef .tc main_arg1)) (V (Proc.devRef .tc main_arg2)) (V (Proc.devRef .tc main_arg3)) (V (Proc.devRef .tc main_arg4))) :=
    S13_main_v58 V12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f12_main_v52
  have f13_main_v59 : StableHlo.after S13 V12 (Proc.devRef .tc main_v59) = (Cert.ReferenceIdeal.Read.val_main_v59 (F := F) (V (Proc.devRef .tc main_arg0)) (V (Proc.devRef .tc main_arg1)) (V (Proc.devRef .tc main_arg2)) (V (Proc.devRef .tc main_arg3)) (V (Proc.devRef .tc main_arg4))) :=
    S13_main_v59 V12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f12_main_v56
  have f13_main_arg5 : StableHlo.after S13 V12 (Proc.devRef .tc main_arg5) = (V (Proc.devRef .tc main_arg5)) :=
    (S13_keep V12 main_arg5 (by decide)).trans f12_main_arg5
  have f13_main_arg6 : StableHlo.after S13 V12 (Proc.devRef .tc main_arg6) = (V (Proc.devRef .tc main_arg6)) :=
    (S13_keep V12 main_arg6 (by decide)).trans f12_main_arg6
  have f13_main_v46 : StableHlo.after S13 V12 (Proc.devRef .tc main_v46) = (Cert.ReferenceIdeal.Read.val_main_v46 (F := F) (V (Proc.devRef .tc main_arg0)) (V (Proc.devRef .tc main_arg1)) (V (Proc.devRef .tc main_arg2)) (V (Proc.devRef .tc main_arg3)) (V (Proc.devRef .tc main_arg4))) :=
    (S13_keep V12 main_v46 (by decide)).trans f12_main_v46
  generalize StableHlo.after S13 V12 = V13 at *
  have f14_main_arg1 : StableHlo.after S14 V13 (Proc.devRef .tc main_arg1) = (V (Proc.devRef .tc main_arg1)) :=
    (S14_keep V13 main_arg1 (by decide)).trans f13_main_arg1
  have f14_main_v60 : StableHlo.after S14 V13 (Proc.devRef .tc main_v60) = (Cert.ReferenceIdeal.Read.val_main_v60 (F := F) (V (Proc.devRef .tc main_arg0)) (V (Proc.devRef .tc main_arg1)) (V (Proc.devRef .tc main_arg2)) (V (Proc.devRef .tc main_arg3)) (V (Proc.devRef .tc main_arg4))) :=
    S14_main_v60 V13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f13_main_v57 f13_main_v58 f13_main_v59
  have f14_main_arg5 : StableHlo.after S14 V13 (Proc.devRef .tc main_arg5) = (V (Proc.devRef .tc main_arg5)) :=
    (S14_keep V13 main_arg5 (by decide)).trans f13_main_arg5
  have f14_main_arg6 : StableHlo.after S14 V13 (Proc.devRef .tc main_arg6) = (V (Proc.devRef .tc main_arg6)) :=
    (S14_keep V13 main_arg6 (by decide)).trans f13_main_arg6
  have f14_main_v46 : StableHlo.after S14 V13 (Proc.devRef .tc main_v46) = (Cert.ReferenceIdeal.Read.val_main_v46 (F := F) (V (Proc.devRef .tc main_arg0)) (V (Proc.devRef .tc main_arg1)) (V (Proc.devRef .tc main_arg2)) (V (Proc.devRef .tc main_arg3)) (V (Proc.devRef .tc main_arg4))) :=
    (S14_keep V13 main_v46 (by decide)).trans f13_main_v46
  generalize StableHlo.after S14 V13 = V14 at *
  have f15_main_arg1 : StableHlo.after S15 V14 (Proc.devRef .tc main_arg1) = (V (Proc.devRef .tc main_arg1)) :=
    (S15_keep V14 main_arg1 (by decide)).trans f14_main_arg1
  have f15_main_v63 : StableHlo.after S15 V14 (Proc.devRef .tc main_v63) = (Cert.ReferenceIdeal.Read.val_main_v63 (F := F) (V (Proc.devRef .tc main_arg0)) (V (Proc.devRef .tc main_arg1)) (V (Proc.devRef .tc main_arg2)) (V (Proc.devRef .tc main_arg3)) (V (Proc.devRef .tc main_arg4))) :=
    S15_main_v63 V14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f14_main_v60
  have f15_main_arg5 : StableHlo.after S15 V14 (Proc.devRef .tc main_arg5) = (V (Proc.devRef .tc main_arg5)) :=
    (S15_keep V14 main_arg5 (by decide)).trans f14_main_arg5
  have f15_main_arg6 : StableHlo.after S15 V14 (Proc.devRef .tc main_arg6) = (V (Proc.devRef .tc main_arg6)) :=
    (S15_keep V14 main_arg6 (by decide)).trans f14_main_arg6
  have f15_main_v46 : StableHlo.after S15 V14 (Proc.devRef .tc main_v46) = (Cert.ReferenceIdeal.Read.val_main_v46 (F := F) (V (Proc.devRef .tc main_arg0)) (V (Proc.devRef .tc main_arg1)) (V (Proc.devRef .tc main_arg2)) (V (Proc.devRef .tc main_arg3)) (V (Proc.devRef .tc main_arg4))) :=
    (S15_keep V14 main_v46 (by decide)).trans f14_main_v46
  generalize StableHlo.after S15 V14 = V15 at *
  have f16_main_arg1 : StableHlo.after S16 V15 (Proc.devRef .tc main_arg1) = (V (Proc.devRef .tc main_arg1)) :=
    (S16_keep V15 main_arg1 (by decide)).trans f15_main_arg1
  have f16_main_v46 : StableHlo.after S16 V15 (Proc.devRef .tc main_v46) = (Cert.ReferenceIdeal.Read.val_main_v46 (F := F) (V (Proc.devRef .tc main_arg0)) (V (Proc.devRef .tc main_arg1)) (V (Proc.devRef .tc main_arg2)) (V (Proc.devRef .tc main_arg3)) (V (Proc.devRef .tc main_arg4))) :=
    (S16_keep V15 main_v46 (by decide)).trans f15_main_v46
  have f16_main_v69 : StableHlo.after S16 V15 (Proc.devRef .tc main_v69) = (Cert.ReferenceIdeal.Read.val_main_v69 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) :=
    S16_main_v69 V15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f15_main_v63 f15_main_arg5 f15_main_arg6
  generalize StableHlo.after S16 V15 = V16 at *
  have f17_main_v74 : StableHlo.after S17 V16 (Proc.devRef .tc main_v74) = (Cert.ReferenceIdeal.Read.val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) :=
    S17_main_v74 V16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f16_main_v46 f16_main_arg1 f16_main_v69
  exact f17_main_v74

/-- No operation writes argument 0. -/
theorem after_ops_arg0 (V : Valuation τ sig (Elt F)) :
    StableHlo.after ops V (Proc.devRef .tc main_arg0) = V (Proc.devRef .tc main_arg0) := by
  rw [ops_eq]
  simp only [after_append]
  rw [S17_keep _ main_arg0 (by decide), S16_keep _ main_arg0 (by decide), S15_keep _ main_arg0 (by decide), S14_keep _ main_arg0 (by decide), S13_keep _ main_arg0 (by decide), S12_keep _ main_arg0 (by decide), S11_keep _ main_arg0 (by decide), S10_keep _ main_arg0 (by decide), S9_keep _ main_arg0 (by decide), S8_keep _ main_arg0 (by decide), S7_keep _ main_arg0 (by decide), S6_keep _ main_arg0 (by decide), S5_keep _ main_arg0 (by decide), S4_keep _ main_arg0 (by decide), S3_keep _ main_arg0 (by decide), S2_keep _ main_arg0 (by decide), S1_keep _ main_arg0 (by decide)]

/-- No operation writes argument 1. -/
theorem after_ops_arg1 (V : Valuation τ sig (Elt F)) :
    StableHlo.after ops V (Proc.devRef .tc main_arg1) = V (Proc.devRef .tc main_arg1) := by
  rw [ops_eq]
  simp only [after_append]
  rw [S17_keep _ main_arg1 (by decide), S16_keep _ main_arg1 (by decide), S15_keep _ main_arg1 (by decide), S14_keep _ main_arg1 (by decide), S13_keep _ main_arg1 (by decide), S12_keep _ main_arg1 (by decide), S11_keep _ main_arg1 (by decide), S10_keep _ main_arg1 (by decide), S9_keep _ main_arg1 (by decide), S8_keep _ main_arg1 (by decide), S7_keep _ main_arg1 (by decide), S6_keep _ main_arg1 (by decide), S5_keep _ main_arg1 (by decide), S4_keep _ main_arg1 (by decide), S3_keep _ main_arg1 (by decide), S2_keep _ main_arg1 (by decide), S1_keep _ main_arg1 (by decide)]

/-- No operation writes argument 2. -/
theorem after_ops_arg2 (V : Valuation τ sig (Elt F)) :
    StableHlo.after ops V (Proc.devRef .tc main_arg2) = V (Proc.devRef .tc main_arg2) := by
  rw [ops_eq]
  simp only [after_append]
  rw [S17_keep _ main_arg2 (by decide), S16_keep _ main_arg2 (by decide), S15_keep _ main_arg2 (by decide), S14_keep _ main_arg2 (by decide), S13_keep _ main_arg2 (by decide), S12_keep _ main_arg2 (by decide), S11_keep _ main_arg2 (by decide), S10_keep _ main_arg2 (by decide), S9_keep _ main_arg2 (by decide), S8_keep _ main_arg2 (by decide), S7_keep _ main_arg2 (by decide), S6_keep _ main_arg2 (by decide), S5_keep _ main_arg2 (by decide), S4_keep _ main_arg2 (by decide), S3_keep _ main_arg2 (by decide), S2_keep _ main_arg2 (by decide), S1_keep _ main_arg2 (by decide)]

/-- No operation writes argument 3. -/
theorem after_ops_arg3 (V : Valuation τ sig (Elt F)) :
    StableHlo.after ops V (Proc.devRef .tc main_arg3) = V (Proc.devRef .tc main_arg3) := by
  rw [ops_eq]
  simp only [after_append]
  rw [S17_keep _ main_arg3 (by decide), S16_keep _ main_arg3 (by decide), S15_keep _ main_arg3 (by decide), S14_keep _ main_arg3 (by decide), S13_keep _ main_arg3 (by decide), S12_keep _ main_arg3 (by decide), S11_keep _ main_arg3 (by decide), S10_keep _ main_arg3 (by decide), S9_keep _ main_arg3 (by decide), S8_keep _ main_arg3 (by decide), S7_keep _ main_arg3 (by decide), S6_keep _ main_arg3 (by decide), S5_keep _ main_arg3 (by decide), S4_keep _ main_arg3 (by decide), S3_keep _ main_arg3 (by decide), S2_keep _ main_arg3 (by decide), S1_keep _ main_arg3 (by decide)]

/-- No operation writes argument 4. -/
theorem after_ops_arg4 (V : Valuation τ sig (Elt F)) :
    StableHlo.after ops V (Proc.devRef .tc main_arg4) = V (Proc.devRef .tc main_arg4) := by
  rw [ops_eq]
  simp only [after_append]
  rw [S17_keep _ main_arg4 (by decide), S16_keep _ main_arg4 (by decide), S15_keep _ main_arg4 (by decide), S14_keep _ main_arg4 (by decide), S13_keep _ main_arg4 (by decide), S12_keep _ main_arg4 (by decide), S11_keep _ main_arg4 (by decide), S10_keep _ main_arg4 (by decide), S9_keep _ main_arg4 (by decide), S8_keep _ main_arg4 (by decide), S7_keep _ main_arg4 (by decide), S6_keep _ main_arg4 (by decide), S5_keep _ main_arg4 (by decide), S4_keep _ main_arg4 (by decide), S3_keep _ main_arg4 (by decide), S2_keep _ main_arg4 (by decide), S1_keep _ main_arg4 (by decide)]

/-- No operation writes argument 5. -/
theorem after_ops_arg5 (V : Valuation τ sig (Elt F)) :
    StableHlo.after ops V (Proc.devRef .tc main_arg5) = V (Proc.devRef .tc main_arg5) := by
  rw [ops_eq]
  simp only [after_append]
  rw [S17_keep _ main_arg5 (by decide), S16_keep _ main_arg5 (by decide), S15_keep _ main_arg5 (by decide), S14_keep _ main_arg5 (by decide), S13_keep _ main_arg5 (by decide), S12_keep _ main_arg5 (by decide), S11_keep _ main_arg5 (by decide), S10_keep _ main_arg5 (by decide), S9_keep _ main_arg5 (by decide), S8_keep _ main_arg5 (by decide), S7_keep _ main_arg5 (by decide), S6_keep _ main_arg5 (by decide), S5_keep _ main_arg5 (by decide), S4_keep _ main_arg5 (by decide), S3_keep _ main_arg5 (by decide), S2_keep _ main_arg5 (by decide), S1_keep _ main_arg5 (by decide)]

/-- No operation writes argument 6. -/
theorem after_ops_arg6 (V : Valuation τ sig (Elt F)) :
    StableHlo.after ops V (Proc.devRef .tc main_arg6) = V (Proc.devRef .tc main_arg6) := by
  rw [ops_eq]
  simp only [after_append]
  rw [S17_keep _ main_arg6 (by decide), S16_keep _ main_arg6 (by decide), S15_keep _ main_arg6 (by decide), S14_keep _ main_arg6 (by decide), S13_keep _ main_arg6 (by decide), S12_keep _ main_arg6 (by decide), S11_keep _ main_arg6 (by decide), S10_keep _ main_arg6 (by decide), S9_keep _ main_arg6 (by decide), S8_keep _ main_arg6 (by decide), S7_keep _ main_arg6 (by decide), S6_keep _ main_arg6 (by decide), S5_keep _ main_arg6 (by decide), S4_keep _ main_arg6 (by decide), S3_keep _ main_arg6 (by decide), S2_keep _ main_arg6 (by decide), S1_keep _ main_arg6 (by decide)]

/-- No operation writes argument 7. -/
theorem after_ops_arg7 (V : Valuation τ sig (Elt F)) :
    StableHlo.after ops V (Proc.devRef .tc main_arg7) = V (Proc.devRef .tc main_arg7) := by
  rw [ops_eq]
  simp only [after_append]
  rw [S17_keep _ main_arg7 (by decide), S16_keep _ main_arg7 (by decide), S15_keep _ main_arg7 (by decide), S14_keep _ main_arg7 (by decide), S13_keep _ main_arg7 (by decide), S12_keep _ main_arg7 (by decide), S11_keep _ main_arg7 (by decide), S10_keep _ main_arg7 (by decide), S9_keep _ main_arg7 (by decide), S8_keep _ main_arg7 (by decide), S7_keep _ main_arg7 (by decide), S6_keep _ main_arg7 (by decide), S5_keep _ main_arg7 (by decide), S4_keep _ main_arg7 (by decide), S3_keep _ main_arg7 (by decide), S2_keep _ main_arg7 (by decide), S1_keep _ main_arg7 (by decide)]

end Cert.ReferenceIdeal.RunP

end
-- ==== Proof.Ref.RealLaw.lean ====
/-
  Real-number laws that join the reference's form of a diffusion step to the specification's form.
  The reference multiplies by the transposed row-normalised matrix `((A + I) · d)ᵀ`; the specification writes the
  identity's contribution apart.
-/
import Mathlib.Data.EReal.Inv
import Mathlib.Algebra.BigOperators.Group.Finset.Basic
import Mathlib.Tactic.Ring

namespace Cert.ReferenceIdeal.RefValue

open Finset

/-- A row's sum with the diagonal's one added is the row's sum plus one. -/
theorem sum_add_diag {n : ℕ} (a : Fin n → Fin n → ℝ) (i : Fin n) :
    (∑ j, (a i j + if i = j then 1 else 0)) = (∑ j, a i j) + 1 := by
  rw [Finset.sum_add_distrib, Finset.sum_ite_eq Finset.univ i (fun _ => (1 : ℝ)), if_pos (Finset.mem_univ i)]

/-- The product of `((A + I) · d)ᵀ` with a vector, the identity's contribution written apart. -/
theorem sum_nadj_mul {n : ℕ} (a : Fin n → Fin n → ℝ) (d x : Fin n → ℝ) (i : Fin n) :
    (∑ j, ((a j i + if j = i then 1 else 0) * d j) * x j) = (∑ j, a j i * (d j * x j)) + d i * x i := by
  have e : ∀ j, ((a j i + if j = i then 1 else 0) * d j) * x j
      = a j i * (d j * x j) + (if j = i then d j * x j else 0) := by
    intro j; split_ifs <;> ring
  rw [Finset.sum_congr rfl (fun j _ => e j), Finset.sum_add_distrib, Finset.sum_ite_eq' Finset.univ i,
    if_pos (Finset.mem_univ i)]

/-- A sum of products of real numbers, read in the extended reals, is the real sum's coercion. -/
theorem sum_coe_mul_coe {ι : Type} (s : Finset ι) (f g : ι → ℝ) :
    (∑ k ∈ s, ((f k : ℝ) : EReal) * ((g k : ℝ) : EReal)) = ((∑ k ∈ s, f k * g k : ℝ) : EReal) := by
  classical
  induction s using Finset.induction_on with
  | empty => simp
  | insert k s hk ih => rw [Finset.sum_insert hk, Finset.sum_insert hk, ih, ← EReal.coe_mul, ← EReal.coe_add]

/-- A sum of real numbers, read in the extended reals, is the real sum's coercion. -/
theorem sum_coe {ι : Type} (s : Finset ι) (f : ι → ℝ) :
    (∑ k ∈ s, ((f k : ℝ) : EReal)) = ((∑ k ∈ s, f k : ℝ) : EReal) := by
  classical
  induction s using Finset.induction_on with
  | empty => simp
  | insert k s hk ih => rw [Finset.sum_insert hk, Finset.sum_insert hk, ih, ← EReal.coe_add]

/-- The transposed row-normalised matrix `((A + I) · d)ᵀ`, `d` the reciprocals of the row sums of `A + I`. -/
noncomputable def nadj {n : ℕ} (a : Fin n → Fin n → ℝ) (i j : Fin n) : ℝ :=
  (a j i + if j = i then 1 else 0) * (1 / ∑ l, (a j l + if j = l then 1 else 0))

/-- A matrix product. -/
noncomputable def mm {n c : ℕ} (m : Fin n → Fin n → ℝ) (x : Fin n → Fin c → ℝ) (i : Fin n) (k : Fin c) : ℝ :=
  ∑ j, m i j * x j k

/-- The stacked matrix over a diffusion matrix `m`: column 3f + t holds feature f of x (t = 0), of `m x` (t = 1),
    of `2 · m (m x) − x` (t = 2). -/
noncomputable def stk {n : ℕ} (m : Fin n → Fin n → ℝ) (x : Fin n → Fin 66 → ℝ) (i : Fin n) (p : Fin 198) : ℝ :=
  if p.val % 3 = 0 then x i ⟨p.val / 3, by have := p.isLt; omega⟩
  else if p.val % 3 = 1 then mm m x i ⟨p.val / 3, by have := p.isLt; omega⟩
  else 2 * mm m (mm m x) i ⟨p.val / 3, by have := p.isLt; omega⟩ - x i ⟨p.val / 3, by have := p.isLt; omega⟩

/-- The stacked matrix times the weights, plus the bias. -/
noncomputable def conv {n C : ℕ} (m : Fin n → Fin n → ℝ) (x : Fin n → Fin 66 → ℝ) (w : Fin 198 → Fin C → ℝ) (b : Fin C → ℝ)
    (i : Fin n) (c : Fin C) : ℝ :=
  (∑ p, stk m x i p * w p c) + b c

/-- The product with the transposed row-normalised matrix is one diffusion step, the identity's contribution apart. -/
theorem mm_nadj {n c : ℕ} (a : Fin n → Fin n → ℝ) (x : Fin n → Fin c → ℝ) (i : Fin n) (k : Fin c) :
    mm (nadj a) x i k
      = (∑ j, a j i * ((1 / ((∑ l, a j l) + 1)) * x j k)) + (1 / ((∑ l, a i l) + 1)) * x i k := by
  unfold mm nadj
  simp only [sum_add_diag]
  exact sum_nadj_mul a (fun j => 1 / ((∑ l, a j l) + 1)) (fun j => x j k) i

end Cert.ReferenceIdeal.RefValue
-- ==== Proof.Ref.Adj.lean ====
/-
  The reference's diffusion matrix read at an index: the identity matrix built from two iotas, the adjacency matrix
  with the diagonal's one added, its row sums, their reciprocals, and the transposed row-normalised matrix
  `((A + I) · d)ᵀ`, each as the coercion of a real number when the adjacency matrix holds real numbers and no row sum
  of `A + I` is zero.
-/
import proofs.«164042_j22436909154350_2_alg».proof.Proof.Ref.ReadStages
import proofs.«164042_j22436909154350_2_alg».proof.Proof.Ref.RealLaw
import Idealize.ShloMosaic.Lib.IdealHost
import Idealize.ShloMosaic.Lib.Affine

set_option maxHeartbeats 400000

noncomputable section

namespace Cert.ReferenceIdeal.RefValue

open Cert.ReferenceIdeal Cert.ReferenceIdeal.Gen Cert.ReferenceIdeal.Read Idealize.ShloMosaic Idealize.ShloMosaic.ValueIdx

/-- The word of a coordinate below 8192 determines the coordinate. -/
theorem ofNat32_inj {i j : Fin 8192} (e : BitVec.ofNat 32 i.val = BitVec.ofNat 32 j.val) : i = j := by
  have h := congrArg BitVec.toNat e
  simp only [BitVec.toNat_ofNat] at h
  have hi := i.isLt; have hj := j.isLt
  exact Fin.ext (by omega)

/-- The identity matrix: the comparison of the row's word with the column's, converted. -/
theorem v5_at (i j : Fin 8192) :
    val_main_v5 (F := Ideal) (ix2 i j) = (((if i = j then 1 else 0 : ℝ)) : EReal) := by
  rw [val_main_v5_apply, val_main_v4_apply, val_main_v3_apply, val_main_v0_apply, val_main_v1_apply,
    val_main_v2_apply, val_main_c_apply]
  show (((IntOp.cmpi .eq (IntOp.addi (BitVec.ofNat 32 i.val) 0#32) (BitVec.ofNat 32 j.val)).toNat : ℝ) : EReal) = _
  have hadd : IntOp.addi (BitVec.ofNat 32 i.val) 0#32 = BitVec.ofNat 32 i.val := by
    show BitVec.ofNat 32 i.val + 0#32 = _; exact BitVec.add_zero _
  rw [hadd]
  by_cases h : i = j
  · subst h
    rw [if_pos rfl, IntOp.cmpi_eq.mpr rfl]
    norm_num
  · rw [if_neg h, eq_zero_of_ne_one (fun e => h (ofNat32_inj (IntOp.cmpi_eq.mp e)))]
    norm_num

variable (a : Fin 8192 → Fin 8192 → ℝ) (A2 : (⟨S8192x8192, .f32⟩ : BufTy).Contents (Elt Ideal))

/-- The adjacency matrix with the diagonal's one added. -/
theorem v6_at (hA2 : ∀ i j, A2 (ix2 i j) = ((a i j : ℝ) : EReal)) (i j : Fin 8192) :
    val_main_v6 (F := Ideal) A2 (ix2 i j) = ((a i j + (if i = j then 1 else 0) : ℝ) : EReal) := by
  rw [val_main_v6_apply, v5_at, hA2, Ideal.addf_def, ← EReal.coe_add]

/-- The row sums of `A + I`. -/
theorem v7_at (hA2 : ∀ i j, A2 (ix2 i j) = ((a i j : ℝ) : EReal)) (i : Fin 8192) :
    val_main_v7 (F := Ideal) A2 (ix1 i) = ((∑ l, (a i l + if i = l then 1 else 0) : ℝ) : EReal) := by
  rw [val_main_v7_apply, val_main_cst_apply, Ideal.ofBits_def, Ideal.ofBits_zero_f32, zero_add, ← sum_coe]
  refine Finset.sum_congr rfl fun l _ => ?_
  have e : idx_main_v7 (ix1 i) l = ix2 i l :=
    funext fun d => Fin.ext (by match d with | ⟨0, _⟩ => rfl | ⟨1, _⟩ => rfl)
  rw [e, v6_at a A2 hA2]

/-- The reciprocals of the row sums, none of which is zero. -/
theorem v9_at (hA2 : ∀ i j, A2 (ix2 i j) = ((a i j : ℝ) : EReal))
    (hnz : ∀ i, (∑ j, (a i j + if i = j then 1 else 0)) ≠ 0) (i : Fin 8192) :
    val_main_v9 (F := Ideal) A2 (ix1 i) = ((1 / ∑ l, (a i l + if i = l then 1 else 0) : ℝ) : EReal) := by
  rw [val_main_v9_apply, val_main_v8_apply, val_main_cst_0_apply, v7_at a A2 hA2, Ideal.hostDivf_def, Ideal.ofBits_def,
    Ideal.ofBits_one_f32, Ideal.div_coe (hnz i), one_mul]

/-- The transposed row-normalised matrix. -/
theorem v13_at (hA2 : ∀ i j, A2 (ix2 i j) = ((a i j : ℝ) : EReal))
    (hnz : ∀ i, (∑ j, (a i j + if i = j then 1 else 0)) ≠ 0) (i j : Fin 8192) :
    val_main_v13 (F := Ideal) A2 (ix2 i j) = ((nadj a i j : ℝ) : EReal) := by
  have e13 : idx_main_v13 (ix2 i j) = ix2 j i :=
    funext fun d => Fin.ext (by match d with | ⟨0, _⟩ => rfl | ⟨1, _⟩ => rfl)
  have e10 : idx_main_v10 (idx_main_v11 (ix2 j i)) = ix1 j :=
    funext fun d => Fin.ext (by match d with | ⟨0, _⟩ => rfl)
  rw [val_main_v13_apply, e13, val_main_v12_apply, val_main_v11_apply, val_main_v10_apply, e10, v6_at a A2 hA2,
    v9_at a A2 hA2 hnz, Ideal.mulf_def, ← EReal.coe_mul]
  rfl

end Cert.ReferenceIdeal.RefValue

end
-- ==== Proof.Ref.Cat.lean ====
/-
  Concatenations read at an index, over arrays of extended reals that hold real numbers: two input columns followed
  by 64 state columns, and three arrays stacked along a new leading axis. Then the logistic function of a real number
  as the reference spells it, `1 / (1 + exp (−x))`.
-/
import Idealize.ShloMosaic.Lib.Pipeline.Value
import Idealize.ShloMosaic.Lib.ValueIdx
import Idealize.ShloMosaic.Lib.IdealHost
import proofs.«164042_j22436909154350_2_alg».proof.Proof.Spec

set_option maxHeartbeats 400000

noncomputable section

namespace Cert.ReferenceIdeal.RefValue

open Idealize.ShloMosaic Idealize.ShloMosaic.ValueIdx

/-- Two columns of `X` followed by 64 columns of `Y`, read at node n and column f. -/
theorem cat_coe (X : (⟨3, ![1, 8192, 2]⟩ : Shape).Idx → EReal) (Y : (⟨3, ![1, 8192, 64]⟩ : Shape).Idx → EReal)
    (h : Shape.Concatenates [(⟨3, ![1, 8192, 2]⟩ : Shape), ⟨3, ![1, 8192, 64]⟩] ⟨3, ![1, 8192, 66]⟩ 2)
    (inp : Fin 8192 → Fin 2 → ℝ) (s : Fin 8192 → Fin 64 → ℝ)
    (hX : ∀ n d, X (ix3 0 n d) = ((inp n d : ℝ) : EReal)) (hY : ∀ n q, Y (ix3 0 n q) = ((s n q : ℝ) : EReal))
    (n : Fin 8192) (f : Fin 66) :
    concatenate (⟨3, ![1, 8192, 66]⟩ : Shape) 2 [⟨⟨3, ![1, 8192, 2]⟩, X⟩, ⟨⟨3, ![1, 8192, 64]⟩, Y⟩] h (ix3 0 n f)
      = ((Cert.Spec.cat inp s n f : ℝ) : EReal) := by
  unfold Cert.Spec.cat
  by_cases hf : f.val < 2
  · rw [dif_pos hf]
    rw [concatenate_pair_apply_left (2 : Fin 3) X Y h (ix3 0 n f) rfl (ix3 0 n ⟨f.val, hf⟩)
      (fun b => by match b with | ⟨0, _⟩ => rfl | ⟨1, _⟩ => rfl | ⟨2, _⟩ => rfl), hX]
  · rw [dif_neg hf]
    rw [concatenate_pair_apply_right (2 : Fin 3) X Y h (ix3 0 n f) rfl rfl
      (ix3 0 n ⟨f.val - 2, by have := f.isLt; omega⟩)
      (fun b hb => by
        match b, hb with
        | ⟨0, _⟩, _ => rfl
        | ⟨1, _⟩, _ => rfl
        | ⟨2, _⟩, hb => exact absurd rfl hb)
      (by show (f.val - 2) + 2 = f.val; omega), hY]

/-- Three arrays stacked along a new leading axis, read at layer t. -/
theorem cat3_at (P0 P1 P2 : (⟨3, ![1, 8192, 66]⟩ : Shape).Idx → EReal)
    (h : Shape.Concatenates [(⟨3, ![1, 8192, 66]⟩ : Shape), ⟨3, ![1, 8192, 66]⟩, ⟨3, ![1, 8192, 66]⟩] ⟨3, ![3, 8192, 66]⟩ 0)
    (t : ℕ) (ht : t < 3) (n : Fin 8192) (f : Fin 66) :
    concatenate (⟨3, ![3, 8192, 66]⟩ : Shape) 0
        [⟨⟨3, ![1, 8192, 66]⟩, P0⟩, ⟨⟨3, ![1, 8192, 66]⟩, P1⟩, ⟨⟨3, ![1, 8192, 66]⟩, P2⟩] h (ix3 ⟨t, ht⟩ n f)
      = if t = 0 then P0 (ix3 0 n f) else if t = 1 then P1 (ix3 0 n f) else P2 (ix3 0 n f) := by
  have hi : ∀ (t : ℕ) (ht : t < 3) (b : Fin 3), b.cast rfl ≠ (0 : Fin 3) →
      ((ix3 (0 : Fin 1) n f : (⟨3, ![1, 8192, 66]⟩ : Shape).Idx) b).val
        = ((ix3 (⟨t, ht⟩ : Fin 3) n f : (⟨3, ![3, 8192, 66]⟩ : Shape).Idx) (b.cast rfl)).val := fun t ht b hb => by
    match b, hb with
    | ⟨0, _⟩, hb => exact absurd rfl hb
    | ⟨1, _⟩, _ => rfl
    | ⟨2, _⟩, _ => rfl
  match t, ht with
  | 0, ht =>
    rw [if_pos rfl]
    exact concatenate_apply_piece (t := ⟨3, ![3, 8192, 66]⟩) (0 : Fin 3)
      [⟨⟨3, ![1, 8192, 66]⟩, P0⟩, ⟨⟨3, ![1, 8192, 66]⟩, P1⟩, ⟨⟨3, ![1, 8192, 66]⟩, P2⟩] h (ix3 ⟨0, ht⟩ n f) 0 (by show (0 : ℕ) < 3; omega)
      ⟨3, ![1, 8192, 66]⟩ P0 rfl rfl 0 rfl (ix3 0 n f) (hi 0 ht) rfl
  | 1, ht =>
    rw [if_neg (by decide), if_pos rfl]
    exact concatenate_apply_piece (t := ⟨3, ![3, 8192, 66]⟩) (0 : Fin 3)
      [⟨⟨3, ![1, 8192, 66]⟩, P0⟩, ⟨⟨3, ![1, 8192, 66]⟩, P1⟩, ⟨⟨3, ![1, 8192, 66]⟩, P2⟩] h (ix3 ⟨1, ht⟩ n f) 1 (by show (1 : ℕ) < 3; omega)
      ⟨3, ![1, 8192, 66]⟩ P1 rfl rfl 1 rfl (ix3 0 n f) (hi 1 ht) rfl
  | 2, ht =>
    rw [if_neg (by decide), if_neg (by decide)]
    exact concatenate_apply_piece (t := ⟨3, ![3, 8192, 66]⟩) (0 : Fin 3)
      [⟨⟨3, ![1, 8192, 66]⟩, P0⟩, ⟨⟨3, ![1, 8192, 66]⟩, P1⟩, ⟨⟨3, ![1, 8192, 66]⟩, P2⟩] h (ix3 ⟨2, ht⟩ n f) 2 (by show (2 : ℕ) < 3; omega)
      ⟨3, ![1, 8192, 66]⟩ P2 rfl rfl 2 rfl (ix3 0 n f) (hi 2 ht) rfl
  | t + 3, ht => exact absurd ht (by omega)

/-- The f32 pattern `0x40000000` is the real number two. -/
theorem ofBits_two_f32 : Ideal.ofBits .f32 0x40000000#32 = ((2 : ℝ) : EReal) := by
  simp [Ideal.ofBits, Ideal.ieee, -EReal.coe_mul]; norm_num

/-- The logistic function of a real number, as `1 / (1 + exp (−x))`. -/
theorem logistic_coe (x : ℝ) :
    Ideal.div 1 (1 + Ideal.exp (-((x : ℝ) : EReal))) = ((Cert.Spec.sig x : ℝ) : EReal) := by
  have hne : (1 + Real.exp (-x)) ≠ 0 := by positivity
  rw [← EReal.coe_neg, Ideal.exp_coe, ← EReal.coe_one, ← EReal.coe_add, Ideal.div_coe hne, ← EReal.coe_mul, one_mul]
  rfl

end Cert.ReferenceIdeal.RefValue

end
-- ==== Proof.Ref.Flat.lean ====
/-
  Row-major positions in the reference's flat argument arrays: node n's d-th input feature sits at 2n + d, its q-th
  state feature at 64n + q, its c-th gate pre-activation at 128n + c.
-/

namespace Cert.ReferenceIdeal.RefValue

/-- Position of input feature d of node n in the flat input array. -/
def flat2 (n : Fin 8192) (d : Fin 2) : Fin 16384 := ⟨2 * n.val + d.val, by have := n.isLt; have := d.isLt; omega⟩

/-- Position of state feature q of node n in the flat state array. -/
def flat64 (n : Fin 8192) (q : Fin 64) : Fin 524288 := ⟨64 * n.val + q.val, by have := n.isLt; have := q.isLt; omega⟩

/-- Position of gate column c of node n in the flat gate array. -/
def flat128 (n : Fin 8192) (c : Fin 128) : Fin 1048576 := ⟨128 * n.val + c.val, by have := n.isLt; have := c.isLt; omega⟩

/-- Every position of the flat state array is a node's state feature. -/
theorem flat64_div_mod (j : Fin 524288) :
    flat64 ⟨j.val / 64, by have := j.isLt; omega⟩ ⟨j.val % 64, by omega⟩ = j :=
  Fin.ext (by show 64 * (j.val / 64) + j.val % 64 = j.val; omega)

end Cert.ReferenceIdeal.RefValue
-- ==== Proof.Ref.X0.lean ====
/-
  The reference's first feature matrix read at an index: the flat input and state arrays reshaped to nodes by
  features, the two input columns followed by the 64 state columns.
-/
import proofs.«164042_j22436909154350_2_alg».proof.Proof.Ref.ReadStages
import proofs.«164042_j22436909154350_2_alg».proof.Proof.Ref.Cat
import proofs.«164042_j22436909154350_2_alg».proof.Proof.Ref.Flat

set_option maxHeartbeats 400000

noncomputable section

namespace Cert.ReferenceIdeal.RefValue

open Cert.ReferenceIdeal Cert.ReferenceIdeal.Gen Cert.ReferenceIdeal.Read Idealize.ShloMosaic Idealize.ShloMosaic.ValueIdx

variable (inp : Fin 8192 → Fin 2 → ℝ) (h : Fin 8192 → Fin 64 → ℝ)
  (A0 : (⟨S1x16384, .f32⟩ : BufTy).Contents (Elt Ideal)) (A1 : (⟨S1x524288, .f32⟩ : BufTy).Contents (Elt Ideal))

/-- The inputs, nodes by features. -/
theorem v14_at (hA0 : ∀ n d, A0 (ix2 0 (flat2 n d)) = ((inp n d : ℝ) : EReal)) (n : Fin 8192) (d : Fin 2) :
    val_main_v14 (F := Ideal) A0 (ix3 0 n d) = ((inp n d : ℝ) : EReal) := by
  have hn := n.isLt; have hd := d.isLt
  have e : idx_main_v14 (ix3 0 n d) = ix2 0 (flat2 n d) := funext fun t => Fin.ext (by
    match t with
    | ⟨0, _⟩ => rfl
    | ⟨1, _⟩ => show ((0 * 8192 + n.val) * 2 + d.val) % 16384 = 2 * n.val + d.val; omega)
  rw [val_main_v14_apply, e, hA0]

/-- The state, nodes by features. -/
theorem v15_at (hA1 : ∀ n q, A1 (ix2 0 (flat64 n q)) = ((h n q : ℝ) : EReal)) (n : Fin 8192) (q : Fin 64) :
    val_main_v15 (F := Ideal) A1 (ix3 0 n q) = ((h n q : ℝ) : EReal) := by
  have hn := n.isLt; have hq := q.isLt
  have e : idx_main_v15 (ix3 0 n q) = ix2 0 (flat64 n q) := funext fun t => Fin.ext (by
    match t with
    | ⟨0, _⟩ => rfl
    | ⟨1, _⟩ => show ((0 * 8192 + n.val) * 64 + q.val) % 524288 = 64 * n.val + q.val; omega)
  rw [val_main_v15_apply, e, hA1]

/-- The first feature matrix: inputs beside state. -/
theorem v18_at (hA0 : ∀ n d, A0 (ix2 0 (flat2 n d)) = ((inp n d : ℝ) : EReal))
    (hA1 : ∀ n q, A1 (ix2 0 (flat64 n q)) = ((h n q : ℝ) : EReal)) (n : Fin 8192) (f : Fin 66) :
    val_main_v18 (F := Ideal) A0 A1 (ix2 n f) = ((Cert.Spec.cat inp h n f : ℝ) : EReal) := by
  have hn := n.isLt; have hf := f.isLt
  have e : idx_main_v17 (idx_main_v18 (ix2 n f)) = ix3 0 n f := funext fun t => Fin.ext (by
    match t with
    | ⟨0, _⟩ => rfl
    | ⟨1, _⟩ => show (n.val * 66 + f.val) / 66 = n.val; omega
    | ⟨2, _⟩ => show (n.val * 66 + f.val) / 1 % 66 = f.val; omega)
  rw [val_main_v18_apply, val_main_v17_apply, e]
  unfold val_main_v16
  exact cat_coe _ _ _ inp h (v14_at inp A0 hA0) (v15_at h A1 hA1) n f

end Cert.ReferenceIdeal.RefValue

end
-- ==== Proof.Ref.StackIdx.lean ====
/-
  Row-major arithmetic of the stacked matrix: position 198n + p of the nodes-by-198 array is layer p % 3, node n,
  feature p / 3 of the three-layer array it is reshaped and transposed from.
-/

namespace Cert.ReferenceIdeal.RefValue

theorem stack_core (n p : Nat) (hn : n < 8192) (hp : p < 198) :
    (n * 198 + p) / 198 % 8192 = n ∧ (n * 198 + p) % 3 = p % 3 ∧ (n * 198 + p) / 3 % 66 = p / 3 := by
  refine ⟨?_, ?_, ?_⟩ <;> omega

theorem stack_layer (t n f : Nat) (ht : t < 3) (hn : n < 8192) (hf : f < 66) :
    (((t * 8192 + n) * 66 + f) * 1 + 0) / 540672 = t := by omega

theorem stack_node (t n f : Nat) (ht : t < 3) (hn : n < 8192) (hf : f < 66) :
    (((t * 8192 + n) * 66 + f) * 1 + 0) / 66 % 8192 = n := by
  have hg : (((t * 8192 + n) * 66 + f) * 1 + 0) / 66 = t * 8192 + n := by omega
  rw [hg]; omega

theorem stack_feature (t n f : Nat) (ht : t < 3) (hn : n < 8192) (hf : f < 66) :
    (((t * 8192 + n) * 66 + f) * 1 + 0) % 66 = f := by omega

/-- The layer of position 198n + p. -/
theorem stack_idx0 (n p : Nat) (hn : n < 8192) (hp : p < 198) :
    ((((n * 198 + p) % 3 * 8192 + (n * 198 + p) / 198 % 8192) * 66 + (n * 198 + p) / 3 % 66) * 1 + 0) / 540672
      = p % 3 := by
  obtain ⟨h1, h2, h3⟩ := stack_core n p hn hp
  rw [h1, h2, h3]
  exact stack_layer (p % 3) n (p / 3) (by omega) hn (by omega)

/-- The node of position 198n + p. -/
theorem stack_idx1 (n p : Nat) (hn : n < 8192) (hp : p < 198) :
    ((((n * 198 + p) % 3 * 8192 + (n * 198 + p) / 198 % 8192) * 66 + (n * 198 + p) / 3 % 66) * 1 + 0) / 66 % 8192
      = n := by
  obtain ⟨h1, h2, h3⟩ := stack_core n p hn hp
  rw [h1, h2, h3]
  exact stack_node (p % 3) n (p / 3) (by omega) hn (by omega)

/-- The feature of position 198n + p. -/
theorem stack_idx2 (n p : Nat) (hn : n < 8192) (hp : p < 198) :
    ((((n * 198 + p) % 3 * 8192 + (n * 198 + p) / 198 % 8192) * 66 + (n * 198 + p) / 3 % 66) * 1 + 0) % 66
      = p / 3 := by
  obtain ⟨h1, h2, h3⟩ := stack_core n p hn hp
  rw [h1, h2, h3]
  exact stack_feature (p % 3) n (p / 3) (by omega) hn (by omega)

end Cert.ReferenceIdeal.RefValue
-- ==== Proof.Ref.Conv1.lean ====
/-
  The first graph convolution of the reference read at an index, over any real diffusion matrix m and any real
  feature matrix x that the stages `main_v13` and `main_v18` hold: the two products with the diffusion matrix,
  the third stacked feature `2 · m (m x) − x`, the stacked matrix with column 3f + t, and the product with the gate
  weights plus the bias.
-/
import proofs.«164042_j22436909154350_2_alg».proof.Proof.Ref.ReadStages
import proofs.«164042_j22436909154350_2_alg».proof.Proof.Ref.RealLaw
import proofs.«164042_j22436909154350_2_alg».proof.Proof.Ref.Cat
import proofs.«164042_j22436909154350_2_alg».proof.Proof.Ref.StackIdx

set_option maxHeartbeats 400000

noncomputable section

namespace Cert.ReferenceIdeal.RefValue

open Cert.ReferenceIdeal Cert.ReferenceIdeal.Gen Cert.ReferenceIdeal.Read Idealize.ShloMosaic Idealize.ShloMosaic.ValueIdx

variable (m : Fin 8192 → Fin 8192 → ℝ) (x : Fin 8192 → Fin 66 → ℝ) (w : Fin 198 → Fin 128 → ℝ) (b : Fin 128 → ℝ)
  (A0 : (⟨S1x16384, .f32⟩ : BufTy).Contents (Elt Ideal)) (A1 : (⟨S1x524288, .f32⟩ : BufTy).Contents (Elt Ideal)) (A2 : (⟨S8192x8192, .f32⟩ : BufTy).Contents (Elt Ideal))
  (A3 : (⟨S198x128, .f32⟩ : BufTy).Contents (Elt Ideal)) (A4 : (⟨S128, .f32⟩ : BufTy).Contents (Elt Ideal))

/-- One product with the diffusion matrix. -/
theorem v19_at (hM : ∀ i j, val_main_v13 (F := Ideal) A2 (ix2 i j) = ((m i j : ℝ) : EReal))
    (hX : ∀ n f, val_main_v18 (F := Ideal) A0 A1 (ix2 n f) = ((x n f : ℝ) : EReal)) (i : Fin 8192) (k : Fin 66) :
    val_main_v19 (F := Ideal) A0 A1 A2 (ix2 i k) = ((mm m x i k : ℝ) : EReal) := by
  rw [val_main_v19_apply]
  refine (Finset.sum_congr rfl fun j _ => ?_).trans (sum_coe_mul_coe Finset.univ (fun j => m i j) (fun j => x j k))
  have el : lidx_main_v19 (ix2 i k) j = ix2 i j := funext fun d => Fin.ext (by match d with | ⟨0, _⟩ => rfl | ⟨1, _⟩ => rfl)
  have er : ridx_main_v19 (ix2 i k) j = ix2 j k := funext fun d => Fin.ext (by match d with | ⟨0, _⟩ => rfl | ⟨1, _⟩ => rfl)
  rw [el, er, hM, hX]

/-- A second product with the diffusion matrix. -/
theorem v20_at (hM : ∀ i j, val_main_v13 (F := Ideal) A2 (ix2 i j) = ((m i j : ℝ) : EReal))
    (hX : ∀ n f, val_main_v18 (F := Ideal) A0 A1 (ix2 n f) = ((x n f : ℝ) : EReal)) (i : Fin 8192) (k : Fin 66) :
    val_main_v20 (F := Ideal) A0 A1 A2 (ix2 i k) = ((mm m (mm m x) i k : ℝ) : EReal) := by
  rw [val_main_v20_apply]
  refine (Finset.sum_congr rfl fun j _ => ?_).trans
    (sum_coe_mul_coe Finset.univ (fun j => m i j) (fun j => mm m x j k))
  have el : lidx_main_v20 (ix2 i k) j = ix2 i j := funext fun d => Fin.ext (by match d with | ⟨0, _⟩ => rfl | ⟨1, _⟩ => rfl)
  have er : ridx_main_v20 (ix2 i k) j = ix2 j k := funext fun d => Fin.ext (by match d with | ⟨0, _⟩ => rfl | ⟨1, _⟩ => rfl)
  rw [el, er, hM, v19_at m x A0 A1 A2 hM hX]

/-- Twice the second product less the features. -/
theorem v23_at (hM : ∀ i j, val_main_v13 (F := Ideal) A2 (ix2 i j) = ((m i j : ℝ) : EReal))
    (hX : ∀ n f, val_main_v18 (F := Ideal) A0 A1 (ix2 n f) = ((x n f : ℝ) : EReal)) (i : Fin 8192) (k : Fin 66) :
    val_main_v23 (F := Ideal) A0 A1 A2 (ix2 i k) = ((2 * mm m (mm m x) i k - x i k : ℝ) : EReal) := by
  rw [val_main_v23_apply, val_main_v22_apply, val_main_v21_apply, val_main_cst_1_apply,
    v20_at m x A0 A1 A2 hM hX, hX,
    Ideal.subf_def, Ideal.mulf_def, Ideal.ofBits_def, ofBits_two_f32, ← EReal.coe_mul, ← EReal.coe_sub]

/-- The stacked matrix: column p holds feature p / 3 of the (p % 3)-th of the three arrays. -/
theorem v30_at (hM : ∀ i j, val_main_v13 (F := Ideal) A2 (ix2 i j) = ((m i j : ℝ) : EReal))
    (hX : ∀ n f, val_main_v18 (F := Ideal) A0 A1 (ix2 n f) = ((x n f : ℝ) : EReal)) (n : Fin 8192) (p : Fin 198) :
    val_main_v30 (F := Ideal) A0 A1 A2 (ix2 n p) = ((stk m x n p : ℝ) : EReal) := by
  have hn := n.isLt; have hp := p.isLt
  have hf : p.val / 3 < 66 := by omega
  have ht : p.val % 3 < 3 := by omega
  have e : idx_main_v28 (idx_main_v29 (idx_main_v30 (ix2 n p))) = ix3 ⟨p.val % 3, ht⟩ n ⟨p.val / 3, hf⟩ :=
    funext fun d => Fin.ext (by
      match d with
      | ⟨0, _⟩ => exact stack_idx0 n.val p.val hn hp
      | ⟨1, _⟩ => exact stack_idx1 n.val p.val hn hp
      | ⟨2, _⟩ => exact stack_idx2 n.val p.val hn hp)
  have e24 : idx_main_v24 (ix3 0 n ⟨p.val / 3, hf⟩) = ix2 n ⟨p.val / 3, hf⟩ := funext fun d => Fin.ext (by match d with | ⟨0, _⟩ => rfl | ⟨1, _⟩ => rfl)
  have e25 : idx_main_v25 (ix3 0 n ⟨p.val / 3, hf⟩) = ix2 n ⟨p.val / 3, hf⟩ := funext fun d => Fin.ext (by match d with | ⟨0, _⟩ => rfl | ⟨1, _⟩ => rfl)
  have e26 : idx_main_v26 (ix3 0 n ⟨p.val / 3, hf⟩) = ix2 n ⟨p.val / 3, hf⟩ := funext fun d => Fin.ext (by match d with | ⟨0, _⟩ => rfl | ⟨1, _⟩ => rfl)
  rw [val_main_v30_apply, val_main_v29_apply, val_main_v28_apply, e]
  unfold val_main_v27
  rw [cat3_at, val_main_v24_apply, val_main_v25_apply, val_main_v26_apply, e24, e25, e26, hX,
    v19_at m x A0 A1 A2 hM hX, v23_at m x A0 A1 A2 hM hX]
  unfold stk
  split_ifs <;> rfl

/-- The convolution: the stacked matrix times the weights, plus the bias. -/
theorem v34_at (hM : ∀ i j, val_main_v13 (F := Ideal) A2 (ix2 i j) = ((m i j : ℝ) : EReal))
    (hX : ∀ n f, val_main_v18 (F := Ideal) A0 A1 (ix2 n f) = ((x n f : ℝ) : EReal))
    (hW : ∀ p c, A3 (ix2 p c) = ((w p c : ℝ) : EReal)) (hB : ∀ c, A4 (ix1 c) = ((b c : ℝ) : EReal))
    (n : Fin 8192) (c : Fin 128) :
    val_main_v34 (F := Ideal) A0 A1 A2 A3 A4 (ix2 n c) = ((conv m x w b n c : ℝ) : EReal) := by
  have eb : idx_main_v32 (idx_main_v33 (ix2 n c)) = ix1 c :=
    funext fun d => Fin.ext (by match d with | ⟨0, _⟩ => rfl)
  rw [val_main_v34_apply, val_main_v33_apply, val_main_v32_apply, eb, hB, val_main_v31_apply, Ideal.addf_def]
  unfold conv
  rw [EReal.coe_add]
  refine congrArg (· + _) ?_
  refine (Finset.sum_congr rfl fun p _ => ?_).trans (sum_coe_mul_coe Finset.univ (fun p => stk m x n p) (fun p => w p c))
  have el : lidx_main_v31 (ix2 n c) p = ix2 n p := funext fun d => Fin.ext (by match d with | ⟨0, _⟩ => rfl | ⟨1, _⟩ => rfl)
  have er : ridx_main_v31 (ix2 n c) p = ix2 p c := funext fun d => Fin.ext (by match d with | ⟨0, _⟩ => rfl | ⟨1, _⟩ => rfl)
  rw [el, er, v30_at m x A0 A1 A2 hM hX, hW]

end Cert.ReferenceIdeal.RefValue

end
-- ==== Proof.Ref.Gates.lean ====
/-
  The reference's gates read at an index: the logistic function of the first convolution, flattened; the reset gate
  (columns 0…63) and the update gate (columns 64…127) of each node, flattened again; and the reset-gated state.
-/
import proofs.«164042_j22436909154350_2_alg».proof.Proof.Ref.ReadStages
import proofs.«164042_j22436909154350_2_alg».proof.Proof.Ref.Conv1
import proofs.«164042_j22436909154350_2_alg».proof.Proof.Ref.Flat

set_option maxHeartbeats 400000

noncomputable section

namespace Cert.ReferenceIdeal.RefValue

open Cert.ReferenceIdeal Cert.ReferenceIdeal.Gen Cert.ReferenceIdeal.Read Idealize.ShloMosaic Idealize.ShloMosaic.ValueIdx

variable (m : Fin 8192 → Fin 8192 → ℝ) (x : Fin 8192 → Fin 66 → ℝ) (w : Fin 198 → Fin 128 → ℝ) (b : Fin 128 → ℝ)
  (h : Fin 8192 → Fin 64 → ℝ)
  (A0 : (⟨S1x16384, .f32⟩ : BufTy).Contents (Elt Ideal)) (A1 : (⟨S1x524288, .f32⟩ : BufTy).Contents (Elt Ideal)) (A2 : (⟨S8192x8192, .f32⟩ : BufTy).Contents (Elt Ideal))
  (A3 : (⟨S198x128, .f32⟩ : BufTy).Contents (Elt Ideal)) (A4 : (⟨S128, .f32⟩ : BufTy).Contents (Elt Ideal))

/-- The logistic function of the first convolution, at node n and gate column c. -/
theorem v41_at (hM : ∀ i j, val_main_v13 (F := Ideal) A2 (ix2 i j) = ((m i j : ℝ) : EReal))
    (hX : ∀ n f, val_main_v18 (F := Ideal) A0 A1 (ix2 n f) = ((x n f : ℝ) : EReal))
    (hW : ∀ p c, A3 (ix2 p c) = ((w p c : ℝ) : EReal)) (hB : ∀ c, A4 (ix1 c) = ((b c : ℝ) : EReal))
    (n : Fin 8192) (c : Fin 128) :
    val_main_v41 (F := Ideal) A0 A1 A2 A3 A4 (ix2 0 (flat128 n c)) = ((Cert.Spec.sig (conv m x w b n c) : ℝ) : EReal) := by
  have hn := n.isLt; have hc := c.isLt
  have e : idx_main_v35 (ix2 0 (flat128 n c)) = ix2 n c := funext fun t => Fin.ext (by
    match t with
    | ⟨0, _⟩ => show (0 * 1048576 + (128 * n.val + c.val)) / 128 = n.val; omega
    | ⟨1, _⟩ => show (0 * 1048576 + (128 * n.val + c.val)) % 128 = c.val; omega)
  rw [val_main_v41_apply, val_main_v40_apply, val_main_cst_3_apply, val_main_v39_apply, val_main_v38_apply,
    val_main_cst_2_apply, val_main_v37_apply, val_main_v36_apply, val_main_v35_apply, e,
    v34_at m x w b A0 A1 A2 A3 A4 hM hX hW hB, Ideal.hostDivf_def, Ideal.ofBits_def, Ideal.ofBits_one_f32, Ideal.addf_def,
    Ideal.hostUnary_exp_def, Ideal.hostNegf_def, Ideal.negf_def]
  exact logistic_coe _

/-- The reset gate of node n, feature q. -/
theorem v44_at (hM : ∀ i j, val_main_v13 (F := Ideal) A2 (ix2 i j) = ((m i j : ℝ) : EReal))
    (hX : ∀ n f, val_main_v18 (F := Ideal) A0 A1 (ix2 n f) = ((x n f : ℝ) : EReal))
    (hW : ∀ p c, A3 (ix2 p c) = ((w p c : ℝ) : EReal)) (hB : ∀ c, A4 (ix1 c) = ((b c : ℝ) : EReal))
    (n : Fin 8192) (q : Fin 64) :
    val_main_v44 (F := Ideal) A0 A1 A2 A3 A4 (ix2 0 (flat64 n q))
      = ((Cert.Spec.sig (conv m x w b n ⟨q.val, by have := q.isLt; omega⟩) : ℝ) : EReal) := by
  have hn := n.isLt; have hq := q.isLt
  have e : idx_main_v42 (idx_main_v43 (idx_main_v44 (ix2 0 (flat64 n q))))
      = ix2 0 (flat128 n ⟨q.val, by omega⟩) := funext fun t => Fin.ext (by
    match t with
    | ⟨0, _⟩ => rfl
    | ⟨1, _⟩ =>
      show ((0 * 8192 + (0 * 524288 + (64 * n.val + q.val)) / 64 % 8192) * 128
        + (0 * 524288 + (64 * n.val + q.val)) % 64) % 1048576 = 128 * n.val + q.val
      omega)
  rw [val_main_v44_apply, val_main_v43_apply, val_main_v42_apply, e, v41_at m x w b A0 A1 A2 A3 A4 hM hX hW hB]

/-- The update gate of node n, feature q. -/
theorem v46_at (hM : ∀ i j, val_main_v13 (F := Ideal) A2 (ix2 i j) = ((m i j : ℝ) : EReal))
    (hX : ∀ n f, val_main_v18 (F := Ideal) A0 A1 (ix2 n f) = ((x n f : ℝ) : EReal))
    (hW : ∀ p c, A3 (ix2 p c) = ((w p c : ℝ) : EReal)) (hB : ∀ c, A4 (ix1 c) = ((b c : ℝ) : EReal))
    (n : Fin 8192) (q : Fin 64) :
    val_main_v46 (F := Ideal) A0 A1 A2 A3 A4 (ix2 0 (flat64 n q))
      = ((Cert.Spec.sig (conv m x w b n ⟨q.val + 64, by have := q.isLt; omega⟩) : ℝ) : EReal) := by
  have hn := n.isLt; have hq := q.isLt
  have e : idx_main_v42 (idx_main_v45 (idx_main_v46 (ix2 0 (flat64 n q))))
      = ix2 0 (flat128 n ⟨q.val + 64, by omega⟩) := funext fun t => Fin.ext (by
    match t with
    | ⟨0, _⟩ => rfl
    | ⟨1, _⟩ =>
      show ((0 * 8192 + (0 * 524288 + (64 * n.val + q.val)) / 64 % 8192) * 128
        + (64 + (0 * 524288 + (64 * n.val + q.val)) % 64)) % 1048576 = 128 * n.val + (q.val + 64)
      omega)
  rw [val_main_v46_apply, val_main_v45_apply, val_main_v42_apply, e, v41_at m x w b A0 A1 A2 A3 A4 hM hX hW hB]

/-- The reset-gated state, nodes by features. -/
theorem v48_at (hM : ∀ i j, val_main_v13 (F := Ideal) A2 (ix2 i j) = ((m i j : ℝ) : EReal))
    (hX : ∀ n f, val_main_v18 (F := Ideal) A0 A1 (ix2 n f) = ((x n f : ℝ) : EReal))
    (hW : ∀ p c, A3 (ix2 p c) = ((w p c : ℝ) : EReal)) (hB : ∀ c, A4 (ix1 c) = ((b c : ℝ) : EReal))
    (hA1 : ∀ n q, A1 (ix2 0 (flat64 n q)) = ((h n q : ℝ) : EReal)) (n : Fin 8192) (q : Fin 64) :
    val_main_v48 (F := Ideal) A0 A1 A2 A3 A4 (ix3 0 n q)
      = ((Cert.Spec.sig (conv m x w b n ⟨q.val, by have := q.isLt; omega⟩) * h n q : ℝ) : EReal) := by
  have hn := n.isLt; have hq := q.isLt
  have e : idx_main_v48 (ix3 0 n q) = ix2 0 (flat64 n q) := funext fun t => Fin.ext (by
    match t with
    | ⟨0, _⟩ => rfl
    | ⟨1, _⟩ => show ((0 * 8192 + n.val) * 64 + q.val) % 524288 = 64 * n.val + q.val; omega)
  rw [val_main_v48_apply, e, val_main_v47_apply, v44_at m x w b A0 A1 A2 A3 A4 hM hX hW hB, hA1, Ideal.mulf_def,
    ← EReal.coe_mul]

end Cert.ReferenceIdeal.RefValue

end
-- ==== Proof.Ref.X1.lean ====
/-
  The reference's second feature matrix read at an index: the two input columns followed by the 64 columns of the
  reset-gated state.
-/
import proofs.«164042_j22436909154350_2_alg».proof.Proof.Ref.ReadStages
import proofs.«164042_j22436909154350_2_alg».proof.Proof.Ref.X0
import proofs.«164042_j22436909154350_2_alg».proof.Proof.Ref.Gates

set_option maxHeartbeats 400000

noncomputable section

namespace Cert.ReferenceIdeal.RefValue

open Cert.ReferenceIdeal Cert.ReferenceIdeal.Gen Cert.ReferenceIdeal.Read Idealize.ShloMosaic Idealize.ShloMosaic.ValueIdx

variable (m : Fin 8192 → Fin 8192 → ℝ) (x : Fin 8192 → Fin 66 → ℝ) (w : Fin 198 → Fin 128 → ℝ) (b : Fin 128 → ℝ)
  (inp : Fin 8192 → Fin 2 → ℝ) (h : Fin 8192 → Fin 64 → ℝ)
  (A0 : (⟨S1x16384, .f32⟩ : BufTy).Contents (Elt Ideal)) (A1 : (⟨S1x524288, .f32⟩ : BufTy).Contents (Elt Ideal)) (A2 : (⟨S8192x8192, .f32⟩ : BufTy).Contents (Elt Ideal))
  (A3 : (⟨S198x128, .f32⟩ : BufTy).Contents (Elt Ideal)) (A4 : (⟨S128, .f32⟩ : BufTy).Contents (Elt Ideal))

/-- The reset-gated state as a real function. -/
def rh (n : Fin 8192) (q : Fin 64) : ℝ :=
  Cert.Spec.sig (conv m x w b n ⟨q.val, by have := q.isLt; omega⟩) * h n q

/-- The second feature matrix: inputs beside the reset-gated state. -/
theorem v51_at (hM : ∀ i j, val_main_v13 (F := Ideal) A2 (ix2 i j) = ((m i j : ℝ) : EReal))
    (hX : ∀ n f, val_main_v18 (F := Ideal) A0 A1 (ix2 n f) = ((x n f : ℝ) : EReal))
    (hW : ∀ p c, A3 (ix2 p c) = ((w p c : ℝ) : EReal)) (hB : ∀ c, A4 (ix1 c) = ((b c : ℝ) : EReal))
    (hA0 : ∀ n d, A0 (ix2 0 (flat2 n d)) = ((inp n d : ℝ) : EReal))
    (hA1 : ∀ n q, A1 (ix2 0 (flat64 n q)) = ((h n q : ℝ) : EReal)) (n : Fin 8192) (f : Fin 66) :
    val_main_v51 (F := Ideal) A0 A1 A2 A3 A4 (ix2 n f) = ((Cert.Spec.cat inp (rh m x w b h) n f : ℝ) : EReal) := by
  have hn := n.isLt; have hf := f.isLt
  have e : idx_main_v50 (idx_main_v51 (ix2 n f)) = ix3 0 n f := funext fun t => Fin.ext (by
    match t with
    | ⟨0, _⟩ => rfl
    | ⟨1, _⟩ => show (n.val * 66 + f.val) / 66 = n.val; omega
    | ⟨2, _⟩ => show (n.val * 66 + f.val) / 1 % 66 = f.val; omega)
  rw [val_main_v51_apply, val_main_v50_apply, e]
  unfold val_main_v49
  exact cat_coe _ _ _ inp (rh m x w b h) (v14_at inp A0 hA0)
    (v48_at m x w b h A0 A1 A2 A3 A4 hM hX hW hB hA1) n f

end Cert.ReferenceIdeal.RefValue

end
-- ==== Proof.Ref.Conv2.lean ====
/-
  The second graph convolution of the reference read at an index, over any real diffusion matrix m and any real
  feature matrix x that the stages `main_v13` and `main_v51` hold: the two products with the diffusion matrix,
  the third stacked feature `2 · m (m x) − x`, the stacked matrix with column 3f + t, and the product with the
  candidate weights plus the bias. The operations are those of the first convolution at later stages.
-/
import proofs.«164042_j22436909154350_2_alg».proof.Proof.Ref.ReadStages
import proofs.«164042_j22436909154350_2_alg».proof.Proof.Ref.RealLaw
import proofs.«164042_j22436909154350_2_alg».proof.Proof.Ref.Cat
import proofs.«164042_j22436909154350_2_alg».proof.Proof.Ref.StackIdx

set_option maxHeartbeats 400000

noncomputable section

namespace Cert.ReferenceIdeal.RefValue

open Cert.ReferenceIdeal Cert.ReferenceIdeal.Gen Cert.ReferenceIdeal.Read Idealize.ShloMosaic Idealize.ShloMosaic.ValueIdx

variable (m : Fin 8192 → Fin 8192 → ℝ) (x : Fin 8192 → Fin 66 → ℝ) (w : Fin 198 → Fin 64 → ℝ) (b : Fin 64 → ℝ)
  (A0 : (⟨S1x16384, .f32⟩ : BufTy).Contents (Elt Ideal)) (A1 : (⟨S1x524288, .f32⟩ : BufTy).Contents (Elt Ideal)) (A2 : (⟨S8192x8192, .f32⟩ : BufTy).Contents (Elt Ideal))
  (A3 : (⟨S198x128, .f32⟩ : BufTy).Contents (Elt Ideal)) (A4 : (⟨S128, .f32⟩ : BufTy).Contents (Elt Ideal)) (A5 : (⟨S198x64, .f32⟩ : BufTy).Contents (Elt Ideal)) (A6 : (⟨S64, .f32⟩ : BufTy).Contents (Elt Ideal))

/-- One product with the diffusion matrix. -/
theorem v52_at (hM : ∀ i j, val_main_v13 (F := Ideal) A2 (ix2 i j) = ((m i j : ℝ) : EReal))
    (hX : ∀ n f, val_main_v51 (F := Ideal) A0 A1 A2 A3 A4 (ix2 n f) = ((x n f : ℝ) : EReal)) (i : Fin 8192) (k : Fin 66) :
    val_main_v52 (F := Ideal) A0 A1 A2 A3 A4 (ix2 i k) = ((mm m x i k : ℝ) : EReal) := by
  rw [val_main_v52_apply]
  refine (Finset.sum_congr rfl fun j _ => ?_).trans (sum_coe_mul_coe Finset.univ (fun j => m i j) (fun j => x j k))
  have el : lidx_main_v52 (ix2 i k) j = ix2 i j := funext fun d => Fin.ext (by match d with | ⟨0, _⟩ => rfl | ⟨1, _⟩ => rfl)
  have er : ridx_main_v52 (ix2 i k) j = ix2 j k := funext fun d => Fin.ext (by match d with | ⟨0, _⟩ => rfl | ⟨1, _⟩ => rfl)
  rw [el, er, hM, hX]

/-- A second product with the diffusion matrix. -/
theorem v53_at (hM : ∀ i j, val_main_v13 (F := Ideal) A2 (ix2 i j) = ((m i j : ℝ) : EReal))
    (hX : ∀ n f, val_main_v51 (F := Ideal) A0 A1 A2 A3 A4 (ix2 n f) = ((x n f : ℝ) : EReal)) (i : Fin 8192) (k : Fin 66) :
    val_main_v53 (F := Ideal) A0 A1 A2 A3 A4 (ix2 i k) = ((mm m (mm m x) i k : ℝ) : EReal) := by
  rw [val_main_v53_apply]
  refine (Finset.sum_congr rfl fun j _ => ?_).trans
    (sum_coe_mul_coe Finset.univ (fun j => m i j) (fun j => mm m x j k))
  have el : lidx_main_v53 (ix2 i k) j = ix2 i j := funext fun d => Fin.ext (by match d with | ⟨0, _⟩ => rfl | ⟨1, _⟩ => rfl)
  have er : ridx_main_v53 (ix2 i k) j = ix2 j k := funext fun d => Fin.ext (by match d with | ⟨0, _⟩ => rfl | ⟨1, _⟩ => rfl)
  rw [el, er, hM, v52_at m x A0 A1 A2 A3 A4 hM hX]

/-- Twice the second product less the features. -/
theorem v56_at (hM : ∀ i j, val_main_v13 (F := Ideal) A2 (ix2 i j) = ((m i j : ℝ) : EReal))
    (hX : ∀ n f, val_main_v51 (F := Ideal) A0 A1 A2 A3 A4 (ix2 n f) = ((x n f : ℝ) : EReal)) (i : Fin 8192) (k : Fin 66) :
    val_main_v56 (F := Ideal) A0 A1 A2 A3 A4 (ix2 i k) = ((2 * mm m (mm m x) i k - x i k : ℝ) : EReal) := by
  rw [val_main_v56_apply, val_main_v55_apply, val_main_v54_apply, val_main_cst_4_apply,
    v53_at m x A0 A1 A2 A3 A4 hM hX, hX,
    Ideal.subf_def, Ideal.mulf_def, Ideal.ofBits_def, ofBits_two_f32, ← EReal.coe_mul, ← EReal.coe_sub]

/-- The stacked matrix: column p holds feature p / 3 of the (p % 3)-th of the three arrays. -/
theorem v63_at (hM : ∀ i j, val_main_v13 (F := Ideal) A2 (ix2 i j) = ((m i j : ℝ) : EReal))
    (hX : ∀ n f, val_main_v51 (F := Ideal) A0 A1 A2 A3 A4 (ix2 n f) = ((x n f : ℝ) : EReal)) (n : Fin 8192) (p : Fin 198) :
    val_main_v63 (F := Ideal) A0 A1 A2 A3 A4 (ix2 n p) = ((stk m x n p : ℝ) : EReal) := by
  have hn := n.isLt; have hp := p.isLt
  have hf : p.val / 3 < 66 := by omega
  have ht : p.val % 3 < 3 := by omega
  have e : idx_main_v61 (idx_main_v62 (idx_main_v63 (ix2 n p))) = ix3 ⟨p.val % 3, ht⟩ n ⟨p.val / 3, hf⟩ :=
    funext fun d => Fin.ext (by
      match d with
      | ⟨0, _⟩ => exact stack_idx0 n.val p.val hn hp
      | ⟨1, _⟩ => exact stack_idx1 n.val p.val hn hp
      | ⟨2, _⟩ => exact stack_idx2 n.val p.val hn hp)
  have e24 : idx_main_v57 (ix3 0 n ⟨p.val / 3, hf⟩) = ix2 n ⟨p.val / 3, hf⟩ := funext fun d => Fin.ext (by match d with | ⟨0, _⟩ => rfl | ⟨1, _⟩ => rfl)
  have e25 : idx_main_v58 (ix3 0 n ⟨p.val / 3, hf⟩) = ix2 n ⟨p.val / 3, hf⟩ := funext fun d => Fin.ext (by match d with | ⟨0, _⟩ => rfl | ⟨1, _⟩ => rfl)
  have e26 : idx_main_v59 (ix3 0 n ⟨p.val / 3, hf⟩) = ix2 n ⟨p.val / 3, hf⟩ := funext fun d => Fin.ext (by match d with | ⟨0, _⟩ => rfl | ⟨1, _⟩ => rfl)
  rw [val_main_v63_apply, val_main_v62_apply, val_main_v61_apply, e]
  unfold val_main_v60
  rw [cat3_at, val_main_v57_apply, val_main_v58_apply, val_main_v59_apply, e24, e25, e26, hX,
    v52_at m x A0 A1 A2 A3 A4 hM hX, v56_at m x A0 A1 A2 A3 A4 hM hX]
  unfold stk
  split_ifs <;> rfl

/-- The convolution: the stacked matrix times the weights, plus the bias. -/
theorem v67_at (hM : ∀ i j, val_main_v13 (F := Ideal) A2 (ix2 i j) = ((m i j : ℝ) : EReal))
    (hX : ∀ n f, val_main_v51 (F := Ideal) A0 A1 A2 A3 A4 (ix2 n f) = ((x n f : ℝ) : EReal))
    (hW : ∀ p c, A5 (ix2 p c) = ((w p c : ℝ) : EReal)) (hB : ∀ c, A6 (ix1 c) = ((b c : ℝ) : EReal))
    (n : Fin 8192) (c : Fin 64) :
    val_main_v67 (F := Ideal) A0 A1 A2 A3 A4 A5 A6 (ix2 n c) = ((conv m x w b n c : ℝ) : EReal) := by
  have eb : idx_main_v65 (idx_main_v66 (ix2 n c)) = ix1 c :=
    funext fun d => Fin.ext (by match d with | ⟨0, _⟩ => rfl)
  rw [val_main_v67_apply, val_main_v66_apply, val_main_v65_apply, eb, hB, val_main_v64_apply, Ideal.addf_def]
  unfold conv
  rw [EReal.coe_add]
  refine congrArg (· + _) ?_
  refine (Finset.sum_congr rfl fun p _ => ?_).trans (sum_coe_mul_coe Finset.univ (fun p => stk m x n p) (fun p => w p c))
  have el : lidx_main_v64 (ix2 n c) p = ix2 n p := funext fun d => Fin.ext (by match d with | ⟨0, _⟩ => rfl | ⟨1, _⟩ => rfl)
  have er : ridx_main_v64 (ix2 n c) p = ix2 p c := funext fun d => Fin.ext (by match d with | ⟨0, _⟩ => rfl | ⟨1, _⟩ => rfl)
  rw [el, er, v63_at m x A0 A1 A2 A3 A4 hM hX, hW]

end Cert.ReferenceIdeal.RefValue

end
-- ==== Proof.Ref.Final.lean ====
/-
  The reference's last stages read at an index: the candidate state, tanh of the second convolution, flattened, and
  the new state `u · h + (1 − u) · c`.
-/
import proofs.«164042_j22436909154350_2_alg».proof.Proof.Ref.ReadStages
import proofs.«164042_j22436909154350_2_alg».proof.Proof.Ref.Gates
import proofs.«164042_j22436909154350_2_alg».proof.Proof.Ref.Conv2

set_option maxHeartbeats 400000

noncomputable section

namespace Cert.ReferenceIdeal.RefValue

open Cert.ReferenceIdeal Cert.ReferenceIdeal.Gen Cert.ReferenceIdeal.Read Idealize.ShloMosaic Idealize.ShloMosaic.ValueIdx

variable (m : Fin 8192 → Fin 8192 → ℝ) (x : Fin 8192 → Fin 66 → ℝ) (w : Fin 198 → Fin 128 → ℝ) (b : Fin 128 → ℝ)
  (x2 : Fin 8192 → Fin 66 → ℝ) (wc : Fin 198 → Fin 64 → ℝ) (bc : Fin 64 → ℝ) (h : Fin 8192 → Fin 64 → ℝ)
  (A0 : (⟨S1x16384, .f32⟩ : BufTy).Contents (Elt Ideal)) (A1 : (⟨S1x524288, .f32⟩ : BufTy).Contents (Elt Ideal)) (A2 : (⟨S8192x8192, .f32⟩ : BufTy).Contents (Elt Ideal))
  (A3 : (⟨S198x128, .f32⟩ : BufTy).Contents (Elt Ideal)) (A4 : (⟨S128, .f32⟩ : BufTy).Contents (Elt Ideal)) (A5 : (⟨S198x64, .f32⟩ : BufTy).Contents (Elt Ideal)) (A6 : (⟨S64, .f32⟩ : BufTy).Contents (Elt Ideal))

/-- The candidate state of node n, feature q. -/
theorem v69_at (hM : ∀ i j, val_main_v13 (F := Ideal) A2 (ix2 i j) = ((m i j : ℝ) : EReal))
    (hX2 : ∀ n f, val_main_v51 (F := Ideal) A0 A1 A2 A3 A4 (ix2 n f) = ((x2 n f : ℝ) : EReal))
    (hW2 : ∀ p c, A5 (ix2 p c) = ((wc p c : ℝ) : EReal)) (hB2 : ∀ c, A6 (ix1 c) = ((bc c : ℝ) : EReal))
    (n : Fin 8192) (q : Fin 64) :
    val_main_v69 (F := Ideal) A0 A1 A2 A3 A4 A5 A6 (ix2 0 (flat64 n q))
      = ((Real.tanh (conv m x2 wc bc n q) : ℝ) : EReal) := by
  have hn := n.isLt; have hq := q.isLt
  have e : idx_main_v68 (ix2 0 (flat64 n q)) = ix2 n q := funext fun t => Fin.ext (by
    match t with
    | ⟨0, _⟩ => show (0 * 524288 + (64 * n.val + q.val)) / 64 = n.val; omega
    | ⟨1, _⟩ => show (0 * 524288 + (64 * n.val + q.val)) % 64 = q.val; omega)
  rw [val_main_v69_apply, val_main_v68_apply, e, v67_at m x2 wc bc A0 A1 A2 A3 A4 A5 A6 hM hX2 hW2 hB2,
    Ideal.hostUnary_tanh_def, Ideal.tanh_coe]

/-- The new state of node n, feature q. -/
theorem v74_at (hM : ∀ i j, val_main_v13 (F := Ideal) A2 (ix2 i j) = ((m i j : ℝ) : EReal))
    (hX : ∀ n f, val_main_v18 (F := Ideal) A0 A1 (ix2 n f) = ((x n f : ℝ) : EReal))
    (hW : ∀ p c, A3 (ix2 p c) = ((w p c : ℝ) : EReal)) (hB : ∀ c, A4 (ix1 c) = ((b c : ℝ) : EReal))
    (hX2 : ∀ n f, val_main_v51 (F := Ideal) A0 A1 A2 A3 A4 (ix2 n f) = ((x2 n f : ℝ) : EReal))
    (hW2 : ∀ p c, A5 (ix2 p c) = ((wc p c : ℝ) : EReal)) (hB2 : ∀ c, A6 (ix1 c) = ((bc c : ℝ) : EReal))
    (hA1 : ∀ n q, A1 (ix2 0 (flat64 n q)) = ((h n q : ℝ) : EReal)) (n : Fin 8192) (q : Fin 64) :
    val_main_v74 (F := Ideal) A0 A1 A2 A3 A4 A5 A6 (ix2 0 (flat64 n q))
      = ((Cert.Spec.sig (conv m x w b n ⟨q.val + 64, by have := q.isLt; omega⟩) * h n q
          + (1 - Cert.Spec.sig (conv m x w b n ⟨q.val + 64, by have := q.isLt; omega⟩))
            * Real.tanh (conv m x2 wc bc n q) : ℝ) : EReal) := by
  rw [val_main_v74_apply, val_main_v70_apply, val_main_v73_apply, val_main_v72_apply, val_main_v71_apply,
    val_main_cst_5_apply, v46_at m x w b A0 A1 A2 A3 A4 hM hX hW hB, hA1,
    v69_at m x2 wc bc A0 A1 A2 A3 A4 A5 A6 hM hX2 hW2 hB2]
  simp only [Ideal.addf_def, Ideal.mulf_def, Ideal.subf_def, Ideal.ofBits_def, Ideal.ofBits_one_f32]
  rw [← EReal.coe_one, ← EReal.coe_sub, ← EReal.coe_mul, ← EReal.coe_mul, ← EReal.coe_add]

end Cert.ReferenceIdeal.RefValue

end
-- ==== Proof.Ref.SpecLink.lean ====
/-
  The reference's real-number forms are the specification's: the product with the transposed row-normalised matrix
  is one diffusion step, so the stacked matrices and the convolutions agree.
-/
import proofs.«164042_j22436909154350_2_alg».proof.Proof.Spec
import proofs.«164042_j22436909154350_2_alg».proof.Proof.Ref.RealLaw

noncomputable section

namespace Cert.ReferenceIdeal.RefValue

/-- The product with the transposed row-normalised matrix is the specification's diffusion step. -/
theorem mm_nadj_eq_step (a : Fin 8192 → Fin 8192 → ℝ) (x : Fin 8192 → Fin 66 → ℝ) :
    mm (nadj a) x = Cert.Spec.step a x := by
  funext i k
  rw [mm_nadj]
  rfl

/-- The stacked matrix over the transposed row-normalised matrix is the specification's. -/
theorem stk_nadj (a : Fin 8192 → Fin 8192 → ℝ) (x : Fin 8192 → Fin 66 → ℝ) :
    stk (nadj a) x = Cert.Spec.stacked a x := by
  funext n p
  unfold stk
  rw [mm_nadj_eq_step, mm_nadj_eq_step]
  rfl

/-- The convolution over the transposed row-normalised matrix is the specification's graph convolution. -/
theorem conv_nadj {C : ℕ} (a : Fin 8192 → Fin 8192 → ℝ) (x : Fin 8192 → Fin 66 → ℝ) (w : Fin 198 → Fin C → ℝ)
    (b : Fin C → ℝ) : conv (nadj a) x w b = Cert.Spec.gconv a x w b := by
  funext n c
  unfold conv Cert.Spec.gconv
  rw [stk_nadj]

end Cert.ReferenceIdeal.RefValue

end
-- ==== Proof.Ref.Result.lean ====
/-
  The reference's result is the specification's real function: on argument arrays that hold real numbers, with no
  row sum of `A + I` zero, the last stage at node n and feature q is the coercion of `Cert.Spec.result`.
-/
import proofs.«164042_j22436909154350_2_alg».proof.Proof.Ref.ReadStages
import proofs.«164042_j22436909154350_2_alg».proof.Proof.Ref.Adj
import proofs.«164042_j22436909154350_2_alg».proof.Proof.Ref.X0
import proofs.«164042_j22436909154350_2_alg».proof.Proof.Ref.Conv1
import proofs.«164042_j22436909154350_2_alg».proof.Proof.Ref.Gates
import proofs.«164042_j22436909154350_2_alg».proof.Proof.Ref.X1
import proofs.«164042_j22436909154350_2_alg».proof.Proof.Ref.Conv2
import proofs.«164042_j22436909154350_2_alg».proof.Proof.Ref.Final
import proofs.«164042_j22436909154350_2_alg».proof.Proof.Ref.SpecLink

set_option maxHeartbeats 400000

noncomputable section

namespace Cert.ReferenceIdeal.RefValue

open Cert.ReferenceIdeal Cert.ReferenceIdeal.Gen Cert.ReferenceIdeal.Read Idealize.ShloMosaic Idealize.ShloMosaic.ValueIdx

variable (a : Fin 8192 → Fin 8192 → ℝ) (inp : Fin 8192 → Fin 2 → ℝ) (h : Fin 8192 → Fin 64 → ℝ)
  (wru : Fin 198 → Fin 128 → ℝ) (bru : Fin 128 → ℝ) (wc : Fin 198 → Fin 64 → ℝ) (bc : Fin 64 → ℝ)
  (A0 : (⟨S1x16384, .f32⟩ : BufTy).Contents (Elt Ideal)) (A1 : (⟨S1x524288, .f32⟩ : BufTy).Contents (Elt Ideal)) (A2 : (⟨S8192x8192, .f32⟩ : BufTy).Contents (Elt Ideal))
  (A3 : (⟨S198x128, .f32⟩ : BufTy).Contents (Elt Ideal)) (A4 : (⟨S128, .f32⟩ : BufTy).Contents (Elt Ideal)) (A5 : (⟨S198x64, .f32⟩ : BufTy).Contents (Elt Ideal)) (A6 : (⟨S64, .f32⟩ : BufTy).Contents (Elt Ideal))

/-- The reset-gated state over the transposed row-normalised matrix is the specification's `r · h`. -/
theorem rh_nadj :
    rh (nadj a) (Cert.Spec.cat inp h) wru bru h = fun n q => Cert.Spec.r a inp h wru bru n q * h n q := by
  funext n q
  unfold rh Cert.Spec.r
  rw [conv_nadj]

/-- The reference's result at node n, feature q. -/
theorem result_at
    (hnz : ∀ i, (∑ j, (a i j + if i = j then 1 else 0)) ≠ 0)
    (hA0 : ∀ n d, A0 (ix2 0 (flat2 n d)) = ((inp n d : ℝ) : EReal))
    (hA1 : ∀ n q, A1 (ix2 0 (flat64 n q)) = ((h n q : ℝ) : EReal))
    (hA2 : ∀ i j, A2 (ix2 i j) = ((a i j : ℝ) : EReal))
    (hA3 : ∀ p c, A3 (ix2 p c) = ((wru p c : ℝ) : EReal)) (hA4 : ∀ c, A4 (ix1 c) = ((bru c : ℝ) : EReal))
    (hA5 : ∀ p c, A5 (ix2 p c) = ((wc p c : ℝ) : EReal)) (hA6 : ∀ c, A6 (ix1 c) = ((bc c : ℝ) : EReal))
    (n : Fin 8192) (q : Fin 64) :
    val_main_v74 (F := Ideal) A0 A1 A2 A3 A4 A5 A6 (ix2 0 (flat64 n q))
      = ((Cert.Spec.result a inp h wru bru wc bc n q : ℝ) : EReal) := by
  have hM := v13_at a A2 hA2 hnz
  have hX := v18_at inp h A0 A1 hA0 hA1
  have hX2 := v51_at (nadj a) (Cert.Spec.cat inp h) wru bru inp h A0 A1 A2 A3 A4 hM hX hA3 hA4 hA0 hA1
  rw [v74_at (nadj a) (Cert.Spec.cat inp h) wru bru (Cert.Spec.cat inp (rh (nadj a) (Cert.Spec.cat inp h) wru bru h)) wc bc h
    A0 A1 A2 A3 A4 A5 A6 hM hX hA3 hA4 hX2 hA5 hA6 hA1 n q]
  rw [rh_nadj, conv_nadj, conv_nadj]
  rfl

/-- The reference's result as an array: position 64n + q of its one row holds the specification's new state of node
    n, feature q. -/
theorem result_eq
    (hnz : ∀ i, (∑ j, (a i j + if i = j then 1 else 0)) ≠ 0)
    (hA0 : ∀ n d, A0 (ix2 0 (flat2 n d)) = ((inp n d : ℝ) : EReal))
    (hA1 : ∀ n q, A1 (ix2 0 (flat64 n q)) = ((h n q : ℝ) : EReal))
    (hA2 : ∀ i j, A2 (ix2 i j) = ((a i j : ℝ) : EReal))
    (hA3 : ∀ p c, A3 (ix2 p c) = ((wru p c : ℝ) : EReal)) (hA4 : ∀ c, A4 (ix1 c) = ((bru c : ℝ) : EReal))
    (hA5 : ∀ p c, A5 (ix2 p c) = ((wc p c : ℝ) : EReal)) (hA6 : ∀ c, A6 (ix1 c) = ((bc c : ℝ) : EReal)) :
    val_main_v74 (F := Ideal) A0 A1 A2 A3 A4 A5 A6
      = fun idx : S1x524288.Idx => ((Cert.Spec.result a inp h wru bru wc bc
          ⟨(idx 1).val / 64, by have := idx2_lt1 idx; omega⟩ ⟨(idx 1).val % 64, by omega⟩ : ℝ) : EReal) := by
  funext idx
  have e : idx = ix2 0 (flat64 ⟨(idx 1).val / 64, by have := idx2_lt1 idx; omega⟩ ⟨(idx 1).val % 64, by omega⟩) := by
    funext t
    match t with
    | ⟨0, _⟩ => exact Fin.ext (by have h0 : (idx 0).val < 1 := (idx 0).isLt; show (idx 0).val = 0; omega)
    | ⟨1, _⟩ => exact (flat64_div_mod (idx 1)).symm
  exact (congrArg (val_main_v74 (F := Ideal) A0 A1 A2 A3 A4 A5 A6) e).trans
    (result_at a inp h wru bru wc bc A0 A1 A2 A3 A4 A5 A6 hnz hA0 hA1 hA2 hA3 hA4 hA5 hA6 _ _)

end Cert.ReferenceIdeal.RefValue

end
-- ==== Proof.lean ====
/-
  The certificate's five claims for the gated recurrent graph-convolution cell.

  The kernel program computes, per node, the reciprocal `dinv` of its adjacency row's sum plus one (one region), four
  times the diffusion step `Aᵀ (dinv · x) + dinv · x` (four regions, each accumulating the product over 32 row tiles of
  the adjacency matrix), and around them the stacking of the three diffusion features, two small matrix products, the
  logistic and hyperbolic-tangent gates and the gate combination. The reference forms the normalised matrix
  `((A + I) · dinv)ᵀ` and multiplies it into the features. On inputs whose entries are real numbers and whose rows of
  `A + I` have nonzero sums — the precondition — every intermediate is a real number, the two forms of the diffusion step
  agree by distributivity, and both programs end at the coercion of one real function, `Cert.Spec.result`.

  The frames: the kernel program's run over its eleven items (six stretches of host operations, five regions) is
  proved once for any float instance and read at both; the reference has no kernel and its frame is its run.
  Nothing was rewritten by the idealization, so the preservation claim is trivial.
-/
import proofs.«164042_j22436909154350_2_alg».proof.Defs
import proofs.«164042_j22436909154350_2_alg».proof.Proof.Gen.Kernel
import proofs.«164042_j22436909154350_2_alg».proof.Proof.Gen.KernelIdeal
import proofs.«164042_j22436909154350_2_alg».proof.Proof.Gen.ReferenceIdeal
import proofs.«164042_j22436909154350_2_alg».proof.Proof.Gen.Pre_finite_inputs
import proofs.«164042_j22436909154350_2_alg».proof.Proof.KK.Args
import proofs.«164042_j22436909154350_2_alg».proof.Proof.KI.Args
import proofs.«164042_j22436909154350_2_alg».proof.Proof.KI.HostValue
import proofs.«164042_j22436909154350_2_alg».proof.Proof.KI.Reg1Final
import proofs.«164042_j22436909154350_2_alg».proof.Proof.KI.Reg2Final
import proofs.«164042_j22436909154350_2_alg».proof.Proof.KI.Reg3Final
import proofs.«164042_j22436909154350_2_alg».proof.Proof.KI.Reg4Final
import proofs.«164042_j22436909154350_2_alg».proof.Proof.Pre.Decode
import proofs.«164042_j22436909154350_2_alg».proof.Proof.Ref.RunSlices
import proofs.«164042_j22436909154350_2_alg».proof.Proof.Ref.Result
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.H.frame_any m ρ

/-- The idealized kernel program runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.H.frame_any m ρ

/-- The reference runs and leaves its arguments as launched: no host operation writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.RunP.after_ops_arg0 _),
     (h c Cert.ReferenceIdeal.main_arg1).trans (Cert.ReferenceIdeal.RunP.after_ops_arg1 _),
     (h c Cert.ReferenceIdeal.main_arg2).trans (Cert.ReferenceIdeal.RunP.after_ops_arg2 _),
     (h c Cert.ReferenceIdeal.main_arg3).trans (Cert.ReferenceIdeal.RunP.after_ops_arg3 _),
     (h c Cert.ReferenceIdeal.main_arg4).trans (Cert.ReferenceIdeal.RunP.after_ops_arg4 _),
     (h c Cert.ReferenceIdeal.main_arg5).trans (Cert.ReferenceIdeal.RunP.after_ops_arg5 _),
     (h c Cert.ReferenceIdeal.main_arg6).trans (Cert.ReferenceIdeal.RunP.after_ops_arg6 _),
     (h c Cert.ReferenceIdeal.main_arg7).trans (Cert.ReferenceIdeal.RunP.after_ops_arg7 _)⟩)
    (Cert.ReferenceIdeal.RunP.run_after (F := Ideal) m ρ)

/-- The idealization rewrote nothing. -/
theorem preserves : Cert.preserves_Kernel_KernelIdeal := trivial

/-- The reference's last stage of arrays that agree with the kernel program's arguments is the kernel program's value
    at its return: both are the coercion of `Cert.Spec.result`. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal (hPre_finite_inputs := Cert.Pre_finite_inputs.Gen.facts) m)
    (e0 : ((StableHlo.launchContents m' c (Proc.devRef .tc Cert.ReferenceIdeal.main_arg0)) : Cert.ReferenceIdeal.S1x16384.Idx → EReal) = (m ((c.tc : Thread Cert.KernelIdeal.nD Cert.KernelIdeal.τ).loc Cert.KernelIdeal.main_arg0)))
    (e1 : ((StableHlo.launchContents m' c (Proc.devRef .tc Cert.ReferenceIdeal.main_arg1)) : Cert.ReferenceIdeal.S1x524288.Idx → EReal) = (m ((c.tc : Thread Cert.KernelIdeal.nD Cert.KernelIdeal.τ).loc Cert.KernelIdeal.main_arg1)))
    (e2 : ((StableHlo.launchContents m' c (Proc.devRef .tc Cert.ReferenceIdeal.main_arg2)) : Cert.ReferenceIdeal.S8192x8192.Idx → EReal) = (m ((c.tc : Thread Cert.KernelIdeal.nD Cert.KernelIdeal.τ).loc Cert.KernelIdeal.main_arg2)))
    (e3 : ((StableHlo.launchContents m' c (Proc.devRef .tc Cert.ReferenceIdeal.main_arg3)) : Cert.ReferenceIdeal.S198x128.Idx → EReal) = (m ((c.tc : Thread Cert.KernelIdeal.nD Cert.KernelIdeal.τ).loc Cert.KernelIdeal.main_arg3)))
    (e4 : ((StableHlo.launchContents m' c (Proc.devRef .tc Cert.ReferenceIdeal.main_arg4)) : Cert.ReferenceIdeal.S128.Idx → EReal) = (m ((c.tc : Thread Cert.KernelIdeal.nD Cert.KernelIdeal.τ).loc Cert.KernelIdeal.main_arg4)))
    (e5 : ((StableHlo.launchContents m' c (Proc.devRef .tc Cert.ReferenceIdeal.main_arg5)) : Cert.ReferenceIdeal.S198x64.Idx → EReal) = (m ((c.tc : Thread Cert.KernelIdeal.nD Cert.KernelIdeal.τ).loc Cert.KernelIdeal.main_arg5)))
    (e6 : ((StableHlo.launchContents m' c (Proc.devRef .tc Cert.ReferenceIdeal.main_arg6)) : Cert.ReferenceIdeal.S64.Idx → EReal) = (m ((c.tc : Thread Cert.KernelIdeal.nD Cert.KernelIdeal.τ).loc Cert.KernelIdeal.main_arg6))) :
    (Cert.ReferenceIdeal.Read.val_main_v74 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) : Cert.ReferenceIdeal.S1x524288.Idx → EReal)
      = (Cert.KernelIdeal.H.W11 m ρ c (Proc.devRef .tc Cert.KernelIdeal.main_v56) : Cert.ReferenceIdeal.S1x524288.Idx → EReal) := by
  obtain ⟨a, inp, hs, wru, bru, wc, bc, hA2, hA0, hA1, hA3, hA4, hA5, hA6, hrow⟩ :=
    Cert.PreDecode.reals (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (hpre c)
  have hnz : ∀ i, (∑ j, (a i j + if i = j then 1 else 0)) ≠ 0 := fun i => by
    rw [Cert.ReferenceIdeal.RefValue.sum_add_diag]; exact hrow i
  rw [e0, e1, e2, e3, e4, e5, e6]
  rw [Cert.ReferenceIdeal.RefValue.result_eq a inp hs wru bru wc bc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) hnz (fun n d => hA0 n d) (fun n q => hA1 n q)
      hA2 hA3 hA4 hA5 hA6]
  funext idx
  have h0 : (idx 0).val = 0 := by have h : (idx 0).val < 1 := (idx 0).isLt; omega
  have h1 : (idx 1).val < 524288 := (idx 1).isLt
  have hidx : ValueIdx.ix2 (0 : Fin 1) (⟨64 * ((idx 1).val / 64) + (idx 1).val % 64, by omega⟩ : Fin 524288) = idx := by
    funext t
    match t with
    | ⟨0, _⟩ => exact Fin.ext h0.symm
    | ⟨1, _⟩ => exact Fin.ext (Nat.div_add_mod (idx 1).val 64)
  exact (Cert.KernelIdeal.H.kernel_value m ρ c a inp hs wru bru wc bc hA2 hA0 hA1 hA3 hA4 hA5 hA6 hrow
      Cert.KernelIdeal.H.final1 Cert.KernelIdeal.H.final2 Cert.KernelIdeal.H.final3 Cert.KernelIdeal.H.final4
      ⟨(idx 1).val / 64, by omega⟩ ⟨(idx 1).val % 64, by omega⟩).symm.trans
    (congrArg (Cert.KernelIdeal.H.W11 m ρ c (Proc.devRef .tc Cert.KernelIdeal.main_v56) : Cert.ReferenceIdeal.S1x524288.Idx → EReal) hidx)

/-- On inputs that satisfy the precondition both programs end at the coercion of `Cert.Spec.result`: the kernel
    program's value at its return is the witness, and the reference's last stage equals it. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.H.W11 m ρ c (Proc.devRef .tc Cert.KernelIdeal.main_v56), Cert.KernelIdeal.H.run_value m ρ, ?_⟩
  refine (θ_run Cert.ReferenceIdeal.defs _ _).mono (fun r h c => ⟨?_,
     (h c Cert.ReferenceIdeal.main_arg0).trans (Cert.ReferenceIdeal.RunP.after_ops_arg0 _),
     (h c Cert.ReferenceIdeal.main_arg1).trans (Cert.ReferenceIdeal.RunP.after_ops_arg1 _),
     (h c Cert.ReferenceIdeal.main_arg2).trans (Cert.ReferenceIdeal.RunP.after_ops_arg2 _),
     (h c Cert.ReferenceIdeal.main_arg3).trans (Cert.ReferenceIdeal.RunP.after_ops_arg3 _),
     (h c Cert.ReferenceIdeal.main_arg4).trans (Cert.ReferenceIdeal.RunP.after_ops_arg4 _),
     (h c Cert.ReferenceIdeal.main_arg5).trans (Cert.ReferenceIdeal.RunP.after_ops_arg5 _),
     (h c Cert.ReferenceIdeal.main_arg6).trans (Cert.ReferenceIdeal.RunP.after_ops_arg6 _),
     (h c Cert.ReferenceIdeal.main_arg7).trans (Cert.ReferenceIdeal.RunP.after_ops_arg7 _)⟩)
    (Cert.ReferenceIdeal.RunP.run_after (F := Ideal) m' ρ')
  obtain ⟨e0, e1, e2, e3, e4, e5, e6, _⟩ := hagree c
  exact (h c Cert.ReferenceIdeal.main_v74).trans ((Cert.ReferenceIdeal.RunP.after_ops_result _).trans
    (value_eq m ρ m' c hpre e0 e1 e2 e3 e4 e5 e6))

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
